-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v125)) (v1 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_v126) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S200000 : Shape := ⟨1, ![200000]⟩
abbrev S200000x256 : Shape := ⟨2, ![200000, 256]⟩
abbrev S2x2000000 : Shape := ⟨2, ![2, 2000000]⟩
abbrev S500000x32 : Shape := ⟨2, ![500000, 32]⟩
abbrev S200000x32 : Shape := ⟨2, ![200000, 32]⟩
abbrev S32x256 : Shape := ⟨2, ![32, 256]⟩
abbrev S32 : Shape := ⟨1, ![32]⟩
abbrev S32x32 : Shape := ⟨2, ![32, 32]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S500000x32 : S_.BroadcastsInDim S500000x32 (![] : Fin 0 → Fin S500000x32.rank)
  reducesTo_S500000x32_S_d0_1 : S500000x32.ReducesTo [0, 1] S_
  bcast_S_S200000x32 : S_.BroadcastsInDim S200000x32 (![] : Fin 0 → Fin S200000x32.rank)
  reducesTo_S200000x32_S_d0_1 : S200000x32.ReducesTo [0, 1] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part4 {F : FTy → Type} [FloatOps F] (main_arg18 : FVec F S32x32 .f32) (main_arg19 : FVec F S32 .f32) (main_arg20 : FVec F S32x32 .f32) (main_v63 : IVec S_ 1) (main_v67 : IVec S_ 1) : IVec S_ 1 :=
  let main_v68 : IVec S_ 1 := andi main_v63 main_v67
  let main_v69 : FVec F S32x32 .f32 := Host.absf main_arg18
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg19
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x32 .f32 := Host.absf main_arg20
  let main_cst_30 : FVec F S_ .f32 := constant S_ .f32 0x7F800000#32
  let main_v80 : FVec F S32x32 .f32 := broadcastInDim S32x32 ![] bcast_S_S32x32 main_cst_30
  let main_v81 : IVec S32x32 1 := cmpf .olt main_v79 main_v80
  let main_c_31 : IVec S_ 1 := constantI S_ 1 1#1
  let main_v82 : IVec S_ 1 := (fun x v => Host.reduce IntOp.andi x v reducesTo_S32x32_S_d0_1 h_S_) main_v81 main_c_31
  let main_v83 : IVec S_ 1 := andi main_v78 main_v82
  main_v83

def fn_part3 {F : FTy → Type} [FloatOps F] (main_arg15 : FVec F S32x32 .f32) (main_arg16 : FVec F S32 .f32) (main_arg17 : FVec F S32x32 .f32) (main_arg18 : FVec F S32x32 .f32) (main_arg19 : FVec F S32 .f32) (main_arg20 : FVec F S32x32 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32x32 .f32 := Host.absf main_arg15
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg16
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg17
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg18 main_arg19 main_arg20 main_v63 main_v67

def fn_part2 {F : FTy → Type} [FloatOps F] (main_arg11 : FVec F S32x32 .f32) (main_arg12 : FVec F S32x32 .f32) (main_arg13 : FVec F S32 .f32) (main_arg14 : FVec F S32x32 .f32) (main_arg15 : FVec F S32x32 .f32) (main_arg16 : FVec F S32 .f32) (main_arg17 : FVec F S32x32 .f32) (main_arg18 : FVec F S32x32 .f32) (main_arg19 : FVec F S32 .f32) (main_arg20 : FVec F S32x32 .f32) (main_v33 : IVec S_ 1) : IVec S_ 1 :=
  let main_v34 : FVec F S32x32 .f32 := Host.absf main_arg11
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32x32 .f32 := Host.absf main_arg12
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg13
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg14
  let main_cst_18 : FVec F S_ .f32 := constant S_ .f32 0x7F800000#32
  let main_v50 : FVec F S32x32 .f32 := broadcastInDim S32x32 ![] bcast_S_S32x32 main_cst_18
  fn_part3 (F := F) main_arg15 main_arg16 main_arg17 main_arg18 main_arg19 main_arg20 main_v48 main_v49 main_v50

def fn_part1 {F : FTy → Type} [FloatOps F] (main_arg8 : FVec F S32 .f32) (main_arg9 : FVec F S32x32 .f32) (main_arg10 : FVec F S32 .f32) (main_arg11 : FVec F S32x32 .f32) (main_arg12 : FVec F S32x32 .f32) (main_arg13 : FVec F S32 .f32) (main_arg14 : FVec F S32x32 .f32) (main_arg15 : FVec F S32x32 .f32) (main_arg16 : FVec F S32 .f32) (main_arg17 : FVec F S32x32 .f32) (main_arg18 : FVec F S32x32 .f32) (main_arg19 : FVec F S32 .f32) (main_arg20 : FVec F S32x32 .f32) (main_v13 : IVec S_ 1) (main_v16 : IVec S32x256 1) : IVec S_ 1 :=
  let main_c_5 : IVec S_ 1 := constantI S_ 1 1#1
  let main_v17 : IVec S_ 1 := (fun x v => Host.reduce IntOp.andi x v reducesTo_S32x256_S_d0_1 h_S_) main_v16 main_c_5
  let main_v18 : IVec S_ 1 := andi main_v13 main_v17
  let main_v19 : FVec F S32 .f32 := Host.absf main_arg8
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg9
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg10
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_v33

def fn {F : FTy → Type} [FloatOps F] (main_arg0 : IVec S500000 32) (main_arg1 : IVec S200000 32) (main_arg2 : FVec F S200000x256 .f32) (main_arg3 : IVec S2x2000000 32) (main_arg4 : IVec S2x2000000 32) (main_arg5 : FVec F S500000x32 .f32) (main_arg6 : FVec F S200000x32 .f32) (main_arg7 : FVec F S32x256 .f32) (main_arg8 : FVec F S32 .f32) (main_arg9 : FVec F S32x32 .f32) (main_arg10 : FVec F S32 .f32) (main_arg11 : FVec F S32x32 .f32) (main_arg12 : FVec F S32x32 .f32) (main_arg13 : FVec F S32 .f32) (main_arg14 : FVec F S32x32 .f32) (main_arg15 : FVec F S32x32 .f32) (main_arg16 : FVec F S32 .f32) (main_arg17 : FVec F S32x32 .f32) (main_arg18 : FVec F S32x32 .f32) (main_arg19 : FVec F S32 .f32) (main_arg20 : FVec F S32x32 .f32) : IVec S_ 1 :=
  let main_v0 : FVec F S200000x256 .f32 := Host.absf main_arg2
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S500000x32 .f32 := Host.absf main_arg5
  let main_cst_0 : FVec F S_ .f32 := constant S_ .f32 0x7F800000#32
  let main_v5 : FVec F S500000x32 .f32 := broadcastInDim S500000x32 ![] bcast_S_S500000x32 main_cst_0
  let main_v6 : IVec S500000x32 1 := cmpf .olt main_v4 main_v5
  let main_c_1 : IVec S_ 1 := constantI S_ 1 1#1
  let main_v7 : IVec S_ 1 := (fun x v => Host.reduce IntOp.andi x v reducesTo_S500000x32_S_d0_1 h_S_) main_v6 main_c_1
  let main_v8 : IVec S_ 1 := andi main_v3 main_v7
  let main_v9 : FVec F S200000x32 .f32 := Host.absf main_arg6
  let main_cst_2 : FVec F S_ .f32 := constant S_ .f32 0x7F800000#32
  let main_v10 : FVec F S200000x32 .f32 := broadcastInDim S200000x32 ![] bcast_S_S200000x32 main_cst_2
  let main_v11 : IVec S200000x32 1 := cmpf .olt main_v9 main_v10
  let main_c_3 : IVec S_ 1 := constantI S_ 1 1#1
  let main_v12 : IVec S_ 1 := (fun x v => Host.reduce IntOp.andi x v reducesTo_S200000x32_S_d0_1 h_S_) main_v11 main_c_3
  let main_v13 : IVec S_ 1 := andi main_v8 main_v12
  let main_v14 : FVec F S32x256 .f32 := Host.absf main_arg7
  let main_cst_4 : FVec F S_ .f32 := constant S_ .f32 0x7F800000#32
  let main_v15 : FVec F S32x256 .f32 := broadcastInDim S32x256 ![] bcast_S_S32x256 main_cst_4
  let main_v16 : IVec S32x256 1 := cmpf .olt main_v14 main_v15
  fn_part1 (F := F) main_arg8 main_arg9 main_arg10 main_arg11 main_arg12 main_arg13 main_arg14 main_arg15 main_arg16 main_arg17 main_arg18 main_arg19 main_arg20 main_v13 main_v16
-- ==== Kernel.lean ====
abbrev S500000 : Shape := ⟨1, ![500000]⟩
abbrev S200000 : Shape := ⟨1, ![200000]⟩
abbrev S200000x256 : Shape := ⟨2, ![200000, 256]⟩
abbrev S2x2000000 : Shape := ⟨2, ![2, 2000000]⟩
abbrev S500000x32 : Shape := ⟨2, ![500000, 32]⟩
abbrev S200000x32 : Shape := ⟨2, ![200000, 32]⟩
abbrev S32x256 : Shape := ⟨2, ![32, 256]⟩
abbrev S32 : Shape := ⟨1, ![32]⟩
abbrev S32x32 : Shape := ⟨2, ![32, 32]⟩
abbrev S_ : Shape := ⟨0, ![]⟩
abbrev S500000x1 : Shape := ⟨2, ![500000, 1]⟩
abbrev S200000x1 : Shape := ⟨2, ![200000, 1]⟩
abbrev S256x32 : Shape := ⟨2, ![256, 32]⟩
abbrev S1x32 : Shape := ⟨2, ![1, 32]⟩
abbrev S4000x256 : Shape := ⟨2, ![4000, 256]⟩
abbrev S4000x32 : Shape := ⟨2, ![4000, 32]⟩
abbrev S1x2000000 : Shape := ⟨2, ![1, 2000000]⟩
abbrev S2000000 : Shape := ⟨1, ![2000000]⟩
abbrev S2000000x1 : Shape := ⟨2, ![2000000, 1]⟩
abbrev S2000000x32 : Shape := ⟨2, ![2000000, 32]⟩
abbrev S10000x32 : Shape := ⟨2, ![10000, 32]⟩
abbrev S500000x96 : Shape := ⟨2, ![500000, 96]⟩
abbrev S200000x96 : Shape := ⟨2, ![200000, 96]⟩

abbrev nBuf : Space → Nat
  | .hbm => 176
  | .vmem => 44
  | .smem => 0
  | _ => 0

abbrev hbmTy0_0 (i : Nat) : BufTy := match i % 128 with
  | 0 => ⟨S500000, .i32⟩
  | 1 => ⟨S200000, .i32⟩
  | 2 => ⟨S200000x256, .f32⟩
  | 3 => ⟨S2x2000000, .i32⟩
  | 4 => ⟨S2x2000000, .i32⟩
  | 5 => ⟨S500000x32, .f32⟩
  | 6 => ⟨S200000x32, .f32⟩
  | 7 => ⟨S32x256, .f32⟩
  | 8 => ⟨S32, .f32⟩
  | 9 => ⟨S32x32, .f32⟩
  | 10 => ⟨S32, .f32⟩
  | 11 => ⟨S32x32, .f32⟩
  | 12 => ⟨S32x32, .f32⟩
  | 13 => ⟨S32, .f32⟩
  | 14 => ⟨S32x32, .f32⟩
  | 15 => ⟨S32x32, .f32⟩
  | 16 => ⟨S32, .f32⟩
  | 17 => ⟨S32x32, .f32⟩
  | 18 => ⟨S32x32, .f32⟩
  | 19 => ⟨S32, .f32⟩
  | 20 => ⟨S32x32, .f32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x32, .f32⟩
  | 30 => ⟨S_, .i32⟩
  | 31 => ⟨S200000, .i32⟩
  | 32 => ⟨S200000, .i1⟩
  | 33 => ⟨S_, .i32⟩
  | 34 => ⟨S200000, .i32⟩
  | 35 => ⟨S200000, .i32⟩
  | 36 => ⟨S200000, .i32⟩
  | 37 => ⟨S200000x1, .i32⟩
  | 38 => ⟨S200000x32, .f32⟩
  | 39 => ⟨S256x32, .f32⟩
  | 40 => ⟨S1x32, .f32⟩
  | 41 => ⟨S200000x32, .f32⟩
  | 42 => ⟨S1x2000000, .i32⟩
  | 43 => ⟨S2000000, .i32⟩
  | 44 => ⟨S1x2000000, .i32⟩
  | 45 => ⟨S2000000, .i32⟩
  | 46 => ⟨S_, .i32⟩
  | 47 => ⟨S2000000, .i32⟩
  | 48 => ⟨S2000000, .i1⟩
  | 49 => ⟨S_, .i32⟩
  | 50 => ⟨S2000000, .i32⟩
  | 51 => ⟨S2000000, .i32⟩
  | 52 => ⟨S2000000, .i32⟩
  | 53 => ⟨S2000000x1, .i32⟩
  | 54 => ⟨S2000000x32, .f32⟩
  | 55 => ⟨S_, .f32⟩
  | 56 => ⟨S200000x32, .f32⟩
  | 57 => ⟨S2000000x1, .i32⟩
  | 58 => ⟨S200000x32, .f32⟩
  | 59 => ⟨S_, .f32⟩
  | 60 => ⟨S2000000, .f32⟩
  | 61 => ⟨S_, .f32⟩
  | 62 => ⟨S200000, .f32⟩
  | 63 => ⟨S2000000x1, .i32⟩
  | 64 => ⟨S200000, .f32⟩
  | 65 => ⟨S_, .f32⟩
  | 66 => ⟨S200000, .f32⟩
  | 67 => ⟨S200000, .f32⟩
  | 68 => ⟨S200000x1, .f32⟩
  | 69 => ⟨S200000x32, .f32⟩
  | 70 => ⟨S200000x32, .f32⟩
  | 71 => ⟨S32x32, .f32⟩
  | 72 => ⟨S32x32, .f32⟩
  | 73 => ⟨S1x32, .f32⟩
  | 74 => ⟨S200000x32, .f32⟩
  | 75 => ⟨S1x2000000, .i32⟩
  | 76 => ⟨S2000000, .i32⟩
  | 77 => ⟨S1x2000000, .i32⟩
  | 78 => ⟨S2000000, .i32⟩
  | 79 => ⟨S_, .i32⟩
  | 80 => ⟨S2000000, .i32⟩
  | 81 => ⟨S2000000, .i1⟩
  | 82 => ⟨S_, .i32⟩
  | 83 => ⟨S2000000, .i32⟩
  | 84 => ⟨S2000000, .i32⟩
  | 85 => ⟨S2000000, .i32⟩
  | 86 => ⟨S2000000x1, .i32⟩
  | 87 => ⟨S2000000x32, .f32⟩
  | 88 => ⟨S_, .f32⟩
  | 89 => ⟨S500000x32, .f32⟩
  | 90 => ⟨S2000000x1, .i32⟩
  | 91 => ⟨S500000x32, .f32⟩
  | 92 => ⟨S_, .f32⟩
  | 93 => ⟨S2000000, .f32⟩
  | 94 => ⟨S_, .f32⟩
  | 95 => ⟨S500000, .f32⟩
  | 96 => ⟨S2000000x1, .i32⟩
  | 97 => ⟨S500000, .f32⟩
  | 98 => ⟨S_, .f32⟩
  | 99 => ⟨S500000, .f32⟩
  | 100 => ⟨S500000, .f32⟩
  | 101 => ⟨S500000x1, .f32⟩
  | 102 => ⟨S500000x32, .f32⟩
  | 103 => ⟨S500000x32, .f32⟩
  | 104 => ⟨S32x32, .f32⟩
  | 105 => ⟨S32x32, .f32⟩
  | 106 => ⟨S1x32, .f32⟩
  | 107 => ⟨S500000x32, .f32⟩
  | 108 => ⟨S1x2000000, .i32⟩
  | 109 => ⟨S2000000, .i32⟩
  | 110 => ⟨S1x2000000, .i32⟩
  | 111 => ⟨S2000000, .i32⟩
  | 112 => ⟨S_, .i32⟩
  | 113 => ⟨S2000000, .i32⟩
  | 114 => ⟨S2000000, .i1⟩
  | 115 => ⟨S_, .i32⟩
  | 116 => ⟨S2000000, .i32⟩
  | 117 => ⟨S2000000, .i32⟩
  | 118 => ⟨S2000000, .i32⟩
  | 119 => ⟨S2000000x1, .i32⟩
  | 120 => ⟨S2000000x32, .f32⟩
  | 121 => ⟨S_, .f32⟩
  | 122 => ⟨S200000x32, .f32⟩
  | 123 => ⟨S2000000x1, .i32⟩
  | 124 => ⟨S200000x32, .f32⟩
  | 125 => ⟨S_, .f32⟩
  | 126 => ⟨S2000000, .f32⟩
  | 127 => ⟨S_, .f32⟩
  | _ => ⟨S500000, .i32⟩

abbrev hbmTy0_1 (i : Nat) : BufTy := match i % 128 with
  | 0 => ⟨S200000, .f32⟩
  | 1 => ⟨S2000000x1, .i32⟩
  | 2 => ⟨S200000, .f32⟩
  | 3 => ⟨S_, .f32⟩
  | 4 => ⟨S200000, .f32⟩
  | 5 => ⟨S200000, .f32⟩
  | 6 => ⟨S200000x1, .f32⟩
  | 7 => ⟨S200000x32, .f32⟩
  | 8 => ⟨S200000x32, .f32⟩
  | 9 => ⟨S32x32, .f32⟩
  | 10 => ⟨S32x32, .f32⟩
  | 11 => ⟨S1x32, .f32⟩
  | 12 => ⟨S200000x32, .f32⟩
  | 13 => ⟨S1x2000000, .i32⟩
  | 14 => ⟨S2000000, .i32⟩
  | 15 => ⟨S1x2000000, .i32⟩
  | 16 => ⟨S2000000, .i32⟩
  | 17 => ⟨S_, .i32⟩
  | 18 => ⟨S2000000, .i32⟩
  | 19 => ⟨S2000000, .i1⟩
  | 20 => ⟨S_, .i32⟩
  | 21 => ⟨S2000000, .i32⟩
  | 22 => ⟨S2000000, .i32⟩
  | 23 => ⟨S2000000, .i32⟩
  | 24 => ⟨S2000000x1, .i32⟩
  | 25 => ⟨S2000000x32, .f32⟩
  | 26 => ⟨S_, .f32⟩
  | 27 => ⟨S500000x32, .f32⟩
  | 28 => ⟨S2000000x1, .i32⟩
  | 29 => ⟨S500000x32, .f32⟩
  | 30 => ⟨S_, .f32⟩
  | 31 => ⟨S2000000, .f32⟩
  | 32 => ⟨S_, .f32⟩
  | 33 => ⟨S500000, .f32⟩
  | 34 => ⟨S2000000x1, .i32⟩
  | 35 => ⟨S500000, .f32⟩
  | 36 => ⟨S_, .f32⟩
  | 37 => ⟨S500000, .f32⟩
  | 38 => ⟨S500000, .f32⟩
  | 39 => ⟨S500000x1, .f32⟩
  | 40 => ⟨S500000x32, .f32⟩
  | 41 => ⟨S500000x32, .f32⟩
  | 42 => ⟨S32x32, .f32⟩
  | 43 => ⟨S32x32, .f32⟩
  | 44 => ⟨S1x32, .f32⟩
  | 45 => ⟨S500000x32, .f32⟩
  | 46 => ⟨S500000x96, .f32⟩
  | 47 => ⟨S200000x96, .f32⟩
  | _ => ⟨S500000, .i32⟩

abbrev hbmTy (i : Nat) : BufTy := match i / 128 with
  | 0 => hbmTy0_0 i
  | 1 => hbmTy0_1 i
  | _ => ⟨S500000, .i32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S4000x32, .f32⟩
  | .local _ .vmem, ⟨3, _⟩ => ⟨S4000x32, .f32⟩
  | .local _ .vmem, ⟨4, _⟩ => ⟨S256x32, .f32⟩
  | .local _ .vmem, ⟨5, _⟩ => ⟨S1x32, .f32⟩
  | .local _ .vmem, ⟨6, _⟩ => ⟨S4000x32, .f32⟩
  | .local _ .vmem, ⟨7, _⟩ => ⟨S4000x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x32, .f32⟩
  | .local _ .vmem, ⟨13, _⟩ => ⟨S1x32, .f32⟩
  | .local _ .vmem, ⟨14, _⟩ => ⟨S32x32, .f32⟩
  | .local _ .vmem, ⟨15, _⟩ => ⟨S10000x32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S32x32, .f32⟩
  | .local _ .vmem, ⟨22, _⟩ => ⟨S1x32, .f32⟩
  | .local _ .vmem, ⟨23, _⟩ => ⟨S32x32, .f32⟩
  | .local _ .vmem, ⟨24, _⟩ => ⟨S10000x32, .f32⟩
  | .local _ .vmem, ⟨25, _⟩ => ⟨S10000x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S10000x32, .f32⟩
  | .local _ .vmem, ⟨30, _⟩ => ⟨S32x32, .f32⟩
  | .local _ .vmem, ⟨31, _⟩ => ⟨S1x32, .f32⟩
  | .local _ .vmem, ⟨32, _⟩ => ⟨S32x32, .f32⟩
  | .local _ .vmem, ⟨33, _⟩ => ⟨S10000x32, .f32⟩
  | .local _ .vmem, ⟨34, _⟩ => ⟨S10000x32, .f32⟩
  | .local _ .vmem, ⟨35, _⟩ => ⟨S10000x32, .f32⟩
  | .local _ .vmem, ⟨36, _⟩ => ⟨S10000x32, .f32⟩
  | .local _ .vmem, ⟨37, _⟩ => ⟨S10000x32, .f32⟩
  | .local _ .vmem, ⟨38, _⟩ => ⟨S10000x32, .f32⟩
  | .local _ .vmem, ⟨39, _⟩ => ⟨S32x32, .f32⟩
  | .local _ .vmem, ⟨40, _⟩ => ⟨S1x32, .f32⟩
  | .local _ .vmem, ⟨41, _⟩ => ⟨S32x32, .f32⟩
  | .local _ .vmem, ⟨42, _⟩ => ⟨S10000x32, .f32⟩
  | .local _ .vmem, ⟨43, _⟩ => ⟨S10000x32, .f32⟩
  | _, _ => ⟨S500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_3 : Ref sig .tc := ⟨.hbm, 46, rfl⟩
abbrev main_v21 : Ref sig .tc := ⟨.hbm, 47, rfl⟩
abbrev main_v22 : Ref sig .tc := ⟨.hbm, 48, rfl⟩
abbrev main_c_4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_5 : Ref sig .tc := ⟨.hbm, 59, rfl⟩
abbrev main_v31 : Ref sig .tc := ⟨.hbm, 60, rfl⟩
abbrev main_cst_6 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_7 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_8 : Ref sig .tc := ⟨.hbm, 79, rfl⟩
abbrev main_v48 : Ref sig .tc := ⟨.hbm, 80, rfl⟩
abbrev main_v49 : Ref sig .tc := ⟨.hbm, 81, rfl⟩
abbrev main_c_9 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_10 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_11 : Ref sig .tc := ⟨.hbm, 92, rfl⟩
abbrev main_v58 : Ref sig .tc := ⟨.hbm, 93, rfl⟩
abbrev main_cst_12 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_13 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_14 : Ref sig .tc := ⟨.hbm, 112, rfl⟩
abbrev main_v75 : Ref sig .tc := ⟨.hbm, 113, rfl⟩
abbrev main_v76 : Ref sig .tc := ⟨.hbm, 114, rfl⟩
abbrev main_c_15 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_16 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_17 : Ref sig .tc := ⟨.hbm, 125, rfl⟩
abbrev main_v85 : Ref sig .tc := ⟨.hbm, 126, rfl⟩
abbrev main_cst_18 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_19 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_c_20 : Ref sig .tc := ⟨.hbm, 145, rfl⟩
abbrev main_v102 : Ref sig .tc := ⟨.hbm, 146, rfl⟩
abbrev main_v103 : Ref sig .tc := ⟨.hbm, 147, rfl⟩
abbrev main_c_21 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_22 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_23 : Ref sig .tc := ⟨.hbm, 158, rfl⟩
abbrev main_v112 : Ref sig .tc := ⟨.hbm, 159, rfl⟩
abbrev main_cst_24 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_25 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S200000 : S_.BroadcastsInDim S200000 (![] : Fin 0 → Fin S200000.rank)
  bcast_S200000_S200000x1_0 : S200000.BroadcastsInDim S200000x1 (![0] : Fin 1 → Fin S200000x1.rank)
  transposes_S32x256_S256x32_1_0 : S32x256.Transposes [1, 0] S256x32
  shapeCasts_S32_S1x32 : S32.ShapeCasts S1x32
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x32 : S_.BroadcastsInDim S200000x32 (![] : Fin 0 → Fin S200000x32.rank)
  bcast_S200000x1_S200000x32_0_1 : S200000x1.BroadcastsInDim S200000x32 (![0, 1] : Fin 2 → Fin S200000x32.rank)
  transposes_S32x32_S32x32_1_0 : S32x32.Transposes [1, 0] S32x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  broadcasts_S1x32_S10000x32 : S1x32.Broadcasts S10000x32
  bcast_S_S500000x32 : S_.BroadcastsInDim S500000x32 (![] : Fin 0 → Fin S500000x32.rank)
  bcast_S500000x1_S500000x32_0_1 : S500000x1.BroadcastsInDim S500000x32 (![0, 1] : Fin 2 → Fin S500000x32.rank)
  concatenates_S500000x32_S500000x32_S500000x32_S500000x96_d1 : Shape.Concatenates [S500000x32, S500000x32, S500000x32] S500000x96 1
  concatenates_S200000x32_S200000x32_S200000x32_S200000x96_d1 : Shape.Concatenates [S200000x32, S200000x32, S200000x32] S200000x96 1
  gather_S500000x32_S500000x1_S500000x32_1_0_n_n_0_1_132_wf : GatherDims.WF S500000x32 S500000x1 S500000x32 [1] [0] [] [0] [] 1 ![1, 32]
  gather_S200000x32_S200000x1_S200000x32_1_0_n_n_0_1_132_wf : GatherDims.WF S200000x32 S200000x1 S200000x32 [1] [0] [] [0] [] 1 ![1, 32]
  dot_S4000x256_S256x32_S4000x32_1_0_0_1_n_n_wf : DotDims.WF S4000x256 S256x32 S4000x32 [1] [0] [0] [1] [] []
  gather_S500000x32_S2000000x1_S2000000x32_1_0_n_n_0_1_132_wf : GatherDims.WF S500000x32 S2000000x1 S2000000x32 [1] [0] [] [0] [] 1 ![1, 32]
  scatter_S200000x32_S2000000x1_S2000000x32_1_0_0_1_wf : ScatterDims.WF S200000x32 S2000000x1 S2000000x32 [1] [0] [0] 1
  scatter_S200000_S2000000x1_S2000000_n_0_0_1_wf : ScatterDims.WF S200000 S2000000x1 S2000000 [] [0] [0] 1
  dot_S10000x32_S32x32_S10000x32_1_0_0_1_n_n_wf : DotDims.WF S10000x32 S32x32 S10000x32 [1] [0] [0] [1] [] []
  gather_S200000x32_S2000000x1_S2000000x32_1_0_n_n_0_1_132_wf : GatherDims.WF S200000x32 S2000000x1 S2000000x32 [1] [0] [] [0] [] 1 ![1, 32]
  scatter_S500000x32_S2000000x1_S2000000x32_1_0_0_1_wf : ScatterDims.WF S500000x32 S2000000x1 S2000000x32 [1] [0] [0] 1
  scatter_S500000_S2000000x1_S2000000_n_0_0_1_wf : ScatterDims.WF S500000 S2000000x1 S2000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S200000x256.size a
  hwx0_0 : ∀ i : grid0.Coords, EltTy.bits .f32 = 32 ∨ (Rect.block (s := S200000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S200000x32.size a
  hwx0_1 : ∀ i : grid0.Coords, EltTy.bits .f32 = 32 ∨ (Rect.block (s := S200000x32) S4000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x32.size a ≤ S200000x32.size a
  hwx0_4 : ∀ i : grid0.Coords, EltTy.bits .f32 = 32 ∨ (Rect.block (s := S200000x32) S4000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S200000x32.size a
  hwx1_0 : ∀ i : grid1.Coords, EltTy.bits .f32 = 32 ∨ (Rect.block (s := S200000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S200000x32.size a
  hwx1_1 : ∀ i : grid1.Coords, EltTy.bits .f32 = 32 ∨ (Rect.block (s := S200000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S200000x32.size a
  hwx1_5 : ∀ i : grid1.Coords, EltTy.bits .f32 = 32 ∨ (Rect.block (s := S200000x32) S10000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S500000x32.size a
  hwx2_0 : ∀ i : grid2.Coords, EltTy.bits .f32 = 32 ∨ (Rect.block (s := S500000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S500000x32.size a
  hwx2_1 : ∀ i : grid2.Coords, EltTy.bits .f32 = 32 ∨ (Rect.block (s := S500000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x32.size a ≤ S500000x32.size a
  hwx2_5 : ∀ i : grid2.Coords, EltTy.bits .f32 = 32 ∨ (Rect.block (s := S500000x32) S10000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S200000x32.size a
  hwx3_0 : ∀ i : grid3.Coords, EltTy.bits .f32 = 32 ∨ (Rect.block (s := S200000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S200000x32.size a
  hwx3_1 : ∀ i : grid3.Coords, EltTy.bits .f32 = 32 ∨ (Rect.block (s := S200000x32) S10000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x32.size a ≤ S32x32.size a
  hwx3_2 : ∀ i : grid3.Coords, EltTy.bits .f32 = 32 ∨ (Rect.block (s := S32x32) S32x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x32.size a ≤ S32x32.size a
  hwx3_4 : ∀ i : grid3.Coords, EltTy.bits .f32 = 32 ∨ (Rect.block (s := S32x32) S32x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x32.size a ≤ S200000x32.size a
  hwx3_5 : ∀ i : grid3.Coords, EltTy.bits .f32 = 32 ∨ (Rect.block (s := S200000x32) S10000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S500000x32.size a
  hwx4_0 : ∀ i : grid4.Coords, EltTy.bits .f32 = 32 ∨ (Rect.block (s := S500000x32) S10000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x32.size a ≤ S500000x32.size a
  hwx4_1 : ∀ i : grid4.Coords, EltTy.bits .f32 = 32 ∨ (Rect.block (s := S500000x32) S10000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x32.size a ≤ S32x32.size a
  hwx4_2 : ∀ i : grid4.Coords, EltTy.bits .f32 = 32 ∨ (Rect.block (s := S32x32) S32x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x32.size a ≤ S32x32.size a
  hwx4_4 : ∀ i : grid4.Coords, EltTy.bits .f32 = 32 ∨ (Rect.block (s := S32x32) S32x32.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x32.size a ≤ S500000x32.size a
  hwx4_5 : ∀ i : grid4.Coords, EltTy.bits .f32 = 32 ∨ (Rect.block (s := S500000x32) S10000x32.size (cc4_transform_5 i) (hinb4_5 i)).WholeWords (EltTy.packing .f32)

variable [Facts₀]

def gather_S500000x32_S500000x1_S500000x32_1_0_n_n_0_1_132 : GatherDims S500000x32 S500000x1 S500000x32 where
  offsetDims := [1]
  collapsedSliceDims := [0]
  operandBatchingDims := []
  startIndicesBatchingDims := []
  startIndexMap := [0]
  indexVectorDim := 1
  sliceSizes := ![1, 32]
  wf := gather_S500000x32_S500000x1_S500000x32_1_0_n_n_0_1_132_wf
def gather_S200000x32_S200000x1_S200000x32_1_0_n_n_0_1_132 : GatherDims S200000x32 S200000x1 S200000x32 where
  offsetDims := [1]
  collapsedSliceDims := [0]
  operandBatchingDims := []
  startIndicesBatchingDims := []
  startIndexMap := [0]
  indexVectorDim := 1
  sliceSizes := ![1, 32]
  wf := gather_S200000x32_S200000x1_S200000x32_1_0_n_n_0_1_132_wf
def dot_S4000x256_S256x32_S4000x32_1_0_0_1_n_n : DotDims S4000x256 S256x32 S4000x32 where
  lhsContracting := [1]
  rhsContracting := [0]
  lhsNonContracting := [0]
  rhsNonContracting := [1]
  lhsBatch := []
  rhsBatch := []
  wf := dot_S4000x256_S256x32_S4000x32_1_0_0_1_n_n_wf
def gather_S500000x32_S2000000x1_S2000000x32_1_0_n_n_0_1_132 : GatherDims S500000x32 S2000000x1 S2000000x32 where
  offsetDims := [1]
  collapsedSliceDims := [0]
  operandBatchingDims := []
  startIndicesBatchingDims := []
  startIndexMap := [0]
  indexVectorDim := 1
  sliceSizes := ![1, 32]
  wf := gather_S500000x32_S2000000x1_S2000000x32_1_0_n_n_0_1_132_wf
def scatter_S200000x32_S2000000x1_S2000000x32_1_0_0_1 : ScatterDims S200000x32 S2000000x1 S2000000x32 where
  updateWindowDims := [1]
  insertedWindowDims := [0]
  scatterDimsToOperandDims := [0]
  indexVectorDim := 1
  wf := scatter_S200000x32_S2000000x1_S2000000x32_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S200000x32_S2000000x1_S2000000x32_1_0_n_n_0_1_132 : GatherDims S200000x32 S2000000x1 S2000000x32 where
  offsetDims := [1]
  collapsedSliceDims := [0]
  operandBatchingDims := []
  startIndicesBatchingDims := []
  startIndexMap := [0]
  indexVectorDim := 1
  sliceSizes := ![1, 32]
  wf := gather_S200000x32_S2000000x1_S2000000x32_1_0_n_n_0_1_132_wf
def scatter_S500000x32_S2000000x1_S2000000x32_1_0_0_1 : ScatterDims S500000x32 S2000000x1 S2000000x32 where
  updateWindowDims := [1]
  insertedWindowDims := [0]
  scatterDimsToOperandDims := [0]
  indexVectorDim := 1
  wf := scatter_S500000x32_S2000000x1_S2000000x32_1_0_0_1_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf

abbrev win0_0 : Pipeline.Window sig grid0 :=
  Pipeline.Window.ofSpec (Memref.whole main_arg2) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S4000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v39) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v66) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S10000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v93) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v94) S32x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v96) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v95) S32x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v97) S10000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v120) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S10000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v121) S32x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v123) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v122) S32x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v124) S10000x32.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S500000 : Shape := ⟨1, ![500000]⟩
abbrev S200000 : Shape := ⟨1, ![200000]⟩
abbrev S200000x256 : Shape := ⟨2, ![200000, 256]⟩
abbrev S2x2000000 : Shape := ⟨2, ![2, 2000000]⟩
abbrev S500000x32 : Shape := ⟨2, ![500000, 32]⟩
abbrev S200000x32 : Shape := ⟨2, ![200000, 32]⟩
abbrev S32x256 : Shape := ⟨2, ![32, 256]⟩
abbrev S32 : Shape := ⟨1, ![32]⟩
abbrev S32x32 : Shape := ⟨2, ![32, 32]⟩
abbrev S_ : Shape := ⟨0, ![]⟩
abbrev S500000x1 : Shape := ⟨2, ![500000, 1]⟩
abbrev S200000x1 : Shape := ⟨2, ![200000, 1]⟩
abbrev S256x32 : Shape := ⟨2, ![256, 32]⟩
abbrev S1x32 : Shape := ⟨2, ![1, 32]⟩
abbrev S1x2000000 : Shape := ⟨2, ![1, 2000000]⟩
abbrev S2000000 : Shape := ⟨1, ![2000000]⟩
abbrev S2000000x1 : Shape := ⟨2, ![2000000, 1]⟩
abbrev S2000000x32 : Shape := ⟨2, ![2000000, 32]⟩
abbrev S500000x96 : Shape := ⟨2, ![500000, 96]⟩
abbrev S200000x96 : Shape := ⟨2, ![200000, 96]⟩

abbrev nBuf : Space → Nat
  | .hbm => 227
  | .vmem => 0
  | .smem => 0
  | _ => 0

abbrev hbmTy0_0 (i : Nat) : BufTy := match i % 128 with
  | 0 => ⟨S500000, .i32⟩
  | 1 => ⟨S200000, .i32⟩
  | 2 => ⟨S200000x256, .f32⟩
  | 3 => ⟨S2x2000000, .i32⟩
  | 4 => ⟨S2x2000000, .i32⟩
  | 5 => ⟨S500000x32, .f32⟩
  | 6 => ⟨S200000x32, .f32⟩
  | 7 => ⟨S32x256, .f32⟩
  | 8 => ⟨S32, .f32⟩
  | 9 => ⟨S32x32, .f32⟩
  | 10 => ⟨S32, .f32⟩
  | 11 => ⟨S32x32, .f32⟩
  | 12 => ⟨S32x32, .f32⟩
  | 13 => ⟨S32, .f32⟩
  | 14 => ⟨S32x32, .f32⟩
  | 15 => ⟨S32x32, .f32⟩
  | 16 => ⟨S32, .f32⟩
  | 17 => ⟨S32x32, .f32⟩
  | 18 => ⟨S32x32, .f32⟩
  | 19 => ⟨S32, .f32⟩
  | 20 => ⟨S32x32, .f32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x32, .f32⟩
  | 30 => ⟨S_, .i32⟩
  | 31 => ⟨S200000, .i32⟩
  | 32 => ⟨S200000, .i1⟩
  | 33 => ⟨S_, .i32⟩
  | 34 => ⟨S200000, .i32⟩
  | 35 => ⟨S200000, .i32⟩
  | 36 => ⟨S200000, .i32⟩
  | 37 => ⟨S200000x1, .i32⟩
  | 38 => ⟨S200000x32, .f32⟩
  | 39 => ⟨S256x32, .f32⟩
  | 40 => ⟨S200000x32, .f32⟩
  | 41 => ⟨S200000x32, .f32⟩
  | 42 => ⟨S1x32, .f32⟩
  | 43 => ⟨S200000x32, .f32⟩
  | 44 => ⟨S200000x32, .f32⟩
  | 45 => ⟨S1x2000000, .i32⟩
  | 46 => ⟨S2000000, .i32⟩
  | 47 => ⟨S1x2000000, .i32⟩
  | 48 => ⟨S2000000, .i32⟩
  | 49 => ⟨S_, .i32⟩
  | 50 => ⟨S2000000, .i32⟩
  | 51 => ⟨S2000000, .i1⟩
  | 52 => ⟨S_, .i32⟩
  | 53 => ⟨S2000000, .i32⟩
  | 54 => ⟨S2000000, .i32⟩
  | 55 => ⟨S2000000, .i32⟩
  | 56 => ⟨S2000000x1, .i32⟩
  | 57 => ⟨S2000000x32, .f32⟩
  | 58 => ⟨S_, .f32⟩
  | 59 => ⟨S200000x32, .f32⟩
  | 60 => ⟨S2000000x1, .i32⟩
  | 61 => ⟨S200000x32, .f32⟩
  | 62 => ⟨S_, .f32⟩
  | 63 => ⟨S2000000, .f32⟩
  | 64 => ⟨S_, .f32⟩
  | 65 => ⟨S200000, .f32⟩
  | 66 => ⟨S2000000x1, .i32⟩
  | 67 => ⟨S200000, .f32⟩
  | 68 => ⟨S_, .f32⟩
  | 69 => ⟨S200000, .f32⟩
  | 70 => ⟨S200000, .f32⟩
  | 71 => ⟨S200000x1, .f32⟩
  | 72 => ⟨S200000x32, .f32⟩
  | 73 => ⟨S200000x32, .f32⟩
  | 74 => ⟨S32x32, .f32⟩
  | 75 => ⟨S200000x32, .f32⟩
  | 76 => ⟨S1x32, .f32⟩
  | 77 => ⟨S200000x32, .f32⟩
  | 78 => ⟨S200000x32, .f32⟩
  | 79 => ⟨S32x32, .f32⟩
  | 80 => ⟨S200000x32, .f32⟩
  | 81 => ⟨S200000x32, .f32⟩
  | 82 => ⟨S_, .f32⟩
  | 83 => ⟨S_, .f32⟩
  | 84 => ⟨S200000x32, .f32⟩
  | 85 => ⟨S200000x32, .i1⟩
  | 86 => ⟨S_, .f32⟩
  | 87 => ⟨S200000x32, .f32⟩
  | 88 => ⟨S200000x32, .f32⟩
  | 89 => ⟨S200000x32, .f32⟩
  | 90 => ⟨S1x2000000, .i32⟩
  | 91 => ⟨S2000000, .i32⟩
  | 92 => ⟨S1x2000000, .i32⟩
  | 93 => ⟨S2000000, .i32⟩
  | 94 => ⟨S_, .i32⟩
  | 95 => ⟨S2000000, .i32⟩
  | 96 => ⟨S2000000, .i1⟩
  | 97 => ⟨S_, .i32⟩
  | 98 => ⟨S2000000, .i32⟩
  | 99 => ⟨S2000000, .i32⟩
  | 100 => ⟨S2000000, .i32⟩
  | 101 => ⟨S2000000x1, .i32⟩
  | 102 => ⟨S2000000x32, .f32⟩
  | 103 => ⟨S_, .f32⟩
  | 104 => ⟨S500000x32, .f32⟩
  | 105 => ⟨S2000000x1, .i32⟩
  | 106 => ⟨S500000x32, .f32⟩
  | 107 => ⟨S_, .f32⟩
  | 108 => ⟨S2000000, .f32⟩
  | 109 => ⟨S_, .f32⟩
  | 110 => ⟨S500000, .f32⟩
  | 111 => ⟨S2000000x1, .i32⟩
  | 112 => ⟨S500000, .f32⟩
  | 113 => ⟨S_, .f32⟩
  | 114 => ⟨S500000, .f32⟩
  | 115 => ⟨S500000, .f32⟩
  | 116 => ⟨S500000x1, .f32⟩
  | 117 => ⟨S500000x32, .f32⟩
  | 118 => ⟨S500000x32, .f32⟩
  | 119 => ⟨S32x32, .f32⟩
  | 120 => ⟨S500000x32, .f32⟩
  | 121 => ⟨S1x32, .f32⟩
  | 122 => ⟨S500000x32, .f32⟩
  | 123 => ⟨S500000x32, .f32⟩
  | 124 => ⟨S32x32, .f32⟩
  | 125 => ⟨S500000x32, .f32⟩
  | 126 => ⟨S500000x32, .f32⟩
  | 127 => ⟨S_, .f32⟩
  | _ => ⟨S500000, .i32⟩

abbrev hbmTy0_1 (i : Nat) : BufTy := match i % 128 with
  | 0 => ⟨S_, .f32⟩
  | 1 => ⟨S500000x32, .f32⟩
  | 2 => ⟨S500000x32, .i1⟩
  | 3 => ⟨S_, .f32⟩
  | 4 => ⟨S500000x32, .f32⟩
  | 5 => ⟨S500000x32, .f32⟩
  | 6 => ⟨S500000x32, .f32⟩
  | 7 => ⟨S1x2000000, .i32⟩
  | 8 => ⟨S2000000, .i32⟩
  | 9 => ⟨S1x2000000, .i32⟩
  | 10 => ⟨S2000000, .i32⟩
  | 11 => ⟨S_, .i32⟩
  | 12 => ⟨S2000000, .i32⟩
  | 13 => ⟨S2000000, .i1⟩
  | 14 => ⟨S_, .i32⟩
  | 15 => ⟨S2000000, .i32⟩
  | 16 => ⟨S2000000, .i32⟩
  | 17 => ⟨S2000000, .i32⟩
  | 18 => ⟨S2000000x1, .i32⟩
  | 19 => ⟨S2000000x32, .f32⟩
  | 20 => ⟨S_, .f32⟩
  | 21 => ⟨S200000x32, .f32⟩
  | 22 => ⟨S2000000x1, .i32⟩
  | 23 => ⟨S200000x32, .f32⟩
  | 24 => ⟨S_, .f32⟩
  | 25 => ⟨S2000000, .f32⟩
  | 26 => ⟨S_, .f32⟩
  | 27 => ⟨S200000, .f32⟩
  | 28 => ⟨S2000000x1, .i32⟩
  | 29 => ⟨S200000, .f32⟩
  | 30 => ⟨S_, .f32⟩
  | 31 => ⟨S200000, .f32⟩
  | 32 => ⟨S200000, .f32⟩
  | 33 => ⟨S200000x1, .f32⟩
  | 34 => ⟨S200000x32, .f32⟩
  | 35 => ⟨S200000x32, .f32⟩
  | 36 => ⟨S32x32, .f32⟩
  | 37 => ⟨S200000x32, .f32⟩
  | 38 => ⟨S1x32, .f32⟩
  | 39 => ⟨S200000x32, .f32⟩
  | 40 => ⟨S200000x32, .f32⟩
  | 41 => ⟨S32x32, .f32⟩
  | 42 => ⟨S200000x32, .f32⟩
  | 43 => ⟨S200000x32, .f32⟩
  | 44 => ⟨S_, .f32⟩
  | 45 => ⟨S_, .f32⟩
  | 46 => ⟨S200000x32, .f32⟩
  | 47 => ⟨S200000x32, .i1⟩
  | 48 => ⟨S_, .f32⟩
  | 49 => ⟨S200000x32, .f32⟩
  | 50 => ⟨S200000x32, .f32⟩
  | 51 => ⟨S200000x32, .f32⟩
  | 52 => ⟨S1x2000000, .i32⟩
  | 53 => ⟨S2000000, .i32⟩
  | 54 => ⟨S1x2000000, .i32⟩
  | 55 => ⟨S2000000, .i32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S2000000x1, .i32⟩
  | 64 => ⟨S2000000x32, .f32⟩
  | 65 => ⟨S_, .f32⟩
  | 66 => ⟨S500000x32, .f32⟩
  | 67 => ⟨S2000000x1, .i32⟩
  | 68 => ⟨S500000x32, .f32⟩
  | 69 => ⟨S_, .f32⟩
  | 70 => ⟨S2000000, .f32⟩
  | 71 => ⟨S_, .f32⟩
  | 72 => ⟨S500000, .f32⟩
  | 73 => ⟨S2000000x1, .i32⟩
  | 74 => ⟨S500000, .f32⟩
  | 75 => ⟨S_, .f32⟩
  | 76 => ⟨S500000, .f32⟩
  | 77 => ⟨S500000, .f32⟩
  | 78 => ⟨S500000x1, .f32⟩
  | 79 => ⟨S500000x32, .f32⟩
  | 80 => ⟨S500000x32, .f32⟩
  | 81 => ⟨S32x32, .f32⟩
  | 82 => ⟨S500000x32, .f32⟩
  | 83 => ⟨S1x32, .f32⟩
  | 84 => ⟨S500000x32, .f32⟩
  | 85 => ⟨S500000x32, .f32⟩
  | 86 => ⟨S32x32, .f32⟩
  | 87 => ⟨S500000x32, .f32⟩
  | 88 => ⟨S500000x32, .f32⟩
  | 89 => ⟨S_, .f32⟩
  | 90 => ⟨S_, .f32⟩
  | 91 => ⟨S500000x32, .f32⟩
  | 92 => ⟨S500000x32, .i1⟩
  | 93 => ⟨S_, .f32⟩
  | 94 => ⟨S500000x32, .f32⟩
  | 95 => ⟨S500000x32, .f32⟩
  | 96 => ⟨S500000x32, .f32⟩
  | 97 => ⟨S500000x96, .f32⟩
  | 98 => ⟨S200000x96, .f32⟩
  | _ => ⟨S500000, .i32⟩

abbrev hbmTy (i : Nat) : BufTy := match i / 128 with
  | 0 => hbmTy0_0 i
  | 1 => hbmTy0_1 i
  | _ => ⟨S500000, .i32⟩

abbrev bufTy : (tb : Table) → Fin (tcTables nBuf tb) → BufTy
  | .hbm, ⟨i, _⟩ => hbmTy i
  | _, _ => ⟨S500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_3 : Ref sig .tc := ⟨.hbm, 49, rfl⟩
abbrev main_v24 : Ref sig .tc := ⟨.hbm, 50, rfl⟩
abbrev main_v25 : Ref sig .tc := ⟨.hbm, 51, rfl⟩
abbrev main_c_4 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_5 : Ref sig .tc := ⟨.hbm, 62, rfl⟩
abbrev main_v34 : Ref sig .tc := ⟨.hbm, 63, rfl⟩
abbrev main_cst_6 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_8 : Ref sig .tc := ⟨.hbm, 82, rfl⟩
abbrev main_call0_cst : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_c_9 : Ref sig .tc := ⟨.hbm, 94, rfl⟩
abbrev main_v56 : Ref sig .tc := ⟨.hbm, 95, rfl⟩
abbrev main_v57 : Ref sig .tc := ⟨.hbm, 96, rfl⟩
abbrev main_c_10 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_11 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_12 : Ref sig .tc := ⟨.hbm, 107, rfl⟩
abbrev main_v66 : Ref sig .tc := ⟨.hbm, 108, rfl⟩
abbrev main_cst_13 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_14 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_15 : Ref sig .tc := ⟨.hbm, 127, rfl⟩
abbrev main_call1_cst : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_c_16 : Ref sig .tc := ⟨.hbm, 139, rfl⟩
abbrev main_v88 : Ref sig .tc := ⟨.hbm, 140, rfl⟩
abbrev main_v89 : Ref sig .tc := ⟨.hbm, 141, rfl⟩
abbrev main_c_17 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_18 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_cst_19 : Ref sig .tc := ⟨.hbm, 152, rfl⟩
abbrev main_v98 : Ref sig .tc := ⟨.hbm, 153, rfl⟩
abbrev main_cst_20 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_cst_21 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_cst_22 : Ref sig .tc := ⟨.hbm, 172, rfl⟩
abbrev main_call2_cst : Ref sig .tc := ⟨.hbm, 173, rfl⟩
abbrev main_call2_v0 : Ref sig .tc := ⟨.hbm, 174, rfl⟩
abbrev main_call2_v1 : Ref sig .tc := ⟨.hbm, 175, rfl⟩
abbrev main_call2_v2 : Ref sig .tc := ⟨.hbm, 176, rfl⟩
abbrev main_call2_v3 : Ref sig .tc := ⟨.hbm, 177, rfl⟩
abbrev main_call2_v4 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_c_23 : Ref sig .tc := ⟨.hbm, 184, rfl⟩
abbrev main_v120 : Ref sig .tc := ⟨.hbm, 185, rfl⟩
abbrev main_v121 : Ref sig .tc := ⟨.hbm, 186, rfl⟩
abbrev main_c_24 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_cst_25 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_cst_26 : Ref sig .tc := ⟨.hbm, 197, rfl⟩
abbrev main_v130 : Ref sig .tc := ⟨.hbm, 198, rfl⟩
abbrev main_cst_27 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_cst_28 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_cst_29 : Ref sig .tc := ⟨.hbm, 217, rfl⟩
abbrev main_call3_cst : Ref sig .tc := ⟨.hbm, 218, rfl⟩
abbrev main_call3_v0 : Ref sig .tc := ⟨.hbm, 219, rfl⟩
abbrev main_call3_v1 : Ref sig .tc := ⟨.hbm, 220, rfl⟩
abbrev main_call3_v2 : Ref sig .tc := ⟨.hbm, 221, rfl⟩
abbrev main_call3_v3 : Ref sig .tc := ⟨.hbm, 222, rfl⟩
abbrev main_call3_v4 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S200000 : S_.BroadcastsInDim S200000 (![] : Fin 0 → Fin S200000.rank)
  bcast_S200000_S200000x1_0 : S200000.BroadcastsInDim S200000x1 (![0] : Fin 1 → Fin S200000x1.rank)
  transposes_S32x256_S256x32_1_0 : S32x256.Transposes [1, 0] S256x32
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x32 : S_.BroadcastsInDim S200000x32 (![] : Fin 0 → Fin S200000x32.rank)
  bcast_S200000x1_S200000x32_0_1 : S200000x1.BroadcastsInDim S200000x32 (![0, 1] : Fin 2 → Fin S200000x32.rank)
  transposes_S32x32_S32x32_1_0 : S32x32.Transposes [1, 0] S32x32
  bcast_S_S500000x32 : S_.BroadcastsInDim S500000x32 (![] : Fin 0 → Fin S500000x32.rank)
  bcast_S500000x1_S500000x32_0_1 : S500000x1.BroadcastsInDim S500000x32 (![0, 1] : Fin 2 → Fin S500000x32.rank)
  bcast_S1x32_S500000x32_0_1 : S1x32.BroadcastsInDim S500000x32 (![0, 1] : Fin 2 → Fin S500000x32.rank)
  concatenates_S500000x32_S500000x32_S500000x32_S500000x96_d1 : Shape.Concatenates [S500000x32, S500000x32, S500000x32] S500000x96 1
  concatenates_S200000x32_S200000x32_S200000x32_S200000x96_d1 : Shape.Concatenates [S200000x32, S200000x32, S200000x32] S200000x96 1
  gather_S500000x32_S500000x1_S500000x32_1_0_n_n_0_1_132_wf : GatherDims.WF S500000x32 S500000x1 S500000x32 [1] [0] [] [0] [] 1 ![1, 32]
  gather_S200000x32_S200000x1_S200000x32_1_0_n_n_0_1_132_wf : GatherDims.WF S200000x32 S200000x1 S200000x32 [1] [0] [] [0] [] 1 ![1, 32]
  dot_S200000x256_S256x32_S200000x32_1_0_0_1_n_n_wf : DotDims.WF S200000x256 S256x32 S200000x32 [1] [0] [0] [1] [] []
  gather_S500000x32_S2000000x1_S2000000x32_1_0_n_n_0_1_132_wf : GatherDims.WF S500000x32 S2000000x1 S2000000x32 [1] [0] [] [0] [] 1 ![1, 32]
  scatter_S200000x32_S2000000x1_S2000000x32_1_0_0_1_wf : ScatterDims.WF S200000x32 S2000000x1 S2000000x32 [1] [0] [0] 1
  scatter_S200000_S2000000x1_S2000000_n_0_0_1_wf : ScatterDims.WF S200000 S2000000x1 S2000000 [] [0] [0] 1
  dot_S200000x32_S32x32_S200000x32_1_0_0_1_n_n_wf : DotDims.WF S200000x32 S32x32 S200000x32 [1] [0] [0] [1] [] []
  gather_S200000x32_S2000000x1_S2000000x32_1_0_n_n_0_1_132_wf : GatherDims.WF S200000x32 S2000000x1 S2000000x32 [1] [0] [] [0] [] 1 ![1, 32]
  scatter_S500000x32_S2000000x1_S2000000x32_1_0_0_1_wf : ScatterDims.WF S500000x32 S2000000x1 S2000000x32 [1] [0] [0] 1
  scatter_S500000_S2000000x1_S2000000_n_0_0_1_wf : ScatterDims.WF S500000 S2000000x1 S2000000 [] [0] [0] 1
  dot_S500000x32_S32x32_S500000x32_1_0_0_1_n_n_wf : DotDims.WF S500000x32 S32x32 S500000x32 [1] [0] [0] [1] [] []

variable [Facts₀]

def gather_S500000x32_S500000x1_S500000x32_1_0_n_n_0_1_132 : GatherDims S500000x32 S500000x1 S500000x32 where
  offsetDims := [1]
  collapsedSliceDims := [0]
  operandBatchingDims := []
  startIndicesBatchingDims := []
  startIndexMap := [0]
  indexVectorDim := 1
  sliceSizes := ![1, 32]
  wf := gather_S500000x32_S500000x1_S500000x32_1_0_n_n_0_1_132_wf
def gather_S200000x32_S200000x1_S200000x32_1_0_n_n_0_1_132 : GatherDims S200000x32 S200000x1 S200000x32 where
  offsetDims := [1]
  collapsedSliceDims := [0]
  operandBatchingDims := []
  startIndicesBatchingDims := []
  startIndexMap := [0]
  indexVectorDim := 1
  sliceSizes := ![1, 32]
  wf := gather_S200000x32_S200000x1_S200000x32_1_0_n_n_0_1_132_wf
def dot_S200000x256_S256x32_S200000x32_1_0_0_1_n_n : DotDims S200000x256 S256x32 S200000x32 where
  lhsContracting := [1]
  rhsContracting := [0]
  lhsNonContracting := [0]
  rhsNonContracting := [1]
  lhsBatch := []
  rhsBatch := []
  wf := dot_S200000x256_S256x32_S200000x32_1_0_0_1_n_n_wf
def gather_S500000x32_S2000000x1_S2000000x32_1_0_n_n_0_1_132 : GatherDims S500000x32 S2000000x1 S2000000x32 where
  offsetDims := [1]
  collapsedSliceDims := [0]
  operandBatchingDims := []
  startIndicesBatchingDims := []
  startIndexMap := [0]
  indexVectorDim := 1
  sliceSizes := ![1, 32]
  wf := gather_S500000x32_S2000000x1_S2000000x32_1_0_n_n_0_1_132_wf
def scatter_S200000x32_S2000000x1_S2000000x32_1_0_0_1 : ScatterDims S200000x32 S2000000x1 S2000000x32 where
  updateWindowDims := [1]
  insertedWindowDims := [0]
  scatterDimsToOperandDims := [0]
  indexVectorDim := 1
  wf := scatter_S200000x32_S2000000x1_S2000000x32_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def gather_S200000x32_S2000000x1_S2000000x32_1_0_n_n_0_1_132 : GatherDims S200000x32 S2000000x1 S2000000x32 where
  offsetDims := [1]
  collapsedSliceDims := [0]
  operandBatchingDims := []
  startIndicesBatchingDims := []
  startIndexMap := [0]
  indexVectorDim := 1
  sliceSizes := ![1, 32]
  wf := gather_S200000x32_S2000000x1_S2000000x32_1_0_n_n_0_1_132_wf
def scatter_S500000x32_S2000000x1_S2000000x32_1_0_0_1 : ScatterDims S500000x32 S2000000x1 S2000000x32 where
  updateWindowDims := [1]
  insertedWindowDims := [0]
  scatterDimsToOperandDims := [0]
  indexVectorDim := 1
  wf := scatter_S500000x32_S2000000x1_S2000000x32_1_0_0_1_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def dot_S500000x32_S32x32_S500000x32_1_0_0_1_n_n : DotDims S500000x32 S32x32 S500000x32 where
  lhsContracting := [1]
  rhsContracting := [0]
  lhsNonContracting := [0]
  rhsNonContracting := [1]
  lhsBatch := []
  rhsBatch := []
  wf := dot_S500000x32_S32x32_S500000x32_1_0_0_1_n_n_wf

class Facts : Prop extends Facts₀ where

variable [Facts]
-- ==== Proof.KDefs.lean ====
/-
  The five tiled stages of the network, as data: for each one, a window's block at a grid point read off the array
  the stage finds on entry; what one grid point leaves in the output window's staging buffer (the tile's arithmetic
  applied to the input blocks, stored as one whole-tile piece); and the pipeline's record of this — arrays as found,
  every input block left in place, the output block as computed, nothing owed, full shares.

  Stage 0 is the feature projection on tiles of 4000 product rows: windows 0..3 are the feature tile [4000, 256], the
  embedding tile [4000, 32], the whole transposed weight [256, 32] and the bias row [1, 32]; window 4 is the output tile.
  Stages 1..4 are the layers' dense steps on tiles of 10000 rows: windows 0..4 are the mean tile, the root tile, the
  whole left weight, the bias row and the whole right weight; window 5 is the output tile.
-/
import proofs.«158431_j3324304687820_1_alg».proof.Proof.Gen.Kernel.Launch
import proofs.«158431_j3324304687820_1_alg».proof.Proof.Gen.Kernel.Skeleton
import proofs.«158431_j3324304687820_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

-- The contents of the TensorCore's buffers when a stage is entered: the parameter every stage is stated at.
variable (V : (c : Dev nD) → (b : Ref sig .tc) → Buf (Elt F) ((c : Thread nD τ).loc b))

/-! ## The whole-buffer rectangles the tiles are loaded and stored through -/

abbrev rT256 : Rect S4000x256 := Rect.unit (s := S4000x256) ![0, 0] S4000x256.size inb_S4000x256_S4000x256_0_0
abbrev rT32 : Rect S4000x32 := Rect.unit (s := S4000x32) ![0, 0] S4000x32.size inb_S4000x32_S4000x32_0_0
abbrev rW256 : Rect S256x32 := Rect.unit (s := S256x32) ![0, 0] S256x32.size inb_S256x32_S256x32_0_0
abbrev rRow : Rect S1x32 := Rect.unit (s := S1x32) ![0, 0] S1x32.size inb_S1x32_S1x32_0_0
abbrev rU32 : Rect S10000x32 := Rect.unit (s := S10000x32) ![0, 0] S10000x32.size inb_S10000x32_S10000x32_0_0
abbrev rW32 : Rect S32x32 := Rect.unit (s := S32x32) ![0, 0] S32x32.size inb_S32x32_S32x32_0_0

/-! ## Stage 0: the feature projection -/

/-- Window `w`'s block at point `t`, read off its array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output tile after one point: embedding tile + feature tile · weight + bias row, stored whole. -/
def out0_4 (x0 : Vec F S4000x256 .f32) (x1 : Vec F S4000x32 .f32) (x2 : Vec F S256x32 .f32) (x3 : Vec F S1x32 .f32) : Vec F S4000x32 .f32 :=
  View.canon [⟨rT32, k0_pay1 (View.ld x0 rT256) (View.ld x2 rW256) (View.ld x1 rT32) (View.ld x3 rRow)⟩]

/-- The pipeline's record for stage 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-! ## Stage 1: a layer's dense step -/

/-- Window `w`'s block at point `t`, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output tile after one point: leaky(mean tile · left weight + bias row + root tile · right weight), stored whole. -/
def out1_5 (x0 x1 : Vec F S10000x32 .f32) (x2 : Vec F S32x32 .f32) (x3 : Vec F S1x32 .f32) (x4 : Vec F S32x32 .f32) : Vec F S10000x32 .f32 :=
  View.canon [⟨rU32, k1_pay1 (View.ld x0 rU32) (View.ld x1 rU32) (View.ld x2 rW32) (View.ld x4 rW32) (View.ld x3 rRow)⟩]

/-- The pipeline's record for stage 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! ## Stage 2: a layer's dense step -/

/-- Window `w`'s block at point `t`, read off its array as the stage finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output tile after one point: leaky(mean tile · left weight + bias row + root tile · right weight), stored whole. -/
def out2_5 (x0 x1 : Vec F S10000x32 .f32) (x2 : Vec F S32x32 .f32) (x3 : Vec F S1x32 .f32) (x4 : Vec F S32x32 .f32) : Vec F S10000x32 .f32 :=
  View.canon [⟨rU32, k2_pay1 (View.ld x0 rU32) (View.ld x1 rU32) (View.ld x2 rW32) (View.ld x4 rW32) (View.ld x3 rRow)⟩]

/-- The pipeline's record for stage 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-! ## Stage 3: a layer's dense step -/

/-- Window `w`'s block at point `t`, read off its array as the stage finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The output tile after one point: leaky(mean tile · left weight + bias row + root tile · right weight), stored whole. -/
def out3_5 (x0 x1 : Vec F S10000x32 .f32) (x2 : Vec F S32x32 .f32) (x3 : Vec F S1x32 .f32) (x4 : Vec F S32x32 .f32) : Vec F S10000x32 .f32 :=
  View.canon [⟨rU32, k3_pay1 (View.ld x0 rU32) (View.ld x1 rU32) (View.ld x2 rW32) (View.ld x4 rW32) (View.ld x3 rRow)⟩]

/-- The pipeline's record for stage 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-! ## Stage 4: a layer's dense step -/

/-- Window `w`'s block at point `t`, read off its array as the stage finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The output tile after one point: leaky(mean tile · left weight + bias row + root tile · right weight), stored whole. -/
def out4_5 (x0 x1 : Vec F S10000x32 .f32) (x2 : Vec F S32x32 .f32) (x3 : Vec F S1x32 .f32) (x4 : Vec F S32x32 .f32) : Vec F S10000x32 .f32 :=
  View.canon [⟨rU32, k4_pay1 (View.ld x0 rU32) (View.ld x1 rU32) (View.ld x2 rW32) (View.ld x4 rW32) (View.ld x3 rRow)⟩]

/-- The pipeline's record for stage 4 on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

end Cert.Kernel.Hand

end
-- ==== Proof.KOuts.lean ====
/-
  What the five tiled stages leave, as one table.  Between two items of the program every buffer's contents are a
  valuation: the launch memory, then each stretch of host operations applied, then — after a tiled stage — the stage's
  output array replaced by what its grid points wrote back.  A stage's write-backs are computed from the contents the
  stage is entered with, and those depend on the earlier stages' outputs only: so the table is built stage after stage,
  and it satisfies its own defining equations.
-/
import proofs.«158431_j3324304687820_1_alg».proof.Proof.KDefs
import proofs.«158431_j3324304687820_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the tiled stages leave, stage after stage

Each stage's output array after the stage is what its grid points wrote back, computed from the contents the stage was
entered with — which depend on the earlier stages' outputs only. -/

/-- Known after stage 0: item 1 leaves `main_v16` at what stage 0's grid points wrote back. -/
def outsA : Outs (F := F) := fun J r c =>
  if J = 2 then Function.update (V0 m c) main_v16 ((dat0 (fun c b => V1 m c b) c).arrAt 4 cfg0.N) r
  else V0 m c r

/-- Known after stage 1: item 3 leaves `main_v43` at what stage 1's grid points wrote back. -/
def outsB : Outs (F := F) := fun J r c =>
  if J = 4 then Function.update (V0 m c) main_v43 ((dat1 (fun c b => V3 m (outsA m) c b) c).arrAt 5 cfg1.N) r
  else outsA m J r c

/-- Known after stage 2: item 5 leaves `main_v70` at what stage 2's grid points wrote back. -/
def outsC : Outs (F := F) := fun J r c =>
  if J = 6 then Function.update (V0 m c) main_v70 ((dat2 (fun c b => V5 m (outsB m) c b) c).arrAt 5 cfg2.N) r
  else outsB m J r c

/-- Known after stage 3: item 7 leaves `main_v97` at what stage 3's grid points wrote back. -/
def outsD : Outs (F := F) := fun J r c =>
  if J = 8 then Function.update (V0 m c) main_v97 ((dat3 (fun c b => V7 m (outsC m) c b) c).arrAt 5 cfg3.N) r
  else outsC m J r c

/-- Known after stage 4: item 9 leaves `main_v124` at what stage 4's grid points wrote back. -/
def outs : Outs (F := F) := fun J r c =>
  if J = 10 then Function.update (V0 m c) main_v124 ((dat4 (fun c b => V9 m (outsD m) c b) c).arrAt 5 cfg4.N) r
  else outsD m J r c

/-! ## A valuation depends on the stages' outputs only where it reads them -/

section Congr
variable {m} (o o' : Outs (F := F)) (c : Dev nD)
theorem V2_congr (h2 : o 2 main_v16 c = o' 2 main_v16 c) : V2 m o c = V2 m o' c := by
  show Function.update _ _ _ = Function.update _ _ _; rw [h2]
theorem V3_congr (h2 : o 2 main_v16 c = o' 2 main_v16 c) : V3 m o c = V3 m o' c :=
  congrArg (StableHlo.after hostOps1) (V2_congr o o' c h2)
theorem V4_congr (h2 : o 2 main_v16 c = o' 2 main_v16 c) (h4 : o 4 main_v43 c = o' 4 main_v43 c) : V4 m o c = V4 m o' c := by
  show Function.update (V3 m o c) _ _ = Function.update (V3 m o' c) _ _; rw [V3_congr o o' c h2, h4]
theorem V5_congr (h2 : o 2 main_v16 c = o' 2 main_v16 c) (h4 : o 4 main_v43 c = o' 4 main_v43 c) : V5 m o c = V5 m o' c :=
  congrArg (StableHlo.after hostOps2) (V4_congr o o' c h2 h4)
theorem V6_congr (h2 : o 2 main_v16 c = o' 2 main_v16 c) (h4 : o 4 main_v43 c = o' 4 main_v43 c) (h6 : o 6 main_v70 c = o' 6 main_v70 c) :
    V6 m o c = V6 m o' c := by
  show Function.update (V5 m o c) _ _ = Function.update (V5 m o' c) _ _; rw [V5_congr o o' c h2 h4, h6]
theorem V7_congr (h2 : o 2 main_v16 c = o' 2 main_v16 c) (h4 : o 4 main_v43 c = o' 4 main_v43 c) (h6 : o 6 main_v70 c = o' 6 main_v70 c) :
    V7 m o c = V7 m o' c :=
  congrArg (StableHlo.after hostOps3) (V6_congr o o' c h2 h4 h6)
theorem V8_congr (h2 : o 2 main_v16 c = o' 2 main_v16 c) (h4 : o 4 main_v43 c = o' 4 main_v43 c) (h6 : o 6 main_v70 c = o' 6 main_v70 c)
    (h8 : o 8 main_v97 c = o' 8 main_v97 c) : V8 m o c = V8 m o' c := by
  show Function.update (V7 m o c) _ _ = Function.update (V7 m o' c) _ _; rw [V7_congr o o' c h2 h4 h6, h8]
theorem V9_congr (h2 : o 2 main_v16 c = o' 2 main_v16 c) (h4 : o 4 main_v43 c = o' 4 main_v43 c) (h6 : o 6 main_v70 c = o' 6 main_v70 c)
    (h8 : o 8 main_v97 c = o' 8 main_v97 c) : V9 m o c = V9 m o' c :=
  congrArg (StableHlo.after hostOps4) (V8_congr o o' c h2 h4 h6 h8)
end Congr

/-! ## The final table of outputs satisfies its own defining equations

Each layer of the table differs from the one below it at one item only. -/

theorem outs_of_ne (J : ℕ) (h : J ≠ 10) (r : Ref sig .tc) (c : Dev nD) : outs m J r c = outsD m J r c := by
  unfold outs; exact if_neg h
theorem outsD_of_ne (J : ℕ) (h : J ≠ 8) (r : Ref sig .tc) (c : Dev nD) : outsD m J r c = outsC m J r c := by
  unfold outsD; exact if_neg h
theorem outsC_of_ne (J : ℕ) (h : J ≠ 6) (r : Ref sig .tc) (c : Dev nD) : outsC m J r c = outsB m J r c := by
  unfold outsC; exact if_neg h
theorem outsB_of_ne (J : ℕ) (h : J ≠ 4) (r : Ref sig .tc) (c : Dev nD) : outsB m J r c = outsA m J r c := by
  unfold outsB; exact if_neg h

theorem outsB_2 (c : Dev nD) : outsB m 2 main_v16 c = outsA m 2 main_v16 c := outsB_of_ne m 2 (by decide) _ c
theorem outsC_2 (c : Dev nD) : outsC m 2 main_v16 c = outsA m 2 main_v16 c :=
  (outsC_of_ne m 2 (by decide) _ c).trans (outsB_2 m c)
theorem outsC_4 (c : Dev nD) : outsC m 4 main_v43 c = outsB m 4 main_v43 c := outsC_of_ne m 4 (by decide) _ c
theorem outsD_2 (c : Dev nD) : outsD m 2 main_v16 c = outsA m 2 main_v16 c :=
  (outsD_of_ne m 2 (by decide) _ c).trans (outsC_2 m c)
theorem outsD_4 (c : Dev nD) : outsD m 4 main_v43 c = outsB m 4 main_v43 c :=
  (outsD_of_ne m 4 (by decide) _ c).trans (outsC_4 m c)
theorem outsD_6 (c : Dev nD) : outsD m 6 main_v70 c = outsC m 6 main_v70 c := outsD_of_ne m 6 (by decide) _ c
theorem outs_2 (c : Dev nD) : outs m 2 main_v16 c = outsA m 2 main_v16 c :=
  (outs_of_ne m 2 (by decide) _ c).trans (outsD_2 m c)
theorem outs_4 (c : Dev nD) : outs m 4 main_v43 c = outsB m 4 main_v43 c :=
  (outs_of_ne m 4 (by decide) _ c).trans (outsD_4 m c)
theorem outs_6 (c : Dev nD) : outs m 6 main_v70 c = outsC m 6 main_v70 c :=
  (outs_of_ne m 6 (by decide) _ c).trans (outsD_6 m c)
theorem outs_8 (c : Dev nD) : outs m 8 main_v97 c = outsD m 8 main_v97 c := outs_of_ne m 8 (by decide) _ c

/-- Stage 0's output array after the stage. -/
theorem out_0 (c : Dev nD) : outs m 2 main_v16 c = (dat0 (fun c b => V1 m c b) c).arrAt 4 cfg0.N := by
  refine (outs_2 m c).trans ?_
  unfold outsA
  exact (if_pos rfl).trans (Function.update_self _ _ _)
/-- Stage 1's output array after the stage, from the contents it was entered with. -/
theorem out_1 (c : Dev nD) : outs m 4 main_v43 c = (dat1 (fun c b => V3 m (outs m) c b) c).arrAt 5 cfg1.N := by
  have e : (fun c b => V3 m (outs m) c b : (c : Dev nD) → (b : Ref sig .tc) → Buf (Elt F) ((c : Thread nD τ).loc b))
      = fun (c : Dev nD) (b : Ref sig .tc) => V3 m (outsA m) c b :=
    funext fun c => funext fun b => congrFun (V3_congr (outs m) (outsA m) c (outs_2 m c)) _
  rw [e]
  refine (outs_4 m c).trans ?_
  unfold outsB
  exact (if_pos rfl).trans (Function.update_self _ _ _)
/-- Stage 2's output array after the stage. -/
theorem out_2 (c : Dev nD) : outs m 6 main_v70 c = (dat2 (fun c b => V5 m (outs m) c b) c).arrAt 5 cfg2.N := by
  have e : (fun c b => V5 m (outs m) c b : (c : Dev nD) → (b : Ref sig .tc) → Buf (Elt F) ((c : Thread nD τ).loc b))
      = fun (c : Dev nD) (b : Ref sig .tc) => V5 m (outsB m) c b :=
    funext fun c => funext fun b => congrFun (V5_congr (outs m) (outsB m) c ((outs_2 m c).trans (outsB_2 m c).symm) (outs_4 m c)) _
  rw [e]
  refine (outs_6 m c).trans ?_
  unfold outsC
  exact (if_pos rfl).trans (Function.update_self _ _ _)
/-- Stage 3's output array after the stage. -/
theorem out_3 (c : Dev nD) : outs m 8 main_v97 c = (dat3 (fun c b => V7 m (outs m) c b) c).arrAt 5 cfg3.N := by
  have e : (fun c b => V7 m (outs m) c b : (c : Dev nD) → (b : Ref sig .tc) → Buf (Elt F) ((c : Thread nD τ).loc b))
      = fun (c : Dev nD) (b : Ref sig .tc) => V7 m (outsC m) c b :=
    funext fun c => funext fun b => congrFun (V7_congr (outs m) (outsC m) c ((outs_2 m c).trans (outsC_2 m c).symm)
      ((outs_4 m c).trans (outsC_4 m c).symm) (outs_6 m c)) _
  rw [e]
  refine (outs_8 m c).trans ?_
  unfold outsD
  exact (if_pos rfl).trans (Function.update_self _ _ _)
/-- Stage 4's output array after the stage. -/
theorem out_4 (c : Dev nD) : outs m 10 main_v124 c = (dat4 (fun c b => V9 m (outs m) c b) c).arrAt 5 cfg4.N := by
  have e : (fun c b => V9 m (outs m) c b : (c : Dev nD) → (b : Ref sig .tc) → Buf (Elt F) ((c : Thread nD τ).loc b))
      = fun (c : Dev nD) (b : Ref sig .tc) => V9 m (outsD m) c b :=
    funext fun c => funext fun b => congrFun (V9_congr (outs m) (outsD m) c ((outs_2 m c).trans (outsD_2 m c).symm)
      ((outs_4 m c).trans (outsD_4 m c).symm) ((outs_6 m c).trans (outsD_6 m c).symm) (outs_8 m c)) _
  rw [e]
  unfold outs
  exact (if_pos rfl).trans (Function.update_self _ _ _)

end Cert.Kernel.Hand

end
-- ==== Proof.KBody0.lean ====
/-
  Stage 0's tile body meets the pipeline's obligation at every grid point: started on whole staging buffers that hold
  the input blocks, it terminates without a fault, leaves every input buffer as it was, and leaves the output buffer
  holding the tile's arithmetic applied to the input blocks.  The one store covers the whole output tile, so what is
  read back from the buffer afterwards is that value whatever the buffer held before.
-/
import proofs.«158431_j3324304687820_1_alg».proof.Proof.KDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not, for any record whose
    array is the entry contents and whose body leaves the block in place (a point that does not fetch has not moved the index). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any record whose
    array is the entry contents and whose body leaves the block in place (a point that does not fetch has not moved the index). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any record whose
    array is the entry contents and whose body leaves the block in place (a point that does not fetch has not moved the index). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any record whose
    array is the entry contents and whose body leaves the block in place (a point that does not fetch has not moved the index). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one store is the whole output tile, so it covers it. -/
theorem cover0_4 (p0 : Vec F S4000x32 .f32) (y : S4000x32.Idx) :
    ∃ pc ∈ ([⟨rT32, p0⟩] : List (View.Piece (Elt F) S4000x32 .f32)), y ∈ pc.1.set :=
  View.cover_of_tiled [⟨rT32, p0⟩] S4000x32.size (by rfl) y

set_option maxHeartbeats 1000000 in
/-- The tile body on whole staging buffers: the inputs' at contents `x`, the output's at anything, runs to the
    continuation holding the inputs' as they were and the output's at the tile's value of the inputs. -/
theorem sound_kernel0 (c : Dev nD) (E : Set ℕ) (i : grid0.Coords) (arg1 : Memref sig .tc .vmem S4000x256 .f32) (harg1 : arg1.IsWhole) (arg2 : Memref sig .tc .vmem S4000x32 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S4000x32 .f32) (harg5 : arg5.IsWhole)
    (x0 : Vec F S4000x256 .f32) (x1 : Vec F S4000x32 .f32) (x2 : Vec F S256x32 .f32) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__feat_proj_kernel i arg1 harg1 arg2 harg2 arg3 harg3 arg4 harg4 arg5 harg5) K := by
  simp only [cc0__feat_proj_kernel_eq_skeleton]; unfold cc0__feat_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's obligation at a generic point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the tile body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  Stage 1's tile body meets the pipeline's obligation at every grid point: started on whole staging buffers that hold
  the input blocks, it terminates without a fault, leaves every input buffer as it was, and leaves the output buffer
  holding the tile's arithmetic applied to the input blocks.  The one store covers the whole output tile, so what is
  read back from the buffer afterwards is that value whatever the buffer held before.
-/
import proofs.«158431_j3324304687820_1_alg».proof.Proof.KDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not, for any record whose
    array is the entry contents and whose body leaves the block in place (a point that does not fetch has not moved the index). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any record whose
    array is the entry contents and whose body leaves the block in place (a point that does not fetch has not moved the index). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any record whose
    array is the entry contents and whose body leaves the block in place (a point that does not fetch has not moved the index). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any record whose
    array is the entry contents and whose body leaves the block in place (a point that does not fetch has not moved the index). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any record whose
    array is the entry contents and whose body leaves the block in place (a point that does not fetch has not moved the index). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The one store is the whole output tile, so it covers it. -/
theorem cover1_5 (p0 : Vec F S10000x32 .f32) (y : S10000x32.Idx) :
    ∃ pc ∈ ([⟨rU32, p0⟩] : List (View.Piece (Elt F) S10000x32 .f32)), y ∈ pc.1.set :=
  View.cover_of_tiled [⟨rU32, p0⟩] S10000x32.size (by rfl) y

set_option maxHeartbeats 1000000 in
/-- The tile body on whole staging buffers: the inputs' at contents `x`, the output's at anything, runs to the
    continuation holding the inputs' as they were and the output's at the tile's value of the inputs. -/
theorem sound_kernel1 (c : Dev nD) (E : Set ℕ) (i : grid1.Coords) (arg1 : Memref sig .tc .vmem S10000x32 .f32) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S10000x32 .f32) (harg6 : arg6.IsWhole)
    (x0 : Vec F S10000x32 .f32) (x1 : Vec F S10000x32 .f32) (x2 : Vec F S32x32 .f32) (x3 : Vec F S1x32 .f32) (x4 : Vec F S32x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__sage_dense_kernel i arg1 harg1 arg2 harg2 arg3 harg3 arg4 harg4 arg5 harg5 arg6 harg6) K := by
  simp only [cc1__sage_dense_kernel_eq_skeleton]; unfold cc1__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's obligation at a generic point -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the tile body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2.lean ====
/-
  Stage 2's tile body meets the pipeline's obligation at every grid point: started on whole staging buffers that hold
  the input blocks, it terminates without a fault, leaves every input buffer as it was, and leaves the output buffer
  holding the tile's arithmetic applied to the input blocks.  The one store covers the whole output tile, so what is
  read back from the buffer afterwards is that value whatever the buffer held before.
-/
import proofs.«158431_j3324304687820_1_alg».proof.Proof.KDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not, for any record whose
    array is the entry contents and whose body leaves the block in place (a point that does not fetch has not moved the index). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any record whose
    array is the entry contents and whose body leaves the block in place (a point that does not fetch has not moved the index). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any record whose
    array is the entry contents and whose body leaves the block in place (a point that does not fetch has not moved the index). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any record whose
    array is the entry contents and whose body leaves the block in place (a point that does not fetch has not moved the index). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any record whose
    array is the entry contents and whose body leaves the block in place (a point that does not fetch has not moved the index). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The one store is the whole output tile, so it covers it. -/
theorem cover2_5 (p0 : Vec F S10000x32 .f32) (y : S10000x32.Idx) :
    ∃ pc ∈ ([⟨rU32, p0⟩] : List (View.Piece (Elt F) S10000x32 .f32)), y ∈ pc.1.set :=
  View.cover_of_tiled [⟨rU32, p0⟩] S10000x32.size (by rfl) y

set_option maxHeartbeats 1000000 in
/-- The tile body on whole staging buffers: the inputs' at contents `x`, the output's at anything, runs to the
    continuation holding the inputs' as they were and the output's at the tile's value of the inputs. -/
theorem sound_kernel2 (c : Dev nD) (E : Set ℕ) (i : grid2.Coords) (arg1 : Memref sig .tc .vmem S10000x32 .f32) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S10000x32 .f32) (harg6 : arg6.IsWhole)
    (x0 : Vec F S10000x32 .f32) (x1 : Vec F S10000x32 .f32) (x2 : Vec F S32x32 .f32) (x3 : Vec F S1x32 .f32) (x4 : Vec F S32x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__sage_dense_kernel i arg1 harg1 arg2 harg2 arg3 harg3 arg4 harg4 arg5 harg5 arg6 harg6) K := by
  simp only [cc2__sage_dense_kernel_eq_skeleton]; unfold cc2__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's obligation at a generic point -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the tile body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KBody3.lean ====
/-
  Stage 3's tile body meets the pipeline's obligation at every grid point: started on whole staging buffers that hold
  the input blocks, it terminates without a fault, leaves every input buffer as it was, and leaves the output buffer
  holding the tile's arithmetic applied to the input blocks.  The one store covers the whole output tile, so what is
  read back from the buffer afterwards is that value whatever the buffer held before.
-/
import proofs.«158431_j3324304687820_1_alg».proof.Proof.KDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not, for any record whose
    array is the entry contents and whose body leaves the block in place (a point that does not fetch has not moved the index). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any record whose
    array is the entry contents and whose body leaves the block in place (a point that does not fetch has not moved the index). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any record whose
    array is the entry contents and whose body leaves the block in place (a point that does not fetch has not moved the index). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any record whose
    array is the entry contents and whose body leaves the block in place (a point that does not fetch has not moved the index). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any record whose
    array is the entry contents and whose body leaves the block in place (a point that does not fetch has not moved the index). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The one store is the whole output tile, so it covers it. -/
theorem cover3_5 (p0 : Vec F S10000x32 .f32) (y : S10000x32.Idx) :
    ∃ pc ∈ ([⟨rU32, p0⟩] : List (View.Piece (Elt F) S10000x32 .f32)), y ∈ pc.1.set :=
  View.cover_of_tiled [⟨rU32, p0⟩] S10000x32.size (by rfl) y

set_option maxHeartbeats 1000000 in
/-- The tile body on whole staging buffers: the inputs' at contents `x`, the output's at anything, runs to the
    continuation holding the inputs' as they were and the output's at the tile's value of the inputs. -/
theorem sound_kernel3 (c : Dev nD) (E : Set ℕ) (i : grid3.Coords) (arg1 : Memref sig .tc .vmem S10000x32 .f32) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S10000x32 .f32) (harg6 : arg6.IsWhole)
    (x0 : Vec F S10000x32 .f32) (x1 : Vec F S10000x32 .f32) (x2 : Vec F S32x32 .f32) (x3 : Vec F S1x32 .f32) (x4 : Vec F S32x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__sage_dense_kernel i arg1 harg1 arg2 harg2 arg3 harg3 arg4 harg4 arg5 harg5 arg6 harg6) K := by
  simp only [cc3__sage_dense_kernel_eq_skeleton]; unfold cc3__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's obligation at a generic point -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the tile body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KBody4.lean ====
/-
  Stage 4's tile body meets the pipeline's obligation at every grid point: started on whole staging buffers that hold
  the input blocks, it terminates without a fault, leaves every input buffer as it was, and leaves the output buffer
  holding the tile's arithmetic applied to the input blocks.  The one store covers the whole output tile, so what is
  read back from the buffer afterwards is that value whatever the buffer held before.
-/
import proofs.«158431_j3324304687820_1_alg».proof.Proof.KDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not, for any record whose
    array is the entry contents and whose body leaves the block in place (a point that does not fetch has not moved the index). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any record whose
    array is the entry contents and whose body leaves the block in place (a point that does not fetch has not moved the index). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any record whose
    array is the entry contents and whose body leaves the block in place (a point that does not fetch has not moved the index). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any record whose
    array is the entry contents and whose body leaves the block in place (a point that does not fetch has not moved the index). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any record whose
    array is the entry contents and whose body leaves the block in place (a point that does not fetch has not moved the index). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The one store is the whole output tile, so it covers it. -/
theorem cover4_5 (p0 : Vec F S10000x32 .f32) (y : S10000x32.Idx) :
    ∃ pc ∈ ([⟨rU32, p0⟩] : List (View.Piece (Elt F) S10000x32 .f32)), y ∈ pc.1.set :=
  View.cover_of_tiled [⟨rU32, p0⟩] S10000x32.size (by rfl) y

set_option maxHeartbeats 1000000 in
/-- The tile body on whole staging buffers: the inputs' at contents `x`, the output's at anything, runs to the
    continuation holding the inputs' as they were and the output's at the tile's value of the inputs. -/
theorem sound_kernel4 (c : Dev nD) (E : Set ℕ) (i : grid4.Coords) (arg1 : Memref sig .tc .vmem S10000x32 .f32) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S10000x32 .f32) (harg6 : arg6.IsWhole)
    (x0 : Vec F S10000x32 .f32) (x1 : Vec F S10000x32 .f32) (x2 : Vec F S32x32 .f32) (x3 : Vec F S1x32 .f32) (x4 : Vec F S32x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__sage_dense_kernel i arg1 harg1 arg2 harg2 arg3 harg3 arg4 harg4 arg5 harg5 arg6 harg6) K := by
  simp only [cc4__sage_dense_kernel_eq_skeleton]; unfold cc4__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's obligation at a generic point -/

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the tile body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KRun.lean ====
/-
  The whole program as a chain of items: six stretches of host operations with the five tiled stages between them.
  Each stage is entered with every unscoped buffer at the valuation before it and left at the one after it: its arrays
  are split out of the unscoped buffers, the pipeline runs (every tile body meets its obligation), and the arrays are put
  back with the output array at what the grid points wrote back.  So every weakly fair execution of the program
  terminates, nothing faulting, with every unscoped buffer at the last valuation.  No item writes an argument array, so the
  arguments end as launched.
-/
import proofs.«158431_j3324304687820_1_alg».proof.Proof.KOuts
import proofs.«158431_j3324304687820_1_alg».proof.Proof.KBody0
import proofs.«158431_j3324304687820_1_alg».proof.Proof.KBody1
import proofs.«158431_j3324304687820_1_alg».proof.Proof.KBody2
import proofs.«158431_j3324304687820_1_alg».proof.Proof.KBody3
import proofs.«158431_j3324304687820_1_alg».proof.Proof.KBody4

set_option maxRecDepth 16384
-- deciding that a reference is not among a stretch's forty written ones, once per window and stretch, is long
set_option maxHeartbeats 1000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The stages' records, the state that rides along, and the stages as items -/

/-- Every stage's record, each at the contents the stage is entered with. -/
def pdats : (p : Fin 5) → (c : Dev nD) → Dat τ (Elt F) Unit ℕ (UR sig nD τ) ℕ (cfgs p) c
  | ⟨0, _⟩ => fun c => dat0 (fun c b => V1 m c b) c
  | ⟨1, _⟩ => fun c => dat1 (fun c b => V3 m (outs m) c b) c
  | ⟨2, _⟩ => fun c => dat2 (fun c b => V5 m (outs m) c b) c
  | ⟨3, _⟩ => fun c => dat3 (fun c b => V7 m (outs m) c b) c
  | ⟨4, _⟩ => fun c => dat4 (fun c b => V9 m (outs m) c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
abbrev E : Fin 6 → Dev nD → sProp 𝕄 := fun _ c => R (F := F) c

/-- After stage 0 each of its arrays holds what the pipeline leaves: an input array what it held on entry, the output
    array the grid points' write-backs. -/
theorem hF0 (c : Dev nD) (w : Fin cfg0.W) :
    (pdats m 0 c).arrAt w cfg0.N = (fun b : Ref sig .tc => V2 m (outs m) c b) (Pipeline.arrRef spec0 w) := by
  show (dat0 (fun c b => V1 m c b) c).arrAt w cfg0.N = V2 m (outs m) c (Pipeline.arrRef spec0 w)
  match w with
  | ⟨0, _⟩ => exact (((dat0 (fun c b => V1 m c b) c).arrAt_in 0 rfl _).trans (A_eq0 (fun c b => V1 m c b) c 0)).trans (V2_of m (outs m) c _ (by decide)).symm
  | ⟨1, _⟩ => exact (((dat0 (fun c b => V1 m c b) c).arrAt_in 1 rfl _).trans (A_eq0 (fun c b => V1 m c b) c 1)).trans (V2_of m (outs m) c _ (by decide)).symm
  | ⟨2, _⟩ => exact (((dat0 (fun c b => V1 m c b) c).arrAt_in 2 rfl _).trans (A_eq0 (fun c b => V1 m c b) c 2)).trans (V2_of m (outs m) c _ (by decide)).symm
  | ⟨3, _⟩ => exact (((dat0 (fun c b => V1 m c b) c).arrAt_in 3 rfl _).trans (A_eq0 (fun c b => V1 m c b) c 3)).trans (V2_of m (outs m) c _ (by decide)).symm
  | ⟨4, _⟩ =>
    refine (out_0 m c).symm.trans ?_
    show outs m 2 main_v16 c = Function.update (V1 m c) main_v16 (outs m 2 main_v16 c) main_v16
    exact (Function.update_self (α := DevRef τ sig) (main_v16 : DevRef τ sig) (outs m 2 main_v16 c) (V1 m c)).symm
/-- Every other buffer holds after stage 0 what it held on entry. -/
theorem hrest0 (c : Dev nD) : ∀ b : Ref sig .tc, b ∉ Finset.univ.image (Pipeline.arrRef spec0) → V2 m (outs m) c b = V1 m c b :=
  fun b hb => V2_of m (outs m) c b (fun h => hb (by
    rw [List.mem_singleton] at h; subst h
    exact Finset.mem_image.mpr ⟨⟨4, by decide⟩, Finset.mem_univ _, rfl⟩))

set_option backward.isDefEq.respectTransparency.types false in
/-- STAGE 0 as an item: entered from every unscoped buffer at the contents before it, left at the contents after it.
    Its arrays are split out of the unscoped buffers on entry and put back on exit; the generator register goes into the
    stage's invariant and comes back; nothing is owed; the stage has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b : Ref sig .tc => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b : Ref sig .tc => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b : Ref sig .tc => V1 m c b) (fun b : Ref sig .tc => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After stage 1 each of its arrays holds what the pipeline leaves: an input array what it held on entry, the output
    array the grid points' write-backs. -/
theorem hF1 (c : Dev nD) (w : Fin cfg1.W) :
    (pdats m 1 c).arrAt w cfg1.N = (fun b : Ref sig .tc => V4 m (outs m) c b) (Pipeline.arrRef spec1 w) := by
  show (dat1 (fun c b => V3 m (outs m) c b) c).arrAt w cfg1.N = V4 m (outs m) c (Pipeline.arrRef spec1 w)
  match w with
  | ⟨0, _⟩ => exact (((dat1 (fun c b => V3 m (outs m) c b) c).arrAt_in 0 rfl _).trans (A_eq1 (fun c b => V3 m (outs m) c b) c 0)).trans (V4_of m (outs m) c _ (by decide)).symm
  | ⟨1, _⟩ => exact (((dat1 (fun c b => V3 m (outs m) c b) c).arrAt_in 1 rfl _).trans (A_eq1 (fun c b => V3 m (outs m) c b) c 1)).trans (V4_of m (outs m) c _ (by decide)).symm
  | ⟨2, _⟩ => exact (((dat1 (fun c b => V3 m (outs m) c b) c).arrAt_in 2 rfl _).trans (A_eq1 (fun c b => V3 m (outs m) c b) c 2)).trans (V4_of m (outs m) c _ (by decide)).symm
  | ⟨3, _⟩ => exact (((dat1 (fun c b => V3 m (outs m) c b) c).arrAt_in 3 rfl _).trans (A_eq1 (fun c b => V3 m (outs m) c b) c 3)).trans (V4_of m (outs m) c _ (by decide)).symm
  | ⟨4, _⟩ => exact (((dat1 (fun c b => V3 m (outs m) c b) c).arrAt_in 4 rfl _).trans (A_eq1 (fun c b => V3 m (outs m) c b) c 4)).trans (V4_of m (outs m) c _ (by decide)).symm
  | ⟨5, _⟩ =>
    refine (out_1 m c).symm.trans ?_
    show outs m 4 main_v43 c = Function.update (V3 m (outs m) c) main_v43 (outs m 4 main_v43 c) main_v43
    exact (Function.update_self (α := DevRef τ sig) (main_v43 : DevRef τ sig) (outs m 4 main_v43 c) (V3 m (outs m) c)).symm
/-- Every other buffer holds after stage 1 what it held on entry. -/
theorem hrest1 (c : Dev nD) : ∀ b : Ref sig .tc, b ∉ Finset.univ.image (Pipeline.arrRef spec1) → V4 m (outs m) c b = V3 m (outs m) c b :=
  fun b hb => V4_of m (outs m) c b (fun h => hb (by
    rw [List.mem_singleton] at h; subst h
    exact Finset.mem_image.mpr ⟨⟨5, by decide⟩, Finset.mem_univ _, rfl⟩))

set_option backward.isDefEq.respectTransparency.types false in
/-- STAGE 1 as an item: entered from every unscoped buffer at the contents before it, left at the contents after it.
    Its arrays are split out of the unscoped buffers on entry and put back on exit; the generator register goes into the
    stage's invariant and comes back; nothing is owed; the stage has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V3 m (outs m) c b) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b : Ref sig .tc => V3 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b : Ref sig .tc => V3 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b : Ref sig .tc => V3 m (outs m) c b) (fun b : Ref sig .tc => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After stage 2 each of its arrays holds what the pipeline leaves: an input array what it held on entry, the output
    array the grid points' write-backs. -/
theorem hF2 (c : Dev nD) (w : Fin cfg2.W) :
    (pdats m 2 c).arrAt w cfg2.N = (fun b : Ref sig .tc => V6 m (outs m) c b) (Pipeline.arrRef spec2 w) := by
  show (dat2 (fun c b => V5 m (outs m) c b) c).arrAt w cfg2.N = V6 m (outs m) c (Pipeline.arrRef spec2 w)
  match w with
  | ⟨0, _⟩ => exact (((dat2 (fun c b => V5 m (outs m) c b) c).arrAt_in 0 rfl _).trans (A_eq2 (fun c b => V5 m (outs m) c b) c 0)).trans (V6_of m (outs m) c _ (by decide)).symm
  | ⟨1, _⟩ => exact (((dat2 (fun c b => V5 m (outs m) c b) c).arrAt_in 1 rfl _).trans (A_eq2 (fun c b => V5 m (outs m) c b) c 1)).trans (V6_of m (outs m) c _ (by decide)).symm
  | ⟨2, _⟩ => exact (((dat2 (fun c b => V5 m (outs m) c b) c).arrAt_in 2 rfl _).trans (A_eq2 (fun c b => V5 m (outs m) c b) c 2)).trans (V6_of m (outs m) c _ (by decide)).symm
  | ⟨3, _⟩ => exact (((dat2 (fun c b => V5 m (outs m) c b) c).arrAt_in 3 rfl _).trans (A_eq2 (fun c b => V5 m (outs m) c b) c 3)).trans (V6_of m (outs m) c _ (by decide)).symm
  | ⟨4, _⟩ => exact (((dat2 (fun c b => V5 m (outs m) c b) c).arrAt_in 4 rfl _).trans (A_eq2 (fun c b => V5 m (outs m) c b) c 4)).trans (V6_of m (outs m) c _ (by decide)).symm
  | ⟨5, _⟩ =>
    refine (out_2 m c).symm.trans ?_
    show outs m 6 main_v70 c = Function.update (V5 m (outs m) c) main_v70 (outs m 6 main_v70 c) main_v70
    exact (Function.update_self (α := DevRef τ sig) (main_v70 : DevRef τ sig) (outs m 6 main_v70 c) (V5 m (outs m) c)).symm
/-- Every other buffer holds after stage 2 what it held on entry. -/
theorem hrest2 (c : Dev nD) : ∀ b : Ref sig .tc, b ∉ Finset.univ.image (Pipeline.arrRef spec2) → V6 m (outs m) c b = V5 m (outs m) c b :=
  fun b hb => V6_of m (outs m) c b (fun h => hb (by
    rw [List.mem_singleton] at h; subst h
    exact Finset.mem_image.mpr ⟨⟨5, by decide⟩, Finset.mem_univ _, rfl⟩))

set_option backward.isDefEq.respectTransparency.types false in
/-- STAGE 2 as an item: entered from every unscoped buffer at the contents before it, left at the contents after it.
    Its arrays are split out of the unscoped buffers on entry and put back on exit; the generator register goes into the
    stage's invariant and comes back; nothing is owed; the stage has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => V5 m (outs m) c b) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b : Ref sig .tc => V5 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b : Ref sig .tc => V5 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b : Ref sig .tc => V5 m (outs m) c b) (fun b : Ref sig .tc => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After stage 3 each of its arrays holds what the pipeline leaves: an input array what it held on entry, the output
    array the grid points' write-backs. -/
theorem hF3 (c : Dev nD) (w : Fin cfg3.W) :
    (pdats m 3 c).arrAt w cfg3.N = (fun b : Ref sig .tc => V8 m (outs m) c b) (Pipeline.arrRef spec3 w) := by
  show (dat3 (fun c b => V7 m (outs m) c b) c).arrAt w cfg3.N = V8 m (outs m) c (Pipeline.arrRef spec3 w)
  match w with
  | ⟨0, _⟩ => exact (((dat3 (fun c b => V7 m (outs m) c b) c).arrAt_in 0 rfl _).trans (A_eq3 (fun c b => V7 m (outs m) c b) c 0)).trans (V8_of m (outs m) c _ (by decide)).symm
  | ⟨1, _⟩ => exact (((dat3 (fun c b => V7 m (outs m) c b) c).arrAt_in 1 rfl _).trans (A_eq3 (fun c b => V7 m (outs m) c b) c 1)).trans (V8_of m (outs m) c _ (by decide)).symm
  | ⟨2, _⟩ => exact (((dat3 (fun c b => V7 m (outs m) c b) c).arrAt_in 2 rfl _).trans (A_eq3 (fun c b => V7 m (outs m) c b) c 2)).trans (V8_of m (outs m) c _ (by decide)).symm
  | ⟨3, _⟩ => exact (((dat3 (fun c b => V7 m (outs m) c b) c).arrAt_in 3 rfl _).trans (A_eq3 (fun c b => V7 m (outs m) c b) c 3)).trans (V8_of m (outs m) c _ (by decide)).symm
  | ⟨4, _⟩ => exact (((dat3 (fun c b => V7 m (outs m) c b) c).arrAt_in 4 rfl _).trans (A_eq3 (fun c b => V7 m (outs m) c b) c 4)).trans (V8_of m (outs m) c _ (by decide)).symm
  | ⟨5, _⟩ =>
    refine (out_3 m c).symm.trans ?_
    show outs m 8 main_v97 c = Function.update (V7 m (outs m) c) main_v97 (outs m 8 main_v97 c) main_v97
    exact (Function.update_self (α := DevRef τ sig) (main_v97 : DevRef τ sig) (outs m 8 main_v97 c) (V7 m (outs m) c)).symm
/-- Every other buffer holds after stage 3 what it held on entry. -/
theorem hrest3 (c : Dev nD) : ∀ b : Ref sig .tc, b ∉ Finset.univ.image (Pipeline.arrRef spec3) → V8 m (outs m) c b = V7 m (outs m) c b :=
  fun b hb => V8_of m (outs m) c b (fun h => hb (by
    rw [List.mem_singleton] at h; subst h
    exact Finset.mem_image.mpr ⟨⟨5, by decide⟩, Finset.mem_univ _, rfl⟩))

set_option backward.isDefEq.respectTransparency.types false in
/-- STAGE 3 as an item: entered from every unscoped buffer at the contents before it, left at the contents after it.
    Its arrays are split out of the unscoped buffers on entry and put back on exit; the generator register goes into the
    stage's invariant and comes back; nothing is owed; the stage has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => V7 m (outs m) c b) c).loose
  hwaits := Pipeline.hwaits_of_owed_zero _ _ _ _ L lv 3 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b : Ref sig .tc => V7 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b : Ref sig .tc => V7 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b : Ref sig .tc => V7 m (outs m) c b) (fun b : Ref sig .tc => V8 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After stage 4 each of its arrays holds what the pipeline leaves: an input array what it held on entry, the output
    array the grid points' write-backs. -/
theorem hF4 (c : Dev nD) (w : Fin cfg4.W) :
    (pdats m 4 c).arrAt w cfg4.N = (fun b : Ref sig .tc => V10 m (outs m) c b) (Pipeline.arrRef spec4 w) := by
  show (dat4 (fun c b => V9 m (outs m) c b) c).arrAt w cfg4.N = V10 m (outs m) c (Pipeline.arrRef spec4 w)
  match w with
  | ⟨0, _⟩ => exact (((dat4 (fun c b => V9 m (outs m) c b) c).arrAt_in 0 rfl _).trans (A_eq4 (fun c b => V9 m (outs m) c b) c 0)).trans (V10_of m (outs m) c _ (by decide)).symm
  | ⟨1, _⟩ => exact (((dat4 (fun c b => V9 m (outs m) c b) c).arrAt_in 1 rfl _).trans (A_eq4 (fun c b => V9 m (outs m) c b) c 1)).trans (V10_of m (outs m) c _ (by decide)).symm
  | ⟨2, _⟩ => exact (((dat4 (fun c b => V9 m (outs m) c b) c).arrAt_in 2 rfl _).trans (A_eq4 (fun c b => V9 m (outs m) c b) c 2)).trans (V10_of m (outs m) c _ (by decide)).symm
  | ⟨3, _⟩ => exact (((dat4 (fun c b => V9 m (outs m) c b) c).arrAt_in 3 rfl _).trans (A_eq4 (fun c b => V9 m (outs m) c b) c 3)).trans (V10_of m (outs m) c _ (by decide)).symm
  | ⟨4, _⟩ => exact (((dat4 (fun c b => V9 m (outs m) c b) c).arrAt_in 4 rfl _).trans (A_eq4 (fun c b => V9 m (outs m) c b) c 4)).trans (V10_of m (outs m) c _ (by decide)).symm
  | ⟨5, _⟩ =>
    refine (out_4 m c).symm.trans ?_
    show outs m 10 main_v124 c = Function.update (V9 m (outs m) c) main_v124 (outs m 10 main_v124 c) main_v124
    exact (Function.update_self (α := DevRef τ sig) (main_v124 : DevRef τ sig) (outs m 10 main_v124 c) (V9 m (outs m) c)).symm
/-- Every other buffer holds after stage 4 what it held on entry. -/
theorem hrest4 (c : Dev nD) : ∀ b : Ref sig .tc, b ∉ Finset.univ.image (Pipeline.arrRef spec4) → V10 m (outs m) c b = V9 m (outs m) c b :=
  fun b hb => V10_of m (outs m) c b (fun h => hb (by
    rw [List.mem_singleton] at h; subst h
    exact Finset.mem_image.mpr ⟨⟨5, by decide⟩, Finset.mem_univ _, rfl⟩))

set_option backward.isDefEq.respectTransparency.types false in
/-- STAGE 4 as an item: entered from every unscoped buffer at the contents before it, left at the contents after it.
    Its arrays are split out of the unscoped buffers on entry and put back on exit; the generator register goes into the
    stage's invariant and comes back; nothing is owed; the stage has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => V9 m (outs m) c b) c).loose
  hwaits := Pipeline.hwaits_of_owed_zero _ _ _ _ L lv 4 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec4 c (fun b : Ref sig .tc => V9 m (outs m) c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b : Ref sig .tc => V9 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b : Ref sig .tc => V9 m (outs m) c b) (fun b : Ref sig .tc => V10 m (outs m) c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program terminates, nothing faulting,
    and every final memory holds each unscoped buffer at the last valuation of the chain. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V11 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m) (reg4 m))
    (fun c Q => by
      rewrite [main_chain c, Seg.run_eq_chain,
        show (segs m (outs m) 𝒱₀ L lv E () (pdats m) (reg0 m) (reg1 m) (reg2 m) (reg3 m) (reg4 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (fun c => by simp only [segs, Seg.pipes_host, Seg.pipes_region, Seg.pipes_nil]; decide) (O₀ := (0 : Dev nD → CellTallies nD τ sig Unit)) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V11 m (outs m) c))
    (hch := fun c => ⟨.rfl, .rfl, .rfl, .rfl, .rfl, .rfl, .rfl, .rfl, .rfl, .rfl, .rfl, sep_mono .rfl (by
      iintro ⟨-, HO⟩; iexact HO)⟩)
    (hinit := ?_)
    (QY := fun c s => ∀ b ∈ Pipeline.ucRefs τ sig, s.mem (((c : Thread nD τ)).1, b) = V11 m (outs m) c b)
    (hfin := fun c s' => ?_) (hQ := fun _ h => h)
  · -- the launch, core by core: the unscoped buffers are held at the launch memory; the generator register and the
    -- empty debt make the state that rides along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    unfold StableHlo.held
    iintro ⟨Hh, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro; exact h
    · iexact HSI

/-- THE FRAME: the argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨(h c _ (mem_uc main_arg0 (by decide))).trans (V11_main_arg0 m (outs m) c),
     (h c _ (mem_uc main_arg1 (by decide))).trans (V11_main_arg1 m (outs m) c),
     (h c _ (mem_uc main_arg2 (by decide))).trans (V11_main_arg2 m (outs m) c),
     (h c _ (mem_uc main_arg3 (by decide))).trans (V11_main_arg3 m (outs m) c),
     (h c _ (mem_uc main_arg4 (by decide))).trans (V11_main_arg4 m (outs m) c),
     (h c _ (mem_uc main_arg5 (by decide))).trans (V11_main_arg5 m (outs m) c),
     (h c _ (mem_uc main_arg6 (by decide))).trans (V11_main_arg6 m (outs m) c),
     (h c _ (mem_uc main_arg7 (by decide))).trans (V11_main_arg7 m (outs m) c),
     (h c _ (mem_uc main_arg8 (by decide))).trans (V11_main_arg8 m (outs m) c),
     (h c _ (mem_uc main_arg9 (by decide))).trans (V11_main_arg9 m (outs m) c),
     (h c _ (mem_uc main_arg10 (by decide))).trans (V11_main_arg10 m (outs m) c),
     (h c _ (mem_uc main_arg11 (by decide))).trans (V11_main_arg11 m (outs m) c),
     (h c _ (mem_uc main_arg12 (by decide))).trans (V11_main_arg12 m (outs m) c),
     (h c _ (mem_uc main_arg13 (by decide))).trans (V11_main_arg13 m (outs m) c),
     (h c _ (mem_uc main_arg14 (by decide))).trans (V11_main_arg14 m (outs m) c),
     (h c _ (mem_uc main_arg15 (by decide))).trans (V11_main_arg15 m (outs m) c),
     (h c _ (mem_uc main_arg16 (by decide))).trans (V11_main_arg16 m (outs m) c),
     (h c _ (mem_uc main_arg17 (by decide))).trans (V11_main_arg17 m (outs m) c),
     (h c _ (mem_uc main_arg18 (by decide))).trans (V11_main_arg18 m (outs m) c),
     (h c _ (mem_uc main_arg19 (by decide))).trans (V11_main_arg19 m (outs m) c),
     (h c _ (mem_uc main_arg20 (by decide))).trans (V11_main_arg20 m (outs m) c)⟩) (run_all m ρ)

end Cert.Kernel.Hand

end
-- ==== Proof.KIDefs.lean ====
/-
  The five tiled stages of the network, as data: for each one, a window's block at a grid point read off the array
  the stage finds on entry; what one grid point leaves in the output window's staging buffer (the tile's arithmetic
  applied to the input blocks, stored as one whole-tile piece); and the pipeline's record of this — arrays as found,
  every input block left in place, the output block as computed, nothing owed, full shares.

  Stage 0 is the feature projection on tiles of 4000 product rows: windows 0..3 are the feature tile [4000, 256], the
  embedding tile [4000, 32], the whole transposed weight [256, 32] and the bias row [1, 32]; window 4 is the output tile.
  Stages 1..4 are the layers' dense steps on tiles of 10000 rows: windows 0..4 are the mean tile, the root tile, the
  whole left weight, the bias row and the whole right weight; window 5 is the output tile.
-/
import proofs.«158431_j3324304687820_1_alg».proof.Proof.Gen.KernelIdeal.Launch
import proofs.«158431_j3324304687820_1_alg».proof.Proof.Gen.KernelIdeal.Skeleton
import proofs.«158431_j3324304687820_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

-- The contents of the TensorCore's buffers when a stage is entered: the parameter every stage is stated at.
variable (V : (c : Dev nD) → (b : Ref sig .tc) → Buf (Elt F) ((c : Thread nD τ).loc b))

/-! ## The whole-buffer rectangles the tiles are loaded and stored through -/

abbrev rT256 : Rect S4000x256 := Rect.unit (s := S4000x256) ![0, 0] S4000x256.size inb_S4000x256_S4000x256_0_0
abbrev rT32 : Rect S4000x32 := Rect.unit (s := S4000x32) ![0, 0] S4000x32.size inb_S4000x32_S4000x32_0_0
abbrev rW256 : Rect S256x32 := Rect.unit (s := S256x32) ![0, 0] S256x32.size inb_S256x32_S256x32_0_0
abbrev rRow : Rect S1x32 := Rect.unit (s := S1x32) ![0, 0] S1x32.size inb_S1x32_S1x32_0_0
abbrev rU32 : Rect S10000x32 := Rect.unit (s := S10000x32) ![0, 0] S10000x32.size inb_S10000x32_S10000x32_0_0
abbrev rW32 : Rect S32x32 := Rect.unit (s := S32x32) ![0, 0] S32x32.size inb_S32x32_S32x32_0_0

/-! ## Stage 0: the feature projection -/

/-- Window `w`'s block at point `t`, read off its array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output tile after one point: embedding tile + feature tile · weight + bias row, stored whole. -/
def out0_4 (x0 : Vec F S4000x256 .f32) (x1 : Vec F S4000x32 .f32) (x2 : Vec F S256x32 .f32) (x3 : Vec F S1x32 .f32) : Vec F S4000x32 .f32 :=
  View.canon [⟨rT32, k0_pay1 (View.ld x0 rT256) (View.ld x2 rW256) (View.ld x1 rT32) (View.ld x3 rRow)⟩]

/-- The pipeline's record for stage 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-! ## Stage 1: a layer's dense step -/

/-- Window `w`'s block at point `t`, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output tile after one point: leaky(mean tile · left weight + bias row + root tile · right weight), stored whole. -/
def out1_5 (x0 x1 : Vec F S10000x32 .f32) (x2 : Vec F S32x32 .f32) (x3 : Vec F S1x32 .f32) (x4 : Vec F S32x32 .f32) : Vec F S10000x32 .f32 :=
  View.canon [⟨rU32, k1_pay1 (View.ld x0 rU32) (View.ld x1 rU32) (View.ld x2 rW32) (View.ld x4 rW32) (View.ld x3 rRow)⟩]

/-- The pipeline's record for stage 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! ## Stage 2: a layer's dense step -/

/-- Window `w`'s block at point `t`, read off its array as the stage finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output tile after one point: leaky(mean tile · left weight + bias row + root tile · right weight), stored whole. -/
def out2_5 (x0 x1 : Vec F S10000x32 .f32) (x2 : Vec F S32x32 .f32) (x3 : Vec F S1x32 .f32) (x4 : Vec F S32x32 .f32) : Vec F S10000x32 .f32 :=
  View.canon [⟨rU32, k2_pay1 (View.ld x0 rU32) (View.ld x1 rU32) (View.ld x2 rW32) (View.ld x4 rW32) (View.ld x3 rRow)⟩]

/-- The pipeline's record for stage 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-! ## Stage 3: a layer's dense step -/

/-- Window `w`'s block at point `t`, read off its array as the stage finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The output tile after one point: leaky(mean tile · left weight + bias row + root tile · right weight), stored whole. -/
def out3_5 (x0 x1 : Vec F S10000x32 .f32) (x2 : Vec F S32x32 .f32) (x3 : Vec F S1x32 .f32) (x4 : Vec F S32x32 .f32) : Vec F S10000x32 .f32 :=
  View.canon [⟨rU32, k3_pay1 (View.ld x0 rU32) (View.ld x1 rU32) (View.ld x2 rW32) (View.ld x4 rW32) (View.ld x3 rRow)⟩]

/-- The pipeline's record for stage 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-! ## Stage 4: a layer's dense step -/

/-- Window `w`'s block at point `t`, read off its array as the stage finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The output tile after one point: leaky(mean tile · left weight + bias row + root tile · right weight), stored whole. -/
def out4_5 (x0 x1 : Vec F S10000x32 .f32) (x2 : Vec F S32x32 .f32) (x3 : Vec F S1x32 .f32) (x4 : Vec F S32x32 .f32) : Vec F S10000x32 .f32 :=
  View.canon [⟨rU32, k4_pay1 (View.ld x0 rU32) (View.ld x1 rU32) (View.ld x2 rW32) (View.ld x4 rW32) (View.ld x3 rRow)⟩]

/-- The pipeline's record for stage 4 on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

end Cert.KernelIdeal.Hand

end
-- ==== Proof.KIOuts.lean ====
/-
  What the five tiled stages leave, as one table.  Between two items of the program every buffer's contents are a
  valuation: the launch memory, then each stretch of host operations applied, then — after a tiled stage — the stage's
  output array replaced by what its grid points wrote back.  A stage's write-backs are computed from the contents the
  stage is entered with, and those depend on the earlier stages' outputs only: so the table is built stage after stage,
  and it satisfies its own defining equations.
-/
import proofs.«158431_j3324304687820_1_alg».proof.Proof.KIDefs
import proofs.«158431_j3324304687820_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the tiled stages leave, stage after stage

Each stage's output array after the stage is what its grid points wrote back, computed from the contents the stage was
entered with — which depend on the earlier stages' outputs only. -/

/-- Known after stage 0: item 1 leaves `main_v16` at what stage 0's grid points wrote back. -/
def outsA : Outs (F := F) := fun J r c =>
  if J = 2 then Function.update (V0 m c) main_v16 ((dat0 (fun c b => V1 m c b) c).arrAt 4 cfg0.N) r
  else V0 m c r

/-- Known after stage 1: item 3 leaves `main_v43` at what stage 1's grid points wrote back. -/
def outsB : Outs (F := F) := fun J r c =>
  if J = 4 then Function.update (V0 m c) main_v43 ((dat1 (fun c b => V3 m (outsA m) c b) c).arrAt 5 cfg1.N) r
  else outsA m J r c

/-- Known after stage 2: item 5 leaves `main_v70` at what stage 2's grid points wrote back. -/
def outsC : Outs (F := F) := fun J r c =>
  if J = 6 then Function.update (V0 m c) main_v70 ((dat2 (fun c b => V5 m (outsB m) c b) c).arrAt 5 cfg2.N) r
  else outsB m J r c

/-- Known after stage 3: item 7 leaves `main_v97` at what stage 3's grid points wrote back. -/
def outsD : Outs (F := F) := fun J r c =>
  if J = 8 then Function.update (V0 m c) main_v97 ((dat3 (fun c b => V7 m (outsC m) c b) c).arrAt 5 cfg3.N) r
  else outsC m J r c

/-- Known after stage 4: item 9 leaves `main_v124` at what stage 4's grid points wrote back. -/
def outs : Outs (F := F) := fun J r c =>
  if J = 10 then Function.update (V0 m c) main_v124 ((dat4 (fun c b => V9 m (outsD m) c b) c).arrAt 5 cfg4.N) r
  else outsD m J r c

/-! ## A valuation depends on the stages' outputs only where it reads them -/

section Congr
variable {m} (o o' : Outs (F := F)) (c : Dev nD)
theorem V2_congr (h2 : o 2 main_v16 c = o' 2 main_v16 c) : V2 m o c = V2 m o' c := by
  show Function.update _ _ _ = Function.update _ _ _; rw [h2]
theorem V3_congr (h2 : o 2 main_v16 c = o' 2 main_v16 c) : V3 m o c = V3 m o' c :=
  congrArg (StableHlo.after hostOps1) (V2_congr o o' c h2)
theorem V4_congr (h2 : o 2 main_v16 c = o' 2 main_v16 c) (h4 : o 4 main_v43 c = o' 4 main_v43 c) : V4 m o c = V4 m o' c := by
  show Function.update (V3 m o c) _ _ = Function.update (V3 m o' c) _ _; rw [V3_congr o o' c h2, h4]
theorem V5_congr (h2 : o 2 main_v16 c = o' 2 main_v16 c) (h4 : o 4 main_v43 c = o' 4 main_v43 c) : V5 m o c = V5 m o' c :=
  congrArg (StableHlo.after hostOps2) (V4_congr o o' c h2 h4)
theorem V6_congr (h2 : o 2 main_v16 c = o' 2 main_v16 c) (h4 : o 4 main_v43 c = o' 4 main_v43 c) (h6 : o 6 main_v70 c = o' 6 main_v70 c) :
    V6 m o c = V6 m o' c := by
  show Function.update (V5 m o c) _ _ = Function.update (V5 m o' c) _ _; rw [V5_congr o o' c h2 h4, h6]
theorem V7_congr (h2 : o 2 main_v16 c = o' 2 main_v16 c) (h4 : o 4 main_v43 c = o' 4 main_v43 c) (h6 : o 6 main_v70 c = o' 6 main_v70 c) :
    V7 m o c = V7 m o' c :=
  congrArg (StableHlo.after hostOps3) (V6_congr o o' c h2 h4 h6)
theorem V8_congr (h2 : o 2 main_v16 c = o' 2 main_v16 c) (h4 : o 4 main_v43 c = o' 4 main_v43 c) (h6 : o 6 main_v70 c = o' 6 main_v70 c)
    (h8 : o 8 main_v97 c = o' 8 main_v97 c) : V8 m o c = V8 m o' c := by
  show Function.update (V7 m o c) _ _ = Function.update (V7 m o' c) _ _; rw [V7_congr o o' c h2 h4 h6, h8]
theorem V9_congr (h2 : o 2 main_v16 c = o' 2 main_v16 c) (h4 : o 4 main_v43 c = o' 4 main_v43 c) (h6 : o 6 main_v70 c = o' 6 main_v70 c)
    (h8 : o 8 main_v97 c = o' 8 main_v97 c) : V9 m o c = V9 m o' c :=
  congrArg (StableHlo.after hostOps4) (V8_congr o o' c h2 h4 h6 h8)
end Congr

/-! ## The final table of outputs satisfies its own defining equations

Each layer of the table differs from the one below it at one item only. -/

theorem outs_of_ne (J : ℕ) (h : J ≠ 10) (r : Ref sig .tc) (c : Dev nD) : outs m J r c = outsD m J r c := by
  unfold outs; exact if_neg h
theorem outsD_of_ne (J : ℕ) (h : J ≠ 8) (r : Ref sig .tc) (c : Dev nD) : outsD m J r c = outsC m J r c := by
  unfold outsD; exact if_neg h
theorem outsC_of_ne (J : ℕ) (h : J ≠ 6) (r : Ref sig .tc) (c : Dev nD) : outsC m J r c = outsB m J r c := by
  unfold outsC; exact if_neg h
theorem outsB_of_ne (J : ℕ) (h : J ≠ 4) (r : Ref sig .tc) (c : Dev nD) : outsB m J r c = outsA m J r c := by
  unfold outsB; exact if_neg h

theorem outsB_2 (c : Dev nD) : outsB m 2 main_v16 c = outsA m 2 main_v16 c := outsB_of_ne m 2 (by decide) _ c
theorem outsC_2 (c : Dev nD) : outsC m 2 main_v16 c = outsA m 2 main_v16 c :=
  (outsC_of_ne m 2 (by decide) _ c).trans (outsB_2 m c)
theorem outsC_4 (c : Dev nD) : outsC m 4 main_v43 c = outsB m 4 main_v43 c := outsC_of_ne m 4 (by decide) _ c
theorem outsD_2 (c : Dev nD) : outsD m 2 main_v16 c = outsA m 2 main_v16 c :=
  (outsD_of_ne m 2 (by decide) _ c).trans (outsC_2 m c)
theorem outsD_4 (c : Dev nD) : outsD m 4 main_v43 c = outsB m 4 main_v43 c :=
  (outsD_of_ne m 4 (by decide) _ c).trans (outsC_4 m c)
theorem outsD_6 (c : Dev nD) : outsD m 6 main_v70 c = outsC m 6 main_v70 c := outsD_of_ne m 6 (by decide) _ c
theorem outs_2 (c : Dev nD) : outs m 2 main_v16 c = outsA m 2 main_v16 c :=
  (outs_of_ne m 2 (by decide) _ c).trans (outsD_2 m c)
theorem outs_4 (c : Dev nD) : outs m 4 main_v43 c = outsB m 4 main_v43 c :=
  (outs_of_ne m 4 (by decide) _ c).trans (outsD_4 m c)
theorem outs_6 (c : Dev nD) : outs m 6 main_v70 c = outsC m 6 main_v70 c :=
  (outs_of_ne m 6 (by decide) _ c).trans (outsD_6 m c)
theorem outs_8 (c : Dev nD) : outs m 8 main_v97 c = outsD m 8 main_v97 c := outs_of_ne m 8 (by decide) _ c

/-- Stage 0's output array after the stage. -/
theorem out_0 (c : Dev nD) : outs m 2 main_v16 c = (dat0 (fun c b => V1 m c b) c).arrAt 4 cfg0.N := by
  refine (outs_2 m c).trans ?_
  unfold outsA
  exact (if_pos rfl).trans (Function.update_self _ _ _)
/-- Stage 1's output array after the stage, from the contents it was entered with. -/
theorem out_1 (c : Dev nD) : outs m 4 main_v43 c = (dat1 (fun c b => V3 m (outs m) c b) c).arrAt 5 cfg1.N := by
  have e : (fun c b => V3 m (outs m) c b : (c : Dev nD) → (b : Ref sig .tc) → Buf (Elt F) ((c : Thread nD τ).loc b))
      = fun (c : Dev nD) (b : Ref sig .tc) => V3 m (outsA m) c b :=
    funext fun c => funext fun b => congrFun (V3_congr (outs m) (outsA m) c (outs_2 m c)) _
  rw [e]
  refine (outs_4 m c).trans ?_
  unfold outsB
  exact (if_pos rfl).trans (Function.update_self _ _ _)
/-- Stage 2's output array after the stage. -/
theorem out_2 (c : Dev nD) : outs m 6 main_v70 c = (dat2 (fun c b => V5 m (outs m) c b) c).arrAt 5 cfg2.N := by
  have e : (fun c b => V5 m (outs m) c b : (c : Dev nD) → (b : Ref sig .tc) → Buf (Elt F) ((c : Thread nD τ).loc b))
      = fun (c : Dev nD) (b : Ref sig .tc) => V5 m (outsB m) c b :=
    funext fun c => funext fun b => congrFun (V5_congr (outs m) (outsB m) c ((outs_2 m c).trans (outsB_2 m c).symm) (outs_4 m c)) _
  rw [e]
  refine (outs_6 m c).trans ?_
  unfold outsC
  exact (if_pos rfl).trans (Function.update_self _ _ _)
/-- Stage 3's output array after the stage. -/
theorem out_3 (c : Dev nD) : outs m 8 main_v97 c = (dat3 (fun c b => V7 m (outs m) c b) c).arrAt 5 cfg3.N := by
  have e : (fun c b => V7 m (outs m) c b : (c : Dev nD) → (b : Ref sig .tc) → Buf (Elt F) ((c : Thread nD τ).loc b))
      = fun (c : Dev nD) (b : Ref sig .tc) => V7 m (outsC m) c b :=
    funext fun c => funext fun b => congrFun (V7_congr (outs m) (outsC m) c ((outs_2 m c).trans (outsC_2 m c).symm)
      ((outs_4 m c).trans (outsC_4 m c).symm) (outs_6 m c)) _
  rw [e]
  refine (outs_8 m c).trans ?_
  unfold outsD
  exact (if_pos rfl).trans (Function.update_self _ _ _)
/-- Stage 4's output array after the stage. -/
theorem out_4 (c : Dev nD) : outs m 10 main_v124 c = (dat4 (fun c b => V9 m (outs m) c b) c).arrAt 5 cfg4.N := by
  have e : (fun c b => V9 m (outs m) c b : (c : Dev nD) → (b : Ref sig .tc) → Buf (Elt F) ((c : Thread nD τ).loc b))
      = fun (c : Dev nD) (b : Ref sig .tc) => V9 m (outsD m) c b :=
    funext fun c => funext fun b => congrFun (V9_congr (outs m) (outsD m) c ((outs_2 m c).trans (outsD_2 m c).symm)
      ((outs_4 m c).trans (outsD_4 m c).symm) ((outs_6 m c).trans (outsD_6 m c).symm) (outs_8 m c)) _
  rw [e]
  unfold outs
  exact (if_pos rfl).trans (Function.update_self _ _ _)

end Cert.KernelIdeal.Hand

end
-- ==== Proof.KIBody0.lean ====
/-
  Stage 0's tile body meets the pipeline's obligation at every grid point: started on whole staging buffers that hold
  the input blocks, it terminates without a fault, leaves every input buffer as it was, and leaves the output buffer
  holding the tile's arithmetic applied to the input blocks.  The one store covers the whole output tile, so what is
  read back from the buffer afterwards is that value whatever the buffer held before.
-/
import proofs.«158431_j3324304687820_1_alg».proof.Proof.KIDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not, for any record whose
    array is the entry contents and whose body leaves the block in place (a point that does not fetch has not moved the index). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any record whose
    array is the entry contents and whose body leaves the block in place (a point that does not fetch has not moved the index). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any record whose
    array is the entry contents and whose body leaves the block in place (a point that does not fetch has not moved the index). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any record whose
    array is the entry contents and whose body leaves the block in place (a point that does not fetch has not moved the index). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one store is the whole output tile, so it covers it. -/
theorem cover0_4 (p0 : Vec F S4000x32 .f32) (y : S4000x32.Idx) :
    ∃ pc ∈ ([⟨rT32, p0⟩] : List (View.Piece (Elt F) S4000x32 .f32)), y ∈ pc.1.set :=
  View.cover_of_tiled [⟨rT32, p0⟩] S4000x32.size (by rfl) y

set_option maxHeartbeats 1000000 in
/-- The tile body on whole staging buffers: the inputs' at contents `x`, the output's at anything, runs to the
    continuation holding the inputs' as they were and the output's at the tile's value of the inputs. -/
theorem sound_kernel0 (c : Dev nD) (E : Set ℕ) (i : grid0.Coords) (arg1 : Memref sig .tc .vmem S4000x256 .f32) (harg1 : arg1.IsWhole) (arg2 : Memref sig .tc .vmem S4000x32 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S4000x32 .f32) (harg5 : arg5.IsWhole)
    (x0 : Vec F S4000x256 .f32) (x1 : Vec F S4000x32 .f32) (x2 : Vec F S256x32 .f32) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__feat_proj_kernel i arg1 harg1 arg2 harg2 arg3 harg3 arg4 harg4 arg5 harg5) K := by
  simp only [cc0__feat_proj_kernel_eq_skeleton]; unfold cc0__feat_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's obligation at a generic point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the tile body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIBody1.lean ====
/-
  Stage 1's tile body meets the pipeline's obligation at every grid point: started on whole staging buffers that hold
  the input blocks, it terminates without a fault, leaves every input buffer as it was, and leaves the output buffer
  holding the tile's arithmetic applied to the input blocks.  The one store covers the whole output tile, so what is
  read back from the buffer afterwards is that value whatever the buffer held before.
-/
import proofs.«158431_j3324304687820_1_alg».proof.Proof.KIDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not, for any record whose
    array is the entry contents and whose body leaves the block in place (a point that does not fetch has not moved the index). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any record whose
    array is the entry contents and whose body leaves the block in place (a point that does not fetch has not moved the index). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any record whose
    array is the entry contents and whose body leaves the block in place (a point that does not fetch has not moved the index). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any record whose
    array is the entry contents and whose body leaves the block in place (a point that does not fetch has not moved the index). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any record whose
    array is the entry contents and whose body leaves the block in place (a point that does not fetch has not moved the index). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The one store is the whole output tile, so it covers it. -/
theorem cover1_5 (p0 : Vec F S10000x32 .f32) (y : S10000x32.Idx) :
    ∃ pc ∈ ([⟨rU32, p0⟩] : List (View.Piece (Elt F) S10000x32 .f32)), y ∈ pc.1.set :=
  View.cover_of_tiled [⟨rU32, p0⟩] S10000x32.size (by rfl) y

set_option maxHeartbeats 1000000 in
/-- The tile body on whole staging buffers: the inputs' at contents `x`, the output's at anything, runs to the
    continuation holding the inputs' as they were and the output's at the tile's value of the inputs. -/
theorem sound_kernel1 (c : Dev nD) (E : Set ℕ) (i : grid1.Coords) (arg1 : Memref sig .tc .vmem S10000x32 .f32) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S10000x32 .f32) (harg6 : arg6.IsWhole)
    (x0 : Vec F S10000x32 .f32) (x1 : Vec F S10000x32 .f32) (x2 : Vec F S32x32 .f32) (x3 : Vec F S1x32 .f32) (x4 : Vec F S32x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__sage_dense_kernel i arg1 harg1 arg2 harg2 arg3 harg3 arg4 harg4 arg5 harg5 arg6 harg6) K := by
  simp only [cc1__sage_dense_kernel_eq_skeleton]; unfold cc1__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's obligation at a generic point -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the tile body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIBody2.lean ====
/-
  Stage 2's tile body meets the pipeline's obligation at every grid point: started on whole staging buffers that hold
  the input blocks, it terminates without a fault, leaves every input buffer as it was, and leaves the output buffer
  holding the tile's arithmetic applied to the input blocks.  The one store covers the whole output tile, so what is
  read back from the buffer afterwards is that value whatever the buffer held before.
-/
import proofs.«158431_j3324304687820_1_alg».proof.Proof.KIDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not, for any record whose
    array is the entry contents and whose body leaves the block in place (a point that does not fetch has not moved the index). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any record whose
    array is the entry contents and whose body leaves the block in place (a point that does not fetch has not moved the index). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any record whose
    array is the entry contents and whose body leaves the block in place (a point that does not fetch has not moved the index). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any record whose
    array is the entry contents and whose body leaves the block in place (a point that does not fetch has not moved the index). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any record whose
    array is the entry contents and whose body leaves the block in place (a point that does not fetch has not moved the index). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The one store is the whole output tile, so it covers it. -/
theorem cover2_5 (p0 : Vec F S10000x32 .f32) (y : S10000x32.Idx) :
    ∃ pc ∈ ([⟨rU32, p0⟩] : List (View.Piece (Elt F) S10000x32 .f32)), y ∈ pc.1.set :=
  View.cover_of_tiled [⟨rU32, p0⟩] S10000x32.size (by rfl) y

set_option maxHeartbeats 1000000 in
/-- The tile body on whole staging buffers: the inputs' at contents `x`, the output's at anything, runs to the
    continuation holding the inputs' as they were and the output's at the tile's value of the inputs. -/
theorem sound_kernel2 (c : Dev nD) (E : Set ℕ) (i : grid2.Coords) (arg1 : Memref sig .tc .vmem S10000x32 .f32) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S10000x32 .f32) (harg6 : arg6.IsWhole)
    (x0 : Vec F S10000x32 .f32) (x1 : Vec F S10000x32 .f32) (x2 : Vec F S32x32 .f32) (x3 : Vec F S1x32 .f32) (x4 : Vec F S32x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__sage_dense_kernel i arg1 harg1 arg2 harg2 arg3 harg3 arg4 harg4 arg5 harg5 arg6 harg6) K := by
  simp only [cc2__sage_dense_kernel_eq_skeleton]; unfold cc2__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's obligation at a generic point -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the tile body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIBody3.lean ====
/-
  Stage 3's tile body meets the pipeline's obligation at every grid point: started on whole staging buffers that hold
  the input blocks, it terminates without a fault, leaves every input buffer as it was, and leaves the output buffer
  holding the tile's arithmetic applied to the input blocks.  The one store covers the whole output tile, so what is
  read back from the buffer afterwards is that value whatever the buffer held before.
-/
import proofs.«158431_j3324304687820_1_alg».proof.Proof.KIDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not, for any record whose
    array is the entry contents and whose body leaves the block in place (a point that does not fetch has not moved the index). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any record whose
    array is the entry contents and whose body leaves the block in place (a point that does not fetch has not moved the index). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any record whose
    array is the entry contents and whose body leaves the block in place (a point that does not fetch has not moved the index). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any record whose
    array is the entry contents and whose body leaves the block in place (a point that does not fetch has not moved the index). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any record whose
    array is the entry contents and whose body leaves the block in place (a point that does not fetch has not moved the index). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The one store is the whole output tile, so it covers it. -/
theorem cover3_5 (p0 : Vec F S10000x32 .f32) (y : S10000x32.Idx) :
    ∃ pc ∈ ([⟨rU32, p0⟩] : List (View.Piece (Elt F) S10000x32 .f32)), y ∈ pc.1.set :=
  View.cover_of_tiled [⟨rU32, p0⟩] S10000x32.size (by rfl) y

set_option maxHeartbeats 1000000 in
/-- The tile body on whole staging buffers: the inputs' at contents `x`, the output's at anything, runs to the
    continuation holding the inputs' as they were and the output's at the tile's value of the inputs. -/
theorem sound_kernel3 (c : Dev nD) (E : Set ℕ) (i : grid3.Coords) (arg1 : Memref sig .tc .vmem S10000x32 .f32) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S10000x32 .f32) (harg6 : arg6.IsWhole)
    (x0 : Vec F S10000x32 .f32) (x1 : Vec F S10000x32 .f32) (x2 : Vec F S32x32 .f32) (x3 : Vec F S1x32 .f32) (x4 : Vec F S32x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__sage_dense_kernel i arg1 harg1 arg2 harg2 arg3 harg3 arg4 harg4 arg5 harg5 arg6 harg6) K := by
  simp only [cc3__sage_dense_kernel_eq_skeleton]; unfold cc3__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's obligation at a generic point -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the tile body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIBody4.lean ====
/-
  Stage 4's tile body meets the pipeline's obligation at every grid point: started on whole staging buffers that hold
  the input blocks, it terminates without a fault, leaves every input buffer as it was, and leaves the output buffer
  holding the tile's arithmetic applied to the input blocks.  The one store covers the whole output tile, so what is
  read back from the buffer afterwards is that value whatever the buffer held before.
-/
import proofs.«158431_j3324304687820_1_alg».proof.Proof.KIDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not, for any record whose
    array is the entry contents and whose body leaves the block in place (a point that does not fetch has not moved the index). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any record whose
    array is the entry contents and whose body leaves the block in place (a point that does not fetch has not moved the index). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any record whose
    array is the entry contents and whose body leaves the block in place (a point that does not fetch has not moved the index). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any record whose
    array is the entry contents and whose body leaves the block in place (a point that does not fetch has not moved the index). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any record whose
    array is the entry contents and whose body leaves the block in place (a point that does not fetch has not moved the index). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The one store is the whole output tile, so it covers it. -/
theorem cover4_5 (p0 : Vec F S10000x32 .f32) (y : S10000x32.Idx) :
    ∃ pc ∈ ([⟨rU32, p0⟩] : List (View.Piece (Elt F) S10000x32 .f32)), y ∈ pc.1.set :=
  View.cover_of_tiled [⟨rU32, p0⟩] S10000x32.size (by rfl) y

set_option maxHeartbeats 1000000 in
/-- The tile body on whole staging buffers: the inputs' at contents `x`, the output's at anything, runs to the
    continuation holding the inputs' as they were and the output's at the tile's value of the inputs. -/
theorem sound_kernel4 (c : Dev nD) (E : Set ℕ) (i : grid4.Coords) (arg1 : Memref sig .tc .vmem S10000x32 .f32) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S10000x32 .f32) (harg6 : arg6.IsWhole)
    (x0 : Vec F S10000x32 .f32) (x1 : Vec F S10000x32 .f32) (x2 : Vec F S32x32 .f32) (x3 : Vec F S1x32 .f32) (x4 : Vec F S32x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__sage_dense_kernel i arg1 harg1 arg2 harg2 arg3 harg3 arg4 harg4 arg5 harg5 arg6 harg6) K := by
  simp only [cc4__sage_dense_kernel_eq_skeleton]; unfold cc4__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's obligation at a generic point -/

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the tile body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KIRun.lean ====
/-
  The whole program as a chain of items: six stretches of host operations with the five tiled stages between them.
  Each stage is entered with every unscoped buffer at the valuation before it and left at the one after it: its arrays
  are split out of the unscoped buffers, the pipeline runs (every tile body meets its obligation), and the arrays are put
  back with the output array at what the grid points wrote back.  So every weakly fair execution of the program
  terminates, nothing faulting, with every unscoped buffer at the last valuation.  No item writes an argument array, so the
  arguments end as launched.
-/
import proofs.«158431_j3324304687820_1_alg».proof.Proof.KIOuts
import proofs.«158431_j3324304687820_1_alg».proof.Proof.KIBody0
import proofs.«158431_j3324304687820_1_alg».proof.Proof.KIBody1
import proofs.«158431_j3324304687820_1_alg».proof.Proof.KIBody2
import proofs.«158431_j3324304687820_1_alg».proof.Proof.KIBody3
import proofs.«158431_j3324304687820_1_alg».proof.Proof.KIBody4

set_option maxRecDepth 16384
-- deciding that a reference is not among a stretch's forty written ones, once per window and stretch, is long
set_option maxHeartbeats 1000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The stages' records, the state that rides along, and the stages as items -/

/-- Every stage's record, each at the contents the stage is entered with. -/
def pdats : (p : Fin 5) → (c : Dev nD) → Dat τ (Elt F) Unit ℕ (UR sig nD τ) ℕ (cfgs p) c
  | ⟨0, _⟩ => fun c => dat0 (fun c b => V1 m c b) c
  | ⟨1, _⟩ => fun c => dat1 (fun c b => V3 m (outs m) c b) c
  | ⟨2, _⟩ => fun c => dat2 (fun c b => V5 m (outs m) c b) c
  | ⟨3, _⟩ => fun c => dat3 (fun c b => V7 m (outs m) c b) c
  | ⟨4, _⟩ => fun c => dat4 (fun c b => V9 m (outs m) c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
abbrev E : Fin 6 → Dev nD → sProp 𝕄 := fun _ c => R (F := F) c

/-- After stage 0 each of its arrays holds what the pipeline leaves: an input array what it held on entry, the output
    array the grid points' write-backs. -/
theorem hF0 (c : Dev nD) (w : Fin cfg0.W) :
    (pdats m 0 c).arrAt w cfg0.N = (fun b : Ref sig .tc => V2 m (outs m) c b) (Pipeline.arrRef spec0 w) := by
  show (dat0 (fun c b => V1 m c b) c).arrAt w cfg0.N = V2 m (outs m) c (Pipeline.arrRef spec0 w)
  match w with
  | ⟨0, _⟩ => exact (((dat0 (fun c b => V1 m c b) c).arrAt_in 0 rfl _).trans (A_eq0 (fun c b => V1 m c b) c 0)).trans (V2_of m (outs m) c _ (by decide)).symm
  | ⟨1, _⟩ => exact (((dat0 (fun c b => V1 m c b) c).arrAt_in 1 rfl _).trans (A_eq0 (fun c b => V1 m c b) c 1)).trans (V2_of m (outs m) c _ (by decide)).symm
  | ⟨2, _⟩ => exact (((dat0 (fun c b => V1 m c b) c).arrAt_in 2 rfl _).trans (A_eq0 (fun c b => V1 m c b) c 2)).trans (V2_of m (outs m) c _ (by decide)).symm
  | ⟨3, _⟩ => exact (((dat0 (fun c b => V1 m c b) c).arrAt_in 3 rfl _).trans (A_eq0 (fun c b => V1 m c b) c 3)).trans (V2_of m (outs m) c _ (by decide)).symm
  | ⟨4, _⟩ =>
    refine (out_0 m c).symm.trans ?_
    show outs m 2 main_v16 c = Function.update (V1 m c) main_v16 (outs m 2 main_v16 c) main_v16
    exact (Function.update_self (α := DevRef τ sig) (main_v16 : DevRef τ sig) (outs m 2 main_v16 c) (V1 m c)).symm
/-- Every other buffer holds after stage 0 what it held on entry. -/
theorem hrest0 (c : Dev nD) : ∀ b : Ref sig .tc, b ∉ Finset.univ.image (Pipeline.arrRef spec0) → V2 m (outs m) c b = V1 m c b :=
  fun b hb => V2_of m (outs m) c b (fun h => hb (by
    rw [List.mem_singleton] at h; subst h
    exact Finset.mem_image.mpr ⟨⟨4, by decide⟩, Finset.mem_univ _, rfl⟩))

set_option backward.isDefEq.respectTransparency.types false in
/-- STAGE 0 as an item: entered from every unscoped buffer at the contents before it, left at the contents after it.
    Its arrays are split out of the unscoped buffers on entry and put back on exit; the generator register goes into the
    stage's invariant and comes back; nothing is owed; the stage has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b : Ref sig .tc => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b : Ref sig .tc => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b : Ref sig .tc => V1 m c b) (fun b : Ref sig .tc => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After stage 1 each of its arrays holds what the pipeline leaves: an input array what it held on entry, the output
    array the grid points' write-backs. -/
theorem hF1 (c : Dev nD) (w : Fin cfg1.W) :
    (pdats m 1 c).arrAt w cfg1.N = (fun b : Ref sig .tc => V4 m (outs m) c b) (Pipeline.arrRef spec1 w) := by
  show (dat1 (fun c b => V3 m (outs m) c b) c).arrAt w cfg1.N = V4 m (outs m) c (Pipeline.arrRef spec1 w)
  match w with
  | ⟨0, _⟩ => exact (((dat1 (fun c b => V3 m (outs m) c b) c).arrAt_in 0 rfl _).trans (A_eq1 (fun c b => V3 m (outs m) c b) c 0)).trans (V4_of m (outs m) c _ (by decide)).symm
  | ⟨1, _⟩ => exact (((dat1 (fun c b => V3 m (outs m) c b) c).arrAt_in 1 rfl _).trans (A_eq1 (fun c b => V3 m (outs m) c b) c 1)).trans (V4_of m (outs m) c _ (by decide)).symm
  | ⟨2, _⟩ => exact (((dat1 (fun c b => V3 m (outs m) c b) c).arrAt_in 2 rfl _).trans (A_eq1 (fun c b => V3 m (outs m) c b) c 2)).trans (V4_of m (outs m) c _ (by decide)).symm
  | ⟨3, _⟩ => exact (((dat1 (fun c b => V3 m (outs m) c b) c).arrAt_in 3 rfl _).trans (A_eq1 (fun c b => V3 m (outs m) c b) c 3)).trans (V4_of m (outs m) c _ (by decide)).symm
  | ⟨4, _⟩ => exact (((dat1 (fun c b => V3 m (outs m) c b) c).arrAt_in 4 rfl _).trans (A_eq1 (fun c b => V3 m (outs m) c b) c 4)).trans (V4_of m (outs m) c _ (by decide)).symm
  | ⟨5, _⟩ =>
    refine (out_1 m c).symm.trans ?_
    show outs m 4 main_v43 c = Function.update (V3 m (outs m) c) main_v43 (outs m 4 main_v43 c) main_v43
    exact (Function.update_self (α := DevRef τ sig) (main_v43 : DevRef τ sig) (outs m 4 main_v43 c) (V3 m (outs m) c)).symm
/-- Every other buffer holds after stage 1 what it held on entry. -/
theorem hrest1 (c : Dev nD) : ∀ b : Ref sig .tc, b ∉ Finset.univ.image (Pipeline.arrRef spec1) → V4 m (outs m) c b = V3 m (outs m) c b :=
  fun b hb => V4_of m (outs m) c b (fun h => hb (by
    rw [List.mem_singleton] at h; subst h
    exact Finset.mem_image.mpr ⟨⟨5, by decide⟩, Finset.mem_univ _, rfl⟩))

set_option backward.isDefEq.respectTransparency.types false in
/-- STAGE 1 as an item: entered from every unscoped buffer at the contents before it, left at the contents after it.
    Its arrays are split out of the unscoped buffers on entry and put back on exit; the generator register goes into the
    stage's invariant and comes back; nothing is owed; the stage has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V3 m (outs m) c b) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b : Ref sig .tc => V3 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b : Ref sig .tc => V3 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b : Ref sig .tc => V3 m (outs m) c b) (fun b : Ref sig .tc => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After stage 2 each of its arrays holds what the pipeline leaves: an input array what it held on entry, the output
    array the grid points' write-backs. -/
theorem hF2 (c : Dev nD) (w : Fin cfg2.W) :
    (pdats m 2 c).arrAt w cfg2.N = (fun b : Ref sig .tc => V6 m (outs m) c b) (Pipeline.arrRef spec2 w) := by
  show (dat2 (fun c b => V5 m (outs m) c b) c).arrAt w cfg2.N = V6 m (outs m) c (Pipeline.arrRef spec2 w)
  match w with
  | ⟨0, _⟩ => exact (((dat2 (fun c b => V5 m (outs m) c b) c).arrAt_in 0 rfl _).trans (A_eq2 (fun c b => V5 m (outs m) c b) c 0)).trans (V6_of m (outs m) c _ (by decide)).symm
  | ⟨1, _⟩ => exact (((dat2 (fun c b => V5 m (outs m) c b) c).arrAt_in 1 rfl _).trans (A_eq2 (fun c b => V5 m (outs m) c b) c 1)).trans (V6_of m (outs m) c _ (by decide)).symm
  | ⟨2, _⟩ => exact (((dat2 (fun c b => V5 m (outs m) c b) c).arrAt_in 2 rfl _).trans (A_eq2 (fun c b => V5 m (outs m) c b) c 2)).trans (V6_of m (outs m) c _ (by decide)).symm
  | ⟨3, _⟩ => exact (((dat2 (fun c b => V5 m (outs m) c b) c).arrAt_in 3 rfl _).trans (A_eq2 (fun c b => V5 m (outs m) c b) c 3)).trans (V6_of m (outs m) c _ (by decide)).symm
  | ⟨4, _⟩ => exact (((dat2 (fun c b => V5 m (outs m) c b) c).arrAt_in 4 rfl _).trans (A_eq2 (fun c b => V5 m (outs m) c b) c 4)).trans (V6_of m (outs m) c _ (by decide)).symm
  | ⟨5, _⟩ =>
    refine (out_2 m c).symm.trans ?_
    show outs m 6 main_v70 c = Function.update (V5 m (outs m) c) main_v70 (outs m 6 main_v70 c) main_v70
    exact (Function.update_self (α := DevRef τ sig) (main_v70 : DevRef τ sig) (outs m 6 main_v70 c) (V5 m (outs m) c)).symm
/-- Every other buffer holds after stage 2 what it held on entry. -/
theorem hrest2 (c : Dev nD) : ∀ b : Ref sig .tc, b ∉ Finset.univ.image (Pipeline.arrRef spec2) → V6 m (outs m) c b = V5 m (outs m) c b :=
  fun b hb => V6_of m (outs m) c b (fun h => hb (by
    rw [List.mem_singleton] at h; subst h
    exact Finset.mem_image.mpr ⟨⟨5, by decide⟩, Finset.mem_univ _, rfl⟩))

set_option backward.isDefEq.respectTransparency.types false in
/-- STAGE 2 as an item: entered from every unscoped buffer at the contents before it, left at the contents after it.
    Its arrays are split out of the unscoped buffers on entry and put back on exit; the generator register goes into the
    stage's invariant and comes back; nothing is owed; the stage has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => V5 m (outs m) c b) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b : Ref sig .tc => V5 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b : Ref sig .tc => V5 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b : Ref sig .tc => V5 m (outs m) c b) (fun b : Ref sig .tc => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After stage 3 each of its arrays holds what the pipeline leaves: an input array what it held on entry, the output
    array the grid points' write-backs. -/
theorem hF3 (c : Dev nD) (w : Fin cfg3.W) :
    (pdats m 3 c).arrAt w cfg3.N = (fun b : Ref sig .tc => V8 m (outs m) c b) (Pipeline.arrRef spec3 w) := by
  show (dat3 (fun c b => V7 m (outs m) c b) c).arrAt w cfg3.N = V8 m (outs m) c (Pipeline.arrRef spec3 w)
  match w with
  | ⟨0, _⟩ => exact (((dat3 (fun c b => V7 m (outs m) c b) c).arrAt_in 0 rfl _).trans (A_eq3 (fun c b => V7 m (outs m) c b) c 0)).trans (V8_of m (outs m) c _ (by decide)).symm
  | ⟨1, _⟩ => exact (((dat3 (fun c b => V7 m (outs m) c b) c).arrAt_in 1 rfl _).trans (A_eq3 (fun c b => V7 m (outs m) c b) c 1)).trans (V8_of m (outs m) c _ (by decide)).symm
  | ⟨2, _⟩ => exact (((dat3 (fun c b => V7 m (outs m) c b) c).arrAt_in 2 rfl _).trans (A_eq3 (fun c b => V7 m (outs m) c b) c 2)).trans (V8_of m (outs m) c _ (by decide)).symm
  | ⟨3, _⟩ => exact (((dat3 (fun c b => V7 m (outs m) c b) c).arrAt_in 3 rfl _).trans (A_eq3 (fun c b => V7 m (outs m) c b) c 3)).trans (V8_of m (outs m) c _ (by decide)).symm
  | ⟨4, _⟩ => exact (((dat3 (fun c b => V7 m (outs m) c b) c).arrAt_in 4 rfl _).trans (A_eq3 (fun c b => V7 m (outs m) c b) c 4)).trans (V8_of m (outs m) c _ (by decide)).symm
  | ⟨5, _⟩ =>
    refine (out_3 m c).symm.trans ?_
    show outs m 8 main_v97 c = Function.update (V7 m (outs m) c) main_v97 (outs m 8 main_v97 c) main_v97
    exact (Function.update_self (α := DevRef τ sig) (main_v97 : DevRef τ sig) (outs m 8 main_v97 c) (V7 m (outs m) c)).symm
/-- Every other buffer holds after stage 3 what it held on entry. -/
theorem hrest3 (c : Dev nD) : ∀ b : Ref sig .tc, b ∉ Finset.univ.image (Pipeline.arrRef spec3) → V8 m (outs m) c b = V7 m (outs m) c b :=
  fun b hb => V8_of m (outs m) c b (fun h => hb (by
    rw [List.mem_singleton] at h; subst h
    exact Finset.mem_image.mpr ⟨⟨5, by decide⟩, Finset.mem_univ _, rfl⟩))

set_option backward.isDefEq.respectTransparency.types false in
/-- STAGE 3 as an item: entered from every unscoped buffer at the contents before it, left at the contents after it.
    Its arrays are split out of the unscoped buffers on entry and put back on exit; the generator register goes into the
    stage's invariant and comes back; nothing is owed; the stage has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => V7 m (outs m) c b) c).loose
  hwaits := Pipeline.hwaits_of_owed_zero _ _ _ _ L lv 3 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b : Ref sig .tc => V7 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b : Ref sig .tc => V7 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b : Ref sig .tc => V7 m (outs m) c b) (fun b : Ref sig .tc => V8 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After stage 4 each of its arrays holds what the pipeline leaves: an input array what it held on entry, the output
    array the grid points' write-backs. -/
theorem hF4 (c : Dev nD) (w : Fin cfg4.W) :
    (pdats m 4 c).arrAt w cfg4.N = (fun b : Ref sig .tc => V10 m (outs m) c b) (Pipeline.arrRef spec4 w) := by
  show (dat4 (fun c b => V9 m (outs m) c b) c).arrAt w cfg4.N = V10 m (outs m) c (Pipeline.arrRef spec4 w)
  match w with
  | ⟨0, _⟩ => exact (((dat4 (fun c b => V9 m (outs m) c b) c).arrAt_in 0 rfl _).trans (A_eq4 (fun c b => V9 m (outs m) c b) c 0)).trans (V10_of m (outs m) c _ (by decide)).symm
  | ⟨1, _⟩ => exact (((dat4 (fun c b => V9 m (outs m) c b) c).arrAt_in 1 rfl _).trans (A_eq4 (fun c b => V9 m (outs m) c b) c 1)).trans (V10_of m (outs m) c _ (by decide)).symm
  | ⟨2, _⟩ => exact (((dat4 (fun c b => V9 m (outs m) c b) c).arrAt_in 2 rfl _).trans (A_eq4 (fun c b => V9 m (outs m) c b) c 2)).trans (V10_of m (outs m) c _ (by decide)).symm
  | ⟨3, _⟩ => exact (((dat4 (fun c b => V9 m (outs m) c b) c).arrAt_in 3 rfl _).trans (A_eq4 (fun c b => V9 m (outs m) c b) c 3)).trans (V10_of m (outs m) c _ (by decide)).symm
  | ⟨4, _⟩ => exact (((dat4 (fun c b => V9 m (outs m) c b) c).arrAt_in 4 rfl _).trans (A_eq4 (fun c b => V9 m (outs m) c b) c 4)).trans (V10_of m (outs m) c _ (by decide)).symm
  | ⟨5, _⟩ =>
    refine (out_4 m c).symm.trans ?_
    show outs m 10 main_v124 c = Function.update (V9 m (outs m) c) main_v124 (outs m 10 main_v124 c) main_v124
    exact (Function.update_self (α := DevRef τ sig) (main_v124 : DevRef τ sig) (outs m 10 main_v124 c) (V9 m (outs m) c)).symm
/-- Every other buffer holds after stage 4 what it held on entry. -/
theorem hrest4 (c : Dev nD) : ∀ b : Ref sig .tc, b ∉ Finset.univ.image (Pipeline.arrRef spec4) → V10 m (outs m) c b = V9 m (outs m) c b :=
  fun b hb => V10_of m (outs m) c b (fun h => hb (by
    rw [List.mem_singleton] at h; subst h
    exact Finset.mem_image.mpr ⟨⟨5, by decide⟩, Finset.mem_univ _, rfl⟩))

set_option backward.isDefEq.respectTransparency.types false in
/-- STAGE 4 as an item: entered from every unscoped buffer at the contents before it, left at the contents after it.
    Its arrays are split out of the unscoped buffers on entry and put back on exit; the generator register goes into the
    stage's invariant and comes back; nothing is owed; the stage has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => V9 m (outs m) c b) c).loose
  hwaits := Pipeline.hwaits_of_owed_zero _ _ _ _ L lv 4 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec4 c (fun b : Ref sig .tc => V9 m (outs m) c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b : Ref sig .tc => V9 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b : Ref sig .tc => V9 m (outs m) c b) (fun b : Ref sig .tc => V10 m (outs m) c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program terminates, nothing faulting,
    and every final memory holds each unscoped buffer at the last valuation of the chain. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V11 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m) (reg4 m))
    (fun c Q => by
      rewrite [main_chain c, Seg.run_eq_chain,
        show (segs m (outs m) 𝒱₀ L lv E () (pdats m) (reg0 m) (reg1 m) (reg2 m) (reg3 m) (reg4 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (fun c => by simp only [segs, Seg.pipes_host, Seg.pipes_region, Seg.pipes_nil]; decide) (O₀ := (0 : Dev nD → CellTallies nD τ sig Unit)) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V11 m (outs m) c))
    (hch := fun c => ⟨.rfl, .rfl, .rfl, .rfl, .rfl, .rfl, .rfl, .rfl, .rfl, .rfl, .rfl, sep_mono .rfl (by
      iintro ⟨-, HO⟩; iexact HO)⟩)
    (hinit := ?_)
    (QY := fun c s => ∀ b ∈ Pipeline.ucRefs τ sig, s.mem (((c : Thread nD τ)).1, b) = V11 m (outs m) c b)
    (hfin := fun c s' => ?_) (hQ := fun _ h => h)
  · -- the launch, core by core: the unscoped buffers are held at the launch memory; the generator register and the
    -- empty debt make the state that rides along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    unfold StableHlo.held
    iintro ⟨Hh, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro; exact h
    · iexact HSI

/-- THE FRAME: the argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨(h c _ (mem_uc main_arg0 (by decide))).trans (V11_main_arg0 m (outs m) c),
     (h c _ (mem_uc main_arg1 (by decide))).trans (V11_main_arg1 m (outs m) c),
     (h c _ (mem_uc main_arg2 (by decide))).trans (V11_main_arg2 m (outs m) c),
     (h c _ (mem_uc main_arg3 (by decide))).trans (V11_main_arg3 m (outs m) c),
     (h c _ (mem_uc main_arg4 (by decide))).trans (V11_main_arg4 m (outs m) c),
     (h c _ (mem_uc main_arg5 (by decide))).trans (V11_main_arg5 m (outs m) c),
     (h c _ (mem_uc main_arg6 (by decide))).trans (V11_main_arg6 m (outs m) c),
     (h c _ (mem_uc main_arg7 (by decide))).trans (V11_main_arg7 m (outs m) c),
     (h c _ (mem_uc main_arg8 (by decide))).trans (V11_main_arg8 m (outs m) c),
     (h c _ (mem_uc main_arg9 (by decide))).trans (V11_main_arg9 m (outs m) c),
     (h c _ (mem_uc main_arg10 (by decide))).trans (V11_main_arg10 m (outs m) c),
     (h c _ (mem_uc main_arg11 (by decide))).trans (V11_main_arg11 m (outs m) c),
     (h c _ (mem_uc main_arg12 (by decide))).trans (V11_main_arg12 m (outs m) c),
     (h c _ (mem_uc main_arg13 (by decide))).trans (V11_main_arg13 m (outs m) c),
     (h c _ (mem_uc main_arg14 (by decide))).trans (V11_main_arg14 m (outs m) c),
     (h c _ (mem_uc main_arg15 (by decide))).trans (V11_main_arg15 m (outs m) c),
     (h c _ (mem_uc main_arg16 (by decide))).trans (V11_main_arg16 m (outs m) c),
     (h c _ (mem_uc main_arg17 (by decide))).trans (V11_main_arg17 m (outs m) c),
     (h c _ (mem_uc main_arg18 (by decide))).trans (V11_main_arg18 m (outs m) c),
     (h c _ (mem_uc main_arg19 (by decide))).trans (V11_main_arg19 m (outs m) c),
     (h c _ (mem_uc main_arg20 (by decide))).trans (V11_main_arg20 m (outs m) c)⟩) (run_all m ρ)

end Cert.KernelIdeal.Hand

end
-- ==== Proof.Spec.lean ====
/-
  The common specification: what both programs compute, as ONE function of the twenty-one argument arrays.

  A two-layer GraphSAGE on a bipartite user/product graph.  Rows of the user table are picked by the user ids
  (an id below zero wrapped once by the table's length); product rows are the picked embedding rows plus the
  feature projection  pf · Wᵀ + b.  A layer sends, along every edge (src, dst), the source row to the
  destination, averages what arrives there (sum of the rows / max(count, 1)), and applies
      leaky( mean · Wlᵀ + bl + x_dst · Wrᵀ ),   leaky x = if x ≥ 0 then x else c · x,
  with the one f32 word c = 0x3C23D70A on both sides.  The results are the three user (product) stages side by side.

  Everything is spelt with the host operations in the order the reference applies them, so that each program's
  read-back meets these terms without reassociating anything.  The dense stages are stated over an ALREADY
  transposed weight and an ALREADY re-laid [1, 32] bias row: that is the form a tile-wise evaluation meets.
-/
import proofs.«158431_j3324304687820_1_alg».proof.ReferenceIdeal

noncomputable section

namespace Cert.ReferenceIdeal.Spec

open Idealize.ShloMosaic Idealize.SL.Sem
open Cert.ReferenceIdeal

variable {F : FTy → Type} [FloatOps F] [Facts]
open Facts₀ Facts

local notation "𝔹[" s ", " e "]" => BufTy.Contents (Elt F) (⟨s, e⟩ : BufTy)

/-! ## Index plumbing -/

/-- User ids as a column, an id below zero wrapped once by 500000. -/
def wrapColU (ids : 𝔹[S500000, .i32]) : 𝔹[S500000x1, .i32] :=
  broadcastInDim S500000x1 ![0] bcast_S500000_S500000x1_0
    (select (cmpi .slt ids (broadcastInDim S500000 ![] bcast_S_S500000 (constantI S_ 32 0#32)))
      (addi ids (broadcastInDim S500000 ![] bcast_S_S500000 (constantI S_ 32 500000#32))) ids)

/-- Product ids as a column, an id below zero wrapped once by 200000. -/
def wrapColP (ids : 𝔹[S200000, .i32]) : 𝔹[S200000x1, .i32] :=
  broadcastInDim S200000x1 ![0] bcast_S200000_S200000x1_0
    (select (cmpi .slt ids (broadcastInDim S200000 ![] bcast_S_S200000 (constantI S_ 32 0#32)))
      (addi ids (broadcastInDim S200000 ![] bcast_S_S200000 (constantI S_ 32 200000#32))) ids)

/-- Row 0 of an edge list [2, E]: the sources. -/
def srcOf (e : 𝔹[S2x2000000, .i32]) : 𝔹[S2000000, .i32] :=
  fun i => shapeCast S2000000 (extractStridedSlice S1x2000000 ![0, 0] e slices_S2x2000000_S1x2000000_0_0) shapeCasts_S1x2000000_S2000000 i

/-- Row 1 of an edge list [2, E]: the destinations. -/
def dstOf (e : 𝔹[S2x2000000, .i32]) : 𝔹[S2000000, .i32] :=
  fun i => shapeCast S2000000 (extractStridedSlice S1x2000000 ![1, 0] e slices_S2x2000000_S1x2000000_1_0) shapeCasts_S1x2000000_S2000000 i

/-- Edge endpoints as a column. -/
def colE (idx : 𝔹[S2000000, .i32]) : 𝔹[S2000000x1, .i32] :=
  broadcastInDim S2000000x1 ![0] bcast_S2000000_S2000000x1_0 idx

/-- Edge endpoints that name users, wrapped once by 500000, as a column. -/
def wrapEU (idx : 𝔹[S2000000, .i32]) : 𝔹[S2000000x1, .i32] :=
  colE (select (cmpi .slt idx (broadcastInDim S2000000 ![] bcast_S_S2000000 (constantI S_ 32 0#32)))
    (addi idx (broadcastInDim S2000000 ![] bcast_S_S2000000 (constantI S_ 32 500000#32))) idx)

/-- Edge endpoints that name products, wrapped once by 200000, as a column. -/
def wrapEP (idx : 𝔹[S2000000, .i32]) : 𝔹[S2000000x1, .i32] :=
  colE (select (cmpi .slt idx (broadcastInDim S2000000 ![] bcast_S_S2000000 (constantI S_ 32 0#32)))
    (addi idx (broadcastInDim S2000000 ![] bcast_S_S2000000 (constantI S_ 32 200000#32))) idx)

/-! ## Neighbourhood means -/

/-- Mean over the edges arriving at each PRODUCT of the USER rows they leave from. -/
def meanToP (x : 𝔹[S500000x32, .f32]) (e : 𝔹[S2x2000000, .i32]) : 𝔹[S200000x32, .f32] :=
  Host.divf
    (Host.scatterAdd scatter_S200000x32_S2000000x1_S2000000x32_1_0_0_1
      (broadcastInDim S200000x32 ![] bcast_S_S200000x32 (constant S_ .f32 0x00000000#32))
      (colE (dstOf e))
      (Host.gather gather_S500000x32_S2000000x1_S2000000x32_1_0_n_n_0_1_132 x (wrapEU (srcOf e))))
    (broadcastInDim S200000x32 ![0, 1] bcast_S200000x1_S200000x32_0_1
      (broadcastInDim S200000x1 ![0] bcast_S200000_S200000x1_0
        (maximumf
          (Host.scatterAdd scatter_S200000_S2000000x1_S2000000_n_0_0_1
            (broadcastInDim S200000 ![] bcast_S_S200000 (constant S_ .f32 0x00000000#32))
            (colE (dstOf e))
            (broadcastInDim S2000000 ![] bcast_S_S2000000 (constant S_ .f32 0x3F800000#32)))
          (broadcastInDim S200000 ![] bcast_S_S200000 (constant S_ .f32 0x3F800000#32)))))

/-- Mean over the edges arriving at each USER of the PRODUCT rows they leave from. -/
def meanToU (x : 𝔹[S200000x32, .f32]) (e : 𝔹[S2x2000000, .i32]) : 𝔹[S500000x32, .f32] :=
  Host.divf
    (Host.scatterAdd scatter_S500000x32_S2000000x1_S2000000x32_1_0_0_1
      (broadcastInDim S500000x32 ![] bcast_S_S500000x32 (constant S_ .f32 0x00000000#32))
      (colE (dstOf e))
      (Host.gather gather_S200000x32_S2000000x1_S2000000x32_1_0_n_n_0_1_132 x (wrapEP (srcOf e))))
    (broadcastInDim S500000x32 ![0, 1] bcast_S500000x1_S500000x32_0_1
      (broadcastInDim S500000x1 ![0] bcast_S500000_S500000x1_0
        (maximumf
          (Host.scatterAdd scatter_S500000_S2000000x1_S2000000_n_0_0_1
            (broadcastInDim S500000 ![] bcast_S_S500000 (constant S_ .f32 0x00000000#32))
            (colE (dstOf e))
            (broadcastInDim S2000000 ![] bcast_S_S2000000 (constant S_ .f32 0x3F800000#32)))
          (broadcastInDim S500000 ![] bcast_S_S500000 (constant S_ .f32 0x3F800000#32)))))

/-! ## Dense stages (weights already transposed, bias already a [1, 32] row) -/

/-- A weight matrix transposed. -/
def trW (w : 𝔹[S32x32, .f32]) : 𝔹[S32x32, .f32] := transpose S32x32 [1, 0] w transposes_S32x32_S32x32_1_0

/-- A bias vector as a [1, 32] row. -/
def rowB (b : 𝔹[S32, .f32]) : 𝔹[S1x32, .f32] := broadcastInDim S1x32 ![1] bcast_S32_S1x32_1 b

/-- The product feature stage: item + pf · wt + bias row, over 200000 rows. -/
def featDense (pf : 𝔹[S200000x256, .f32]) (item : 𝔹[S200000x32, .f32]) (wt : 𝔹[S256x32, .f32]) (b : 𝔹[S1x32, .f32]) :
    𝔹[S200000x32, .f32] :=
  addf (addf item (Host.dotGeneral dot_S200000x256_S256x32_S200000x32_1_0_0_1_n_n none pf wt))
    (broadcastInDim S200000x32 ![0, 1] bcast_S1x32_S200000x32_0_1 b)

/-- leaky over 200000 rows. -/
def leakyP (x : 𝔹[S200000x32, .f32]) : 𝔹[S200000x32, .f32] :=
  select (cmpf .oge x (broadcastInDim S200000x32 ![] bcast_S_S200000x32 (constant S_ .f32 0x00000000#32))) x
    (mulf (broadcastInDim S200000x32 ![] bcast_S_S200000x32 (id (constant S_ .f32 0x3C23D70A#32))) x)

/-- leaky over 500000 rows. -/
def leakyU (x : 𝔹[S500000x32, .f32]) : 𝔹[S500000x32, .f32] :=
  select (cmpf .oge x (broadcastInDim S500000x32 ![] bcast_S_S500000x32 (constant S_ .f32 0x00000000#32))) x
    (mulf (broadcastInDim S500000x32 ![] bcast_S_S500000x32 (id (constant S_ .f32 0x3C23D70A#32))) x)

/-- A layer's dense stage over 200000 rows: leaky(mean · wl + bias row + xdst · wr). -/
def denseP (mean xdst : 𝔹[S200000x32, .f32]) (wl : 𝔹[S32x32, .f32]) (b : 𝔹[S1x32, .f32]) (wr : 𝔹[S32x32, .f32]) :
    𝔹[S200000x32, .f32] :=
  leakyP (addf (addf (Host.dotGeneral dot_S200000x32_S32x32_S200000x32_1_0_0_1_n_n none mean wl)
      (broadcastInDim S200000x32 ![0, 1] bcast_S1x32_S200000x32_0_1 b))
    (Host.dotGeneral dot_S200000x32_S32x32_S200000x32_1_0_0_1_n_n none xdst wr))

/-- A layer's dense stage over 500000 rows. -/
def denseU (mean xdst : 𝔹[S500000x32, .f32]) (wl : 𝔹[S32x32, .f32]) (b : 𝔹[S1x32, .f32]) (wr : 𝔹[S32x32, .f32]) :
    𝔹[S500000x32, .f32] :=
  leakyU (addf (addf (Host.dotGeneral dot_S500000x32_S32x32_S500000x32_1_0_0_1_n_n none mean wl)
      (broadcastInDim S500000x32 ![0, 1] bcast_S1x32_S500000x32_0_1 b))
    (Host.dotGeneral dot_S500000x32_S32x32_S500000x32_1_0_0_1_n_n none xdst wr))

/-! ## The network -/

/-- The twenty-one argument arrays, in the programs' order. -/
structure Args (F : FTy → Type) [FloatOps F] where
  a0 : BufTy.Contents (Elt F) (⟨S500000, .i32⟩ : BufTy)
  a1 : BufTy.Contents (Elt F) (⟨S200000, .i32⟩ : BufTy)
  a2 : BufTy.Contents (Elt F) (⟨S200000x256, .f32⟩ : BufTy)
  a3 : BufTy.Contents (Elt F) (⟨S2x2000000, .i32⟩ : BufTy)
  a4 : BufTy.Contents (Elt F) (⟨S2x2000000, .i32⟩ : BufTy)
  a5 : BufTy.Contents (Elt F) (⟨S500000x32, .f32⟩ : BufTy)
  a6 : BufTy.Contents (Elt F) (⟨S200000x32, .f32⟩ : BufTy)
  a7 : BufTy.Contents (Elt F) (⟨S32x256, .f32⟩ : BufTy)
  a8 : BufTy.Contents (Elt F) (⟨S32, .f32⟩ : BufTy)
  a9 : BufTy.Contents (Elt F) (⟨S32x32, .f32⟩ : BufTy)
  a10 : BufTy.Contents (Elt F) (⟨S32, .f32⟩ : BufTy)
  a11 : BufTy.Contents (Elt F) (⟨S32x32, .f32⟩ : BufTy)
  a12 : BufTy.Contents (Elt F) (⟨S32x32, .f32⟩ : BufTy)
  a13 : BufTy.Contents (Elt F) (⟨S32, .f32⟩ : BufTy)
  a14 : BufTy.Contents (Elt F) (⟨S32x32, .f32⟩ : BufTy)
  a15 : BufTy.Contents (Elt F) (⟨S32x32, .f32⟩ : BufTy)
  a16 : BufTy.Contents (Elt F) (⟨S32, .f32⟩ : BufTy)
  a17 : BufTy.Contents (Elt F) (⟨S32x32, .f32⟩ : BufTy)
  a18 : BufTy.Contents (Elt F) (⟨S32x32, .f32⟩ : BufTy)
  a19 : BufTy.Contents (Elt F) (⟨S32, .f32⟩ : BufTy)
  a20 : BufTy.Contents (Elt F) (⟨S32x32, .f32⟩ : BufTy)

variable (A : Args F)

/-- The user rows. -/
def xu : 𝔹[S500000x32, .f32] :=
  Host.gather gather_S500000x32_S500000x1_S500000x32_1_0_n_n_0_1_132 A.a5 (wrapColU A.a0)

/-- The picked product embedding rows. -/
def itemRows : 𝔹[S200000x32, .f32] :=
  Host.gather gather_S200000x32_S200000x1_S200000x32_1_0_n_n_0_1_132 A.a6 (wrapColP A.a1)

/-- The product rows: embedding + feature projection + bias. -/
def xp : 𝔹[S200000x32, .f32] :=
  featDense A.a2 (itemRows A) (transpose S256x32 [1, 0] A.a7 transposes_S32x256_S256x32_1_0) (rowB A.a8)

/-- Layer 1, products. -/
def p1 : 𝔹[S200000x32, .f32] := denseP (meanToP (xu A) A.a3) (xp A) (trW A.a9) (rowB A.a10) (trW A.a11)
/-- Layer 1, users. -/
def u1 : 𝔹[S500000x32, .f32] := denseU (meanToU (xp A) A.a4) (xu A) (trW A.a12) (rowB A.a13) (trW A.a14)
/-- Layer 2, products. -/
def p2 : 𝔹[S200000x32, .f32] := denseP (meanToP (u1 A) A.a3) (p1 A) (trW A.a15) (rowB A.a16) (trW A.a17)
/-- Layer 2, users. -/
def u2 : 𝔹[S500000x32, .f32] := denseU (meanToU (p1 A) A.a4) (u1 A) (trW A.a18) (rowB A.a19) (trW A.a20)

/-- First result: the three user stages side by side. -/
def finalUser : 𝔹[S500000x96, .f32] :=
  concatenate S500000x96 1 [⟨S500000x32, xu A⟩, ⟨S500000x32, u1 A⟩, ⟨S500000x32, u2 A⟩]
    concatenates_S500000x32_S500000x32_S500000x32_S500000x96_d1

/-- Second result: the three product stages side by side. -/
def finalItem : 𝔹[S200000x96, .f32] :=
  concatenate S200000x96 1 [⟨S200000x32, xp A⟩, ⟨S200000x32, p1 A⟩, ⟨S200000x32, p2 A⟩]
    concatenates_S200000x32_S200000x32_S200000x32_S200000x96_d1

end Cert.ReferenceIdeal.Spec

end
-- ==== Proof.KIChainOps.lean ====
/-
  The kernel program's host stretches, read back one stretch at a time from ARBITRARY contents W of the buffers the
  stretch finds: each lemma says what ONE buffer holds after the stretch, as the common specification's term over W at
  the buffers the stretch reads.  Nothing here looks inside a gather, a scatter-add or a divide: the two programs apply
  the same operations in the same order, over shape names and dimension records that are literally the same data.

  The one place where the two spellings differ is the bias row.  The specification makes the [1, 32] row by
  broadcasting the [32] vector along axis 1; the kernel program re-lays the vector out as [1, 32].  Both read, at
  (0, t), the vector at t: the row-major position of (0, t) in [1, 32] is 0 * 32 + t = t, and the broadcast drops the
  unit coordinate.
-/
import proofs.«158431_j3324304687820_1_alg».proof.Proof.Gen.KernelIdeal.Regions
import proofs.«158431_j3324304687820_1_alg».proof.Proof.Spec
import Idealize.ShloMosaic.Lib.ValueLayout

noncomputable section

namespace Cert.KernelIdeal.Hand

open Idealize.ShloMosaic Idealize.ShloMosaic.TcCoe Idealize.SL.Sem Cert.KernelIdeal Cert.KernelIdeal.Gen
open Cert.ReferenceIdeal (Spec.rowB Spec.wrapColU Spec.wrapColP Spec.meanToP Spec.meanToU Spec.trW)

variable {F : FTy → Type} [FloatOps F] [Cert.ReferenceIdeal.Facts]

/-! ## The bias row -/

/-- A [32] vector re-laid as [1, 32] is the vector broadcast along axis 1: at (u, t) both are the vector at t. -/
theorem row_eq (b : BufTy.Contents (Elt F) (⟨Cert.ReferenceIdeal.S32, .f32⟩ : BufTy))
    (h : Cert.ReferenceIdeal.S32.ShapeCasts Cert.ReferenceIdeal.S1x32) :
    (fun i => shapeCast Cert.ReferenceIdeal.S1x32 b h i) = Spec.rowB b := by
  funext i
  obtain ⟨u, t, rfl⟩ : ∃ (u : Fin 1) (t : Fin 32), i = ValueIdx.ix2 u t :=
    ⟨i 0, i 1, ValueIdx.eq_ix2 (n0 := 1) (n1 := 32) i⟩
  unfold Cert.ReferenceIdeal.Spec.rowB
  refine (ValueIdx.shapeCast_a_1a_apply (a := 32) b h u t).trans ?_
  exact (broadcastInDim_apply _ _ b _ (ValueIdx.ix1 t) (fun a => by match a with | ⟨0, _⟩ => rfl)).symm

/-! ## Stretch 0: the user rows, the picked product rows, the feature weight transposed, the feature bias row -/

theorem S0_v6 (W : Valuation τ sig (Elt F)) :
    (StableHlo.after hostOps0 W main_v6 : BufTy.Contents (Elt F) (⟨Cert.ReferenceIdeal.S500000x32, .f32⟩ : BufTy))
      = Host.gather Cert.ReferenceIdeal.gather_S500000x32_S500000x1_S500000x32_1_0_n_n_0_1_132 (W main_arg5) (Spec.wrapColU (W main_arg0)) := by
  dsimp only [hostOps0]
  after_results_simp
  rfl

theorem S0_v13 (W : Valuation τ sig (Elt F)) :
    (StableHlo.after hostOps0 W main_v13 : BufTy.Contents (Elt F) (⟨Cert.ReferenceIdeal.S200000x32, .f32⟩ : BufTy))
      = Host.gather Cert.ReferenceIdeal.gather_S200000x32_S200000x1_S200000x32_1_0_n_n_0_1_132 (W main_arg6) (Spec.wrapColP (W main_arg1)) := by
  dsimp only [hostOps0]
  after_results_simp
  rfl

theorem S0_v14 (W : Valuation τ sig (Elt F)) :
    (StableHlo.after hostOps0 W main_v14 : BufTy.Contents (Elt F) (⟨Cert.ReferenceIdeal.S256x32, .f32⟩ : BufTy))
      = transpose Cert.ReferenceIdeal.S256x32 [1, 0] (W main_arg7) Cert.ReferenceIdeal.Facts₀.transposes_S32x256_S256x32_1_0 := by
  dsimp only [hostOps0]
  after_results_simp

theorem S0_v15 (W : Valuation τ sig (Elt F)) :
    (StableHlo.after hostOps0 W main_v15 : BufTy.Contents (Elt F) (⟨Cert.ReferenceIdeal.S1x32, .f32⟩ : BufTy))
      = Spec.rowB (W main_arg8) := by
  dsimp only [hostOps0]
  after_results_simp
  exact row_eq _ _

/-! ## Stretch 1: layer 1, products — the mean of the user rows, the two weights transposed, the bias row -/

theorem S1_v39 (W : Valuation τ sig (Elt F)) :
    (StableHlo.after hostOps1 W main_v39 : BufTy.Contents (Elt F) (⟨Cert.ReferenceIdeal.S200000x32, .f32⟩ : BufTy))
      = Spec.meanToP (W main_v6) (W main_arg3) := by
  dsimp only [hostOps1]
  after_results_simp
  rfl

theorem S1_v40 (W : Valuation τ sig (Elt F)) :
    (StableHlo.after hostOps1 W main_v40 : BufTy.Contents (Elt F) (⟨Cert.ReferenceIdeal.S32x32, .f32⟩ : BufTy))
      = Spec.trW (W main_arg9) := by
  dsimp only [hostOps1]
  after_results_simp
  rfl

theorem S1_v41 (W : Valuation τ sig (Elt F)) :
    (StableHlo.after hostOps1 W main_v41 : BufTy.Contents (Elt F) (⟨Cert.ReferenceIdeal.S32x32, .f32⟩ : BufTy))
      = Spec.trW (W main_arg11) := by
  dsimp only [hostOps1]
  after_results_simp
  rfl

theorem S1_v42 (W : Valuation τ sig (Elt F)) :
    (StableHlo.after hostOps1 W main_v42 : BufTy.Contents (Elt F) (⟨Cert.ReferenceIdeal.S1x32, .f32⟩ : BufTy))
      = Spec.rowB (W main_arg10) := by
  dsimp only [hostOps1]
  after_results_simp
  exact row_eq _ _

/-! ## Stretch 2: layer 1, users — the mean of the product rows, the two weights transposed, the bias row -/

theorem S2_v66 (W : Valuation τ sig (Elt F)) :
    (StableHlo.after hostOps2 W main_v66 : BufTy.Contents (Elt F) (⟨Cert.ReferenceIdeal.S500000x32, .f32⟩ : BufTy))
      = Spec.meanToU (W main_v16) (W main_arg4) := by
  dsimp only [hostOps2]
  after_results_simp
  rfl

theorem S2_v67 (W : Valuation τ sig (Elt F)) :
    (StableHlo.after hostOps2 W main_v67 : BufTy.Contents (Elt F) (⟨Cert.ReferenceIdeal.S32x32, .f32⟩ : BufTy))
      = Spec.trW (W main_arg12) := by
  dsimp only [hostOps2]
  after_results_simp
  rfl

theorem S2_v68 (W : Valuation τ sig (Elt F)) :
    (StableHlo.after hostOps2 W main_v68 : BufTy.Contents (Elt F) (⟨Cert.ReferenceIdeal.S32x32, .f32⟩ : BufTy))
      = Spec.trW (W main_arg14) := by
  dsimp only [hostOps2]
  after_results_simp
  rfl

theorem S2_v69 (W : Valuation τ sig (Elt F)) :
    (StableHlo.after hostOps2 W main_v69 : BufTy.Contents (Elt F) (⟨Cert.ReferenceIdeal.S1x32, .f32⟩ : BufTy))
      = Spec.rowB (W main_arg13) := by
  dsimp only [hostOps2]
  after_results_simp
  exact row_eq _ _

/-! ## Stretch 3: layer 2, products -/

theorem S3_v93 (W : Valuation τ sig (Elt F)) :
    (StableHlo.after hostOps3 W main_v93 : BufTy.Contents (Elt F) (⟨Cert.ReferenceIdeal.S200000x32, .f32⟩ : BufTy))
      = Spec.meanToP (W main_v70) (W main_arg3) := by
  dsimp only [hostOps3]
  after_results_simp
  rfl

theorem S3_v94 (W : Valuation τ sig (Elt F)) :
    (StableHlo.after hostOps3 W main_v94 : BufTy.Contents (Elt F) (⟨Cert.ReferenceIdeal.S32x32, .f32⟩ : BufTy))
      = Spec.trW (W main_arg15) := by
  dsimp only [hostOps3]
  after_results_simp
  rfl

theorem S3_v95 (W : Valuation τ sig (Elt F)) :
    (StableHlo.after hostOps3 W main_v95 : BufTy.Contents (Elt F) (⟨Cert.ReferenceIdeal.S32x32, .f32⟩ : BufTy))
      = Spec.trW (W main_arg17) := by
  dsimp only [hostOps3]
  after_results_simp
  rfl

theorem S3_v96 (W : Valuation τ sig (Elt F)) :
    (StableHlo.after hostOps3 W main_v96 : BufTy.Contents (Elt F) (⟨Cert.ReferenceIdeal.S1x32, .f32⟩ : BufTy))
      = Spec.rowB (W main_arg16) := by
  dsimp only [hostOps3]
  after_results_simp
  exact row_eq _ _

/-! ## Stretch 4: layer 2, users -/

theorem S4_v120 (W : Valuation τ sig (Elt F)) :
    (StableHlo.after hostOps4 W main_v120 : BufTy.Contents (Elt F) (⟨Cert.ReferenceIdeal.S500000x32, .f32⟩ : BufTy))
      = Spec.meanToU (W main_v43) (W main_arg4) := by
  dsimp only [hostOps4]
  after_results_simp
  rfl

theorem S4_v121 (W : Valuation τ sig (Elt F)) :
    (StableHlo.after hostOps4 W main_v121 : BufTy.Contents (Elt F) (⟨Cert.ReferenceIdeal.S32x32, .f32⟩ : BufTy))
      = Spec.trW (W main_arg18) := by
  dsimp only [hostOps4]
  after_results_simp
  rfl

theorem S4_v122 (W : Valuation τ sig (Elt F)) :
    (StableHlo.after hostOps4 W main_v122 : BufTy.Contents (Elt F) (⟨Cert.ReferenceIdeal.S32x32, .f32⟩ : BufTy))
      = Spec.trW (W main_arg20) := by
  dsimp only [hostOps4]
  after_results_simp
  rfl

theorem S4_v123 (W : Valuation τ sig (Elt F)) :
    (StableHlo.after hostOps4 W main_v123 : BufTy.Contents (Elt F) (⟨Cert.ReferenceIdeal.S1x32, .f32⟩ : BufTy))
      = Spec.rowB (W main_arg19) := by
  dsimp only [hostOps4]
  after_results_simp
  exact row_eq _ _

/-! ## Stretch 5: the two results, three stages side by side -/

theorem S5_v125 (W : Valuation τ sig (Elt F)) :
    (StableHlo.after hostOps5 W main_v125 : BufTy.Contents (Elt F) (⟨Cert.ReferenceIdeal.S500000x96, .f32⟩ : BufTy))
      = concatenate Cert.ReferenceIdeal.S500000x96 1 [⟨Cert.ReferenceIdeal.S500000x32, W main_v6⟩, ⟨Cert.ReferenceIdeal.S500000x32, W main_v70⟩, ⟨Cert.ReferenceIdeal.S500000x32, W main_v124⟩]
          Cert.ReferenceIdeal.Facts₀.concatenates_S500000x32_S500000x32_S500000x32_S500000x96_d1 := by
  dsimp only [hostOps5]
  after_results_simp
  rfl

theorem S5_v126 (W : Valuation τ sig (Elt F)) :
    (StableHlo.after hostOps5 W main_v126 : BufTy.Contents (Elt F) (⟨Cert.ReferenceIdeal.S200000x96, .f32⟩ : BufTy))
      = concatenate Cert.ReferenceIdeal.S200000x96 1 [⟨Cert.ReferenceIdeal.S200000x32, W main_v16⟩, ⟨Cert.ReferenceIdeal.S200000x32, W main_v43⟩, ⟨Cert.ReferenceIdeal.S200000x32, W main_v97⟩]
          Cert.ReferenceIdeal.Facts₀.concatenates_S200000x32_S200000x32_S200000x32_S200000x96_d1 := by
  dsimp only [hostOps5]
  after_results_simp
  rfl

end Cert.KernelIdeal.Hand

end
-- ==== Proof.KIChain.lean ====
/-
  The kernel program's buffers at the end of @main, read back as the common specification, GIVEN what each of the
  five tiled stages leaves in its output array.

  The program is six host stretches with a tiled stage between consecutive ones.  A stretch's results are the
  specification's terms over what the stretch finds (the stretch lemmas); a buffer no later item writes keeps its
  contents; a stage's output array holds what the stage's hypothesis says, and the stage's operands are by then known:
      the product rows   xp = feature stage of (features, picked rows, feature weight transposed, feature bias row),
      p1 = dense stage of (mean of the user rows along the first edge list, xp, …),
      u1 = dense stage of (mean of the product rows along the second edge list, xu, …),
      p2 = dense stage of (mean of u1, p1, …),     u2 = dense stage of (mean of p1, u1, …),
  and the two results are (xu, u1, u2) and (xp, p1, p2) side by side.
-/
import proofs.«158431_j3324304687820_1_alg».proof.Proof.KIChainOps

noncomputable section

namespace Cert.KernelIdeal.Hand

open Idealize.ShloMosaic Idealize.ShloMosaic.TcCoe Idealize.SL.Sem Cert.KernelIdeal Cert.KernelIdeal.Gen
open Cert.ReferenceIdeal (Spec.rowB Spec.trW Spec.meanToP Spec.meanToU Spec.featDense Spec.denseP Spec.denseU
  Spec.xu Spec.itemRows Spec.xp Spec.p1 Spec.u1 Spec.p2 Spec.u2 Spec.finalUser Spec.finalItem)

variable {F : FTy → Type} [FloatOps F] [Cert.ReferenceIdeal.Facts]

/-- The twenty-one argument arrays as core `c` holds them at launch. -/
def argsOf (m : (ℓ : Loc nD τ sig) → Buf (Elt F) ℓ) (c : Dev nD) : Cert.ReferenceIdeal.Spec.Args F :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18), m ((c.tc : Thread nD τ).loc main_arg19), m ((c.tc : Thread nD τ).loc main_arg20)⟩

/-! ## An array no item writes holds its launch contents -/

section Keep

variable (m : (ℓ : Loc nD τ sig) → Buf (Elt F) ℓ) (outs : Outs (F := F)) (c : Dev nD)

theorem V2_arg {r : Ref sig .tc} (a0 : r ∉ hostOps0_W) (b0 : r ∉ ([main_v16] : List (Ref sig .tc))) : V2 m outs c r = V0 m c r :=
  (V2_of m outs c r b0).trans (V1_of m c r a0)

theorem V4_arg {r : Ref sig .tc} (a0 : r ∉ hostOps0_W) (b0 : r ∉ ([main_v16] : List (Ref sig .tc))) (a1 : r ∉ hostOps1_W) (b1 : r ∉ ([main_v43] : List (Ref sig .tc))) :
    V4 m outs c r = V0 m c r :=
  (V4_of m outs c r b1).trans ((V3_of m outs c r a1).trans (V2_arg m outs c a0 b0))

theorem V6_arg {r : Ref sig .tc} (a0 : r ∉ hostOps0_W) (b0 : r ∉ ([main_v16] : List (Ref sig .tc))) (a1 : r ∉ hostOps1_W) (b1 : r ∉ ([main_v43] : List (Ref sig .tc)))
    (a2 : r ∉ hostOps2_W) (b2 : r ∉ ([main_v70] : List (Ref sig .tc))) : V6 m outs c r = V0 m c r :=
  (V6_of m outs c r b2).trans ((V5_of m outs c r a2).trans (V4_arg m outs c a0 b0 a1 b1))

theorem V8_arg {r : Ref sig .tc} (a0 : r ∉ hostOps0_W) (b0 : r ∉ ([main_v16] : List (Ref sig .tc))) (a1 : r ∉ hostOps1_W) (b1 : r ∉ ([main_v43] : List (Ref sig .tc)))
    (a2 : r ∉ hostOps2_W) (b2 : r ∉ ([main_v70] : List (Ref sig .tc))) (a3 : r ∉ hostOps3_W) (b3 : r ∉ ([main_v97] : List (Ref sig .tc))) : V8 m outs c r = V0 m c r :=
  (V8_of m outs c r b3).trans ((V7_of m outs c r a3).trans (V6_arg m outs c a0 b0 a1 b1 a2 b2))

end Keep

/-! ## The chain -/

theorem chain (m : (ℓ : Loc nD τ sig) → Buf (Elt F) ℓ) (outs : Outs (F := F)) (c : Dev nD)
    (h0 : outs 2 main_v16 c = Spec.featDense (V1 m c main_arg2) (V1 m c main_v13) (V1 m c main_v14) (V1 m c main_v15))
    (h1 : outs 4 main_v43 c = Spec.denseP (V3 m outs c main_v39) (V3 m outs c main_v16) (V3 m outs c main_v40) (V3 m outs c main_v42) (V3 m outs c main_v41))
    (h2 : outs 6 main_v70 c = Spec.denseU (V5 m outs c main_v66) (V5 m outs c main_v6) (V5 m outs c main_v67) (V5 m outs c main_v69) (V5 m outs c main_v68))
    (h3 : outs 8 main_v97 c = Spec.denseP (V7 m outs c main_v93) (V7 m outs c main_v43) (V7 m outs c main_v94) (V7 m outs c main_v96) (V7 m outs c main_v95))
    (h4 : outs 10 main_v124 c = Spec.denseU (V9 m outs c main_v120) (V9 m outs c main_v70) (V9 m outs c main_v121) (V9 m outs c main_v123) (V9 m outs c main_v122)) :
    V11 m outs c main_v125 = Spec.finalUser (argsOf m c) ∧ V11 m outs c main_v126 = Spec.finalItem (argsOf m c) := by
  -- stretch 0 from the launch contents, then the feature stage: the product rows
  have k6 : V1 m c main_v6 = Spec.xu (argsOf m c) := S0_v6 (V0 m c)
  have k13 : V1 m c main_v13 = Spec.itemRows (argsOf m c) := S0_v13 (V0 m c)
  have k14 : V1 m c main_v14 = transpose Cert.ReferenceIdeal.S256x32 [1, 0] (argsOf m c).a7 Cert.ReferenceIdeal.Facts₀.transposes_S32x256_S256x32_1_0 :=
    S0_v14 (V0 m c)
  have k15 : V1 m c main_v15 = Spec.rowB (argsOf m c).a8 := S0_v15 (V0 m c)
  have k2 : V1 m c main_arg2 = (argsOf m c).a2 := V1_of m c main_arg2 (by decide)
  have xp : outs 2 main_v16 c = Spec.xp (argsOf m c) := by rw [h0, k2, k13, k14, k15]; rfl
  have v6_2 : V2 m outs c main_v6 = Spec.xu (argsOf m c) := (V2_of m outs c main_v6 (by decide)).trans k6
  have v16_2 : V2 m outs c main_v16 = Spec.xp (argsOf m c) := (Function.update_self _ _ _).trans xp
  -- stretch 1, then layer 1 on the products
  have k39 : V3 m outs c main_v39 = Spec.meanToP (Spec.xu (argsOf m c)) (argsOf m c).a3 :=
    (S1_v39 (V2 m outs c)).trans (congrArg₂ Spec.meanToP v6_2 (V2_arg m outs c (r := main_arg3) (by decide) (by decide)))
  have k40 : V3 m outs c main_v40 = Spec.trW (argsOf m c).a9 :=
    (S1_v40 (V2 m outs c)).trans (congrArg Spec.trW (V2_arg m outs c (r := main_arg9) (by decide) (by decide)))
  have k41 : V3 m outs c main_v41 = Spec.trW (argsOf m c).a11 :=
    (S1_v41 (V2 m outs c)).trans (congrArg Spec.trW (V2_arg m outs c (r := main_arg11) (by decide) (by decide)))
  have k42 : V3 m outs c main_v42 = Spec.rowB (argsOf m c).a10 :=
    (S1_v42 (V2 m outs c)).trans (congrArg Spec.rowB (V2_arg m outs c (r := main_arg10) (by decide) (by decide)))
  have v16_3 : V3 m outs c main_v16 = Spec.xp (argsOf m c) := (V3_of m outs c main_v16 (by decide)).trans v16_2
  have p1 : outs 4 main_v43 c = Spec.p1 (argsOf m c) := by rw [h1, k39, v16_3, k40, k42, k41]; rfl
  have v6_4 : V4 m outs c main_v6 = Spec.xu (argsOf m c) :=
    (V4_of m outs c main_v6 (by decide)).trans ((V3_of m outs c main_v6 (by decide)).trans v6_2)
  have v16_4 : V4 m outs c main_v16 = Spec.xp (argsOf m c) := (V4_of m outs c main_v16 (by decide)).trans v16_3
  have v43_4 : V4 m outs c main_v43 = Spec.p1 (argsOf m c) := (Function.update_self _ _ _).trans p1
  -- stretch 2, then layer 1 on the users
  have k66 : V5 m outs c main_v66 = Spec.meanToU (Spec.xp (argsOf m c)) (argsOf m c).a4 :=
    (S2_v66 (V4 m outs c)).trans (congrArg₂ Spec.meanToU v16_4 (V4_arg m outs c (r := main_arg4) (by decide) (by decide) (by decide) (by decide)))
  have k67 : V5 m outs c main_v67 = Spec.trW (argsOf m c).a12 :=
    (S2_v67 (V4 m outs c)).trans (congrArg Spec.trW (V4_arg m outs c (r := main_arg12) (by decide) (by decide) (by decide) (by decide)))
  have k68 : V5 m outs c main_v68 = Spec.trW (argsOf m c).a14 :=
    (S2_v68 (V4 m outs c)).trans (congrArg Spec.trW (V4_arg m outs c (r := main_arg14) (by decide) (by decide) (by decide) (by decide)))
  have k69 : V5 m outs c main_v69 = Spec.rowB (argsOf m c).a13 :=
    (S2_v69 (V4 m outs c)).trans (congrArg Spec.rowB (V4_arg m outs c (r := main_arg13) (by decide) (by decide) (by decide) (by decide)))
  have v6_5 : V5 m outs c main_v6 = Spec.xu (argsOf m c) := (V5_of m outs c main_v6 (by decide)).trans v6_4
  have u1 : outs 6 main_v70 c = Spec.u1 (argsOf m c) := by rw [h2, k66, v6_5, k67, k69, k68]; rfl
  have v6_6 : V6 m outs c main_v6 = Spec.xu (argsOf m c) := (V6_of m outs c main_v6 (by decide)).trans v6_5
  have v16_6 : V6 m outs c main_v16 = Spec.xp (argsOf m c) :=
    (V6_of m outs c main_v16 (by decide)).trans ((V5_of m outs c main_v16 (by decide)).trans v16_4)
  have v43_6 : V6 m outs c main_v43 = Spec.p1 (argsOf m c) :=
    (V6_of m outs c main_v43 (by decide)).trans ((V5_of m outs c main_v43 (by decide)).trans v43_4)
  have v70_6 : V6 m outs c main_v70 = Spec.u1 (argsOf m c) := (Function.update_self _ _ _).trans u1
  -- stretch 3, then layer 2 on the products
  have k93 : V7 m outs c main_v93 = Spec.meanToP (Spec.u1 (argsOf m c)) (argsOf m c).a3 :=
    (S3_v93 (V6 m outs c)).trans (congrArg₂ Spec.meanToP v70_6 (V6_arg m outs c (r := main_arg3) (by decide) (by decide) (by decide) (by decide) (by decide) (by decide)))
  have k94 : V7 m outs c main_v94 = Spec.trW (argsOf m c).a15 :=
    (S3_v94 (V6 m outs c)).trans (congrArg Spec.trW (V6_arg m outs c (r := main_arg15) (by decide) (by decide) (by decide) (by decide) (by decide) (by decide)))
  have k95 : V7 m outs c main_v95 = Spec.trW (argsOf m c).a17 :=
    (S3_v95 (V6 m outs c)).trans (congrArg Spec.trW (V6_arg m outs c (r := main_arg17) (by decide) (by decide) (by decide) (by decide) (by decide) (by decide)))
  have k96 : V7 m outs c main_v96 = Spec.rowB (argsOf m c).a16 :=
    (S3_v96 (V6 m outs c)).trans (congrArg Spec.rowB (V6_arg m outs c (r := main_arg16) (by decide) (by decide) (by decide) (by decide) (by decide) (by decide)))
  have v43_7 : V7 m outs c main_v43 = Spec.p1 (argsOf m c) := (V7_of m outs c main_v43 (by decide)).trans v43_6
  have p2 : outs 8 main_v97 c = Spec.p2 (argsOf m c) := by rw [h3, k93, v43_7, k94, k96, k95]; rfl
  have v6_8 : V8 m outs c main_v6 = Spec.xu (argsOf m c) :=
    (V8_of m outs c main_v6 (by decide)).trans ((V7_of m outs c main_v6 (by decide)).trans v6_6)
  have v16_8 : V8 m outs c main_v16 = Spec.xp (argsOf m c) :=
    (V8_of m outs c main_v16 (by decide)).trans ((V7_of m outs c main_v16 (by decide)).trans v16_6)
  have v43_8 : V8 m outs c main_v43 = Spec.p1 (argsOf m c) := (V8_of m outs c main_v43 (by decide)).trans v43_7
  have v70_8 : V8 m outs c main_v70 = Spec.u1 (argsOf m c) :=
    (V8_of m outs c main_v70 (by decide)).trans ((V7_of m outs c main_v70 (by decide)).trans v70_6)
  have v97_8 : V8 m outs c main_v97 = Spec.p2 (argsOf m c) := (Function.update_self _ _ _).trans p2
  -- stretch 4, then layer 2 on the users
  have k120 : V9 m outs c main_v120 = Spec.meanToU (Spec.p1 (argsOf m c)) (argsOf m c).a4 :=
    (S4_v120 (V8 m outs c)).trans (congrArg₂ Spec.meanToU v43_8 (V8_arg m outs c (r := main_arg4) (by decide) (by decide) (by decide) (by decide) (by decide) (by decide) (by decide) (by decide)))
  have k121 : V9 m outs c main_v121 = Spec.trW (argsOf m c).a18 :=
    (S4_v121 (V8 m outs c)).trans (congrArg Spec.trW (V8_arg m outs c (r := main_arg18) (by decide) (by decide) (by decide) (by decide) (by decide) (by decide) (by decide) (by decide)))
  have k122 : V9 m outs c main_v122 = Spec.trW (argsOf m c).a20 :=
    (S4_v122 (V8 m outs c)).trans (congrArg Spec.trW (V8_arg m outs c (r := main_arg20) (by decide) (by decide) (by decide) (by decide) (by decide) (by decide) (by decide) (by decide)))
  have k123 : V9 m outs c main_v123 = Spec.rowB (argsOf m c).a19 :=
    (S4_v123 (V8 m outs c)).trans (congrArg Spec.rowB (V8_arg m outs c (r := main_arg19) (by decide) (by decide) (by decide) (by decide) (by decide) (by decide) (by decide) (by decide)))
  have v70_9 : V9 m outs c main_v70 = Spec.u1 (argsOf m c) := (V9_of m outs c main_v70 (by decide)).trans v70_8
  have u2 : outs 10 main_v124 c = Spec.u2 (argsOf m c) := by rw [h4, k120, v70_9, k121, k123, k122]; rfl
  -- stretch 5: the two results
  have v6_10 : V10 m outs c main_v6 = Spec.xu (argsOf m c) :=
    (V10_of m outs c main_v6 (by decide)).trans ((V9_of m outs c main_v6 (by decide)).trans v6_8)
  have v70_10 : V10 m outs c main_v70 = Spec.u1 (argsOf m c) := (V10_of m outs c main_v70 (by decide)).trans v70_9
  have v124_10 : V10 m outs c main_v124 = Spec.u2 (argsOf m c) := (Function.update_self _ _ _).trans u2
  have v16_10 : V10 m outs c main_v16 = Spec.xp (argsOf m c) :=
    (V10_of m outs c main_v16 (by decide)).trans ((V9_of m outs c main_v16 (by decide)).trans v16_8)
  have v43_10 : V10 m outs c main_v43 = Spec.p1 (argsOf m c) :=
    (V10_of m outs c main_v43 (by decide)).trans ((V9_of m outs c main_v43 (by decide)).trans v43_8)
  have v97_10 : V10 m outs c main_v97 = Spec.p2 (argsOf m c) :=
    (V10_of m outs c main_v97 (by decide)).trans ((V9_of m outs c main_v97 (by decide)).trans v97_8)
  refine ⟨?_, ?_⟩
  · refine (S5_v125 (V10 m outs c)).trans ?_
    rw [v6_10, v70_10, v124_10]; rfl
  · refine (S5_v126 (V10 m outs c)).trans ?_
    rw [v16_10, v43_10, v97_10]; rfl

end Cert.KernelIdeal.Hand

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibLeakyDense.lean ====
/-
  LEAKY-RECTIFIED DENSE STAGES, READ AT AN INDEX, generic in the extents.

  Over the extended reals, with  leaky v = v if v ≥ 0 else 0.2·v  (the slope the f32 word 0x3E4CCCCD, the zero the
  f32 word 0, both kept as words: the two spellings below carry the same words, so neither is ever evaluated):

  * a bias vector [B] laid as the row [1, B] and spread over [A, B] reads b(c) at (r, c) — in a kernel's spelling
    (shape cast, then vector broadcast) and in the host's (two broadcast_in_dim);
  * a scalar splat over any shape is the host's broadcast of a rank-0 constant;
  * x + bias row, then leaky, at (r, c) is  leaky (x(r, c) + b(c))  in both spellings;
  * a plain product whose operands pass a narrowing format change (the identity on the extended reals) is the host's
    dot_general of the operands, entry by entry:  Σ_k l(r, k) · w(k, c).

  * the two-layer head (leaky (z · W₂ + b₂)) · W₃ + b₃ at (r, c) as one double sum, in both spellings.

  Nothing here depends on a program.
-/
import Idealize.ShloMosaic.Lib.ValueIdx
import Idealize.ShloMosaic.Lib.ValueLayout
import Idealize.ShloMosaic.Lib.Pipeline.Value
import Idealize.ShloMosaic.PureOps.Ideal.Laws
import proofs.«158431_j3324304687820_1_alg».proof.Proof.LibPlainDot

noncomputable section

open scoped BigOperators

namespace Cert.Lib.LeakyDense

open Idealize.ShloMosaic Idealize.ShloMosaic.ValueIdx Cert.Lib.PlainDot

variable {A K B : Nat}

/-- leaky v = v where v ≥ 0, 0.2·v elsewhere: the comparison, the product and the choice as one scalar function
    of the extended real v, the zero and the slope as their f32 words. -/
def leaky (v : Ideal .f32) : Ideal .f32 :=
  Scalar.select (FloatOps.cmpf .oge v (FloatOps.ofBits .f32 0x00000000#32)) v
    (FloatOps.mulf (FloatOps.ofBits .f32 0x3E4CCCCD#32) v)

/-! ## The bias row -/

/-- A kernel's spelling: the vector [B] cast to [1, B] and broadcast over the rows of [A, B] reads b(c) at (r, c). -/
theorem kernelRow_apply {α : Type} (b : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (r : Fin A) (c : Fin B) :
    broadcastTo ⟨2, ![A, B]⟩ (shapeCast ⟨2, ![1, B]⟩ b h1) h2 (ix2 r c) = b (ix1 c) :=
  (broadcastTo_1b_ab_apply _ h2 r c).trans (shapeCast_a_1a_apply b h1 0 c)

/-- The host's spelling: the vector [B] broadcast along axis 1 into [1, B], then over [A, B], reads b(c) at (r, c). -/
theorem hostRow_apply {α : Type} (b : (⟨1, ![B]⟩ : Shape).Idx → α)
    (g1 : (⟨1, ![B]⟩ : Shape).BroadcastsInDim ⟨2, ![1, B]⟩ (![1] : Fin 1 → Fin 2))
    (g2 : (⟨2, ![1, B]⟩ : Shape).BroadcastsInDim ⟨2, ![A, B]⟩ (![0, 1] : Fin 2 → Fin 2))
    (r : Fin A) (c : Fin B) :
    broadcastInDim ⟨2, ![A, B]⟩ (![0, 1] : Fin 2 → Fin 2) g2 (broadcastInDim ⟨2, ![1, B]⟩ (![1] : Fin 1 → Fin 2) g1 b) (ix2 r c) = b (ix1 c) := by
  refine (broadcastInDim_apply _ g2 _ (ix2 r c) (ix2 (0 : Fin 1) c) fun a => ?_).trans
    (broadcastInDim_apply _ g1 b (ix2 (0 : Fin 1) c) (ix1 c) fun a => ?_)
  · match a with
    | ⟨0, _⟩ => show (0 : Nat) = if (1 : Nat) = 1 then 0 else r.val; rw [if_pos rfl]
    | ⟨1, _⟩ =>
      show c.val = if B = 1 then 0 else c.val
      split
      · have := c.isLt; omega
      · rfl
  · match a with
    | ⟨0, _⟩ =>
      show c.val = if B = 1 then 0 else c.val
      split
      · have := c.isLt; omega
      · rfl

/-! ## Bias, then leaky -/

/-- A kernel's spelling of  leaky (x + bias row)  at (r, c): the zero and the slope splat from scalars. -/
theorem kernelBiasLeaky_apply (x : FVec Ideal ⟨2, ![A, B]⟩ .f32) (b : FVec Ideal ⟨1, ![B]⟩ .f32)
    (h1 : (⟨1, ![B]⟩ : Shape).ShapeCasts ⟨2, ![1, B]⟩) (h2 : (⟨2, ![1, B]⟩ : Shape).Broadcasts ⟨2, ![A, B]⟩)
    (r : Fin A) (c : Fin B) :
    select (cmpf .oge (addf x (broadcastTo ⟨2, ![A, B]⟩ (shapeCast ⟨2, ![1, B]⟩ b h1) h2))
        (broadcast ⟨2, ![A, B]⟩ (Scalar.ofBits (F := Ideal) .f32 0x00000000#32)))
      (addf x (broadcastTo ⟨2, ![A, B]⟩ (shapeCast ⟨2, ![1, B]⟩ b h1) h2))
      (mulf (broadcast ⟨2, ![A, B]⟩ (Scalar.ofBits (F := Ideal) .f32 0x3E4CCCCD#32))
        (addf x (broadcastTo ⟨2, ![A, B]⟩ (shapeCast ⟨2, ![1, B]⟩ b h1) h2))) (ix2 r c)
      = leaky (x (ix2 r c) + b (ix1 c)) := by
  have e := kernelRow_apply (A := A) b h1 h2 r c
  show Scalar.select (FloatOps.cmpf .oge (x (ix2 r c) + _) _) (x (ix2 r c) + _) (FloatOps.mulf _ (x (ix2 r c) + _)) = _
  rw [e]
  rfl

/-- The host's spelling of  leaky (x + bias row)  at (r, c): the zero and the slope broadcast from rank-0 constants. -/
theorem hostBiasLeaky_apply (x : FVec Ideal ⟨2, ![A, B]⟩ .f32) (b : FVec Ideal ⟨1, ![B]⟩ .f32)
    (g1 : (⟨1, ![B]⟩ : Shape).BroadcastsInDim ⟨2, ![1, B]⟩ (![1] : Fin 1 → Fin 2))
    (g2 : (⟨2, ![1, B]⟩ : Shape).BroadcastsInDim ⟨2, ![A, B]⟩ (![0, 1] : Fin 2 → Fin 2))
    (g0 : (⟨0, ![]⟩ : Shape).BroadcastsInDim ⟨2, ![A, B]⟩ (![] : Fin 0 → Fin 2))
    (r : Fin A) (c : Fin B) :
    select (cmpf .oge (addf x (broadcastInDim ⟨2, ![A, B]⟩ (![0, 1] : Fin 2 → Fin 2) g2 (broadcastInDim ⟨2, ![1, B]⟩ (![1] : Fin 1 → Fin 2) g1 b)))
        (broadcastInDim ⟨2, ![A, B]⟩ (![] : Fin 0 → Fin 2) g0 (constant (F := Ideal) ⟨0, ![]⟩ .f32 0x00000000#32)))
      (addf x (broadcastInDim ⟨2, ![A, B]⟩ (![0, 1] : Fin 2 → Fin 2) g2 (broadcastInDim ⟨2, ![1, B]⟩ (![1] : Fin 1 → Fin 2) g1 b)))
      (mulf (broadcastInDim ⟨2, ![A, B]⟩ (![] : Fin 0 → Fin 2) g0 (constant (F := Ideal) ⟨0, ![]⟩ .f32 0x3E4CCCCD#32))
        (addf x (broadcastInDim ⟨2, ![A, B]⟩ (![0, 1] : Fin 2 → Fin 2) g2 (broadcastInDim ⟨2, ![1, B]⟩ (![1] : Fin 1 → Fin 2) g1 b)))) (ix2 r c)
      = leaky (x (ix2 r c) + b (ix1 c)) := by
  have e := hostRow_apply (A := A) b g1 g2 r c
  show Scalar.select (FloatOps.cmpf .oge (x (ix2 r c) + _) _) (x (ix2 r c) + _) (FloatOps.mulf _ (x (ix2 r c) + _)) = _
  rw [e]
  rfl

/-! ## The plain product through a narrowing format change -/

/-- A kernel's matmul into the zero accumulator of operands narrowed to another float format reads, at (r, c), the
    textbook sum of the operands themselves: the format change is the identity on the extended reals. -/
theorem kernelDot_apply {ψ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (hb : ψ.bits < FTy.f32.bits)
    (l : FVec Ideal ⟨2, ![A, K]⟩ .f32) (w : FVec Ideal ⟨2, ![K, B]⟩ .f32) (r : Fin A) (c : Fin B) :
    matmul d none (truncf ψ l hb) (truncf ψ w hb) (constant ⟨2, ![A, B]⟩ .f32 0x00000000#32) (ix2 r c)
      = ∑ k : Fin K, l (ix2 r k) * w (ix2 k c) := by
  obtain rfl := eq_plain d h1 h2 h3 h4 h5 h6
  exact matmul_zero_plain_apply none (truncf ψ l hb) (truncf ψ w hb) (ix2 r c)

/-- The host's dot_general of a plain product reads, at (r, c), the same sum. -/
theorem hostDot_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![A, K]⟩ .f32) (w : FVec Ideal ⟨2, ![K, B]⟩ .f32) (r : Fin A) (c : Fin B) :
    Host.dotGeneral d none l w (ix2 r c) = ∑ k : Fin K, l (ix2 r k) * w (ix2 k c) := by
  obtain rfl := eq_plain d h1 h2 h3 h4 h5 h6
  exact dotGeneral_plain_apply none l w (ix2 r c)

/-! ## Offsets of a whole-block access -/

theorem offs2 : (![0, 0] : Fin 2 → Nat) = fun _ => 0 := funext fun a => by fin_cases a <;> rfl
theorem offs1 : (![0] : Fin 1 → Nat) = fun _ => 0 := funext fun a => by fin_cases a; rfl

/-! ## A two-layer head:  (leaky (z · W₂ + b₂)) · W₃ + b₃ -/

section Head
variable {K₁ K₂ : Nat}

/-- A kernel's spelling of the head — both products into zero accumulators with operands narrowed to another float
    format, both biases cast to rows and broadcast, the zero and the slope splat — read at (r, c). -/
theorem kernelHead_apply {ψ : FTy} (d₂ : DotDims ⟨2, ![A, K₁]⟩ ⟨2, ![K₁, K₂]⟩ ⟨2, ![A, K₂]⟩) (p1 : d₂.lhsContracting = [1]) (p2 : d₂.rhsContracting = [0]) (p3 : d₂.lhsNonContracting = [0])
    (p4 : d₂.rhsNonContracting = [1]) (p5 : d₂.lhsBatch = []) (p6 : d₂.rhsBatch = [])
    (d₃ : DotDims ⟨2, ![A, K₂]⟩ ⟨2, ![K₂, B]⟩ ⟨2, ![A, B]⟩) (q1 : d₃.lhsContracting = [1]) (q2 : d₃.rhsContracting = [0]) (q3 : d₃.lhsNonContracting = [0])
    (q4 : d₃.rhsNonContracting = [1]) (q5 : d₃.lhsBatch = []) (q6 : d₃.rhsBatch = [])
    (hb : ψ.bits < FTy.f32.bits)
    (z : FVec Ideal ⟨2, ![A, K₁]⟩ .f32) (w₂ : FVec Ideal ⟨2, ![K₁, K₂]⟩ .f32) (b₂ : FVec Ideal ⟨1, ![K₂]⟩ .f32)
    (w₃ : FVec Ideal ⟨2, ![K₂, B]⟩ .f32) (b₃ : FVec Ideal ⟨1, ![B]⟩ .f32)
    (h0 : (⟨2, ![A, K₁]⟩ : Shape).ShapeCasts ⟨2, ![A, K₁]⟩)
    (h1 : (⟨1, ![K₂]⟩ : Shape).ShapeCasts ⟨2, ![1, K₂]⟩) (h2 : (⟨2, ![1, K₂]⟩ : Shape).Broadcasts ⟨2, ![A, K₂]⟩)
    (h3 : (⟨1, ![B]⟩ : Shape).ShapeCasts ⟨2, ![1, B]⟩) (h4 : (⟨2, ![1, B]⟩ : Shape).Broadcasts ⟨2, ![A, B]⟩)
    (r : Fin A) (c : Fin B) :
    (addf (matmul d₃ none (truncf ψ (select (cmpf .oge (addf (matmul d₂ none (truncf ψ (shapeCast ⟨2, ![A, K₁]⟩ z h0) hb) (truncf ψ w₂ hb) (constant ⟨2, ![A, K₂]⟩ .f32 0x00000000#32)) (broadcastTo ⟨2, ![A, K₂]⟩ (shapeCast ⟨2, ![1, K₂]⟩ b₂ h1) h2)) (broadcast ⟨2, ![A, K₂]⟩ (Scalar.ofBits (F := Ideal) .f32 0x00000000#32))) (addf (matmul d₂ none (truncf ψ (shapeCast ⟨2, ![A, K₁]⟩ z h0) hb) (truncf ψ w₂ hb) (constant ⟨2, ![A, K₂]⟩ .f32 0x00000000#32)) (broadcastTo ⟨2, ![A, K₂]⟩ (shapeCast ⟨2, ![1, K₂]⟩ b₂ h1) h2)) (mulf (broadcast ⟨2, ![A, K₂]⟩ (Scalar.ofBits (F := Ideal) .f32 0x3E4CCCCD#32)) (addf (matmul d₂ none (truncf ψ (shapeCast ⟨2, ![A, K₁]⟩ z h0) hb) (truncf ψ w₂ hb) (constant ⟨2, ![A, K₂]⟩ .f32 0x00000000#32)) (broadcastTo ⟨2, ![A, K₂]⟩ (shapeCast ⟨2, ![1, K₂]⟩ b₂ h1) h2)))) hb) (truncf ψ w₃ hb) (constant ⟨2, ![A, B]⟩ .f32 0x00000000#32)) (broadcastTo ⟨2, ![A, B]⟩ (shapeCast ⟨2, ![1, B]⟩ b₃ h3) h4)) (ix2 r c)
      = (∑ k : Fin K₂, leaky ((∑ j : Fin K₁, z (ix2 r j) * w₂ (ix2 j k)) + b₂ (ix1 k)) * w₃ (ix2 k c)) + b₃ (ix1 c) := by
  show (matmul d₃ none _ _ _) (ix2 r c) + (broadcastTo ⟨2, ![A, B]⟩ (shapeCast ⟨2, ![1, B]⟩ b₃ h3) h4) (ix2 r c) = _
  rw [kernelRow_apply (A := A) b₃ h3 h4 r c, kernelDot_apply d₃ q1 q2 q3 q4 q5 q6 hb _ w₃ r c]
  refine congrArg (· + b₃ (ix1 c)) (Finset.sum_congr rfl fun k _ => congrArg (· * w₃ (ix2 k c)) ?_)
  rw [kernelBiasLeaky_apply (A := A) _ b₂ h1 h2 r k, kernelDot_apply d₂ p1 p2 p3 p4 p5 p6 hb _ w₂ r k, shapeCast_self]

/-- The host's spelling of the head — two dot_general, each bias broadcast twice, the zero and the slope broadcast
    from rank-0 constants — read at (r, c): the same double sum. -/
theorem hostHead_apply (d₂ : DotDims ⟨2, ![A, K₁]⟩ ⟨2, ![K₁, K₂]⟩ ⟨2, ![A, K₂]⟩) (p1 : d₂.lhsContracting = [1]) (p2 : d₂.rhsContracting = [0]) (p3 : d₂.lhsNonContracting = [0])
    (p4 : d₂.rhsNonContracting = [1]) (p5 : d₂.lhsBatch = []) (p6 : d₂.rhsBatch = [])
    (d₃ : DotDims ⟨2, ![A, K₂]⟩ ⟨2, ![K₂, B]⟩ ⟨2, ![A, B]⟩) (q1 : d₃.lhsContracting = [1]) (q2 : d₃.rhsContracting = [0]) (q3 : d₃.lhsNonContracting = [0])
    (q4 : d₃.rhsNonContracting = [1]) (q5 : d₃.lhsBatch = []) (q6 : d₃.rhsBatch = [])
    (z : FVec Ideal ⟨2, ![A, K₁]⟩ .f32) (w₂ : FVec Ideal ⟨2, ![K₁, K₂]⟩ .f32) (b₂ : FVec Ideal ⟨1, ![K₂]⟩ .f32)
    (w₃ : FVec Ideal ⟨2, ![K₂, B]⟩ .f32) (b₃ : FVec Ideal ⟨1, ![B]⟩ .f32)
    (g1 : (⟨1, ![K₂]⟩ : Shape).BroadcastsInDim ⟨2, ![1, K₂]⟩ (![1] : Fin 1 → Fin 2))
    (g2 : (⟨2, ![1, K₂]⟩ : Shape).BroadcastsInDim ⟨2, ![A, K₂]⟩ (![0, 1] : Fin 2 → Fin 2))
    (g0 : (⟨0, ![]⟩ : Shape).BroadcastsInDim ⟨2, ![A, K₂]⟩ (![] : Fin 0 → Fin 2))
    (g3 : (⟨1, ![B]⟩ : Shape).BroadcastsInDim ⟨2, ![1, B]⟩ (![1] : Fin 1 → Fin 2))
    (g4 : (⟨2, ![1, B]⟩ : Shape).BroadcastsInDim ⟨2, ![A, B]⟩ (![0, 1] : Fin 2 → Fin 2))
    (r : Fin A) (c : Fin B) :
    (addf (Host.dotGeneral d₃ none (select (cmpf .oge (addf (Host.dotGeneral d₂ none z w₂) (broadcastInDim ⟨2, ![A, K₂]⟩ (![0, 1] : Fin 2 → Fin 2) g2 (broadcastInDim ⟨2, ![1, K₂]⟩ (![1] : Fin 1 → Fin 2) g1 b₂))) (broadcastInDim ⟨2, ![A, K₂]⟩ (![] : Fin 0 → Fin 2) g0 (constant (F := Ideal) ⟨0, ![]⟩ .f32 0x00000000#32))) (addf (Host.dotGeneral d₂ none z w₂) (broadcastInDim ⟨2, ![A, K₂]⟩ (![0, 1] : Fin 2 → Fin 2) g2 (broadcastInDim ⟨2, ![1, K₂]⟩ (![1] : Fin 1 → Fin 2) g1 b₂))) (mulf (broadcastInDim ⟨2, ![A, K₂]⟩ (![] : Fin 0 → Fin 2) g0 (constant (F := Ideal) ⟨0, ![]⟩ .f32 0x3E4CCCCD#32)) (addf (Host.dotGeneral d₂ none z w₂) (broadcastInDim ⟨2, ![A, K₂]⟩ (![0, 1] : Fin 2 → Fin 2) g2 (broadcastInDim ⟨2, ![1, K₂]⟩ (![1] : Fin 1 → Fin 2) g1 b₂))))) w₃) (broadcastInDim ⟨2, ![A, B]⟩ (![0, 1] : Fin 2 → Fin 2) g4 (broadcastInDim ⟨2, ![1, B]⟩ (![1] : Fin 1 → Fin 2) g3 b₃))) (ix2 r c)
      = (∑ k : Fin K₂, leaky ((∑ j : Fin K₁, z (ix2 r j) * w₂ (ix2 j k)) + b₂ (ix1 k)) * w₃ (ix2 k c)) + b₃ (ix1 c) := by
  show (Host.dotGeneral d₃ none _ w₃) (ix2 r c) + (broadcastInDim ⟨2, ![A, B]⟩ (![0, 1] : Fin 2 → Fin 2) g4 (broadcastInDim ⟨2, ![1, B]⟩ (![1] : Fin 1 → Fin 2) g3 b₃)) (ix2 r c) = _
  rw [hostRow_apply (A := A) b₃ g3 g4 r c, hostDot_apply d₃ q1 q2 q3 q4 q5 q6 _ w₃ r c]
  refine congrArg (· + b₃ (ix1 c)) (Finset.sum_congr rfl fun k _ => congrArg (· * w₃ (ix2 k c)) ?_)
  rw [hostBiasLeaky_apply (A := A) _ b₂ g1 g2 g0 r k, hostDot_apply d₂ p1 p2 p3 p4 p5 p6 z w₂ r k]

end Head

end Cert.Lib.LeakyDense

end
-- ==== Proof.KIVal0Pt.lean ====
/-
  The feature stage, index by index, in its two spellings.

  One tile of the kernel computes, at (p, q),
      ( x1(p, q) + Σ_k x0(p, k) · x2(k, q) ) + x3(0, q)
  for the embedding tile x1, the feature tile x0, the transposed weight x2 and the bias row x3; the specification's
  feature stage is, at (r, q),
      ( item(r, q) + Σ_k pf(r, k) · wt(k, q) ) + b(0, q).
  The grouping is the same, so nothing is reassociated and nothing has to be finite.  The kernel narrows the product's
  operands to a shorter float format first — the identity on the extended reals — and accumulates into zero, which is
  the plain sum.
-/
import proofs.«158431_j3324304687820_1_alg».proof.Proof.Gen.KernelIdeal.Skeleton
import proofs.«158431_j3324304687820_1_alg».proof.Proof.Spec
import proofs.«158431_j3324304687820_1_alg».proof.Proof.LibLeakyDense

noncomputable section

open scoped BigOperators

namespace Cert.KernelIdeal.Hand

open Idealize.ShloMosaic Idealize.ShloMosaic.ValueIdx
open Cert.KernelIdeal Cert.KernelIdeal.Gen
open Cert.ReferenceIdeal (Spec.featDense)

/-! ## The two spellings of the feature stage, read at an index -/

/-- The tile's arithmetic at (p, q): the embedding entry, plus the row of features against the column of the weight,
    plus the bias entry of the column.  The narrowing of the product's operands is the identity on the extended
    reals, and the product into a zero accumulator is the plain sum. -/
theorem pay0_apply (x0 : FVec Ideal ⟨2, ![4000, 256]⟩ .f32) (x2 : FVec Ideal ⟨2, ![256, 32]⟩ .f32)
    (x1 : FVec Ideal ⟨2, ![4000, 32]⟩ .f32) (x3 : FVec Ideal ⟨2, ![1, 32]⟩ .f32) (p : Fin 4000) (q : Fin 32) :
    k0_pay1 (F := Ideal) x0 x2 x1 x3 (ix2 p q)
      = (x1 (ix2 p q) + ∑ k : Fin 256, x0 (ix2 p k) * x2 (ix2 k q)) + x3 (ix2 (0 : Fin 1) q) := by
  unfold k0_pay1
  show (shapeCast S4000x32 x1 shapeCasts_S4000x32_S4000x32 (ix2 p q)
        + matmul dot_S4000x256_S256x32_S4000x32_1_0_0_1_n_n none (truncf .bf16 x0 bitsLt_bf16_f32)
            (truncf .bf16 (shapeCast S256x32 x2 shapeCasts_S256x32_S256x32) bitsLt_bf16_f32)
            (constant S4000x32 .f32 0x00000000#32) (ix2 p q))
      + broadcastTo S4000x32 (shapeCast S1x32 x3 shapeCasts_S1x32_S1x32) broadcasts_S1x32_S4000x32 (ix2 p q) = _
  rw [shapeCast_self, shapeCast_self, shapeCast_self,
    Cert.Lib.LeakyDense.kernelDot_apply dot_S4000x256_S256x32_S4000x32_1_0_0_1_n_n rfl rfl rfl rfl rfl rfl bitsLt_bf16_f32 x0 x2 p q,
    broadcastTo_1b_ab_apply]

/-- The specification's feature stage at (r, q): the same three terms, grouped the same way. -/
theorem feat_apply [Cert.ReferenceIdeal.Facts] (pf : FVec Ideal ⟨2, ![200000, 256]⟩ .f32) (item : FVec Ideal ⟨2, ![200000, 32]⟩ .f32)
    (wt : FVec Ideal ⟨2, ![256, 32]⟩ .f32) (b : FVec Ideal ⟨2, ![1, 32]⟩ .f32) (r : Fin 200000) (q : Fin 32) :
    Spec.featDense (F := Ideal) pf item wt b (ix2 r q)
      = (item (ix2 r q) + ∑ k : Fin 256, pf (ix2 r k) * wt (ix2 k q)) + b (ix2 (0 : Fin 1) q) := by
  unfold Cert.ReferenceIdeal.Spec.featDense
  show (item (ix2 r q) + Host.dotGeneral Cert.ReferenceIdeal.dot_S200000x256_S256x32_S200000x32_1_0_0_1_n_n none pf wt (ix2 r q))
      + broadcastInDim Cert.ReferenceIdeal.S200000x32 ![0, 1] Cert.ReferenceIdeal.Facts₀.bcast_S1x32_S200000x32_0_1 b (ix2 r q) = _
  rw [Cert.Lib.LeakyDense.hostDot_apply Cert.ReferenceIdeal.dot_S200000x256_S256x32_S200000x32_1_0_0_1_n_n rfl rfl rfl rfl rfl rfl pf wt r q]
  refine congrArg (fun z => (item (ix2 r q) + ∑ k : Fin 256, pf (ix2 r k) * wt (ix2 k q)) + z) ?_
  refine broadcastInDim_apply _ _ b (ix2 r q) (ix2 (0 : Fin 1) q) fun a => ?_
  match a with
  | ⟨0, _⟩ => show (0 : Nat) = if (1 : Nat) = 1 then 0 else r.val; rw [if_pos rfl]
  | ⟨1, _⟩ => show q.val = if (32 : Nat) = 1 then 0 else q.val; rw [if_neg (by decide)]

/-- A tile of the kernel against the specification: when the feature tile and the embedding tile are rows
    T·4000 … T·4000 + 3999 of their arrays and the weight and the bias row are whole, the tile's arithmetic at (p, q)
    is the specification at row T·4000 + p. -/
theorem tile_eq [Cert.ReferenceIdeal.Facts] (x0 : FVec Ideal ⟨2, ![4000, 256]⟩ .f32) (x1 : FVec Ideal ⟨2, ![4000, 32]⟩ .f32)
    (x2 : FVec Ideal ⟨2, ![256, 32]⟩ .f32) (x3 : FVec Ideal ⟨2, ![1, 32]⟩ .f32)
    (pf : FVec Ideal ⟨2, ![200000, 256]⟩ .f32) (item : FVec Ideal ⟨2, ![200000, 32]⟩ .f32)
    (wt : FVec Ideal ⟨2, ![256, 32]⟩ .f32) (b : FVec Ideal ⟨2, ![1, 32]⟩ .f32)
    (T : Nat) (p : Fin 4000) (q : Fin 32) (hr : T * 4000 + p.val < 200000)
    (h0 : ∀ k : Fin 256, x0 (ix2 p k) = pf (ix2 (⟨T * 4000 + p.val, hr⟩ : Fin 200000) k))
    (h1 : x1 (ix2 p q) = item (ix2 (⟨T * 4000 + p.val, hr⟩ : Fin 200000) q))
    (h2 : x2 = wt) (h3 : x3 = b) :
    k0_pay1 (F := Ideal) x0 x2 x1 x3 (ix2 p q)
      = Spec.featDense (F := Ideal) pf item wt b (ix2 (⟨T * 4000 + p.val, hr⟩ : Fin 200000) q) := by
  rw [pay0_apply, feat_apply, h1, h2, h3]
  exact congrArg (fun z => (item (ix2 (⟨T * 4000 + p.val, hr⟩ : Fin 200000) q) + z) + b (ix2 (0 : Fin 1) q))
    (Finset.sum_congr rfl fun k _ => congrArg (· * wt (ix2 k q)) (h0 k))

end Cert.KernelIdeal.Hand

end
-- ==== Proof.KIVal0.lean ====
/-
  Stage 0's output array after its 50 grid points: the specification's feature stage of the arrays the stage finds.

  Point t loads rows 4000·t … 4000·t + 3999 of the features and of the picked embedding rows, the whole transposed weight
  and the whole bias row, and writes rows 4000·t … 4000·t + 3999 of the output.  So what point t writes back is block t
  of ONE function of the arrays found on entry — the specification's feature stage — and since row r lies in the tile
  of point r / 4000, the 50 tiles cover the array and it ends holding that function.
-/
import proofs.«158431_j3324304687820_1_alg».proof.Proof.KIDefs
import proofs.«158431_j3324304687820_1_alg».proof.Proof.Spec
import proofs.«158431_j3324304687820_1_alg».proof.Proof.KIVal0Pt

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.ReferenceIdeal (Spec.featDense)

variable [Cert.ReferenceIdeal.Facts]
variable (V : (c : Dev nD) → (b : Ref sig .tc) → Buf (Elt Ideal) ((c : Thread nD τ).loc b))

/-! ## The tiles' places in their arrays -/

/-- The index maps over the grid of 50 points: at point t the feature tile, the embedding tile and the output tile are
    block (t, 0) of their arrays; the weight and the bias row are block (0, 0), the whole array. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem hN0 : cfg0.N = 50 := N_0

/-- What point t writes back is block t of the specification's feature stage of the arrays the stage finds. -/
theorem flushed0 (c : Dev nD) (t : Fin cfg0.N) :
    (dat0 V c).flushed 4 t = ((cfg0.win 4).blk t).view.read (Elt Ideal)
      (Spec.featDense (V c main_arg2) (V c main_v13) (V c main_v14) (V c main_v15)) := by
  show (cfg0.win 4).cut (grid0.coords t) ((dat0 V c).after 4 t) = _
  rw [after0_4]
  unfold out0_4
  rw [View.canon_unit_zero Cert.Lib.LeakyDense.offs2]
  simp only [View.ld_unit_zero (S := S4000x256) Cert.Lib.LeakyDense.offs2, View.ld_unit_zero (S := S4000x32) Cert.Lib.LeakyDense.offs2,
    View.ld_unit_zero (S := S256x32) Cert.Lib.LeakyDense.offs2, View.ld_unit_zero (S := S1x32) Cert.Lib.LeakyDense.offs2]
  obtain ⟨e0, e1, e2, e3, e4, e5, e6, e7, e8, e9⟩ := idx0 t
  have ht : t.val < 50 := lt_of_lt_of_eq t.isLt hN0
  funext j
  obtain ⟨p, q, rfl⟩ : ∃ (p : Fin 4000) (q : Fin 32), j = ix2 p q := ⟨j 0, j 1, eq_ix2 j⟩
  have hp : p.val < 4000 := p.isLt
  have hr : t.val * 4000 + p.val < 200000 := by omega
  show k0_pay1 (F := Ideal) (iblk0 V c 0 t) (iblk0 V c 2 t) (iblk0 V c 1 t) (iblk0 V c 3 t) (ix2 p q)
    = Spec.featDense (F := Ideal) (V c main_arg2) (V c main_v13) (V c main_v14) (V c main_v15) (((cfg0.win 4).blk t).view.emb (ix2 p q))
  have hemb : ((cfg0.win 4).blk t).view.emb (ix2 p q) = ix2 (⟨t.val * 4000 + p.val, hr⟩ : Fin 200000) q := by
    funext a; apply Fin.ext
    match a with
    | ⟨0, _⟩ => show win0_4.index t (0 : Fin 2) * 4000 + 1 * p.val = t.val * 4000 + p.val; omega
    | ⟨1, _⟩ => show win0_4.index t (1 : Fin 2) * 32 + 1 * q.val = q.val; omega
  rw [hemb]
  refine tile_eq (iblk0 V c 0 t) (iblk0 V c 1 t) (iblk0 V c 2 t) (iblk0 V c 3 t) (V c main_arg2) (V c main_v13) (V c main_v14)
    (V c main_v15) t.val p q hr (fun k => ?_) ?_ ?_ ?_
  · show V c main_arg2 (((cfg0.win 0).blk t).view.emb (ix2 p k)) = V c main_arg2 (ix2 (⟨t.val * 4000 + p.val, hr⟩ : Fin 200000) k)
    refine congrArg (V c main_arg2) (funext fun a => Fin.ext ?_)
    match a with
    | ⟨0, _⟩ => show win0_0.index t (0 : Fin 2) * 4000 + 1 * p.val = t.val * 4000 + p.val; omega
    | ⟨1, _⟩ => show win0_0.index t (1 : Fin 2) * 256 + 1 * k.val = k.val; omega
  · show V c main_v13 (((cfg0.win 1).blk t).view.emb (ix2 p q)) = V c main_v13 (ix2 (⟨t.val * 4000 + p.val, hr⟩ : Fin 200000) q)
    refine congrArg (V c main_v13) (funext fun a => Fin.ext ?_)
    match a with
    | ⟨0, _⟩ => show win0_1.index t (0 : Fin 2) * 4000 + 1 * p.val = t.val * 4000 + p.val; omega
    | ⟨1, _⟩ => show win0_1.index t (1 : Fin 2) * 32 + 1 * q.val = q.val; omega
  · funext y
    show V c main_v14 (((cfg0.win 2).blk t).view.emb y) = V c main_v14 y
    refine congrArg (V c main_v14) (funext fun a => Fin.ext ?_)
    match a with
    | ⟨0, _⟩ => show win0_2.index t (0 : Fin 2) * 256 + 1 * (y 0).val = (y 0).val; omega
    | ⟨1, _⟩ => show win0_2.index t (1 : Fin 2) * 32 + 1 * (y 1).val = (y 1).val; omega
  · funext y
    show V c main_v15 (((cfg0.win 3).blk t).view.emb y) = V c main_v15 y
    refine congrArg (V c main_v15) (funext fun a => Fin.ext ?_)
    match a with
    | ⟨0, _⟩ => show win0_3.index t (0 : Fin 2) * 1 + 1 * (y 0).val = (y 0).val; omega
    | ⟨1, _⟩ => show win0_3.index t (1 : Fin 2) * 32 + 1 * (y 1).val = (y 1).val; omega

/-- An index of the output array is in point t's block iff each coordinate is in the block's range on its axis. -/
theorem mem_blk0 (t : Fin cfg0.N) (i : S200000x32.Idx) :
    i ∈ ((cfg0.win 4).blk t).view.set ↔ ∀ a : Fin 2, win0_4.index t a * S4000x32.size a ≤ (i a).val
      ∧ (i a).val < win0_4.index t a * S4000x32.size a + S4000x32.size a := by
  show i ∈ ((View.whole main_v16).slice (win0_4.rect t)).set ↔ _
  rw [View.set_slice_whole, Rect.mem_set_unit]
  exact Iff.rfl

/-- The 50 tiles of 4000 rows cover the 200000 rows: row r is in the tile of point r / 4000. -/
theorem cover0 (i : S200000x32.Idx) : ∃ t : Fin cfg0.N, (cfg0.win 4).flush t = true ∧ i ∈ ((cfg0.win 4).blk t).view.set := by
  have hi0 : (i 0).val < 200000 := (i 0).isLt
  have hi1 : (i 1).val < 32 := (i 1).isLt
  have hlt : (i 0).val / 4000 < cfg0.N := by rw [hN0]; omega
  obtain ⟨e0, e1, e2, e3, e4, e5, e6, e7, e8, e9⟩ := idx0 ⟨(i 0).val / 4000, hlt⟩
  have e8' : win0_4.index ⟨(i 0).val / 4000, hlt⟩ (0 : Fin 2) = (i 0).val / 4000 := e8
  refine ⟨⟨(i 0).val / 4000, hlt⟩, flush0_4 _, ?_⟩
  rw [mem_blk0]
  intro a
  match a with
  | ⟨0, _⟩ =>
    show win0_4.index ⟨(i 0).val / 4000, hlt⟩ (0 : Fin 2) * 4000 ≤ (i 0).val
      ∧ (i 0).val < win0_4.index ⟨(i 0).val / 4000, hlt⟩ (0 : Fin 2) * 4000 + 4000
    omega
  | ⟨1, _⟩ =>
    show win0_4.index ⟨(i 0).val / 4000, hlt⟩ (1 : Fin 2) * 32 ≤ (i 1).val
      ∧ (i 1).val < win0_4.index ⟨(i 0).val / 4000, hlt⟩ (1 : Fin 2) * 32 + 32
    omega

/-! ## The output array after the stage -/

/-- After the 50 points the output array holds the specification's feature stage of the arrays the stage found. -/
theorem final0 (c : Dev nD) :
    (dat0 V c).arrAt 4 cfg0.N = Spec.featDense (V c main_arg2) (V c main_v13) (V c main_v14) (V c main_v15) :=
  (dat0 V c).arrAt_eq_of_cover 4 _ (fun t _ => flushed0 V c t) cover0

end Cert.KernelIdeal.Hand

end
-- ==== Proof.KIValDense.lean ====
/-
  The dense step of a layer, read at one entry.

  On a tile of rows and on the whole array alike, the entry (r, c) of  leaky(mean · wl + bias row + root · wr)  is
      leaky((Σ_k mean(r,k) · wl(k,c) + b(0,c)) + Σ_k root(r,k) · wr(k,c)),   leaky v = v if v ≥ 0 else w · v,
  with the slope the one f32 word w = 0x3C23D70A and the zero the f32 word 0, both kept as words.  A narrowing of
  the operands' float format is the identity on the extended reals, a product into a zero accumulator is the plain
  sum, and so is the host's dot_general: the two spellings meet in one scalar term, the same sums in the same grouping.
-/
import proofs.«158431_j3324304687820_1_alg».proof.Proof.Gen.KernelIdeal.Skeleton
import proofs.«158431_j3324304687820_1_alg».proof.Proof.Spec
import proofs.«158431_j3324304687820_1_alg».proof.Proof.LibLeakyDense
import Idealize.ShloMosaic.Lib.Pipeline.Value
import Idealize.ShloMosaic.Lib.ValueIdx
import Idealize.ShloMosaic.Lib.ValueLayout

noncomputable section

open scoped BigOperators

namespace Cert.KernelIdeal.Hand

open Idealize.ShloMosaic Idealize.ShloMosaic.ValueIdx
open Cert.KernelIdeal Cert.KernelIdeal.Gen
open Cert.Lib.LeakyDense (kernelDot_apply hostDot_apply)

/-- leaky v = v where v ≥ 0, w · v elsewhere, the zero and the slope w as their f32 words. -/
def leakyW (v : Ideal .f32) : Ideal .f32 :=
  Scalar.select (FloatOps.cmpf .oge v (FloatOps.ofBits .f32 0x00000000#32)) v
    (FloatOps.mulf (FloatOps.ofBits .f32 0x3C23D70A#32) v)

/-- The dense step at the entry (r, c), over A rows. -/
def denseAt {A : Nat} (mean xdst : (⟨2, ![A, 32]⟩ : Shape).Idx → EReal) (wl : (⟨2, ![32, 32]⟩ : Shape).Idx → EReal)
    (b : (⟨2, ![1, 32]⟩ : Shape).Idx → EReal) (wr : (⟨2, ![32, 32]⟩ : Shape).Idx → EReal) (r : Fin A) (c : Fin 32) : EReal :=
  leakyW ((∑ k : Fin 32, mean (ix2 r k) * wl (ix2 k c) + b (ix2 (0 : Fin 1) c)) + ∑ k : Fin 32, xdst (ix2 r k) * wr (ix2 k c))

/-- The tile's arithmetic at an entry of the tile. -/
theorem pay1_apply (x0 x1 : Vec Ideal S10000x32 .f32) (x2 x4 : Vec Ideal S32x32 .f32) (x3 : Vec Ideal S1x32 .f32)
    (p : Fin 10000) (q : Fin 32) :
    k1_pay1 x0 x1 x2 x4 x3 (ix2 p q) = denseAt x0 x1 x2 x3 x4 p q := by
  unfold k1_pay1
  simp only [shapeCast_self]
  have e0 := kernelDot_apply dot_S10000x32_S32x32_S10000x32_1_0_0_1_n_n rfl rfl rfl rfl rfl rfl bitsLt_bf16_f32 x0 x2 p q
  have e1 := kernelDot_apply dot_S10000x32_S32x32_S10000x32_1_0_0_1_n_n rfl rfl rfl rfl rfl rfl bitsLt_bf16_f32 x1 x4 p q
  have eb := broadcastTo_1b_ab_apply x3 broadcasts_S1x32_S10000x32 p q
  show leakyW ((matmul _ none _ _ _ (ix2 p q) + broadcastTo S10000x32 x3 _ (ix2 p q)) + matmul _ none _ _ _ (ix2 p q)) = _
  rw [e0, e1, eb]
  rfl

/-- Stages 2, 3 and 4 run the same tile arithmetic. -/
theorem k2_pay1_eq : @k2_pay1 Ideal _ = @k1_pay1 Ideal _ := rfl
theorem k3_pay1_eq : @k3_pay1 Ideal _ = @k1_pay1 Ideal _ := rfl
theorem k4_pay1_eq : @k4_pay1 Ideal _ = @k1_pay1 Ideal _ := rfl

/-- A [1, B] row spread over the rows of [A, B] by the host's broadcast reads the row's entry c at (r, c). -/
theorem hostRow1_apply {α : Type} {A B : Nat} (b : (⟨2, ![1, B]⟩ : Shape).Idx → α)
    (g : (⟨2, ![1, B]⟩ : Shape).BroadcastsInDim ⟨2, ![A, B]⟩ (![0, 1] : Fin 2 → Fin 2)) (r : Fin A) (c : Fin B) :
    broadcastInDim ⟨2, ![A, B]⟩ (![0, 1] : Fin 2 → Fin 2) g b (ix2 r c) = b (ix2 (0 : Fin 1) c) := by
  refine broadcastInDim_apply _ g _ (ix2 r c) (ix2 (0 : Fin 1) c) fun a => ?_
  match a with
  | ⟨0, _⟩ => show (0 : Nat) = if (1 : Nat) = 1 then 0 else r.val; rw [if_pos rfl]
  | ⟨1, _⟩ =>
    show c.val = if B = 1 then 0 else c.val
    split
    · have := c.isLt; omega
    · rfl

section Host
variable [Cert.ReferenceIdeal.Facts]
open Cert.ReferenceIdeal Cert.ReferenceIdeal.Facts₀ Cert.ReferenceIdeal.Facts

/-- The specification's dense stage over 200000 rows at an entry. -/
theorem denseP_apply (mean xdst : BufTy.Contents (Elt Ideal) (⟨S200000x32, .f32⟩ : BufTy))
    (wl : BufTy.Contents (Elt Ideal) (⟨S32x32, .f32⟩ : BufTy)) (b : BufTy.Contents (Elt Ideal) (⟨S1x32, .f32⟩ : BufTy))
    (wr : BufTy.Contents (Elt Ideal) (⟨S32x32, .f32⟩ : BufTy)) (r : Fin 200000) (q : Fin 32) :
    Spec.denseP (F := Ideal) mean xdst wl b wr (ix2 r q) = denseAt mean xdst wl b wr r q := by
  unfold Spec.denseP Spec.leakyP
  have e0 := hostDot_apply dot_S200000x32_S32x32_S200000x32_1_0_0_1_n_n rfl rfl rfl rfl rfl rfl mean wl r q
  have e1 := hostDot_apply dot_S200000x32_S32x32_S200000x32_1_0_0_1_n_n rfl rfl rfl rfl rfl rfl xdst wr r q
  have eb := hostRow1_apply b bcast_S1x32_S200000x32_0_1 r q
  show leakyW ((Host.dotGeneral _ none mean wl (ix2 r q) + broadcastInDim _ _ _ b (ix2 r q)) + Host.dotGeneral _ none xdst wr (ix2 r q)) = _
  rw [e0, e1, eb]
  rfl

/-- The specification's dense stage over 500000 rows at an entry. -/
theorem denseU_apply (mean xdst : BufTy.Contents (Elt Ideal) (⟨S500000x32, .f32⟩ : BufTy))
    (wl : BufTy.Contents (Elt Ideal) (⟨S32x32, .f32⟩ : BufTy)) (b : BufTy.Contents (Elt Ideal) (⟨S1x32, .f32⟩ : BufTy))
    (wr : BufTy.Contents (Elt Ideal) (⟨S32x32, .f32⟩ : BufTy)) (r : Fin 500000) (q : Fin 32) :
    Spec.denseU (F := Ideal) mean xdst wl b wr (ix2 r q) = denseAt mean xdst wl b wr r q := by
  unfold Spec.denseU Spec.leakyU
  have e0 := hostDot_apply dot_S500000x32_S32x32_S500000x32_1_0_0_1_n_n rfl rfl rfl rfl rfl rfl mean wl r q
  have e1 := hostDot_apply dot_S500000x32_S32x32_S500000x32_1_0_0_1_n_n rfl rfl rfl rfl rfl rfl xdst wr r q
  have eb := hostRow1_apply b bcast_S1x32_S500000x32_0_1 r q
  show leakyW ((Host.dotGeneral _ none mean wl (ix2 r q) + broadcastInDim _ _ _ b (ix2 r q)) + Host.dotGeneral _ none xdst wr (ix2 r q)) = _
  rw [e0, e1, eb]
  rfl

end Host

end Cert.KernelIdeal.Hand

end
-- ==== Proof.KIVal1.lean ====
/-
  Stage 1: a layer's dense step on tiles of 10000 rows over 200000 rows.

  What the tiled stage leaves in its output array is the specification's dense stage of the arrays it found:
  grid point t loads rows 10000·t … 10000·t + 9999 of the mean and root arrays and the whole weights and bias row,
  and stores the tile's arithmetic as rows 10000·t … of the output; row r of the array lies in tile r / 10000.
-/
import proofs.«158431_j3324304687820_1_alg».proof.Proof.KIDefs
import proofs.«158431_j3324304687820_1_alg».proof.Proof.Spec
import proofs.«158431_j3324304687820_1_alg».proof.Proof.KIValDense

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem offs1 : (![0, 0] : Fin 2 → Nat) = fun _ => 0 := funext fun a => by fin_cases a <;> rfl

/-- The index maps over the grid: the row tiles move with the point, the weights and the bias row stay. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The mean tile at point t is rows 10000·t … of the mean array. -/
theorem iblk1_0_apply (c : Dev nD) (t : Fin cfg1.N) (x : S10000x32.Idx) (i : S200000x32.Idx)
    (h0 : (i 0).val = t.val * 10000 + (x 0).val) (h1 : (i 1).val = (x 1).val) :
    (iblk1 V c 0 t : Vec Ideal S10000x32 .f32) x = (V c main_v39 : S200000x32.Idx → EReal) i := by
  obtain ⟨e0, e1, -⟩ := idx1 t
  unfold iblk1
  rw [View.read_apply]
  show V c main_v39 _ = V c main_v39 _
  congr 1
  funext a
  apply Fin.ext
  match a with
  | ⟨0, _⟩ => show win1_0.index t 0 * 10000 + 1 * (x 0).val = (i 0).val; rw [e0, h0]; omega
  | ⟨1, _⟩ => show win1_0.index t 1 * 32 + 1 * (x 1).val = (i 1).val; rw [e1, h1]; omega

/-- The root tile at point t is rows 10000·t … of the root array. -/
theorem iblk1_1_apply (c : Dev nD) (t : Fin cfg1.N) (x : S10000x32.Idx) (i : S200000x32.Idx)
    (h0 : (i 0).val = t.val * 10000 + (x 0).val) (h1 : (i 1).val = (x 1).val) :
    (iblk1 V c 1 t : Vec Ideal S10000x32 .f32) x = (V c main_v16 : S200000x32.Idx → EReal) i := by
  obtain ⟨-, -, e0, e1, -⟩ := idx1 t
  unfold iblk1
  rw [View.read_apply]
  show V c main_v16 _ = V c main_v16 _
  congr 1
  funext a
  apply Fin.ext
  match a with
  | ⟨0, _⟩ => show win1_1.index t 0 * 10000 + 1 * (x 0).val = (i 0).val; rw [e0, h0]; omega
  | ⟨1, _⟩ => show win1_1.index t 1 * 32 + 1 * (x 1).val = (i 1).val; rw [e1, h1]; omega

/-- The left weight's block is the whole array at every point. -/
theorem iblk1_2_eq (c : Dev nD) (t : Fin cfg1.N) :
    (iblk1 V c 2 t : Vec Ideal S32x32 .f32) = (V c main_v40 : S32x32.Idx → EReal) := by
  obtain ⟨-, -, -, -, e0, e1, -⟩ := idx1 t
  funext x
  unfold iblk1
  rw [View.read_apply]
  show V c main_v40 _ = V c main_v40 _
  congr 1
  funext a
  apply Fin.ext
  match a with
  | ⟨0, _⟩ => show win1_2.index t 0 * 32 + 1 * (x 0).val = (x 0).val; rw [e0]; omega
  | ⟨1, _⟩ => show win1_2.index t 1 * 32 + 1 * (x 1).val = (x 1).val; rw [e1]; omega

/-- The bias row's block is the whole row at every point. -/
theorem iblk1_3_eq (c : Dev nD) (t : Fin cfg1.N) :
    (iblk1 V c 3 t : Vec Ideal S1x32 .f32) = (V c main_v42 : S1x32.Idx → EReal) := by
  obtain ⟨-, -, -, -, -, -, e0, e1, -⟩ := idx1 t
  funext x
  unfold iblk1
  rw [View.read_apply]
  show V c main_v42 _ = V c main_v42 _
  congr 1
  funext a
  apply Fin.ext
  match a with
  | ⟨0, _⟩ => show win1_3.index t 0 * 1 + 1 * (x 0).val = (x 0).val; rw [e0]; omega
  | ⟨1, _⟩ => show win1_3.index t 1 * 32 + 1 * (x 1).val = (x 1).val; rw [e1]; omega

/-- The right weight's block is the whole array at every point. -/
theorem iblk1_4_eq (c : Dev nD) (t : Fin cfg1.N) :
    (iblk1 V c 4 t : Vec Ideal S32x32 .f32) = (V c main_v41 : S32x32.Idx → EReal) := by
  obtain ⟨-, -, -, -, -, -, -, -, e0, e1, -⟩ := idx1 t
  funext x
  unfold iblk1
  rw [View.read_apply]
  show V c main_v41 _ = V c main_v41 _
  congr 1
  funext a
  apply Fin.ext
  match a with
  | ⟨0, _⟩ => show win1_4.index t 0 * 32 + 1 * (x 0).val = (x 0).val; rw [e0]; omega
  | ⟨1, _⟩ => show win1_4.index t 1 * 32 + 1 * (x 1).val = (x 1).val; rw [e1]; omega

/-- One tile against the whole stage: where the tile's row p is the array's row r, the tile's arithmetic at (p, q) is
    the specification's dense stage at (r, q). -/
theorem tile1_eq [Cert.ReferenceIdeal.Facts] (x0 x1 : Vec Ideal S10000x32 .f32) (x2 x4 : Vec Ideal S32x32 .f32) (x3 : Vec Ideal S1x32 .f32)
    (mean xdst : S200000x32.Idx → EReal) (p : Fin 10000) (q : Fin 32) (r : Fin 200000)
    (h0 : ∀ k : Fin 32, x0 (ix2 p k) = mean (ix2 r k))
    (h1 : ∀ k : Fin 32, x1 (ix2 p k) = xdst (ix2 r k)) :
    k1_pay1 x0 x1 x2 x4 x3 (ix2 p q) = Cert.ReferenceIdeal.Spec.denseP (F := Ideal) mean xdst x2 x3 x4 (ix2 r q) := by
  rw [pay1_apply, denseP_apply]
  unfold denseAt
  simp only [h0, h1]

/-- What point t writes back is block t of the specification's dense stage of the arrays the stage found. -/
theorem flushed1_eq [Cert.ReferenceIdeal.Facts] (c : Dev nD) (t : Fin cfg1.N) :
    (dat1 V c).flushed 5 t = ((cfg1.win 5).blk t).view.read (Elt Ideal)
      (Cert.ReferenceIdeal.Spec.denseP (F := Ideal) (V c main_v39) (V c main_v16) (V c main_v40) (V c main_v42) (V c main_v41)) := by
  show (cfg1.win 5).cut (grid1.coords t) ((dat1 V c).after 5 t) = _
  rw [after1_5]
  unfold out1_5
  rw [View.canon_unit_zero offs1]
  simp only [View.ld_unit_zero (S := S10000x32) offs1, View.ld_unit_zero (S := S32x32) offs1, View.ld_unit_zero (S := S1x32) offs1]
  rw [iblk1_2_eq, iblk1_3_eq, iblk1_4_eq]
  obtain ⟨-, -, -, -, -, -, -, -, -, -, e0, e1⟩ := idx1 t
  have hN : cfg1.N = 20 := N_1
  have ht : t.val < 20 := hN ▸ t.isLt
  funext j
  rw [View.read_apply]
  obtain ⟨p, q, rfl⟩ : ∃ (p : Fin 10000) (q : Fin 32), j = ix2 p q := ⟨j 0, j 1, eq_ix2 j⟩
  have hp : p.val < 10000 := p.isLt
  have hi : ((cfg1.win 5).blk t).view.emb (ix2 p q) = (ix2 (⟨t.val * 10000 + p.val, by omega⟩ : Fin 200000) q : S200000x32.Idx) := by
    funext a
    apply Fin.ext
    match a with
    | ⟨0, _⟩ => show win1_5.index t 0 * 10000 + 1 * p.val = t.val * 10000 + p.val; rw [e0]; omega
    | ⟨1, _⟩ => show win1_5.index t 1 * 32 + 1 * q.val = q.val; rw [e1]; omega
  rw [hi]
  exact tile1_eq _ _ _ _ _ _ _ p q _ (fun k => iblk1_0_apply V c t _ _ rfl rfl) (fun k => iblk1_1_apply V c t _ _ rfl rfl)

/-- An index of the output array is in point t's block iff its row is one of the block's rows. -/
theorem mem_blk1 (t : Fin cfg1.N) (i : S200000x32.Idx) :
    i ∈ ((cfg1.win 5).blk t).view.set ↔ ∀ a : Fin 2, win1_5.index t a * S10000x32.size a ≤ (i a).val ∧ (i a).val < win1_5.index t a * S10000x32.size a + S10000x32.size a := by
  show i ∈ ((View.whole main_v43).slice (win1_5.rect t)).set ↔ _
  rw [View.set_slice_whole, Rect.mem_set_unit]
  exact Iff.rfl

/-- Every row of the output array lies in the block of the point r / 10000. -/
theorem cover1 (i : S200000x32.Idx) : ∃ t : Fin cfg1.N, (cfg1.win 5).flush t = true ∧ i ∈ ((cfg1.win 5).blk t).view.set := by
  have hi0 : (i 0).val < 200000 := (i 0).isLt
  have hi1 : (i 1).val < 32 := (i 1).isLt
  have hN : cfg1.N = 20 := N_1
  let t : Fin cfg1.N := ⟨(i 0).val / 10000, by rw [hN]; omega⟩
  obtain ⟨-, -, -, -, -, -, -, -, -, -, e0, e1⟩ := idx1 t
  have ht : t.val = (i 0).val / 10000 := rfl
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; rw [e0, ht]; omega
  | ⟨1, _⟩ => show win1_5.index t (1 : Fin 2) * 32 ≤ (i 1).val ∧ (i 1).val < win1_5.index t (1 : Fin 2) * 32 + 32; rw [e1]; omega

/-- The array stage 1 leaves is the specification's dense stage of the arrays it found. -/
theorem final1 [Cert.ReferenceIdeal.Facts] (c : Dev nD) :
    (dat1 V c).arrAt 5 cfg1.N = Cert.ReferenceIdeal.Spec.denseP (F := Ideal) (V c main_v39) (V c main_v16) (V c main_v40) (V c main_v42) (V c main_v41) :=
  (dat1 V c).arrAt_eq_of_cover 5 _ (fun t _ => flushed1_eq V c t) (cover1)

end Cert.KernelIdeal.Hand

end
-- ==== Proof.KIVal2.lean ====
/-
  Stage 2: a layer's dense step on tiles of 10000 rows over 500000 rows.

  What the tiled stage leaves in its output array is the specification's dense stage of the arrays it found:
  grid point t loads rows 10000·t … 10000·t + 9999 of the mean and root arrays and the whole weights and bias row,
  and stores the tile's arithmetic as rows 10000·t … of the output; row r of the array lies in tile r / 10000.
-/
import proofs.«158431_j3324304687820_1_alg».proof.Proof.KIDefs
import proofs.«158431_j3324304687820_1_alg».proof.Proof.Spec
import proofs.«158431_j3324304687820_1_alg».proof.Proof.KIValDense

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem offs2 : (![0, 0] : Fin 2 → Nat) = fun _ => 0 := funext fun a => by fin_cases a <;> rfl

/-- The index maps over the grid: the row tiles move with the point, the weights and the bias row stay. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The mean tile at point t is rows 10000·t … of the mean array. -/
theorem iblk2_0_apply (c : Dev nD) (t : Fin cfg2.N) (x : S10000x32.Idx) (i : S500000x32.Idx)
    (h0 : (i 0).val = t.val * 10000 + (x 0).val) (h1 : (i 1).val = (x 1).val) :
    (iblk2 V c 0 t : Vec Ideal S10000x32 .f32) x = (V c main_v66 : S500000x32.Idx → EReal) i := by
  obtain ⟨e0, e1, -⟩ := idx2 t
  unfold iblk2
  rw [View.read_apply]
  show V c main_v66 _ = V c main_v66 _
  congr 1
  funext a
  apply Fin.ext
  match a with
  | ⟨0, _⟩ => show win2_0.index t 0 * 10000 + 1 * (x 0).val = (i 0).val; rw [e0, h0]; omega
  | ⟨1, _⟩ => show win2_0.index t 1 * 32 + 1 * (x 1).val = (i 1).val; rw [e1, h1]; omega

/-- The root tile at point t is rows 10000·t … of the root array. -/
theorem iblk2_1_apply (c : Dev nD) (t : Fin cfg2.N) (x : S10000x32.Idx) (i : S500000x32.Idx)
    (h0 : (i 0).val = t.val * 10000 + (x 0).val) (h1 : (i 1).val = (x 1).val) :
    (iblk2 V c 1 t : Vec Ideal S10000x32 .f32) x = (V c main_v6 : S500000x32.Idx → EReal) i := by
  obtain ⟨-, -, e0, e1, -⟩ := idx2 t
  unfold iblk2
  rw [View.read_apply]
  show V c main_v6 _ = V c main_v6 _
  congr 1
  funext a
  apply Fin.ext
  match a with
  | ⟨0, _⟩ => show win2_1.index t 0 * 10000 + 1 * (x 0).val = (i 0).val; rw [e0, h0]; omega
  | ⟨1, _⟩ => show win2_1.index t 1 * 32 + 1 * (x 1).val = (i 1).val; rw [e1, h1]; omega

/-- The left weight's block is the whole array at every point. -/
theorem iblk2_2_eq (c : Dev nD) (t : Fin cfg2.N) :
    (iblk2 V c 2 t : Vec Ideal S32x32 .f32) = (V c main_v67 : S32x32.Idx → EReal) := by
  obtain ⟨-, -, -, -, e0, e1, -⟩ := idx2 t
  funext x
  unfold iblk2
  rw [View.read_apply]
  show V c main_v67 _ = V c main_v67 _
  congr 1
  funext a
  apply Fin.ext
  match a with
  | ⟨0, _⟩ => show win2_2.index t 0 * 32 + 1 * (x 0).val = (x 0).val; rw [e0]; omega
  | ⟨1, _⟩ => show win2_2.index t 1 * 32 + 1 * (x 1).val = (x 1).val; rw [e1]; omega

/-- The bias row's block is the whole row at every point. -/
theorem iblk2_3_eq (c : Dev nD) (t : Fin cfg2.N) :
    (iblk2 V c 3 t : Vec Ideal S1x32 .f32) = (V c main_v69 : S1x32.Idx → EReal) := by
  obtain ⟨-, -, -, -, -, -, e0, e1, -⟩ := idx2 t
  funext x
  unfold iblk2
  rw [View.read_apply]
  show V c main_v69 _ = V c main_v69 _
  congr 1
  funext a
  apply Fin.ext
  match a with
  | ⟨0, _⟩ => show win2_3.index t 0 * 1 + 1 * (x 0).val = (x 0).val; rw [e0]; omega
  | ⟨1, _⟩ => show win2_3.index t 1 * 32 + 1 * (x 1).val = (x 1).val; rw [e1]; omega

/-- The right weight's block is the whole array at every point. -/
theorem iblk2_4_eq (c : Dev nD) (t : Fin cfg2.N) :
    (iblk2 V c 4 t : Vec Ideal S32x32 .f32) = (V c main_v68 : S32x32.Idx → EReal) := by
  obtain ⟨-, -, -, -, -, -, -, -, e0, e1, -⟩ := idx2 t
  funext x
  unfold iblk2
  rw [View.read_apply]
  show V c main_v68 _ = V c main_v68 _
  congr 1
  funext a
  apply Fin.ext
  match a with
  | ⟨0, _⟩ => show win2_4.index t 0 * 32 + 1 * (x 0).val = (x 0).val; rw [e0]; omega
  | ⟨1, _⟩ => show win2_4.index t 1 * 32 + 1 * (x 1).val = (x 1).val; rw [e1]; omega

/-- One tile against the whole stage: where the tile's row p is the array's row r, the tile's arithmetic at (p, q) is
    the specification's dense stage at (r, q). -/
theorem tile2_eq [Cert.ReferenceIdeal.Facts] (x0 x1 : Vec Ideal S10000x32 .f32) (x2 x4 : Vec Ideal S32x32 .f32) (x3 : Vec Ideal S1x32 .f32)
    (mean xdst : S500000x32.Idx → EReal) (p : Fin 10000) (q : Fin 32) (r : Fin 500000)
    (h0 : ∀ k : Fin 32, x0 (ix2 p k) = mean (ix2 r k))
    (h1 : ∀ k : Fin 32, x1 (ix2 p k) = xdst (ix2 r k)) :
    k2_pay1 x0 x1 x2 x4 x3 (ix2 p q) = Cert.ReferenceIdeal.Spec.denseU (F := Ideal) mean xdst x2 x3 x4 (ix2 r q) := by
  rw [k2_pay1_eq, pay1_apply, denseU_apply]
  unfold denseAt
  simp only [h0, h1]

/-- What point t writes back is block t of the specification's dense stage of the arrays the stage found. -/
theorem flushed2_eq [Cert.ReferenceIdeal.Facts] (c : Dev nD) (t : Fin cfg2.N) :
    (dat2 V c).flushed 5 t = ((cfg2.win 5).blk t).view.read (Elt Ideal)
      (Cert.ReferenceIdeal.Spec.denseU (F := Ideal) (V c main_v66) (V c main_v6) (V c main_v67) (V c main_v69) (V c main_v68)) := by
  show (cfg2.win 5).cut (grid2.coords t) ((dat2 V c).after 5 t) = _
  rw [after2_5]
  unfold out2_5
  rw [View.canon_unit_zero offs2]
  simp only [View.ld_unit_zero (S := S10000x32) offs2, View.ld_unit_zero (S := S32x32) offs2, View.ld_unit_zero (S := S1x32) offs2]
  rw [iblk2_2_eq, iblk2_3_eq, iblk2_4_eq]
  obtain ⟨-, -, -, -, -, -, -, -, -, -, e0, e1⟩ := idx2 t
  have hN : cfg2.N = 50 := N_2
  have ht : t.val < 50 := hN ▸ t.isLt
  funext j
  rw [View.read_apply]
  obtain ⟨p, q, rfl⟩ : ∃ (p : Fin 10000) (q : Fin 32), j = ix2 p q := ⟨j 0, j 1, eq_ix2 j⟩
  have hp : p.val < 10000 := p.isLt
  have hi : ((cfg2.win 5).blk t).view.emb (ix2 p q) = (ix2 (⟨t.val * 10000 + p.val, by omega⟩ : Fin 500000) q : S500000x32.Idx) := by
    funext a
    apply Fin.ext
    match a with
    | ⟨0, _⟩ => show win2_5.index t 0 * 10000 + 1 * p.val = t.val * 10000 + p.val; rw [e0]; omega
    | ⟨1, _⟩ => show win2_5.index t 1 * 32 + 1 * q.val = q.val; rw [e1]; omega
  rw [hi]
  exact tile2_eq _ _ _ _ _ _ _ p q _ (fun k => iblk2_0_apply V c t _ _ rfl rfl) (fun k => iblk2_1_apply V c t _ _ rfl rfl)

/-- An index of the output array is in point t's block iff its row is one of the block's rows. -/
theorem mem_blk2 (t : Fin cfg2.N) (i : S500000x32.Idx) :
    i ∈ ((cfg2.win 5).blk t).view.set ↔ ∀ a : Fin 2, win2_5.index t a * S10000x32.size a ≤ (i a).val ∧ (i a).val < win2_5.index t a * S10000x32.size a + S10000x32.size a := by
  show i ∈ ((View.whole main_v70).slice (win2_5.rect t)).set ↔ _
  rw [View.set_slice_whole, Rect.mem_set_unit]
  exact Iff.rfl

/-- Every row of the output array lies in the block of the point r / 10000. -/
theorem cover2 (i : S500000x32.Idx) : ∃ t : Fin cfg2.N, (cfg2.win 5).flush t = true ∧ i ∈ ((cfg2.win 5).blk t).view.set := by
  have hi0 : (i 0).val < 500000 := (i 0).isLt
  have hi1 : (i 1).val < 32 := (i 1).isLt
  have hN : cfg2.N = 50 := N_2
  let t : Fin cfg2.N := ⟨(i 0).val / 10000, by rw [hN]; omega⟩
  obtain ⟨-, -, -, -, -, -, -, -, -, -, e0, e1⟩ := idx2 t
  have ht : t.val = (i 0).val / 10000 := rfl
  refine ⟨t, flush2_5 t, ?_⟩
  rw [mem_blk2]
  intro a
  match a with
  | ⟨0, _⟩ => show win2_5.index t (0 : Fin 2) * 10000 ≤ (i 0).val ∧ (i 0).val < win2_5.index t (0 : Fin 2) * 10000 + 10000; rw [e0, ht]; omega
  | ⟨1, _⟩ => show win2_5.index t (1 : Fin 2) * 32 ≤ (i 1).val ∧ (i 1).val < win2_5.index t (1 : Fin 2) * 32 + 32; rw [e1]; omega

/-- The array stage 2 leaves is the specification's dense stage of the arrays it found. -/
theorem final2 [Cert.ReferenceIdeal.Facts] (c : Dev nD) :
    (dat2 V c).arrAt 5 cfg2.N = Cert.ReferenceIdeal.Spec.denseU (F := Ideal) (V c main_v66) (V c main_v6) (V c main_v67) (V c main_v69) (V c main_v68) :=
  (dat2 V c).arrAt_eq_of_cover 5 _ (fun t _ => flushed2_eq V c t) (cover2)

end Cert.KernelIdeal.Hand

end
-- ==== Proof.KIVal3.lean ====
/-
  Stage 3: a layer's dense step on tiles of 10000 rows over 200000 rows.

  What the tiled stage leaves in its output array is the specification's dense stage of the arrays it found:
  grid point t loads rows 10000·t … 10000·t + 9999 of the mean and root arrays and the whole weights and bias row,
  and stores the tile's arithmetic as rows 10000·t … of the output; row r of the array lies in tile r / 10000.
-/
import proofs.«158431_j3324304687820_1_alg».proof.Proof.KIDefs
import proofs.«158431_j3324304687820_1_alg».proof.Proof.Spec
import proofs.«158431_j3324304687820_1_alg».proof.Proof.KIValDense

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem offs3 : (![0, 0] : Fin 2 → Nat) = fun _ => 0 := funext fun a => by fin_cases a <;> rfl

/-- The index maps over the grid: the row tiles move with the point, the weights and the bias row stay. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The mean tile at point t is rows 10000·t … of the mean array. -/
theorem iblk3_0_apply (c : Dev nD) (t : Fin cfg3.N) (x : S10000x32.Idx) (i : S200000x32.Idx)
    (h0 : (i 0).val = t.val * 10000 + (x 0).val) (h1 : (i 1).val = (x 1).val) :
    (iblk3 V c 0 t : Vec Ideal S10000x32 .f32) x = (V c main_v93 : S200000x32.Idx → EReal) i := by
  obtain ⟨e0, e1, -⟩ := idx3 t
  unfold iblk3
  rw [View.read_apply]
  show V c main_v93 _ = V c main_v93 _
  congr 1
  funext a
  apply Fin.ext
  match a with
  | ⟨0, _⟩ => show win3_0.index t 0 * 10000 + 1 * (x 0).val = (i 0).val; rw [e0, h0]; omega
  | ⟨1, _⟩ => show win3_0.index t 1 * 32 + 1 * (x 1).val = (i 1).val; rw [e1, h1]; omega

/-- The root tile at point t is rows 10000·t … of the root array. -/
theorem iblk3_1_apply (c : Dev nD) (t : Fin cfg3.N) (x : S10000x32.Idx) (i : S200000x32.Idx)
    (h0 : (i 0).val = t.val * 10000 + (x 0).val) (h1 : (i 1).val = (x 1).val) :
    (iblk3 V c 1 t : Vec Ideal S10000x32 .f32) x = (V c main_v43 : S200000x32.Idx → EReal) i := by
  obtain ⟨-, -, e0, e1, -⟩ := idx3 t
  unfold iblk3
  rw [View.read_apply]
  show V c main_v43 _ = V c main_v43 _
  congr 1
  funext a
  apply Fin.ext
  match a with
  | ⟨0, _⟩ => show win3_1.index t 0 * 10000 + 1 * (x 0).val = (i 0).val; rw [e0, h0]; omega
  | ⟨1, _⟩ => show win3_1.index t 1 * 32 + 1 * (x 1).val = (i 1).val; rw [e1, h1]; omega

/-- The left weight's block is the whole array at every point. -/
theorem iblk3_2_eq (c : Dev nD) (t : Fin cfg3.N) :
    (iblk3 V c 2 t : Vec Ideal S32x32 .f32) = (V c main_v94 : S32x32.Idx → EReal) := by
  obtain ⟨-, -, -, -, e0, e1, -⟩ := idx3 t
  funext x
  unfold iblk3
  rw [View.read_apply]
  show V c main_v94 _ = V c main_v94 _
  congr 1
  funext a
  apply Fin.ext
  match a with
  | ⟨0, _⟩ => show win3_2.index t 0 * 32 + 1 * (x 0).val = (x 0).val; rw [e0]; omega
  | ⟨1, _⟩ => show win3_2.index t 1 * 32 + 1 * (x 1).val = (x 1).val; rw [e1]; omega

/-- The bias row's block is the whole row at every point. -/
theorem iblk3_3_eq (c : Dev nD) (t : Fin cfg3.N) :
    (iblk3 V c 3 t : Vec Ideal S1x32 .f32) = (V c main_v96 : S1x32.Idx → EReal) := by
  obtain ⟨-, -, -, -, -, -, e0, e1, -⟩ := idx3 t
  funext x
  unfold iblk3
  rw [View.read_apply]
  show V c main_v96 _ = V c main_v96 _
  congr 1
  funext a
  apply Fin.ext
  match a with
  | ⟨0, _⟩ => show win3_3.index t 0 * 1 + 1 * (x 0).val = (x 0).val; rw [e0]; omega
  | ⟨1, _⟩ => show win3_3.index t 1 * 32 + 1 * (x 1).val = (x 1).val; rw [e1]; omega

/-- The right weight's block is the whole array at every point. -/
theorem iblk3_4_eq (c : Dev nD) (t : Fin cfg3.N) :
    (iblk3 V c 4 t : Vec Ideal S32x32 .f32) = (V c main_v95 : S32x32.Idx → EReal) := by
  obtain ⟨-, -, -, -, -, -, -, -, e0, e1, -⟩ := idx3 t
  funext x
  unfold iblk3
  rw [View.read_apply]
  show V c main_v95 _ = V c main_v95 _
  congr 1
  funext a
  apply Fin.ext
  match a with
  | ⟨0, _⟩ => show win3_4.index t 0 * 32 + 1 * (x 0).val = (x 0).val; rw [e0]; omega
  | ⟨1, _⟩ => show win3_4.index t 1 * 32 + 1 * (x 1).val = (x 1).val; rw [e1]; omega

/-- One tile against the whole stage: where the tile's row p is the array's row r, the tile's arithmetic at (p, q) is
    the specification's dense stage at (r, q). -/
theorem tile3_eq [Cert.ReferenceIdeal.Facts] (x0 x1 : Vec Ideal S10000x32 .f32) (x2 x4 : Vec Ideal S32x32 .f32) (x3 : Vec Ideal S1x32 .f32)
    (mean xdst : S200000x32.Idx → EReal) (p : Fin 10000) (q : Fin 32) (r : Fin 200000)
    (h0 : ∀ k : Fin 32, x0 (ix2 p k) = mean (ix2 r k))
    (h1 : ∀ k : Fin 32, x1 (ix2 p k) = xdst (ix2 r k)) :
    k3_pay1 x0 x1 x2 x4 x3 (ix2 p q) = Cert.ReferenceIdeal.Spec.denseP (F := Ideal) mean xdst x2 x3 x4 (ix2 r q) := by
  rw [k3_pay1_eq, pay1_apply, denseP_apply]
  unfold denseAt
  simp only [h0, h1]

/-- What point t writes back is block t of the specification's dense stage of the arrays the stage found. -/
theorem flushed3_eq [Cert.ReferenceIdeal.Facts] (c : Dev nD) (t : Fin cfg3.N) :
    (dat3 V c).flushed 5 t = ((cfg3.win 5).blk t).view.read (Elt Ideal)
      (Cert.ReferenceIdeal.Spec.denseP (F := Ideal) (V c main_v93) (V c main_v43) (V c main_v94) (V c main_v96) (V c main_v95)) := by
  show (cfg3.win 5).cut (grid3.coords t) ((dat3 V c).after 5 t) = _
  rw [after3_5]
  unfold out3_5
  rw [View.canon_unit_zero offs3]
  simp only [View.ld_unit_zero (S := S10000x32) offs3, View.ld_unit_zero (S := S32x32) offs3, View.ld_unit_zero (S := S1x32) offs3]
  rw [iblk3_2_eq, iblk3_3_eq, iblk3_4_eq]
  obtain ⟨-, -, -, -, -, -, -, -, -, -, e0, e1⟩ := idx3 t
  have hN : cfg3.N = 20 := N_3
  have ht : t.val < 20 := hN ▸ t.isLt
  funext j
  rw [View.read_apply]
  obtain ⟨p, q, rfl⟩ : ∃ (p : Fin 10000) (q : Fin 32), j = ix2 p q := ⟨j 0, j 1, eq_ix2 j⟩
  have hp : p.val < 10000 := p.isLt
  have hi : ((cfg3.win 5).blk t).view.emb (ix2 p q) = (ix2 (⟨t.val * 10000 + p.val, by omega⟩ : Fin 200000) q : S200000x32.Idx) := by
    funext a
    apply Fin.ext
    match a with
    | ⟨0, _⟩ => show win3_5.index t 0 * 10000 + 1 * p.val = t.val * 10000 + p.val; rw [e0]; omega
    | ⟨1, _⟩ => show win3_5.index t 1 * 32 + 1 * q.val = q.val; rw [e1]; omega
  rw [hi]
  exact tile3_eq _ _ _ _ _ _ _ p q _ (fun k => iblk3_0_apply V c t _ _ rfl rfl) (fun k => iblk3_1_apply V c t _ _ rfl rfl)

/-- An index of the output array is in point t's block iff its row is one of the block's rows. -/
theorem mem_blk3 (t : Fin cfg3.N) (i : S200000x32.Idx) :
    i ∈ ((cfg3.win 5).blk t).view.set ↔ ∀ a : Fin 2, win3_5.index t a * S10000x32.size a ≤ (i a).val ∧ (i a).val < win3_5.index t a * S10000x32.size a + S10000x32.size a := by
  show i ∈ ((View.whole main_v97).slice (win3_5.rect t)).set ↔ _
  rw [View.set_slice_whole, Rect.mem_set_unit]
  exact Iff.rfl

/-- Every row of the output array lies in the block of the point r / 10000. -/
theorem cover3 (i : S200000x32.Idx) : ∃ t : Fin cfg3.N, (cfg3.win 5).flush t = true ∧ i ∈ ((cfg3.win 5).blk t).view.set := by
  have hi0 : (i 0).val < 200000 := (i 0).isLt
  have hi1 : (i 1).val < 32 := (i 1).isLt
  have hN : cfg3.N = 20 := N_3
  let t : Fin cfg3.N := ⟨(i 0).val / 10000, by rw [hN]; omega⟩
  obtain ⟨-, -, -, -, -, -, -, -, -, -, e0, e1⟩ := idx3 t
  have ht : t.val = (i 0).val / 10000 := rfl
  refine ⟨t, flush3_5 t, ?_⟩
  rw [mem_blk3]
  intro a
  match a with
  | ⟨0, _⟩ => show win3_5.index t (0 : Fin 2) * 10000 ≤ (i 0).val ∧ (i 0).val < win3_5.index t (0 : Fin 2) * 10000 + 10000; rw [e0, ht]; omega
  | ⟨1, _⟩ => show win3_5.index t (1 : Fin 2) * 32 ≤ (i 1).val ∧ (i 1).val < win3_5.index t (1 : Fin 2) * 32 + 32; rw [e1]; omega

/-- The array stage 3 leaves is the specification's dense stage of the arrays it found. -/
theorem final3 [Cert.ReferenceIdeal.Facts] (c : Dev nD) :
    (dat3 V c).arrAt 5 cfg3.N = Cert.ReferenceIdeal.Spec.denseP (F := Ideal) (V c main_v93) (V c main_v43) (V c main_v94) (V c main_v96) (V c main_v95) :=
  (dat3 V c).arrAt_eq_of_cover 5 _ (fun t _ => flushed3_eq V c t) (cover3)

end Cert.KernelIdeal.Hand

end
-- ==== Proof.KIVal4.lean ====
/-
  Stage 4: a layer's dense step on tiles of 10000 rows over 500000 rows.

  What the tiled stage leaves in its output array is the specification's dense stage of the arrays it found:
  grid point t loads rows 10000·t … 10000·t + 9999 of the mean and root arrays and the whole weights and bias row,
  and stores the tile's arithmetic as rows 10000·t … of the output; row r of the array lies in tile r / 10000.
-/
import proofs.«158431_j3324304687820_1_alg».proof.Proof.KIDefs
import proofs.«158431_j3324304687820_1_alg».proof.Proof.Spec
import proofs.«158431_j3324304687820_1_alg».proof.Proof.KIValDense

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem offs4 : (![0, 0] : Fin 2 → Nat) = fun _ => 0 := funext fun a => by fin_cases a <;> rfl

/-- The index maps over the grid: the row tiles move with the point, the weights and the bias row stay. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The mean tile at point t is rows 10000·t … of the mean array. -/
theorem iblk4_0_apply (c : Dev nD) (t : Fin cfg4.N) (x : S10000x32.Idx) (i : S500000x32.Idx)
    (h0 : (i 0).val = t.val * 10000 + (x 0).val) (h1 : (i 1).val = (x 1).val) :
    (iblk4 V c 0 t : Vec Ideal S10000x32 .f32) x = (V c main_v120 : S500000x32.Idx → EReal) i := by
  obtain ⟨e0, e1, -⟩ := idx4 t
  unfold iblk4
  rw [View.read_apply]
  show V c main_v120 _ = V c main_v120 _
  congr 1
  funext a
  apply Fin.ext
  match a with
  | ⟨0, _⟩ => show win4_0.index t 0 * 10000 + 1 * (x 0).val = (i 0).val; rw [e0, h0]; omega
  | ⟨1, _⟩ => show win4_0.index t 1 * 32 + 1 * (x 1).val = (i 1).val; rw [e1, h1]; omega

/-- The root tile at point t is rows 10000·t … of the root array. -/
theorem iblk4_1_apply (c : Dev nD) (t : Fin cfg4.N) (x : S10000x32.Idx) (i : S500000x32.Idx)
    (h0 : (i 0).val = t.val * 10000 + (x 0).val) (h1 : (i 1).val = (x 1).val) :
    (iblk4 V c 1 t : Vec Ideal S10000x32 .f32) x = (V c main_v70 : S500000x32.Idx → EReal) i := by
  obtain ⟨-, -, e0, e1, -⟩ := idx4 t
  unfold iblk4
  rw [View.read_apply]
  show V c main_v70 _ = V c main_v70 _
  congr 1
  funext a
  apply Fin.ext
  match a with
  | ⟨0, _⟩ => show win4_1.index t 0 * 10000 + 1 * (x 0).val = (i 0).val; rw [e0, h0]; omega
  | ⟨1, _⟩ => show win4_1.index t 1 * 32 + 1 * (x 1).val = (i 1).val; rw [e1, h1]; omega

/-- The left weight's block is the whole array at every point. -/
theorem iblk4_2_eq (c : Dev nD) (t : Fin cfg4.N) :
    (iblk4 V c 2 t : Vec Ideal S32x32 .f32) = (V c main_v121 : S32x32.Idx → EReal) := by
  obtain ⟨-, -, -, -, e0, e1, -⟩ := idx4 t
  funext x
  unfold iblk4
  rw [View.read_apply]
  show V c main_v121 _ = V c main_v121 _
  congr 1
  funext a
  apply Fin.ext
  match a with
  | ⟨0, _⟩ => show win4_2.index t 0 * 32 + 1 * (x 0).val = (x 0).val; rw [e0]; omega
  | ⟨1, _⟩ => show win4_2.index t 1 * 32 + 1 * (x 1).val = (x 1).val; rw [e1]; omega

/-- The bias row's block is the whole row at every point. -/
theorem iblk4_3_eq (c : Dev nD) (t : Fin cfg4.N) :
    (iblk4 V c 3 t : Vec Ideal S1x32 .f32) = (V c main_v123 : S1x32.Idx → EReal) := by
  obtain ⟨-, -, -, -, -, -, e0, e1, -⟩ := idx4 t
  funext x
  unfold iblk4
  rw [View.read_apply]
  show V c main_v123 _ = V c main_v123 _
  congr 1
  funext a
  apply Fin.ext
  match a with
  | ⟨0, _⟩ => show win4_3.index t 0 * 1 + 1 * (x 0).val = (x 0).val; rw [e0]; omega
  | ⟨1, _⟩ => show win4_3.index t 1 * 32 + 1 * (x 1).val = (x 1).val; rw [e1]; omega

/-- The right weight's block is the whole array at every point. -/
theorem iblk4_4_eq (c : Dev nD) (t : Fin cfg4.N) :
    (iblk4 V c 4 t : Vec Ideal S32x32 .f32) = (V c main_v122 : S32x32.Idx → EReal) := by
  obtain ⟨-, -, -, -, -, -, -, -, e0, e1, -⟩ := idx4 t
  funext x
  unfold iblk4
  rw [View.read_apply]
  show V c main_v122 _ = V c main_v122 _
  congr 1
  funext a
  apply Fin.ext
  match a with
  | ⟨0, _⟩ => show win4_4.index t 0 * 32 + 1 * (x 0).val = (x 0).val; rw [e0]; omega
  | ⟨1, _⟩ => show win4_4.index t 1 * 32 + 1 * (x 1).val = (x 1).val; rw [e1]; omega

/-- One tile against the whole stage: where the tile's row p is the array's row r, the tile's arithmetic at (p, q) is
    the specification's dense stage at (r, q). -/
theorem tile4_eq [Cert.ReferenceIdeal.Facts] (x0 x1 : Vec Ideal S10000x32 .f32) (x2 x4 : Vec Ideal S32x32 .f32) (x3 : Vec Ideal S1x32 .f32)
    (mean xdst : S500000x32.Idx → EReal) (p : Fin 10000) (q : Fin 32) (r : Fin 500000)
    (h0 : ∀ k : Fin 32, x0 (ix2 p k) = mean (ix2 r k))
    (h1 : ∀ k : Fin 32, x1 (ix2 p k) = xdst (ix2 r k)) :
    k4_pay1 x0 x1 x2 x4 x3 (ix2 p q) = Cert.ReferenceIdeal.Spec.denseU (F := Ideal) mean xdst x2 x3 x4 (ix2 r q) := by
  rw [k4_pay1_eq, pay1_apply, denseU_apply]
  unfold denseAt
  simp only [h0, h1]

/-- What point t writes back is block t of the specification's dense stage of the arrays the stage found. -/
theorem flushed4_eq [Cert.ReferenceIdeal.Facts] (c : Dev nD) (t : Fin cfg4.N) :
    (dat4 V c).flushed 5 t = ((cfg4.win 5).blk t).view.read (Elt Ideal)
      (Cert.ReferenceIdeal.Spec.denseU (F := Ideal) (V c main_v120) (V c main_v70) (V c main_v121) (V c main_v123) (V c main_v122)) := by
  show (cfg4.win 5).cut (grid4.coords t) ((dat4 V c).after 5 t) = _
  rw [after4_5]
  unfold out4_5
  rw [View.canon_unit_zero offs4]
  simp only [View.ld_unit_zero (S := S10000x32) offs4, View.ld_unit_zero (S := S32x32) offs4, View.ld_unit_zero (S := S1x32) offs4]
  rw [iblk4_2_eq, iblk4_3_eq, iblk4_4_eq]
  obtain ⟨-, -, -, -, -, -, -, -, -, -, e0, e1⟩ := idx4 t
  have hN : cfg4.N = 50 := N_4
  have ht : t.val < 50 := hN ▸ t.isLt
  funext j
  rw [View.read_apply]
  obtain ⟨p, q, rfl⟩ : ∃ (p : Fin 10000) (q : Fin 32), j = ix2 p q := ⟨j 0, j 1, eq_ix2 j⟩
  have hp : p.val < 10000 := p.isLt
  have hi : ((cfg4.win 5).blk t).view.emb (ix2 p q) = (ix2 (⟨t.val * 10000 + p.val, by omega⟩ : Fin 500000) q : S500000x32.Idx) := by
    funext a
    apply Fin.ext
    match a with
    | ⟨0, _⟩ => show win4_5.index t 0 * 10000 + 1 * p.val = t.val * 10000 + p.val; rw [e0]; omega
    | ⟨1, _⟩ => show win4_5.index t 1 * 32 + 1 * q.val = q.val; rw [e1]; omega
  rw [hi]
  exact tile4_eq _ _ _ _ _ _ _ p q _ (fun k => iblk4_0_apply V c t _ _ rfl rfl) (fun k => iblk4_1_apply V c t _ _ rfl rfl)

/-- An index of the output array is in point t's block iff its row is one of the block's rows. -/
theorem mem_blk4 (t : Fin cfg4.N) (i : S500000x32.Idx) :
    i ∈ ((cfg4.win 5).blk t).view.set ↔ ∀ a : Fin 2, win4_5.index t a * S10000x32.size a ≤ (i a).val ∧ (i a).val < win4_5.index t a * S10000x32.size a + S10000x32.size a := by
  show i ∈ ((View.whole main_v124).slice (win4_5.rect t)).set ↔ _
  rw [View.set_slice_whole, Rect.mem_set_unit]
  exact Iff.rfl

/-- Every row of the output array lies in the block of the point r / 10000. -/
theorem cover4 (i : S500000x32.Idx) : ∃ t : Fin cfg4.N, (cfg4.win 5).flush t = true ∧ i ∈ ((cfg4.win 5).blk t).view.set := by
  have hi0 : (i 0).val < 500000 := (i 0).isLt
  have hi1 : (i 1).val < 32 := (i 1).isLt
  have hN : cfg4.N = 50 := N_4
  let t : Fin cfg4.N := ⟨(i 0).val / 10000, by rw [hN]; omega⟩
  obtain ⟨-, -, -, -, -, -, -, -, -, -, e0, e1⟩ := idx4 t
  have ht : t.val = (i 0).val / 10000 := rfl
  refine ⟨t, flush4_5 t, ?_⟩
  rw [mem_blk4]
  intro a
  match a with
  | ⟨0, _⟩ => show win4_5.index t (0 : Fin 2) * 10000 ≤ (i 0).val ∧ (i 0).val < win4_5.index t (0 : Fin 2) * 10000 + 10000; rw [e0, ht]; omega
  | ⟨1, _⟩ => show win4_5.index t (1 : Fin 2) * 32 ≤ (i 1).val ∧ (i 1).val < win4_5.index t (1 : Fin 2) * 32 + 32; rw [e1]; omega

/-- The array stage 4 leaves is the specification's dense stage of the arrays it found. -/
theorem final4 [Cert.ReferenceIdeal.Facts] (c : Dev nD) :
    (dat4 V c).arrAt 5 cfg4.N = Cert.ReferenceIdeal.Spec.denseU (F := Ideal) (V c main_v120) (V c main_v70) (V c main_v121) (V c main_v123) (V c main_v122) :=
  (dat4 V c).arrAt_eq_of_cover 5 _ (fun t _ => flushed4_eq V c t) (cover4)

end Cert.KernelIdeal.Hand

end
-- ==== Proof.RefOps.lean ====
/-
  The reference program as a straight line of host operations.

  The program's four windows are restated as four lists of operations, each call of the
  leaky-rectifier helper (and the selection helper it calls) written out at the call site
  over that call's own buffers: the constant zero, its broadcast, the comparison x ≥ 0,
  the conversion of the slope (the identity), its broadcast, the product slope · x, and
  the selection.  Each window equals the sequence of its list, the whole program the
  sequence of the four lists appended, and so every weakly fair run terminates with each
  buffer holding the fold of the operations over the launch contents.

  The same operations are then regrouped by the stage of the network they compute
  (inputs; layer 1 products; layer 1 users; layer 2 products; layer 2 users; results),
  a stage that straddles two windows in two pieces.
-/
import proofs.«158431_j3324304687820_1_alg».proof.ReferenceIdeal
import Idealize.ShloMosaic.Lib.StableHlo.Run
import Idealize.ShloMosaic.Lib.Pipeline.Frame

set_option synthInstance.maxSize 4096

noncomputable section

namespace Cert.ReferenceIdeal.Hand

open Idealize.ShloMosaic Idealize.SL.Sem Cert.ReferenceIdeal
open Idealize.ShloMosaic.StableHlo Idealize.ShloMosaic.TcCoe

variable {F : FTy → Type} [FloatOps F] [Facts]
open Facts₀ Facts

/-- Window 0: its 60 operations, in order. -/
abbrev ops0 : List (HloOp τ sig (Elt F)) :=
  [ StableHlo.nullary main_c (constantI S_ 32 0#32),
    StableHlo.unary main_c main_v0 (broadcastInDim S500000 ![] bcast_S_S500000 : (⟨S_, .i32⟩ : BufTy).Contents (Elt F) → (⟨S500000, .i32⟩ : BufTy).Contents (Elt F)),
    StableHlo.binary main_arg0 main_v0 main_v1 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 500000#32),
    StableHlo.unary main_c_0 main_v2 (broadcastInDim S500000 ![] bcast_S_S500000 : (⟨S_, .i32⟩ : BufTy).Contents (Elt F) → (⟨S500000, .i32⟩ : BufTy).Contents (Elt F)),
    StableHlo.binary main_arg0 main_v2 main_v3 (addi : (⟨S500000, .i32⟩ : BufTy).Contents (Elt F) → (⟨S500000, .i32⟩ : BufTy).Contents (Elt F) → (⟨S500000, .i32⟩ : BufTy).Contents (Elt F)),
    StableHlo.ternary main_v1 main_v3 main_arg0 main_v4 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v4 main_v5 (broadcastInDim S500000x1 ![0] bcast_S500000_S500000x1_0 : (⟨S500000, .i32⟩ : BufTy).Contents (Elt F) → (⟨S500000x1, .i32⟩ : BufTy).Contents (Elt F)),
    StableHlo.binary main_arg5 main_v5 main_v6 ((fun x i => Host.gather gather_S500000x32_S500000x1_S500000x32_1_0_n_n_0_1_132 x i) : (⟨S500000x32, .f32⟩ : BufTy).Contents (Elt F) → (⟨S500000x1, .i32⟩ : BufTy).Contents (Elt F) → (⟨S500000x32, .f32⟩ : BufTy).Contents (Elt F)),
    StableHlo.nullary main_c_1 (constantI S_ 32 0#32),
    StableHlo.unary main_c_1 main_v7 (broadcastInDim S200000 ![] bcast_S_S200000 : (⟨S_, .i32⟩ : BufTy).Contents (Elt F) → (⟨S200000, .i32⟩ : BufTy).Contents (Elt F)),
    StableHlo.binary main_arg1 main_v7 main_v8 (cmpi .slt : (⟨S200000, .i32⟩ : BufTy).Contents (Elt F) → (⟨S200000, .i32⟩ : BufTy).Contents (Elt F) → (⟨S200000, .i1⟩ : BufTy).Contents (Elt F)),
    StableHlo.nullary main_c_2 (constantI S_ 32 200000#32),
    StableHlo.unary main_c_2 main_v9 (broadcastInDim S200000 ![] bcast_S_S200000 : (⟨S_, .i32⟩ : BufTy).Contents (Elt F) → (⟨S200000, .i32⟩ : BufTy).Contents (Elt F)),
    StableHlo.binary main_arg1 main_v9 main_v10 (addi : (⟨S200000, .i32⟩ : BufTy).Contents (Elt F) → (⟨S200000, .i32⟩ : BufTy).Contents (Elt F) → (⟨S200000, .i32⟩ : BufTy).Contents (Elt F)),
    StableHlo.ternary main_v8 main_v10 main_arg1 main_v11 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v11 main_v12 (broadcastInDim S200000x1 ![0] bcast_S200000_S200000x1_0 : (⟨S200000, .i32⟩ : BufTy).Contents (Elt F) → (⟨S200000x1, .i32⟩ : BufTy).Contents (Elt F)),
    StableHlo.binary main_arg6 main_v12 main_v13 ((fun x i => Host.gather gather_S200000x32_S200000x1_S200000x32_1_0_n_n_0_1_132 x i) : (⟨S200000x32, .f32⟩ : BufTy).Contents (Elt F) → (⟨S200000x1, .i32⟩ : BufTy).Contents (Elt F) → (⟨S200000x32, .f32⟩ : BufTy).Contents (Elt F)),
    StableHlo.unary main_arg7 main_v14 ((transpose S256x32 [1, 0] · transposes_S32x256_S256x32_1_0) : (⟨S32x256, .f32⟩ : BufTy).Contents (Elt F) → (⟨S256x32, .f32⟩ : BufTy).Contents (Elt F)),
    StableHlo.binary main_arg2 main_v14 main_v15 ((fun l r => Host.dotGeneral dot_S200000x256_S256x32_S200000x32_1_0_0_1_n_n none l r) : (⟨S200000x256, .f32⟩ : BufTy).Contents (Elt F) → (⟨S256x32, .f32⟩ : BufTy).Contents (Elt F) → (⟨S200000x32, .f32⟩ : BufTy).Contents (Elt F)),
    StableHlo.binary main_v13 main_v15 main_v16 (addf : (⟨S200000x32, .f32⟩ : BufTy).Contents (Elt F) → (⟨S200000x32, .f32⟩ : BufTy).Contents (Elt F) → (⟨S200000x32, .f32⟩ : BufTy).Contents (Elt F)),
    StableHlo.unary main_arg8 main_v17 (broadcastInDim S1x32 ![1] bcast_S32_S1x32_1 : (⟨S32, .f32⟩ : BufTy).Contents (Elt F) → (⟨S1x32, .f32⟩ : BufTy).Contents (Elt F)),
    StableHlo.unary main_v17 main_v18 (broadcastInDim S200000x32 ![0, 1] bcast_S1x32_S200000x32_0_1 : (⟨S1x32, .f32⟩ : BufTy).Contents (Elt F) → (⟨S200000x32, .f32⟩ : BufTy).Contents (Elt F)),
    StableHlo.binary main_v16 main_v18 main_v19 (addf : (⟨S200000x32, .f32⟩ : BufTy).Contents (Elt F) → (⟨S200000x32, .f32⟩ : BufTy).Contents (Elt F) → (⟨S200000x32, .f32⟩ : BufTy).Contents (Elt F)),
    StableHlo.unary main_arg3 main_v20 ((extractStridedSlice S1x2000000 ![0, 0] · slices_S2x2000000_S1x2000000_0_0) : (⟨S2x2000000, .i32⟩ : BufTy).Contents (Elt F) → (⟨S1x2000000, .i32⟩ : BufTy).Contents (Elt F)),
    StableHlo.reshape main_v20 main_v21 rfl shapeCasts_S1x2000000_S2000000,
    StableHlo.unary main_arg3 main_v22 ((extractStridedSlice S1x2000000 ![1, 0] · slices_S2x2000000_S1x2000000_1_0) : (⟨S2x2000000, .i32⟩ : BufTy).Contents (Elt F) → (⟨S1x2000000, .i32⟩ : BufTy).Contents (Elt F)),
    StableHlo.reshape main_v22 main_v23 rfl shapeCasts_S1x2000000_S2000000,
    StableHlo.nullary main_c_3 (constantI S_ 32 0#32),
    StableHlo.unary main_c_3 main_v24 (broadcastInDim S2000000 ![] bcast_S_S2000000 : (⟨S_, .i32⟩ : BufTy).Contents (Elt F) → (⟨S2000000, .i32⟩ : BufTy).Contents (Elt F)),
    StableHlo.binary main_v21 main_v24 main_v25 (cmpi .slt : (⟨S2000000, .i32⟩ : BufTy).Contents (Elt F) → (⟨S2000000, .i32⟩ : BufTy).Contents (Elt F) → (⟨S2000000, .i1⟩ : BufTy).Contents (Elt F)),
    StableHlo.nullary main_c_4 (constantI S_ 32 500000#32),
    StableHlo.unary main_c_4 main_v26 (broadcastInDim S2000000 ![] bcast_S_S2000000 : (⟨S_, .i32⟩ : BufTy).Contents (Elt F) → (⟨S2000000, .i32⟩ : BufTy).Contents (Elt F)),
    StableHlo.binary main_v21 main_v26 main_v27 (addi : (⟨S2000000, .i32⟩ : BufTy).Contents (Elt F) → (⟨S2000000, .i32⟩ : BufTy).Contents (Elt F) → (⟨S2000000, .i32⟩ : BufTy).Contents (Elt F)),
    StableHlo.ternary main_v25 main_v27 main_v21 main_v28 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v28 main_v29 (broadcastInDim S2000000x1 ![0] bcast_S2000000_S2000000x1_0 : (⟨S2000000, .i32⟩ : BufTy).Contents (Elt F) → (⟨S2000000x1, .i32⟩ : BufTy).Contents (Elt F)),
    StableHlo.binary main_v6 main_v29 main_v30 ((fun x i => Host.gather gather_S500000x32_S2000000x1_S2000000x32_1_0_n_n_0_1_132 x i) : (⟨S500000x32, .f32⟩ : BufTy).Contents (Elt F) → (⟨S2000000x1, .i32⟩ : BufTy).Contents (Elt F) → (⟨S2000000x32, .f32⟩ : BufTy).Contents (Elt F)),
    StableHlo.nullary main_cst (constant S_ .f32 0x00000000#32),
    StableHlo.unary main_cst main_v31 (broadcastInDim S200000x32 ![] bcast_S_S200000x32 : (⟨S_, .f32⟩ : BufTy).Contents (Elt F) → (⟨S200000x32, .f32⟩ : BufTy).Contents (Elt F)),
    StableHlo.unary main_v23 main_v32 (broadcastInDim S2000000x1 ![0] bcast_S2000000_S2000000x1_0 : (⟨S2000000, .i32⟩ : BufTy).Contents (Elt F) → (⟨S2000000x1, .i32⟩ : BufTy).Contents (Elt F)),
    StableHlo.ternary main_v31 main_v32 main_v30 main_v33 ((fun x i u => Host.scatterAdd scatter_S200000x32_S2000000x1_S2000000x32_1_0_0_1 x i u) : (⟨S200000x32, .f32⟩ : BufTy).Contents (Elt F) → (⟨S2000000x1, .i32⟩ : BufTy).Contents (Elt F) → (⟨S2000000x32, .f32⟩ : BufTy).Contents (Elt F) → (⟨S200000x32, .f32⟩ : BufTy).Contents (Elt F)),
    StableHlo.nullary main_cst_5 (constant S_ .f32 0x3F800000#32),
    StableHlo.unary main_cst_5 main_v34 (broadcastInDim S2000000 ![] bcast_S_S2000000 : (⟨S_, .f32⟩ : BufTy).Contents (Elt F) → (⟨S2000000, .f32⟩ : BufTy).Contents (Elt F)),
    StableHlo.nullary main_cst_6 (constant S_ .f32 0x00000000#32),
    StableHlo.unary main_cst_6 main_v35 (broadcastInDim S200000 ![] bcast_S_S200000 : (⟨S_, .f32⟩ : BufTy).Contents (Elt F) → (⟨S200000, .f32⟩ : BufTy).Contents (Elt F)),
    StableHlo.unary main_v23 main_v36 (broadcastInDim S2000000x1 ![0] bcast_S2000000_S2000000x1_0 : (⟨S2000000, .i32⟩ : BufTy).Contents (Elt F) → (⟨S2000000x1, .i32⟩ : BufTy).Contents (Elt F)),
    StableHlo.ternary main_v35 main_v36 main_v34 main_v37 ((fun x i u => Host.scatterAdd scatter_S200000_S2000000x1_S2000000_n_0_0_1 x i u) : (⟨S200000, .f32⟩ : BufTy).Contents (Elt F) → (⟨S2000000x1, .i32⟩ : BufTy).Contents (Elt F) → (⟨S2000000, .f32⟩ : BufTy).Contents (Elt F) → (⟨S200000, .f32⟩ : BufTy).Contents (Elt F)),
    StableHlo.nullary main_cst_7 (constant S_ .f32 0x3F800000#32),
    StableHlo.unary main_cst_7 main_v38 (broadcastInDim S200000 ![] bcast_S_S200000 : (⟨S_, .f32⟩ : BufTy).Contents (Elt F) → (⟨S200000, .f32⟩ : BufTy).Contents (Elt F)),
    StableHlo.binary main_v37 main_v38 main_v39 (maximumf : (⟨S200000, .f32⟩ : BufTy).Contents (Elt F) → (⟨S200000, .f32⟩ : BufTy).Contents (Elt F) → (⟨S200000, .f32⟩ : BufTy).Contents (Elt F)),
    StableHlo.unary main_v39 main_v40 (broadcastInDim S200000x1 ![0] bcast_S200000_S200000x1_0 : (⟨S200000, .f32⟩ : BufTy).Contents (Elt F) → (⟨S200000x1, .f32⟩ : BufTy).Contents (Elt F)),
    StableHlo.unary main_v40 main_v41 (broadcastInDim S200000x32 ![0, 1] bcast_S200000x1_S200000x32_0_1 : (⟨S200000x1, .f32⟩ : BufTy).Contents (Elt F) → (⟨S200000x32, .f32⟩ : BufTy).Contents (Elt F)),
    StableHlo.binary main_v33 main_v41 main_v42 (Host.divf : (⟨S200000x32, .f32⟩ : BufTy).Contents (Elt F) → (⟨S200000x32, .f32⟩ : BufTy).Contents (Elt F) → (⟨S200000x32, .f32⟩ : BufTy).Contents (Elt F)),
    StableHlo.unary main_arg9 main_v43 ((transpose S32x32 [1, 0] · transposes_S32x32_S32x32_1_0) : (⟨S32x32, .f32⟩ : BufTy).Contents (Elt F) → (⟨S32x32, .f32⟩ : BufTy).Contents (Elt F)),
    StableHlo.binary main_v42 main_v43 main_v44 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    StableHlo.unary main_arg10 main_v45 (broadcastInDim S1x32 ![1] bcast_S32_S1x32_1 : (⟨S32, .f32⟩ : BufTy).Contents (Elt F) → (⟨S1x32, .f32⟩ : BufTy).Contents (Elt F)),
    StableHlo.unary main_v45 main_v46 (broadcastInDim S200000x32 ![0, 1] bcast_S1x32_S200000x32_0_1 : (⟨S1x32, .f32⟩ : BufTy).Contents (Elt F) → (⟨S200000x32, .f32⟩ : BufTy).Contents (Elt F)),
    StableHlo.binary main_v44 main_v46 main_v47 (addf : (⟨S200000x32, .f32⟩ : BufTy).Contents (Elt F) → (⟨S200000x32, .f32⟩ : BufTy).Contents (Elt F) → (⟨S200000x32, .f32⟩ : BufTy).Contents (Elt F)),
    StableHlo.unary main_arg11 main_v48 ((transpose S32x32 [1, 0] · transposes_S32x32_S32x32_1_0) : (⟨S32x32, .f32⟩ : BufTy).Contents (Elt F) → (⟨S32x32, .f32⟩ : BufTy).Contents (Elt F)),
    StableHlo.binary main_v19 main_v48 main_v49 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)) ]

/-- Window 1: its 72 operations, in order. -/
abbrev ops1 : List (HloOp τ sig (Elt F)) :=
  [ StableHlo.binary main_v47 main_v49 main_v50 (addf : (⟨S200000x32, .f32⟩ : BufTy).Contents (Elt F) → (⟨S200000x32, .f32⟩ : BufTy).Contents (Elt F) → (⟨S200000x32, .f32⟩ : BufTy).Contents (Elt F)),
    StableHlo.nullary main_cst_8 (constant S_ .f32 0x3C23D70A#32),
    StableHlo.TRef.nullary main_call0.cst (constant S_ .f32 0x00000000#32),
    StableHlo.TRef.unary main_call0.cst main_call0.v0 (broadcastInDim S200000x32 ![] bcast_S_S200000x32),
    StableHlo.TRef.binary (StableHlo.TRef.of main_v50 : StableHlo.TRef sig ⟨S200000x32, .f32⟩) main_call0.v0 main_call0.v1 (cmpf .oge),
    StableHlo.TRef.unary (StableHlo.TRef.of main_cst_8 : StableHlo.TRef sig ⟨S_, .f32⟩) main_call0.v2 id,
    StableHlo.TRef.unary main_call0.v2 main_call0.v3 (broadcastInDim S200000x32 ![] bcast_S_S200000x32),
    StableHlo.TRef.binary main_call0.v3 (StableHlo.TRef.of main_v50 : StableHlo.TRef sig ⟨S200000x32, .f32⟩) main_call0.v4 mulf,
    StableHlo.TRef.ternary main_call0.v1 (StableHlo.TRef.of main_v50 : StableHlo.TRef sig ⟨S200000x32, .f32⟩) main_call0.v4 main_call0.call0.v0 select,
    StableHlo.unary main_arg4 main_v52 ((extractStridedSlice S1x2000000 ![0, 0] · slices_S2x2000000_S1x2000000_0_0) : (⟨S2x2000000, .i32⟩ : BufTy).Contents (Elt F) → (⟨S1x2000000, .i32⟩ : BufTy).Contents (Elt F)),
    StableHlo.reshape main_v52 main_v53 rfl shapeCasts_S1x2000000_S2000000,
    StableHlo.unary main_arg4 main_v54 ((extractStridedSlice S1x2000000 ![1, 0] · slices_S2x2000000_S1x2000000_1_0) : (⟨S2x2000000, .i32⟩ : BufTy).Contents (Elt F) → (⟨S1x2000000, .i32⟩ : BufTy).Contents (Elt F)),
    StableHlo.reshape main_v54 main_v55 rfl shapeCasts_S1x2000000_S2000000,
    StableHlo.nullary main_c_9 (constantI S_ 32 0#32),
    StableHlo.unary main_c_9 main_v56 (broadcastInDim S2000000 ![] bcast_S_S2000000 : (⟨S_, .i32⟩ : BufTy).Contents (Elt F) → (⟨S2000000, .i32⟩ : BufTy).Contents (Elt F)),
    StableHlo.binary main_v53 main_v56 main_v57 (cmpi .slt : (⟨S2000000, .i32⟩ : BufTy).Contents (Elt F) → (⟨S2000000, .i32⟩ : BufTy).Contents (Elt F) → (⟨S2000000, .i1⟩ : BufTy).Contents (Elt F)),
    StableHlo.nullary main_c_10 (constantI S_ 32 200000#32),
    StableHlo.unary main_c_10 main_v58 (broadcastInDim S2000000 ![] bcast_S_S2000000 : (⟨S_, .i32⟩ : BufTy).Contents (Elt F) → (⟨S2000000, .i32⟩ : BufTy).Contents (Elt F)),
    StableHlo.binary main_v53 main_v58 main_v59 (addi : (⟨S2000000, .i32⟩ : BufTy).Contents (Elt F) → (⟨S2000000, .i32⟩ : BufTy).Contents (Elt F) → (⟨S2000000, .i32⟩ : BufTy).Contents (Elt F)),
    StableHlo.ternary main_v57 main_v59 main_v53 main_v60 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v60 main_v61 (broadcastInDim S2000000x1 ![0] bcast_S2000000_S2000000x1_0 : (⟨S2000000, .i32⟩ : BufTy).Contents (Elt F) → (⟨S2000000x1, .i32⟩ : BufTy).Contents (Elt F)),
    StableHlo.binary main_v19 main_v61 main_v62 ((fun x i => Host.gather gather_S200000x32_S2000000x1_S2000000x32_1_0_n_n_0_1_132 x i) : (⟨S200000x32, .f32⟩ : BufTy).Contents (Elt F) → (⟨S2000000x1, .i32⟩ : BufTy).Contents (Elt F) → (⟨S2000000x32, .f32⟩ : BufTy).Contents (Elt F)),
    StableHlo.nullary main_cst_11 (constant S_ .f32 0x00000000#32),
    StableHlo.unary main_cst_11 main_v63 (broadcastInDim S500000x32 ![] bcast_S_S500000x32 : (⟨S_, .f32⟩ : BufTy).Contents (Elt F) → (⟨S500000x32, .f32⟩ : BufTy).Contents (Elt F)),
    StableHlo.unary main_v55 main_v64 (broadcastInDim S2000000x1 ![0] bcast_S2000000_S2000000x1_0 : (⟨S2000000, .i32⟩ : BufTy).Contents (Elt F) → (⟨S2000000x1, .i32⟩ : BufTy).Contents (Elt F)),
    StableHlo.ternary main_v63 main_v64 main_v62 main_v65 ((fun x i u => Host.scatterAdd scatter_S500000x32_S2000000x1_S2000000x32_1_0_0_1 x i u) : (⟨S500000x32, .f32⟩ : BufTy).Contents (Elt F) → (⟨S2000000x1, .i32⟩ : BufTy).Contents (Elt F) → (⟨S2000000x32, .f32⟩ : BufTy).Contents (Elt F) → (⟨S500000x32, .f32⟩ : BufTy).Contents (Elt F)),
    StableHlo.nullary main_cst_12 (constant S_ .f32 0x3F800000#32),
    StableHlo.unary main_cst_12 main_v66 (broadcastInDim S2000000 ![] bcast_S_S2000000 : (⟨S_, .f32⟩ : BufTy).Contents (Elt F) → (⟨S2000000, .f32⟩ : BufTy).Contents (Elt F)),
    StableHlo.nullary main_cst_13 (constant S_ .f32 0x00000000#32),
    StableHlo.unary main_cst_13 main_v67 (broadcastInDim S500000 ![] bcast_S_S500000 : (⟨S_, .f32⟩ : BufTy).Contents (Elt F) → (⟨S500000, .f32⟩ : BufTy).Contents (Elt F)),
    StableHlo.unary main_v55 main_v68 (broadcastInDim S2000000x1 ![0] bcast_S2000000_S2000000x1_0 : (⟨S2000000, .i32⟩ : BufTy).Contents (Elt F) → (⟨S2000000x1, .i32⟩ : BufTy).Contents (Elt F)),
    StableHlo.ternary main_v67 main_v68 main_v66 main_v69 ((fun x i u => Host.scatterAdd scatter_S500000_S2000000x1_S2000000_n_0_0_1 x i u) : (⟨S500000, .f32⟩ : BufTy).Contents (Elt F) → (⟨S2000000x1, .i32⟩ : BufTy).Contents (Elt F) → (⟨S2000000, .f32⟩ : BufTy).Contents (Elt F) → (⟨S500000, .f32⟩ : BufTy).Contents (Elt F)),
    StableHlo.nullary main_cst_14 (constant S_ .f32 0x3F800000#32),
    StableHlo.unary main_cst_14 main_v70 (broadcastInDim S500000 ![] bcast_S_S500000 : (⟨S_, .f32⟩ : BufTy).Contents (Elt F) → (⟨S500000, .f32⟩ : BufTy).Contents (Elt F)),
    StableHlo.binary main_v69 main_v70 main_v71 (maximumf : (⟨S500000, .f32⟩ : BufTy).Contents (Elt F) → (⟨S500000, .f32⟩ : BufTy).Contents (Elt F) → (⟨S500000, .f32⟩ : BufTy).Contents (Elt F)),
    StableHlo.unary main_v71 main_v72 (broadcastInDim S500000x1 ![0] bcast_S500000_S500000x1_0 : (⟨S500000, .f32⟩ : BufTy).Contents (Elt F) → (⟨S500000x1, .f32⟩ : BufTy).Contents (Elt F)),
    StableHlo.unary main_v72 main_v73 (broadcastInDim S500000x32 ![0, 1] bcast_S500000x1_S500000x32_0_1 : (⟨S500000x1, .f32⟩ : BufTy).Contents (Elt F) → (⟨S500000x32, .f32⟩ : BufTy).Contents (Elt F)),
    StableHlo.binary main_v65 main_v73 main_v74 (Host.divf : (⟨S500000x32, .f32⟩ : BufTy).Contents (Elt F) → (⟨S500000x32, .f32⟩ : BufTy).Contents (Elt F) → (⟨S500000x32, .f32⟩ : BufTy).Contents (Elt F)),
    StableHlo.unary main_arg12 main_v75 ((transpose S32x32 [1, 0] · transposes_S32x32_S32x32_1_0) : (⟨S32x32, .f32⟩ : BufTy).Contents (Elt F) → (⟨S32x32, .f32⟩ : BufTy).Contents (Elt F)),
    StableHlo.binary main_v74 main_v75 main_v76 ((fun l r => Host.dotGeneral dot_S500000x32_S32x32_S500000x32_1_0_0_1_n_n none l r) : (⟨S500000x32, .f32⟩ : BufTy).Contents (Elt F) → (⟨S32x32, .f32⟩ : BufTy).Contents (Elt F) → (⟨S500000x32, .f32⟩ : BufTy).Contents (Elt F)),
    StableHlo.unary main_arg13 main_v77 (broadcastInDim S1x32 ![1] bcast_S32_S1x32_1 : (⟨S32, .f32⟩ : BufTy).Contents (Elt F) → (⟨S1x32, .f32⟩ : BufTy).Contents (Elt F)),
    StableHlo.unary main_v77 main_v78 (broadcastInDim S500000x32 ![0, 1] bcast_S1x32_S500000x32_0_1 : (⟨S1x32, .f32⟩ : BufTy).Contents (Elt F) → (⟨S500000x32, .f32⟩ : BufTy).Contents (Elt F)),
    StableHlo.binary main_v76 main_v78 main_v79 (addf : (⟨S500000x32, .f32⟩ : BufTy).Contents (Elt F) → (⟨S500000x32, .f32⟩ : BufTy).Contents (Elt F) → (⟨S500000x32, .f32⟩ : BufTy).Contents (Elt F)),
    StableHlo.unary main_arg14 main_v80 ((transpose S32x32 [1, 0] · transposes_S32x32_S32x32_1_0) : (⟨S32x32, .f32⟩ : BufTy).Contents (Elt F) → (⟨S32x32, .f32⟩ : BufTy).Contents (Elt F)),
    StableHlo.binary main_v6 main_v80 main_v81 ((fun l r => Host.dotGeneral dot_S500000x32_S32x32_S500000x32_1_0_0_1_n_n none l r) : (⟨S500000x32, .f32⟩ : BufTy).Contents (Elt F) → (⟨S32x32, .f32⟩ : BufTy).Contents (Elt F) → (⟨S500000x32, .f32⟩ : BufTy).Contents (Elt F)),
    StableHlo.binary main_v79 main_v81 main_v82 (addf : (⟨S500000x32, .f32⟩ : BufTy).Contents (Elt F) → (⟨S500000x32, .f32⟩ : BufTy).Contents (Elt F) → (⟨S500000x32, .f32⟩ : BufTy).Contents (Elt F)),
    StableHlo.nullary main_cst_15 (constant S_ .f32 0x3C23D70A#32),
    StableHlo.TRef.nullary main_call1.cst (constant S_ .f32 0x00000000#32),
    StableHlo.TRef.unary main_call1.cst main_call1.v0 (broadcastInDim S500000x32 ![] bcast_S_S500000x32),
    StableHlo.TRef.binary (StableHlo.TRef.of main_v82 : StableHlo.TRef sig ⟨S500000x32, .f32⟩) main_call1.v0 main_call1.v1 (cmpf .oge),
    StableHlo.TRef.unary (StableHlo.TRef.of main_cst_15 : StableHlo.TRef sig ⟨S_, .f32⟩) main_call1.v2 id,
    StableHlo.TRef.unary main_call1.v2 main_call1.v3 (broadcastInDim S500000x32 ![] bcast_S_S500000x32),
    StableHlo.TRef.binary main_call1.v3 (StableHlo.TRef.of main_v82 : StableHlo.TRef sig ⟨S500000x32, .f32⟩) main_call1.v4 mulf,
    StableHlo.TRef.ternary main_call1.v1 (StableHlo.TRef.of main_v82 : StableHlo.TRef sig ⟨S500000x32, .f32⟩) main_call1.v4 main_call1.call0.v0 select,
    StableHlo.unary main_arg3 main_v84 ((extractStridedSlice S1x2000000 ![0, 0] · slices_S2x2000000_S1x2000000_0_0) : (⟨S2x2000000, .i32⟩ : BufTy).Contents (Elt F) → (⟨S1x2000000, .i32⟩ : BufTy).Contents (Elt F)),
    StableHlo.reshape main_v84 main_v85 rfl shapeCasts_S1x2000000_S2000000,
    StableHlo.unary main_arg3 main_v86 ((extractStridedSlice S1x2000000 ![1, 0] · slices_S2x2000000_S1x2000000_1_0) : (⟨S2x2000000, .i32⟩ : BufTy).Contents (Elt F) → (⟨S1x2000000, .i32⟩ : BufTy).Contents (Elt F)),
    StableHlo.reshape main_v86 main_v87 rfl shapeCasts_S1x2000000_S2000000,
    StableHlo.nullary main_c_16 (constantI S_ 32 0#32),
    StableHlo.unary main_c_16 main_v88 (broadcastInDim S2000000 ![] bcast_S_S2000000 : (⟨S_, .i32⟩ : BufTy).Contents (Elt F) → (⟨S2000000, .i32⟩ : BufTy).Contents (Elt F)),
    StableHlo.binary main_v85 main_v88 main_v89 (cmpi .slt : (⟨S2000000, .i32⟩ : BufTy).Contents (Elt F) → (⟨S2000000, .i32⟩ : BufTy).Contents (Elt F) → (⟨S2000000, .i1⟩ : BufTy).Contents (Elt F)),
    StableHlo.nullary main_c_17 (constantI S_ 32 500000#32),
    StableHlo.unary main_c_17 main_v90 (broadcastInDim S2000000 ![] bcast_S_S2000000 : (⟨S_, .i32⟩ : BufTy).Contents (Elt F) → (⟨S2000000, .i32⟩ : BufTy).Contents (Elt F)),
    StableHlo.binary main_v85 main_v90 main_v91 (addi : (⟨S2000000, .i32⟩ : BufTy).Contents (Elt F) → (⟨S2000000, .i32⟩ : BufTy).Contents (Elt F) → (⟨S2000000, .i32⟩ : BufTy).Contents (Elt F)),
    StableHlo.ternary main_v89 main_v91 main_v85 main_v92 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v92 main_v93 (broadcastInDim S2000000x1 ![0] bcast_S2000000_S2000000x1_0 : (⟨S2000000, .i32⟩ : BufTy).Contents (Elt F) → (⟨S2000000x1, .i32⟩ : BufTy).Contents (Elt F)),
    StableHlo.binary main_v83 main_v93 main_v94 ((fun x i => Host.gather gather_S500000x32_S2000000x1_S2000000x32_1_0_n_n_0_1_132 x i) : (⟨S500000x32, .f32⟩ : BufTy).Contents (Elt F) → (⟨S2000000x1, .i32⟩ : BufTy).Contents (Elt F) → (⟨S2000000x32, .f32⟩ : BufTy).Contents (Elt F)),
    StableHlo.nullary main_cst_18 (constant S_ .f32 0x00000000#32),
    StableHlo.unary main_cst_18 main_v95 (broadcastInDim S200000x32 ![] bcast_S_S200000x32 : (⟨S_, .f32⟩ : BufTy).Contents (Elt F) → (⟨S200000x32, .f32⟩ : BufTy).Contents (Elt F)),
    StableHlo.unary main_v87 main_v96 (broadcastInDim S2000000x1 ![0] bcast_S2000000_S2000000x1_0 : (⟨S2000000, .i32⟩ : BufTy).Contents (Elt F) → (⟨S2000000x1, .i32⟩ : BufTy).Contents (Elt F)),
    StableHlo.ternary main_v95 main_v96 main_v94 main_v97 ((fun x i u => Host.scatterAdd scatter_S200000x32_S2000000x1_S2000000x32_1_0_0_1 x i u) : (⟨S200000x32, .f32⟩ : BufTy).Contents (Elt F) → (⟨S2000000x1, .i32⟩ : BufTy).Contents (Elt F) → (⟨S2000000x32, .f32⟩ : BufTy).Contents (Elt F) → (⟨S200000x32, .f32⟩ : BufTy).Contents (Elt F)),
    StableHlo.nullary main_cst_19 (constant S_ .f32 0x3F800000#32) ]

/-- Window 2: its 72 operations, in order. -/
abbrev ops2 : List (HloOp τ sig (Elt F)) :=
  [ StableHlo.unary main_cst_19 main_v98 (broadcastInDim S2000000 ![] bcast_S_S2000000 : (⟨S_, .f32⟩ : BufTy).Contents (Elt F) → (⟨S2000000, .f32⟩ : BufTy).Contents (Elt F)),
    StableHlo.nullary main_cst_20 (constant S_ .f32 0x00000000#32),
    StableHlo.unary main_cst_20 main_v99 (broadcastInDim S200000 ![] bcast_S_S200000 : (⟨S_, .f32⟩ : BufTy).Contents (Elt F) → (⟨S200000, .f32⟩ : BufTy).Contents (Elt F)),
    StableHlo.unary main_v87 main_v100 (broadcastInDim S2000000x1 ![0] bcast_S2000000_S2000000x1_0 : (⟨S2000000, .i32⟩ : BufTy).Contents (Elt F) → (⟨S2000000x1, .i32⟩ : BufTy).Contents (Elt F)),
    StableHlo.ternary main_v99 main_v100 main_v98 main_v101 ((fun x i u => Host.scatterAdd scatter_S200000_S2000000x1_S2000000_n_0_0_1 x i u) : (⟨S200000, .f32⟩ : BufTy).Contents (Elt F) → (⟨S2000000x1, .i32⟩ : BufTy).Contents (Elt F) → (⟨S2000000, .f32⟩ : BufTy).Contents (Elt F) → (⟨S200000, .f32⟩ : BufTy).Contents (Elt F)),
    StableHlo.nullary main_cst_21 (constant S_ .f32 0x3F800000#32),
    StableHlo.unary main_cst_21 main_v102 (broadcastInDim S200000 ![] bcast_S_S200000 : (⟨S_, .f32⟩ : BufTy).Contents (Elt F) → (⟨S200000, .f32⟩ : BufTy).Contents (Elt F)),
    StableHlo.binary main_v101 main_v102 main_v103 (maximumf : (⟨S200000, .f32⟩ : BufTy).Contents (Elt F) → (⟨S200000, .f32⟩ : BufTy).Contents (Elt F) → (⟨S200000, .f32⟩ : BufTy).Contents (Elt F)),
    StableHlo.unary main_v103 main_v104 (broadcastInDim S200000x1 ![0] bcast_S200000_S200000x1_0 : (⟨S200000, .f32⟩ : BufTy).Contents (Elt F) → (⟨S200000x1, .f32⟩ : BufTy).Contents (Elt F)),
    StableHlo.unary main_v104 main_v105 (broadcastInDim S200000x32 ![0, 1] bcast_S200000x1_S200000x32_0_1 : (⟨S200000x1, .f32⟩ : BufTy).Contents (Elt F) → (⟨S200000x32, .f32⟩ : BufTy).Contents (Elt F)),
    StableHlo.binary main_v97 main_v105 main_v106 (Host.divf : (⟨S200000x32, .f32⟩ : BufTy).Contents (Elt F) → (⟨S200000x32, .f32⟩ : BufTy).Contents (Elt F) → (⟨S200000x32, .f32⟩ : BufTy).Contents (Elt F)),
    StableHlo.unary main_arg15 main_v107 ((transpose S32x32 [1, 0] · transposes_S32x32_S32x32_1_0) : (⟨S32x32, .f32⟩ : BufTy).Contents (Elt F) → (⟨S32x32, .f32⟩ : BufTy).Contents (Elt F)),
    StableHlo.binary main_v106 main_v107 main_v108 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    StableHlo.unary main_arg16 main_v109 (broadcastInDim S1x32 ![1] bcast_S32_S1x32_1 : (⟨S32, .f32⟩ : BufTy).Contents (Elt F) → (⟨S1x32, .f32⟩ : BufTy).Contents (Elt F)),
    StableHlo.unary main_v109 main_v110 (broadcastInDim S200000x32 ![0, 1] bcast_S1x32_S200000x32_0_1 : (⟨S1x32, .f32⟩ : BufTy).Contents (Elt F) → (⟨S200000x32, .f32⟩ : BufTy).Contents (Elt F)),
    StableHlo.binary main_v108 main_v110 main_v111 (addf : (⟨S200000x32, .f32⟩ : BufTy).Contents (Elt F) → (⟨S200000x32, .f32⟩ : BufTy).Contents (Elt F) → (⟨S200000x32, .f32⟩ : BufTy).Contents (Elt F)),
    StableHlo.unary main_arg17 main_v112 ((transpose S32x32 [1, 0] · transposes_S32x32_S32x32_1_0) : (⟨S32x32, .f32⟩ : BufTy).Contents (Elt F) → (⟨S32x32, .f32⟩ : BufTy).Contents (Elt F)),
    StableHlo.binary main_v51 main_v112 main_v113 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    StableHlo.binary main_v111 main_v113 main_v114 (addf : (⟨S200000x32, .f32⟩ : BufTy).Contents (Elt F) → (⟨S200000x32, .f32⟩ : BufTy).Contents (Elt F) → (⟨S200000x32, .f32⟩ : BufTy).Contents (Elt F)),
    StableHlo.nullary main_cst_22 (constant S_ .f32 0x3C23D70A#32),
    StableHlo.TRef.nullary main_call2.cst (constant S_ .f32 0x00000000#32),
    StableHlo.TRef.unary main_call2.cst main_call2.v0 (broadcastInDim S200000x32 ![] bcast_S_S200000x32),
    StableHlo.TRef.binary (StableHlo.TRef.of main_v114 : StableHlo.TRef sig ⟨S200000x32, .f32⟩) main_call2.v0 main_call2.v1 (cmpf .oge),
    StableHlo.TRef.unary (StableHlo.TRef.of main_cst_22 : StableHlo.TRef sig ⟨S_, .f32⟩) main_call2.v2 id,
    StableHlo.TRef.unary main_call2.v2 main_call2.v3 (broadcastInDim S200000x32 ![] bcast_S_S200000x32),
    StableHlo.TRef.binary main_call2.v3 (StableHlo.TRef.of main_v114 : StableHlo.TRef sig ⟨S200000x32, .f32⟩) main_call2.v4 mulf,
    StableHlo.TRef.ternary main_call2.v1 (StableHlo.TRef.of main_v114 : StableHlo.TRef sig ⟨S200000x32, .f32⟩) main_call2.v4 main_call2.call0.v0 select,
    StableHlo.unary main_arg4 main_v116 ((extractStridedSlice S1x2000000 ![0, 0] · slices_S2x2000000_S1x2000000_0_0) : (⟨S2x2000000, .i32⟩ : BufTy).Contents (Elt F) → (⟨S1x2000000, .i32⟩ : BufTy).Contents (Elt F)),
    StableHlo.reshape main_v116 main_v117 rfl shapeCasts_S1x2000000_S2000000,
    StableHlo.unary main_arg4 main_v118 ((extractStridedSlice S1x2000000 ![1, 0] · slices_S2x2000000_S1x2000000_1_0) : (⟨S2x2000000, .i32⟩ : BufTy).Contents (Elt F) → (⟨S1x2000000, .i32⟩ : BufTy).Contents (Elt F)),
    StableHlo.reshape main_v118 main_v119 rfl shapeCasts_S1x2000000_S2000000,
    StableHlo.nullary main_c_23 (constantI S_ 32 0#32),
    StableHlo.unary main_c_23 main_v120 (broadcastInDim S2000000 ![] bcast_S_S2000000 : (⟨S_, .i32⟩ : BufTy).Contents (Elt F) → (⟨S2000000, .i32⟩ : BufTy).Contents (Elt F)),
    StableHlo.binary main_v117 main_v120 main_v121 (cmpi .slt : (⟨S2000000, .i32⟩ : BufTy).Contents (Elt F) → (⟨S2000000, .i32⟩ : BufTy).Contents (Elt F) → (⟨S2000000, .i1⟩ : BufTy).Contents (Elt F)),
    StableHlo.nullary main_c_24 (constantI S_ 32 200000#32),
    StableHlo.unary main_c_24 main_v122 (broadcastInDim S2000000 ![] bcast_S_S2000000 : (⟨S_, .i32⟩ : BufTy).Contents (Elt F) → (⟨S2000000, .i32⟩ : BufTy).Contents (Elt F)),
    StableHlo.binary main_v117 main_v122 main_v123 (addi : (⟨S2000000, .i32⟩ : BufTy).Contents (Elt F) → (⟨S2000000, .i32⟩ : BufTy).Contents (Elt F) → (⟨S2000000, .i32⟩ : BufTy).Contents (Elt F)),
    StableHlo.ternary main_v121 main_v123 main_v117 main_v124 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v124 main_v125 (broadcastInDim S2000000x1 ![0] bcast_S2000000_S2000000x1_0 : (⟨S2000000, .i32⟩ : BufTy).Contents (Elt F) → (⟨S2000000x1, .i32⟩ : BufTy).Contents (Elt F)),
    StableHlo.binary main_v51 main_v125 main_v126 ((fun x i => Host.gather gather_S200000x32_S2000000x1_S2000000x32_1_0_n_n_0_1_132 x i) : (⟨S200000x32, .f32⟩ : BufTy).Contents (Elt F) → (⟨S2000000x1, .i32⟩ : BufTy).Contents (Elt F) → (⟨S2000000x32, .f32⟩ : BufTy).Contents (Elt F)),
    StableHlo.nullary main_cst_25 (constant S_ .f32 0x00000000#32),
    StableHlo.unary main_cst_25 main_v127 (broadcastInDim S500000x32 ![] bcast_S_S500000x32 : (⟨S_, .f32⟩ : BufTy).Contents (Elt F) → (⟨S500000x32, .f32⟩ : BufTy).Contents (Elt F)),
    StableHlo.unary main_v119 main_v128 (broadcastInDim S2000000x1 ![0] bcast_S2000000_S2000000x1_0 : (⟨S2000000, .i32⟩ : BufTy).Contents (Elt F) → (⟨S2000000x1, .i32⟩ : BufTy).Contents (Elt F)),
    StableHlo.ternary main_v127 main_v128 main_v126 main_v129 ((fun x i u => Host.scatterAdd scatter_S500000x32_S2000000x1_S2000000x32_1_0_0_1 x i u) : (⟨S500000x32, .f32⟩ : BufTy).Contents (Elt F) → (⟨S2000000x1, .i32⟩ : BufTy).Contents (Elt F) → (⟨S2000000x32, .f32⟩ : BufTy).Contents (Elt F) → (⟨S500000x32, .f32⟩ : BufTy).Contents (Elt F)),
    StableHlo.nullary main_cst_26 (constant S_ .f32 0x3F800000#32),
    StableHlo.unary main_cst_26 main_v130 (broadcastInDim S2000000 ![] bcast_S_S2000000 : (⟨S_, .f32⟩ : BufTy).Contents (Elt F) → (⟨S2000000, .f32⟩ : BufTy).Contents (Elt F)),
    StableHlo.nullary main_cst_27 (constant S_ .f32 0x00000000#32),
    StableHlo.unary main_cst_27 main_v131 (broadcastInDim S500000 ![] bcast_S_S500000 : (⟨S_, .f32⟩ : BufTy).Contents (Elt F) → (⟨S500000, .f32⟩ : BufTy).Contents (Elt F)),
    StableHlo.unary main_v119 main_v132 (broadcastInDim S2000000x1 ![0] bcast_S2000000_S2000000x1_0 : (⟨S2000000, .i32⟩ : BufTy).Contents (Elt F) → (⟨S2000000x1, .i32⟩ : BufTy).Contents (Elt F)),
    StableHlo.ternary main_v131 main_v132 main_v130 main_v133 ((fun x i u => Host.scatterAdd scatter_S500000_S2000000x1_S2000000_n_0_0_1 x i u) : (⟨S500000, .f32⟩ : BufTy).Contents (Elt F) → (⟨S2000000x1, .i32⟩ : BufTy).Contents (Elt F) → (⟨S2000000, .f32⟩ : BufTy).Contents (Elt F) → (⟨S500000, .f32⟩ : BufTy).Contents (Elt F)),
    StableHlo.nullary main_cst_28 (constant S_ .f32 0x3F800000#32),
    StableHlo.unary main_cst_28 main_v134 (broadcastInDim S500000 ![] bcast_S_S500000 : (⟨S_, .f32⟩ : BufTy).Contents (Elt F) → (⟨S500000, .f32⟩ : BufTy).Contents (Elt F)),
    StableHlo.binary main_v133 main_v134 main_v135 (maximumf : (⟨S500000, .f32⟩ : BufTy).Contents (Elt F) → (⟨S500000, .f32⟩ : BufTy).Contents (Elt F) → (⟨S500000, .f32⟩ : BufTy).Contents (Elt F)),
    StableHlo.unary main_v135 main_v136 (broadcastInDim S500000x1 ![0] bcast_S500000_S500000x1_0 : (⟨S500000, .f32⟩ : BufTy).Contents (Elt F) → (⟨S500000x1, .f32⟩ : BufTy).Contents (Elt F)),
    StableHlo.unary main_v136 main_v137 (broadcastInDim S500000x32 ![0, 1] bcast_S500000x1_S500000x32_0_1 : (⟨S500000x1, .f32⟩ : BufTy).Contents (Elt F) → (⟨S500000x32, .f32⟩ : BufTy).Contents (Elt F)),
    StableHlo.binary main_v129 main_v137 main_v138 (Host.divf : (⟨S500000x32, .f32⟩ : BufTy).Contents (Elt F) → (⟨S500000x32, .f32⟩ : BufTy).Contents (Elt F) → (⟨S500000x32, .f32⟩ : BufTy).Contents (Elt F)),
    StableHlo.unary main_arg18 main_v139 ((transpose S32x32 [1, 0] · transposes_S32x32_S32x32_1_0) : (⟨S32x32, .f32⟩ : BufTy).Contents (Elt F) → (⟨S32x32, .f32⟩ : BufTy).Contents (Elt F)),
    StableHlo.binary main_v138 main_v139 main_v140 ((fun l r => Host.dotGeneral dot_S500000x32_S32x32_S500000x32_1_0_0_1_n_n none l r) : (⟨S500000x32, .f32⟩ : BufTy).Contents (Elt F) → (⟨S32x32, .f32⟩ : BufTy).Contents (Elt F) → (⟨S500000x32, .f32⟩ : BufTy).Contents (Elt F)),
    StableHlo.unary main_arg19 main_v141 (broadcastInDim S1x32 ![1] bcast_S32_S1x32_1 : (⟨S32, .f32⟩ : BufTy).Contents (Elt F) → (⟨S1x32, .f32⟩ : BufTy).Contents (Elt F)),
    StableHlo.unary main_v141 main_v142 (broadcastInDim S500000x32 ![0, 1] bcast_S1x32_S500000x32_0_1 : (⟨S1x32, .f32⟩ : BufTy).Contents (Elt F) → (⟨S500000x32, .f32⟩ : BufTy).Contents (Elt F)),
    StableHlo.binary main_v140 main_v142 main_v143 (addf : (⟨S500000x32, .f32⟩ : BufTy).Contents (Elt F) → (⟨S500000x32, .f32⟩ : BufTy).Contents (Elt F) → (⟨S500000x32, .f32⟩ : BufTy).Contents (Elt F)),
    StableHlo.unary main_arg20 main_v144 ((transpose S32x32 [1, 0] · transposes_S32x32_S32x32_1_0) : (⟨S32x32, .f32⟩ : BufTy).Contents (Elt F) → (⟨S32x32, .f32⟩ : BufTy).Contents (Elt F)),
    StableHlo.binary main_v83 main_v144 main_v145 ((fun l r => Host.dotGeneral dot_S500000x32_S32x32_S500000x32_1_0_0_1_n_n none l r) : (⟨S500000x32, .f32⟩ : BufTy).Contents (Elt F) → (⟨S32x32, .f32⟩ : BufTy).Contents (Elt F) → (⟨S500000x32, .f32⟩ : BufTy).Contents (Elt F)),
    StableHlo.binary main_v143 main_v145 main_v146 (addf : (⟨S500000x32, .f32⟩ : BufTy).Contents (Elt F) → (⟨S500000x32, .f32⟩ : BufTy).Contents (Elt F) → (⟨S500000x32, .f32⟩ : BufTy).Contents (Elt F)),
    StableHlo.nullary main_cst_29 (constant S_ .f32 0x3C23D70A#32),
    StableHlo.TRef.nullary main_call3.cst (constant S_ .f32 0x00000000#32),
    StableHlo.TRef.unary main_call3.cst main_call3.v0 (broadcastInDim S500000x32 ![] bcast_S_S500000x32),
    StableHlo.TRef.binary (StableHlo.TRef.of main_v146 : StableHlo.TRef sig ⟨S500000x32, .f32⟩) main_call3.v0 main_call3.v1 (cmpf .oge),
    StableHlo.TRef.unary (StableHlo.TRef.of main_cst_29 : StableHlo.TRef sig ⟨S_, .f32⟩) main_call3.v2 id,
    StableHlo.TRef.unary main_call3.v2 main_call3.v3 (broadcastInDim S500000x32 ![] bcast_S_S500000x32),
    StableHlo.TRef.binary main_call3.v3 (StableHlo.TRef.of main_v146 : StableHlo.TRef sig ⟨S500000x32, .f32⟩) main_call3.v4 mulf,
    StableHlo.TRef.ternary main_call3.v1 (StableHlo.TRef.of main_v146 : StableHlo.TRef sig ⟨S500000x32, .f32⟩) main_call3.v4 main_call3.call0.v0 select ]

/-- Window 3: its 2 operations, in order. -/
abbrev ops3 : List (HloOp τ sig (Elt F)) :=
  [ StableHlo.nary ![main_v6, main_v83, main_v147] main_v148 (fun u => concatenate S500000x96 1 [⟨S500000x32, u 0⟩, ⟨S500000x32, u 1⟩, ⟨S500000x32, u 2⟩] concatenates_S500000x32_S500000x32_S500000x32_S500000x96_d1),
    StableHlo.nary ![main_v19, main_v51, main_v115] main_v149 (fun u => concatenate S200000x96 1 [⟨S200000x32, u 0⟩, ⟨S200000x32, u 1⟩, ⟨S200000x32, u 2⟩] concatenates_S200000x32_S200000x32_S200000x32_S200000x96_d1) ]

/-- Operations 1 … 24 of the whole line. -/
abbrev seg1 : List (HloOp τ sig (Elt F)) :=
  [ StableHlo.nullary main_c (constantI S_ 32 0#32),
    StableHlo.unary main_c main_v0 (broadcastInDim S500000 ![] bcast_S_S500000 : (⟨S_, .i32⟩ : BufTy).Contents (Elt F) → (⟨S500000, .i32⟩ : BufTy).Contents (Elt F)),
    StableHlo.binary main_arg0 main_v0 main_v1 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 500000#32),
    StableHlo.unary main_c_0 main_v2 (broadcastInDim S500000 ![] bcast_S_S500000 : (⟨S_, .i32⟩ : BufTy).Contents (Elt F) → (⟨S500000, .i32⟩ : BufTy).Contents (Elt F)),
    StableHlo.binary main_arg0 main_v2 main_v3 (addi : (⟨S500000, .i32⟩ : BufTy).Contents (Elt F) → (⟨S500000, .i32⟩ : BufTy).Contents (Elt F) → (⟨S500000, .i32⟩ : BufTy).Contents (Elt F)),
    StableHlo.ternary main_v1 main_v3 main_arg0 main_v4 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v4 main_v5 (broadcastInDim S500000x1 ![0] bcast_S500000_S500000x1_0 : (⟨S500000, .i32⟩ : BufTy).Contents (Elt F) → (⟨S500000x1, .i32⟩ : BufTy).Contents (Elt F)),
    StableHlo.binary main_arg5 main_v5 main_v6 ((fun x i => Host.gather gather_S500000x32_S500000x1_S500000x32_1_0_n_n_0_1_132 x i) : (⟨S500000x32, .f32⟩ : BufTy).Contents (Elt F) → (⟨S500000x1, .i32⟩ : BufTy).Contents (Elt F) → (⟨S500000x32, .f32⟩ : BufTy).Contents (Elt F)),
    StableHlo.nullary main_c_1 (constantI S_ 32 0#32),
    StableHlo.unary main_c_1 main_v7 (broadcastInDim S200000 ![] bcast_S_S200000 : (⟨S_, .i32⟩ : BufTy).Contents (Elt F) → (⟨S200000, .i32⟩ : BufTy).Contents (Elt F)),
    StableHlo.binary main_arg1 main_v7 main_v8 (cmpi .slt : (⟨S200000, .i32⟩ : BufTy).Contents (Elt F) → (⟨S200000, .i32⟩ : BufTy).Contents (Elt F) → (⟨S200000, .i1⟩ : BufTy).Contents (Elt F)),
    StableHlo.nullary main_c_2 (constantI S_ 32 200000#32),
    StableHlo.unary main_c_2 main_v9 (broadcastInDim S200000 ![] bcast_S_S200000 : (⟨S_, .i32⟩ : BufTy).Contents (Elt F) → (⟨S200000, .i32⟩ : BufTy).Contents (Elt F)),
    StableHlo.binary main_arg1 main_v9 main_v10 (addi : (⟨S200000, .i32⟩ : BufTy).Contents (Elt F) → (⟨S200000, .i32⟩ : BufTy).Contents (Elt F) → (⟨S200000, .i32⟩ : BufTy).Contents (Elt F)),
    StableHlo.ternary main_v8 main_v10 main_arg1 main_v11 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v11 main_v12 (broadcastInDim S200000x1 ![0] bcast_S200000_S200000x1_0 : (⟨S200000, .i32⟩ : BufTy).Contents (Elt F) → (⟨S200000x1, .i32⟩ : BufTy).Contents (Elt F)),
    StableHlo.binary main_arg6 main_v12 main_v13 ((fun x i => Host.gather gather_S200000x32_S200000x1_S200000x32_1_0_n_n_0_1_132 x i) : (⟨S200000x32, .f32⟩ : BufTy).Contents (Elt F) → (⟨S200000x1, .i32⟩ : BufTy).Contents (Elt F) → (⟨S200000x32, .f32⟩ : BufTy).Contents (Elt F)),
    StableHlo.unary main_arg7 main_v14 ((transpose S256x32 [1, 0] · transposes_S32x256_S256x32_1_0) : (⟨S32x256, .f32⟩ : BufTy).Contents (Elt F) → (⟨S256x32, .f32⟩ : BufTy).Contents (Elt F)),
    StableHlo.binary main_arg2 main_v14 main_v15 ((fun l r => Host.dotGeneral dot_S200000x256_S256x32_S200000x32_1_0_0_1_n_n none l r) : (⟨S200000x256, .f32⟩ : BufTy).Contents (Elt F) → (⟨S256x32, .f32⟩ : BufTy).Contents (Elt F) → (⟨S200000x32, .f32⟩ : BufTy).Contents (Elt F)),
    StableHlo.binary main_v13 main_v15 main_v16 (addf : (⟨S200000x32, .f32⟩ : BufTy).Contents (Elt F) → (⟨S200000x32, .f32⟩ : BufTy).Contents (Elt F) → (⟨S200000x32, .f32⟩ : BufTy).Contents (Elt F)),
    StableHlo.unary main_arg8 main_v17 (broadcastInDim S1x32 ![1] bcast_S32_S1x32_1 : (⟨S32, .f32⟩ : BufTy).Contents (Elt F) → (⟨S1x32, .f32⟩ : BufTy).Contents (Elt F)),
    StableHlo.unary main_v17 main_v18 (broadcastInDim S200000x32 ![0, 1] bcast_S1x32_S200000x32_0_1 : (⟨S1x32, .f32⟩ : BufTy).Contents (Elt F) → (⟨S200000x32, .f32⟩ : BufTy).Contents (Elt F)),
    StableHlo.binary main_v16 main_v18 main_v19 (addf : (⟨S200000x32, .f32⟩ : BufTy).Contents (Elt F) → (⟨S200000x32, .f32⟩ : BufTy).Contents (Elt F) → (⟨S200000x32, .f32⟩ : BufTy).Contents (Elt F)) ]

/-- Operations 25 … 60 of the whole line. -/
abbrev seg2a : List (HloOp τ sig (Elt F)) :=
  [ StableHlo.unary main_arg3 main_v20 ((extractStridedSlice S1x2000000 ![0, 0] · slices_S2x2000000_S1x2000000_0_0) : (⟨S2x2000000, .i32⟩ : BufTy).Contents (Elt F) → (⟨S1x2000000, .i32⟩ : BufTy).Contents (Elt F)),
    StableHlo.reshape main_v20 main_v21 rfl shapeCasts_S1x2000000_S2000000,
    StableHlo.unary main_arg3 main_v22 ((extractStridedSlice S1x2000000 ![1, 0] · slices_S2x2000000_S1x2000000_1_0) : (⟨S2x2000000, .i32⟩ : BufTy).Contents (Elt F) → (⟨S1x2000000, .i32⟩ : BufTy).Contents (Elt F)),
    StableHlo.reshape main_v22 main_v23 rfl shapeCasts_S1x2000000_S2000000,
    StableHlo.nullary main_c_3 (constantI S_ 32 0#32),
    StableHlo.unary main_c_3 main_v24 (broadcastInDim S2000000 ![] bcast_S_S2000000 : (⟨S_, .i32⟩ : BufTy).Contents (Elt F) → (⟨S2000000, .i32⟩ : BufTy).Contents (Elt F)),
    StableHlo.binary main_v21 main_v24 main_v25 (cmpi .slt : (⟨S2000000, .i32⟩ : BufTy).Contents (Elt F) → (⟨S2000000, .i32⟩ : BufTy).Contents (Elt F) → (⟨S2000000, .i1⟩ : BufTy).Contents (Elt F)),
    StableHlo.nullary main_c_4 (constantI S_ 32 500000#32),
    StableHlo.unary main_c_4 main_v26 (broadcastInDim S2000000 ![] bcast_S_S2000000 : (⟨S_, .i32⟩ : BufTy).Contents (Elt F) → (⟨S2000000, .i32⟩ : BufTy).Contents (Elt F)),
    StableHlo.binary main_v21 main_v26 main_v27 (addi : (⟨S2000000, .i32⟩ : BufTy).Contents (Elt F) → (⟨S2000000, .i32⟩ : BufTy).Contents (Elt F) → (⟨S2000000, .i32⟩ : BufTy).Contents (Elt F)),
    StableHlo.ternary main_v25 main_v27 main_v21 main_v28 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v28 main_v29 (broadcastInDim S2000000x1 ![0] bcast_S2000000_S2000000x1_0 : (⟨S2000000, .i32⟩ : BufTy).Contents (Elt F) → (⟨S2000000x1, .i32⟩ : BufTy).Contents (Elt F)),
    StableHlo.binary main_v6 main_v29 main_v30 ((fun x i => Host.gather gather_S500000x32_S2000000x1_S2000000x32_1_0_n_n_0_1_132 x i) : (⟨S500000x32, .f32⟩ : BufTy).Contents (Elt F) → (⟨S2000000x1, .i32⟩ : BufTy).Contents (Elt F) → (⟨S2000000x32, .f32⟩ : BufTy).Contents (Elt F)),
    StableHlo.nullary main_cst (constant S_ .f32 0x00000000#32),
    StableHlo.unary main_cst main_v31 (broadcastInDim S200000x32 ![] bcast_S_S200000x32 : (⟨S_, .f32⟩ : BufTy).Contents (Elt F) → (⟨S200000x32, .f32⟩ : BufTy).Contents (Elt F)),
    StableHlo.unary main_v23 main_v32 (broadcastInDim S2000000x1 ![0] bcast_S2000000_S2000000x1_0 : (⟨S2000000, .i32⟩ : BufTy).Contents (Elt F) → (⟨S2000000x1, .i32⟩ : BufTy).Contents (Elt F)),
    StableHlo.ternary main_v31 main_v32 main_v30 main_v33 ((fun x i u => Host.scatterAdd scatter_S200000x32_S2000000x1_S2000000x32_1_0_0_1 x i u) : (⟨S200000x32, .f32⟩ : BufTy).Contents (Elt F) → (⟨S2000000x1, .i32⟩ : BufTy).Contents (Elt F) → (⟨S2000000x32, .f32⟩ : BufTy).Contents (Elt F) → (⟨S200000x32, .f32⟩ : BufTy).Contents (Elt F)),
    StableHlo.nullary main_cst_5 (constant S_ .f32 0x3F800000#32),
    StableHlo.unary main_cst_5 main_v34 (broadcastInDim S2000000 ![] bcast_S_S2000000 : (⟨S_, .f32⟩ : BufTy).Contents (Elt F) → (⟨S2000000, .f32⟩ : BufTy).Contents (Elt F)),
    StableHlo.nullary main_cst_6 (constant S_ .f32 0x00000000#32),
    StableHlo.unary main_cst_6 main_v35 (broadcastInDim S200000 ![] bcast_S_S200000 : (⟨S_, .f32⟩ : BufTy).Contents (Elt F) → (⟨S200000, .f32⟩ : BufTy).Contents (Elt F)),
    StableHlo.unary main_v23 main_v36 (broadcastInDim S2000000x1 ![0] bcast_S2000000_S2000000x1_0 : (⟨S2000000, .i32⟩ : BufTy).Contents (Elt F) → (⟨S2000000x1, .i32⟩ : BufTy).Contents (Elt F)),
    StableHlo.ternary main_v35 main_v36 main_v34 main_v37 ((fun x i u => Host.scatterAdd scatter_S200000_S2000000x1_S2000000_n_0_0_1 x i u) : (⟨S200000, .f32⟩ : BufTy).Contents (Elt F) → (⟨S2000000x1, .i32⟩ : BufTy).Contents (Elt F) → (⟨S2000000, .f32⟩ : BufTy).Contents (Elt F) → (⟨S200000, .f32⟩ : BufTy).Contents (Elt F)),
    StableHlo.nullary main_cst_7 (constant S_ .f32 0x3F800000#32),
    StableHlo.unary main_cst_7 main_v38 (broadcastInDim S200000 ![] bcast_S_S200000 : (⟨S_, .f32⟩ : BufTy).Contents (Elt F) → (⟨S200000, .f32⟩ : BufTy).Contents (Elt F)),
    StableHlo.binary main_v37 main_v38 main_v39 (maximumf : (⟨S200000, .f32⟩ : BufTy).Contents (Elt F) → (⟨S200000, .f32⟩ : BufTy).Contents (Elt F) → (⟨S200000, .f32⟩ : BufTy).Contents (Elt F)),
    StableHlo.unary main_v39 main_v40 (broadcastInDim S200000x1 ![0] bcast_S200000_S200000x1_0 : (⟨S200000, .f32⟩ : BufTy).Contents (Elt F) → (⟨S200000x1, .f32⟩ : BufTy).Contents (Elt F)),
    StableHlo.unary main_v40 main_v41 (broadcastInDim S200000x32 ![0, 1] bcast_S200000x1_S200000x32_0_1 : (⟨S200000x1, .f32⟩ : BufTy).Contents (Elt F) → (⟨S200000x32, .f32⟩ : BufTy).Contents (Elt F)),
    StableHlo.binary main_v33 main_v41 main_v42 (Host.divf : (⟨S200000x32, .f32⟩ : BufTy).Contents (Elt F) → (⟨S200000x32, .f32⟩ : BufTy).Contents (Elt F) → (⟨S200000x32, .f32⟩ : BufTy).Contents (Elt F)),
    StableHlo.unary main_arg9 main_v43 ((transpose S32x32 [1, 0] · transposes_S32x32_S32x32_1_0) : (⟨S32x32, .f32⟩ : BufTy).Contents (Elt F) → (⟨S32x32, .f32⟩ : BufTy).Contents (Elt F)),
    StableHlo.binary main_v42 main_v43 main_v44 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    StableHlo.unary main_arg10 main_v45 (broadcastInDim S1x32 ![1] bcast_S32_S1x32_1 : (⟨S32, .f32⟩ : BufTy).Contents (Elt F) → (⟨S1x32, .f32⟩ : BufTy).Contents (Elt F)),
    StableHlo.unary main_v45 main_v46 (broadcastInDim S200000x32 ![0, 1] bcast_S1x32_S200000x32_0_1 : (⟨S1x32, .f32⟩ : BufTy).Contents (Elt F) → (⟨S200000x32, .f32⟩ : BufTy).Contents (Elt F)),
    StableHlo.binary main_v44 main_v46 main_v47 (addf : (⟨S200000x32, .f32⟩ : BufTy).Contents (Elt F) → (⟨S200000x32, .f32⟩ : BufTy).Contents (Elt F) → (⟨S200000x32, .f32⟩ : BufTy).Contents (Elt F)),
    StableHlo.unary main_arg11 main_v48 ((transpose S32x32 [1, 0] · transposes_S32x32_S32x32_1_0) : (⟨S32x32, .f32⟩ : BufTy).Contents (Elt F) → (⟨S32x32, .f32⟩ : BufTy).Contents (Elt F)),
    StableHlo.binary main_v19 main_v48 main_v49 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)) ]

/-- Operations 61 … 69 of the whole line. -/
abbrev seg2b : List (HloOp τ sig (Elt F)) :=
  [ StableHlo.binary main_v47 main_v49 main_v50 (addf : (⟨S200000x32, .f32⟩ : BufTy).Contents (Elt F) → (⟨S200000x32, .f32⟩ : BufTy).Contents (Elt F) → (⟨S200000x32, .f32⟩ : BufTy).Contents (Elt F)),
    StableHlo.nullary main_cst_8 (constant S_ .f32 0x3C23D70A#32),
    StableHlo.TRef.nullary main_call0.cst (constant S_ .f32 0x00000000#32),
    StableHlo.TRef.unary main_call0.cst main_call0.v0 (broadcastInDim S200000x32 ![] bcast_S_S200000x32),
    StableHlo.TRef.binary (StableHlo.TRef.of main_v50 : StableHlo.TRef sig ⟨S200000x32, .f32⟩) main_call0.v0 main_call0.v1 (cmpf .oge),
    StableHlo.TRef.unary (StableHlo.TRef.of main_cst_8 : StableHlo.TRef sig ⟨S_, .f32⟩) main_call0.v2 id,
    StableHlo.TRef.unary main_call0.v2 main_call0.v3 (broadcastInDim S200000x32 ![] bcast_S_S200000x32),
    StableHlo.TRef.binary main_call0.v3 (StableHlo.TRef.of main_v50 : StableHlo.TRef sig ⟨S200000x32, .f32⟩) main_call0.v4 mulf,
    StableHlo.TRef.ternary main_call0.v1 (StableHlo.TRef.of main_v50 : StableHlo.TRef sig ⟨S200000x32, .f32⟩) main_call0.v4 main_call0.call0.v0 select ]

/-- Operations 70 … 114 of the whole line. -/
abbrev seg3 : List (HloOp τ sig (Elt F)) :=
  [ StableHlo.unary main_arg4 main_v52 ((extractStridedSlice S1x2000000 ![0, 0] · slices_S2x2000000_S1x2000000_0_0) : (⟨S2x2000000, .i32⟩ : BufTy).Contents (Elt F) → (⟨S1x2000000, .i32⟩ : BufTy).Contents (Elt F)),
    StableHlo.reshape main_v52 main_v53 rfl shapeCasts_S1x2000000_S2000000,
    StableHlo.unary main_arg4 main_v54 ((extractStridedSlice S1x2000000 ![1, 0] · slices_S2x2000000_S1x2000000_1_0) : (⟨S2x2000000, .i32⟩ : BufTy).Contents (Elt F) → (⟨S1x2000000, .i32⟩ : BufTy).Contents (Elt F)),
    StableHlo.reshape main_v54 main_v55 rfl shapeCasts_S1x2000000_S2000000,
    StableHlo.nullary main_c_9 (constantI S_ 32 0#32),
    StableHlo.unary main_c_9 main_v56 (broadcastInDim S2000000 ![] bcast_S_S2000000 : (⟨S_, .i32⟩ : BufTy).Contents (Elt F) → (⟨S2000000, .i32⟩ : BufTy).Contents (Elt F)),
    StableHlo.binary main_v53 main_v56 main_v57 (cmpi .slt : (⟨S2000000, .i32⟩ : BufTy).Contents (Elt F) → (⟨S2000000, .i32⟩ : BufTy).Contents (Elt F) → (⟨S2000000, .i1⟩ : BufTy).Contents (Elt F)),
    StableHlo.nullary main_c_10 (constantI S_ 32 200000#32),
    StableHlo.unary main_c_10 main_v58 (broadcastInDim S2000000 ![] bcast_S_S2000000 : (⟨S_, .i32⟩ : BufTy).Contents (Elt F) → (⟨S2000000, .i32⟩ : BufTy).Contents (Elt F)),
    StableHlo.binary main_v53 main_v58 main_v59 (addi : (⟨S2000000, .i32⟩ : BufTy).Contents (Elt F) → (⟨S2000000, .i32⟩ : BufTy).Contents (Elt F) → (⟨S2000000, .i32⟩ : BufTy).Contents (Elt F)),
    StableHlo.ternary main_v57 main_v59 main_v53 main_v60 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v60 main_v61 (broadcastInDim S2000000x1 ![0] bcast_S2000000_S2000000x1_0 : (⟨S2000000, .i32⟩ : BufTy).Contents (Elt F) → (⟨S2000000x1, .i32⟩ : BufTy).Contents (Elt F)),
    StableHlo.binary main_v19 main_v61 main_v62 ((fun x i => Host.gather gather_S200000x32_S2000000x1_S2000000x32_1_0_n_n_0_1_132 x i) : (⟨S200000x32, .f32⟩ : BufTy).Contents (Elt F) → (⟨S2000000x1, .i32⟩ : BufTy).Contents (Elt F) → (⟨S2000000x32, .f32⟩ : BufTy).Contents (Elt F)),
    StableHlo.nullary main_cst_11 (constant S_ .f32 0x00000000#32),
    StableHlo.unary main_cst_11 main_v63 (broadcastInDim S500000x32 ![] bcast_S_S500000x32 : (⟨S_, .f32⟩ : BufTy).Contents (Elt F) → (⟨S500000x32, .f32⟩ : BufTy).Contents (Elt F)),
    StableHlo.unary main_v55 main_v64 (broadcastInDim S2000000x1 ![0] bcast_S2000000_S2000000x1_0 : (⟨S2000000, .i32⟩ : BufTy).Contents (Elt F) → (⟨S2000000x1, .i32⟩ : BufTy).Contents (Elt F)),
    StableHlo.ternary main_v63 main_v64 main_v62 main_v65 ((fun x i u => Host.scatterAdd scatter_S500000x32_S2000000x1_S2000000x32_1_0_0_1 x i u) : (⟨S500000x32, .f32⟩ : BufTy).Contents (Elt F) → (⟨S2000000x1, .i32⟩ : BufTy).Contents (Elt F) → (⟨S2000000x32, .f32⟩ : BufTy).Contents (Elt F) → (⟨S500000x32, .f32⟩ : BufTy).Contents (Elt F)),
    StableHlo.nullary main_cst_12 (constant S_ .f32 0x3F800000#32),
    StableHlo.unary main_cst_12 main_v66 (broadcastInDim S2000000 ![] bcast_S_S2000000 : (⟨S_, .f32⟩ : BufTy).Contents (Elt F) → (⟨S2000000, .f32⟩ : BufTy).Contents (Elt F)),
    StableHlo.nullary main_cst_13 (constant S_ .f32 0x00000000#32),
    StableHlo.unary main_cst_13 main_v67 (broadcastInDim S500000 ![] bcast_S_S500000 : (⟨S_, .f32⟩ : BufTy).Contents (Elt F) → (⟨S500000, .f32⟩ : BufTy).Contents (Elt F)),
    StableHlo.unary main_v55 main_v68 (broadcastInDim S2000000x1 ![0] bcast_S2000000_S2000000x1_0 : (⟨S2000000, .i32⟩ : BufTy).Contents (Elt F) → (⟨S2000000x1, .i32⟩ : BufTy).Contents (Elt F)),
    StableHlo.ternary main_v67 main_v68 main_v66 main_v69 ((fun x i u => Host.scatterAdd scatter_S500000_S2000000x1_S2000000_n_0_0_1 x i u) : (⟨S500000, .f32⟩ : BufTy).Contents (Elt F) → (⟨S2000000x1, .i32⟩ : BufTy).Contents (Elt F) → (⟨S2000000, .f32⟩ : BufTy).Contents (Elt F) → (⟨S500000, .f32⟩ : BufTy).Contents (Elt F)),
    StableHlo.nullary main_cst_14 (constant S_ .f32 0x3F800000#32),
    StableHlo.unary main_cst_14 main_v70 (broadcastInDim S500000 ![] bcast_S_S500000 : (⟨S_, .f32⟩ : BufTy).Contents (Elt F) → (⟨S500000, .f32⟩ : BufTy).Contents (Elt F)),
    StableHlo.binary main_v69 main_v70 main_v71 (maximumf : (⟨S500000, .f32⟩ : BufTy).Contents (Elt F) → (⟨S500000, .f32⟩ : BufTy).Contents (Elt F) → (⟨S500000, .f32⟩ : BufTy).Contents (Elt F)),
    StableHlo.unary main_v71 main_v72 (broadcastInDim S500000x1 ![0] bcast_S500000_S500000x1_0 : (⟨S500000, .f32⟩ : BufTy).Contents (Elt F) → (⟨S500000x1, .f32⟩ : BufTy).Contents (Elt F)),
    StableHlo.unary main_v72 main_v73 (broadcastInDim S500000x32 ![0, 1] bcast_S500000x1_S500000x32_0_1 : (⟨S500000x1, .f32⟩ : BufTy).Contents (Elt F) → (⟨S500000x32, .f32⟩ : BufTy).Contents (Elt F)),
    StableHlo.binary main_v65 main_v73 main_v74 (Host.divf : (⟨S500000x32, .f32⟩ : BufTy).Contents (Elt F) → (⟨S500000x32, .f32⟩ : BufTy).Contents (Elt F) → (⟨S500000x32, .f32⟩ : BufTy).Contents (Elt F)),
    StableHlo.unary main_arg12 main_v75 ((transpose S32x32 [1, 0] · transposes_S32x32_S32x32_1_0) : (⟨S32x32, .f32⟩ : BufTy).Contents (Elt F) → (⟨S32x32, .f32⟩ : BufTy).Contents (Elt F)),
    StableHlo.binary main_v74 main_v75 main_v76 ((fun l r => Host.dotGeneral dot_S500000x32_S32x32_S500000x32_1_0_0_1_n_n none l r) : (⟨S500000x32, .f32⟩ : BufTy).Contents (Elt F) → (⟨S32x32, .f32⟩ : BufTy).Contents (Elt F) → (⟨S500000x32, .f32⟩ : BufTy).Contents (Elt F)),
    StableHlo.unary main_arg13 main_v77 (broadcastInDim S1x32 ![1] bcast_S32_S1x32_1 : (⟨S32, .f32⟩ : BufTy).Contents (Elt F) → (⟨S1x32, .f32⟩ : BufTy).Contents (Elt F)),
    StableHlo.unary main_v77 main_v78 (broadcastInDim S500000x32 ![0, 1] bcast_S1x32_S500000x32_0_1 : (⟨S1x32, .f32⟩ : BufTy).Contents (Elt F) → (⟨S500000x32, .f32⟩ : BufTy).Contents (Elt F)),
    StableHlo.binary main_v76 main_v78 main_v79 (addf : (⟨S500000x32, .f32⟩ : BufTy).Contents (Elt F) → (⟨S500000x32, .f32⟩ : BufTy).Contents (Elt F) → (⟨S500000x32, .f32⟩ : BufTy).Contents (Elt F)),
    StableHlo.unary main_arg14 main_v80 ((transpose S32x32 [1, 0] · transposes_S32x32_S32x32_1_0) : (⟨S32x32, .f32⟩ : BufTy).Contents (Elt F) → (⟨S32x32, .f32⟩ : BufTy).Contents (Elt F)),
    StableHlo.binary main_v6 main_v80 main_v81 ((fun l r => Host.dotGeneral dot_S500000x32_S32x32_S500000x32_1_0_0_1_n_n none l r) : (⟨S500000x32, .f32⟩ : BufTy).Contents (Elt F) → (⟨S32x32, .f32⟩ : BufTy).Contents (Elt F) → (⟨S500000x32, .f32⟩ : BufTy).Contents (Elt F)),
    StableHlo.binary main_v79 main_v81 main_v82 (addf : (⟨S500000x32, .f32⟩ : BufTy).Contents (Elt F) → (⟨S500000x32, .f32⟩ : BufTy).Contents (Elt F) → (⟨S500000x32, .f32⟩ : BufTy).Contents (Elt F)),
    StableHlo.nullary main_cst_15 (constant S_ .f32 0x3C23D70A#32),
    StableHlo.TRef.nullary main_call1.cst (constant S_ .f32 0x00000000#32),
    StableHlo.TRef.unary main_call1.cst main_call1.v0 (broadcastInDim S500000x32 ![] bcast_S_S500000x32),
    StableHlo.TRef.binary (StableHlo.TRef.of main_v82 : StableHlo.TRef sig ⟨S500000x32, .f32⟩) main_call1.v0 main_call1.v1 (cmpf .oge),
    StableHlo.TRef.unary (StableHlo.TRef.of main_cst_15 : StableHlo.TRef sig ⟨S_, .f32⟩) main_call1.v2 id,
    StableHlo.TRef.unary main_call1.v2 main_call1.v3 (broadcastInDim S500000x32 ![] bcast_S_S500000x32),
    StableHlo.TRef.binary main_call1.v3 (StableHlo.TRef.of main_v82 : StableHlo.TRef sig ⟨S500000x32, .f32⟩) main_call1.v4 mulf,
    StableHlo.TRef.ternary main_call1.v1 (StableHlo.TRef.of main_v82 : StableHlo.TRef sig ⟨S500000x32, .f32⟩) main_call1.v4 main_call1.call0.v0 select ]

/-- Operations 115 … 132 of the whole line. -/
abbrev seg4a : List (HloOp τ sig (Elt F)) :=
  [ StableHlo.unary main_arg3 main_v84 ((extractStridedSlice S1x2000000 ![0, 0] · slices_S2x2000000_S1x2000000_0_0) : (⟨S2x2000000, .i32⟩ : BufTy).Contents (Elt F) → (⟨S1x2000000, .i32⟩ : BufTy).Contents (Elt F)),
    StableHlo.reshape main_v84 main_v85 rfl shapeCasts_S1x2000000_S2000000,
    StableHlo.unary main_arg3 main_v86 ((extractStridedSlice S1x2000000 ![1, 0] · slices_S2x2000000_S1x2000000_1_0) : (⟨S2x2000000, .i32⟩ : BufTy).Contents (Elt F) → (⟨S1x2000000, .i32⟩ : BufTy).Contents (Elt F)),
    StableHlo.reshape main_v86 main_v87 rfl shapeCasts_S1x2000000_S2000000,
    StableHlo.nullary main_c_16 (constantI S_ 32 0#32),
    StableHlo.unary main_c_16 main_v88 (broadcastInDim S2000000 ![] bcast_S_S2000000 : (⟨S_, .i32⟩ : BufTy).Contents (Elt F) → (⟨S2000000, .i32⟩ : BufTy).Contents (Elt F)),
    StableHlo.binary main_v85 main_v88 main_v89 (cmpi .slt : (⟨S2000000, .i32⟩ : BufTy).Contents (Elt F) → (⟨S2000000, .i32⟩ : BufTy).Contents (Elt F) → (⟨S2000000, .i1⟩ : BufTy).Contents (Elt F)),
    StableHlo.nullary main_c_17 (constantI S_ 32 500000#32),
    StableHlo.unary main_c_17 main_v90 (broadcastInDim S2000000 ![] bcast_S_S2000000 : (⟨S_, .i32⟩ : BufTy).Contents (Elt F) → (⟨S2000000, .i32⟩ : BufTy).Contents (Elt F)),
    StableHlo.binary main_v85 main_v90 main_v91 (addi : (⟨S2000000, .i32⟩ : BufTy).Contents (Elt F) → (⟨S2000000, .i32⟩ : BufTy).Contents (Elt F) → (⟨S2000000, .i32⟩ : BufTy).Contents (Elt F)),
    StableHlo.ternary main_v89 main_v91 main_v85 main_v92 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v92 main_v93 (broadcastInDim S2000000x1 ![0] bcast_S2000000_S2000000x1_0 : (⟨S2000000, .i32⟩ : BufTy).Contents (Elt F) → (⟨S2000000x1, .i32⟩ : BufTy).Contents (Elt F)),
    StableHlo.binary main_v83 main_v93 main_v94 ((fun x i => Host.gather gather_S500000x32_S2000000x1_S2000000x32_1_0_n_n_0_1_132 x i) : (⟨S500000x32, .f32⟩ : BufTy).Contents (Elt F) → (⟨S2000000x1, .i32⟩ : BufTy).Contents (Elt F) → (⟨S2000000x32, .f32⟩ : BufTy).Contents (Elt F)),
    StableHlo.nullary main_cst_18 (constant S_ .f32 0x00000000#32),
    StableHlo.unary main_cst_18 main_v95 (broadcastInDim S200000x32 ![] bcast_S_S200000x32 : (⟨S_, .f32⟩ : BufTy).Contents (Elt F) → (⟨S200000x32, .f32⟩ : BufTy).Contents (Elt F)),
    StableHlo.unary main_v87 main_v96 (broadcastInDim S2000000x1 ![0] bcast_S2000000_S2000000x1_0 : (⟨S2000000, .i32⟩ : BufTy).Contents (Elt F) → (⟨S2000000x1, .i32⟩ : BufTy).Contents (Elt F)),
    StableHlo.ternary main_v95 main_v96 main_v94 main_v97 ((fun x i u => Host.scatterAdd scatter_S200000x32_S2000000x1_S2000000x32_1_0_0_1 x i u) : (⟨S200000x32, .f32⟩ : BufTy).Contents (Elt F) → (⟨S2000000x1, .i32⟩ : BufTy).Contents (Elt F) → (⟨S2000000x32, .f32⟩ : BufTy).Contents (Elt F) → (⟨S200000x32, .f32⟩ : BufTy).Contents (Elt F)),
    StableHlo.nullary main_cst_19 (constant S_ .f32 0x3F800000#32) ]

/-- Operations 133 … 159 of the whole line. -/
abbrev seg4b : List (HloOp τ sig (Elt F)) :=
  [ StableHlo.unary main_cst_19 main_v98 (broadcastInDim S2000000 ![] bcast_S_S2000000 : (⟨S_, .f32⟩ : BufTy).Contents (Elt F) → (⟨S2000000, .f32⟩ : BufTy).Contents (Elt F)),
    StableHlo.nullary main_cst_20 (constant S_ .f32 0x00000000#32),
    StableHlo.unary main_cst_20 main_v99 (broadcastInDim S200000 ![] bcast_S_S200000 : (⟨S_, .f32⟩ : BufTy).Contents (Elt F) → (⟨S200000, .f32⟩ : BufTy).Contents (Elt F)),
    StableHlo.unary main_v87 main_v100 (broadcastInDim S2000000x1 ![0] bcast_S2000000_S2000000x1_0 : (⟨S2000000, .i32⟩ : BufTy).Contents (Elt F) → (⟨S2000000x1, .i32⟩ : BufTy).Contents (Elt F)),
    StableHlo.ternary main_v99 main_v100 main_v98 main_v101 ((fun x i u => Host.scatterAdd scatter_S200000_S2000000x1_S2000000_n_0_0_1 x i u) : (⟨S200000, .f32⟩ : BufTy).Contents (Elt F) → (⟨S2000000x1, .i32⟩ : BufTy).Contents (Elt F) → (⟨S2000000, .f32⟩ : BufTy).Contents (Elt F) → (⟨S200000, .f32⟩ : BufTy).Contents (Elt F)),
    StableHlo.nullary main_cst_21 (constant S_ .f32 0x3F800000#32),
    StableHlo.unary main_cst_21 main_v102 (broadcastInDim S200000 ![] bcast_S_S200000 : (⟨S_, .f32⟩ : BufTy).Contents (Elt F) → (⟨S200000, .f32⟩ : BufTy).Contents (Elt F)),
    StableHlo.binary main_v101 main_v102 main_v103 (maximumf : (⟨S200000, .f32⟩ : BufTy).Contents (Elt F) → (⟨S200000, .f32⟩ : BufTy).Contents (Elt F) → (⟨S200000, .f32⟩ : BufTy).Contents (Elt F)),
    StableHlo.unary main_v103 main_v104 (broadcastInDim S200000x1 ![0] bcast_S200000_S200000x1_0 : (⟨S200000, .f32⟩ : BufTy).Contents (Elt F) → (⟨S200000x1, .f32⟩ : BufTy).Contents (Elt F)),
    StableHlo.unary main_v104 main_v105 (broadcastInDim S200000x32 ![0, 1] bcast_S200000x1_S200000x32_0_1 : (⟨S200000x1, .f32⟩ : BufTy).Contents (Elt F) → (⟨S200000x32, .f32⟩ : BufTy).Contents (Elt F)),
    StableHlo.binary main_v97 main_v105 main_v106 (Host.divf : (⟨S200000x32, .f32⟩ : BufTy).Contents (Elt F) → (⟨S200000x32, .f32⟩ : BufTy).Contents (Elt F) → (⟨S200000x32, .f32⟩ : BufTy).Contents (Elt F)),
    StableHlo.unary main_arg15 main_v107 ((transpose S32x32 [1, 0] · transposes_S32x32_S32x32_1_0) : (⟨S32x32, .f32⟩ : BufTy).Contents (Elt F) → (⟨S32x32, .f32⟩ : BufTy).Contents (Elt F)),
    StableHlo.binary main_v106 main_v107 main_v108 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    StableHlo.unary main_arg16 main_v109 (broadcastInDim S1x32 ![1] bcast_S32_S1x32_1 : (⟨S32, .f32⟩ : BufTy).Contents (Elt F) → (⟨S1x32, .f32⟩ : BufTy).Contents (Elt F)),
    StableHlo.unary main_v109 main_v110 (broadcastInDim S200000x32 ![0, 1] bcast_S1x32_S200000x32_0_1 : (⟨S1x32, .f32⟩ : BufTy).Contents (Elt F) → (⟨S200000x32, .f32⟩ : BufTy).Contents (Elt F)),
    StableHlo.binary main_v108 main_v110 main_v111 (addf : (⟨S200000x32, .f32⟩ : BufTy).Contents (Elt F) → (⟨S200000x32, .f32⟩ : BufTy).Contents (Elt F) → (⟨S200000x32, .f32⟩ : BufTy).Contents (Elt F)),
    StableHlo.unary main_arg17 main_v112 ((transpose S32x32 [1, 0] · transposes_S32x32_S32x32_1_0) : (⟨S32x32, .f32⟩ : BufTy).Contents (Elt F) → (⟨S32x32, .f32⟩ : BufTy).Contents (Elt F)),
    StableHlo.binary main_v51 main_v112 main_v113 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    StableHlo.binary main_v111 main_v113 main_v114 (addf : (⟨S200000x32, .f32⟩ : BufTy).Contents (Elt F) → (⟨S200000x32, .f32⟩ : BufTy).Contents (Elt F) → (⟨S200000x32, .f32⟩ : BufTy).Contents (Elt F)),
    StableHlo.nullary main_cst_22 (constant S_ .f32 0x3C23D70A#32),
    StableHlo.TRef.nullary main_call2.cst (constant S_ .f32 0x00000000#32),
    StableHlo.TRef.unary main_call2.cst main_call2.v0 (broadcastInDim S200000x32 ![] bcast_S_S200000x32),
    StableHlo.TRef.binary (StableHlo.TRef.of main_v114 : StableHlo.TRef sig ⟨S200000x32, .f32⟩) main_call2.v0 main_call2.v1 (cmpf .oge),
    StableHlo.TRef.unary (StableHlo.TRef.of main_cst_22 : StableHlo.TRef sig ⟨S_, .f32⟩) main_call2.v2 id,
    StableHlo.TRef.unary main_call2.v2 main_call2.v3 (broadcastInDim S200000x32 ![] bcast_S_S200000x32),
    StableHlo.TRef.binary main_call2.v3 (StableHlo.TRef.of main_v114 : StableHlo.TRef sig ⟨S200000x32, .f32⟩) main_call2.v4 mulf,
    StableHlo.TRef.ternary main_call2.v1 (StableHlo.TRef.of main_v114 : StableHlo.TRef sig ⟨S200000x32, .f32⟩) main_call2.v4 main_call2.call0.v0 select ]

/-- Operations 160 … 204 of the whole line. -/
abbrev seg5 : List (HloOp τ sig (Elt F)) :=
  [ StableHlo.unary main_arg4 main_v116 ((extractStridedSlice S1x2000000 ![0, 0] · slices_S2x2000000_S1x2000000_0_0) : (⟨S2x2000000, .i32⟩ : BufTy).Contents (Elt F) → (⟨S1x2000000, .i32⟩ : BufTy).Contents (Elt F)),
    StableHlo.reshape main_v116 main_v117 rfl shapeCasts_S1x2000000_S2000000,
    StableHlo.unary main_arg4 main_v118 ((extractStridedSlice S1x2000000 ![1, 0] · slices_S2x2000000_S1x2000000_1_0) : (⟨S2x2000000, .i32⟩ : BufTy).Contents (Elt F) → (⟨S1x2000000, .i32⟩ : BufTy).Contents (Elt F)),
    StableHlo.reshape main_v118 main_v119 rfl shapeCasts_S1x2000000_S2000000,
    StableHlo.nullary main_c_23 (constantI S_ 32 0#32),
    StableHlo.unary main_c_23 main_v120 (broadcastInDim S2000000 ![] bcast_S_S2000000 : (⟨S_, .i32⟩ : BufTy).Contents (Elt F) → (⟨S2000000, .i32⟩ : BufTy).Contents (Elt F)),
    StableHlo.binary main_v117 main_v120 main_v121 (cmpi .slt : (⟨S2000000, .i32⟩ : BufTy).Contents (Elt F) → (⟨S2000000, .i32⟩ : BufTy).Contents (Elt F) → (⟨S2000000, .i1⟩ : BufTy).Contents (Elt F)),
    StableHlo.nullary main_c_24 (constantI S_ 32 200000#32),
    StableHlo.unary main_c_24 main_v122 (broadcastInDim S2000000 ![] bcast_S_S2000000 : (⟨S_, .i32⟩ : BufTy).Contents (Elt F) → (⟨S2000000, .i32⟩ : BufTy).Contents (Elt F)),
    StableHlo.binary main_v117 main_v122 main_v123 (addi : (⟨S2000000, .i32⟩ : BufTy).Contents (Elt F) → (⟨S2000000, .i32⟩ : BufTy).Contents (Elt F) → (⟨S2000000, .i32⟩ : BufTy).Contents (Elt F)),
    StableHlo.ternary main_v121 main_v123 main_v117 main_v124 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v124 main_v125 (broadcastInDim S2000000x1 ![0] bcast_S2000000_S2000000x1_0 : (⟨S2000000, .i32⟩ : BufTy).Contents (Elt F) → (⟨S2000000x1, .i32⟩ : BufTy).Contents (Elt F)),
    StableHlo.binary main_v51 main_v125 main_v126 ((fun x i => Host.gather gather_S200000x32_S2000000x1_S2000000x32_1_0_n_n_0_1_132 x i) : (⟨S200000x32, .f32⟩ : BufTy).Contents (Elt F) → (⟨S2000000x1, .i32⟩ : BufTy).Contents (Elt F) → (⟨S2000000x32, .f32⟩ : BufTy).Contents (Elt F)),
    StableHlo.nullary main_cst_25 (constant S_ .f32 0x00000000#32),
    StableHlo.unary main_cst_25 main_v127 (broadcastInDim S500000x32 ![] bcast_S_S500000x32 : (⟨S_, .f32⟩ : BufTy).Contents (Elt F) → (⟨S500000x32, .f32⟩ : BufTy).Contents (Elt F)),
    StableHlo.unary main_v119 main_v128 (broadcastInDim S2000000x1 ![0] bcast_S2000000_S2000000x1_0 : (⟨S2000000, .i32⟩ : BufTy).Contents (Elt F) → (⟨S2000000x1, .i32⟩ : BufTy).Contents (Elt F)),
    StableHlo.ternary main_v127 main_v128 main_v126 main_v129 ((fun x i u => Host.scatterAdd scatter_S500000x32_S2000000x1_S2000000x32_1_0_0_1 x i u) : (⟨S500000x32, .f32⟩ : BufTy).Contents (Elt F) → (⟨S2000000x1, .i32⟩ : BufTy).Contents (Elt F) → (⟨S2000000x32, .f32⟩ : BufTy).Contents (Elt F) → (⟨S500000x32, .f32⟩ : BufTy).Contents (Elt F)),
    StableHlo.nullary main_cst_26 (constant S_ .f32 0x3F800000#32),
    StableHlo.unary main_cst_26 main_v130 (broadcastInDim S2000000 ![] bcast_S_S2000000 : (⟨S_, .f32⟩ : BufTy).Contents (Elt F) → (⟨S2000000, .f32⟩ : BufTy).Contents (Elt F)),
    StableHlo.nullary main_cst_27 (constant S_ .f32 0x00000000#32),
    StableHlo.unary main_cst_27 main_v131 (broadcastInDim S500000 ![] bcast_S_S500000 : (⟨S_, .f32⟩ : BufTy).Contents (Elt F) → (⟨S500000, .f32⟩ : BufTy).Contents (Elt F)),
    StableHlo.unary main_v119 main_v132 (broadcastInDim S2000000x1 ![0] bcast_S2000000_S2000000x1_0 : (⟨S2000000, .i32⟩ : BufTy).Contents (Elt F) → (⟨S2000000x1, .i32⟩ : BufTy).Contents (Elt F)),
    StableHlo.ternary main_v131 main_v132 main_v130 main_v133 ((fun x i u => Host.scatterAdd scatter_S500000_S2000000x1_S2000000_n_0_0_1 x i u) : (⟨S500000, .f32⟩ : BufTy).Contents (Elt F) → (⟨S2000000x1, .i32⟩ : BufTy).Contents (Elt F) → (⟨S2000000, .f32⟩ : BufTy).Contents (Elt F) → (⟨S500000, .f32⟩ : BufTy).Contents (Elt F)),
    StableHlo.nullary main_cst_28 (constant S_ .f32 0x3F800000#32),
    StableHlo.unary main_cst_28 main_v134 (broadcastInDim S500000 ![] bcast_S_S500000 : (⟨S_, .f32⟩ : BufTy).Contents (Elt F) → (⟨S500000, .f32⟩ : BufTy).Contents (Elt F)),
    StableHlo.binary main_v133 main_v134 main_v135 (maximumf : (⟨S500000, .f32⟩ : BufTy).Contents (Elt F) → (⟨S500000, .f32⟩ : BufTy).Contents (Elt F) → (⟨S500000, .f32⟩ : BufTy).Contents (Elt F)),
    StableHlo.unary main_v135 main_v136 (broadcastInDim S500000x1 ![0] bcast_S500000_S500000x1_0 : (⟨S500000, .f32⟩ : BufTy).Contents (Elt F) → (⟨S500000x1, .f32⟩ : BufTy).Contents (Elt F)),
    StableHlo.unary main_v136 main_v137 (broadcastInDim S500000x32 ![0, 1] bcast_S500000x1_S500000x32_0_1 : (⟨S500000x1, .f32⟩ : BufTy).Contents (Elt F) → (⟨S500000x32, .f32⟩ : BufTy).Contents (Elt F)),
    StableHlo.binary main_v129 main_v137 main_v138 (Host.divf : (⟨S500000x32, .f32⟩ : BufTy).Contents (Elt F) → (⟨S500000x32, .f32⟩ : BufTy).Contents (Elt F) → (⟨S500000x32, .f32⟩ : BufTy).Contents (Elt F)),
    StableHlo.unary main_arg18 main_v139 ((transpose S32x32 [1, 0] · transposes_S32x32_S32x32_1_0) : (⟨S32x32, .f32⟩ : BufTy).Contents (Elt F) → (⟨S32x32, .f32⟩ : BufTy).Contents (Elt F)),
    StableHlo.binary main_v138 main_v139 main_v140 ((fun l r => Host.dotGeneral dot_S500000x32_S32x32_S500000x32_1_0_0_1_n_n none l r) : (⟨S500000x32, .f32⟩ : BufTy).Contents (Elt F) → (⟨S32x32, .f32⟩ : BufTy).Contents (Elt F) → (⟨S500000x32, .f32⟩ : BufTy).Contents (Elt F)),
    StableHlo.unary main_arg19 main_v141 (broadcastInDim S1x32 ![1] bcast_S32_S1x32_1 : (⟨S32, .f32⟩ : BufTy).Contents (Elt F) → (⟨S1x32, .f32⟩ : BufTy).Contents (Elt F)),
    StableHlo.unary main_v141 main_v142 (broadcastInDim S500000x32 ![0, 1] bcast_S1x32_S500000x32_0_1 : (⟨S1x32, .f32⟩ : BufTy).Contents (Elt F) → (⟨S500000x32, .f32⟩ : BufTy).Contents (Elt F)),
    StableHlo.binary main_v140 main_v142 main_v143 (addf : (⟨S500000x32, .f32⟩ : BufTy).Contents (Elt F) → (⟨S500000x32, .f32⟩ : BufTy).Contents (Elt F) → (⟨S500000x32, .f32⟩ : BufTy).Contents (Elt F)),
    StableHlo.unary main_arg20 main_v144 ((transpose S32x32 [1, 0] · transposes_S32x32_S32x32_1_0) : (⟨S32x32, .f32⟩ : BufTy).Contents (Elt F) → (⟨S32x32, .f32⟩ : BufTy).Contents (Elt F)),
    StableHlo.binary main_v83 main_v144 main_v145 ((fun l r => Host.dotGeneral dot_S500000x32_S32x32_S500000x32_1_0_0_1_n_n none l r) : (⟨S500000x32, .f32⟩ : BufTy).Contents (Elt F) → (⟨S32x32, .f32⟩ : BufTy).Contents (Elt F) → (⟨S500000x32, .f32⟩ : BufTy).Contents (Elt F)),
    StableHlo.binary main_v143 main_v145 main_v146 (addf : (⟨S500000x32, .f32⟩ : BufTy).Contents (Elt F) → (⟨S500000x32, .f32⟩ : BufTy).Contents (Elt F) → (⟨S500000x32, .f32⟩ : BufTy).Contents (Elt F)),
    StableHlo.nullary main_cst_29 (constant S_ .f32 0x3C23D70A#32),
    StableHlo.TRef.nullary main_call3.cst (constant S_ .f32 0x00000000#32),
    StableHlo.TRef.unary main_call3.cst main_call3.v0 (broadcastInDim S500000x32 ![] bcast_S_S500000x32),
    StableHlo.TRef.binary (StableHlo.TRef.of main_v146 : StableHlo.TRef sig ⟨S500000x32, .f32⟩) main_call3.v0 main_call3.v1 (cmpf .oge),
    StableHlo.TRef.unary (StableHlo.TRef.of main_cst_29 : StableHlo.TRef sig ⟨S_, .f32⟩) main_call3.v2 id,
    StableHlo.TRef.unary main_call3.v2 main_call3.v3 (broadcastInDim S500000x32 ![] bcast_S_S500000x32),
    StableHlo.TRef.binary main_call3.v3 (StableHlo.TRef.of main_v146 : StableHlo.TRef sig ⟨S500000x32, .f32⟩) main_call3.v4 mulf,
    StableHlo.TRef.ternary main_call3.v1 (StableHlo.TRef.of main_v146 : StableHlo.TRef sig ⟨S500000x32, .f32⟩) main_call3.v4 main_call3.call0.v0 select ]

/-- Operations 205 … 206 of the whole line. -/
abbrev seg6 : List (HloOp τ sig (Elt F)) :=
  [ StableHlo.nary ![main_v6, main_v83, main_v147] main_v148 (fun u => concatenate S500000x96 1 [⟨S500000x32, u 0⟩, ⟨S500000x32, u 1⟩, ⟨S500000x32, u 2⟩] concatenates_S500000x32_S500000x32_S500000x32_S500000x96_d1),
    StableHlo.nary ![main_v19, main_v51, main_v115] main_v149 (fun u => concatenate S200000x96 1 [⟨S200000x32, u 0⟩, ⟨S200000x32, u 1⟩, ⟨S200000x32, u 2⟩] concatenates_S200000x32_S200000x32_S200000x32_S200000x96_d1) ]

theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops1_sub : (ops1 : List (HloOp τ sig (Elt F))).Forall fun op => op.bufs ⊆ tcRefs τ sig :=
  ⟨binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops2_sub : (ops2 : List (HloOp τ sig (Elt F))).Forall fun op => op.bufs ⊆ tcRefs τ sig :=
  ⟨unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops3_sub : (ops3 : List (HloOp τ sig (Elt F))).Forall fun op => op.bufs ⊆ tcRefs τ sig :=
  ⟨nary_bufs_sub .., nary_bufs_sub ..⟩

theorem ops3_fresh : (ops3 : List (HloOp τ sig (Elt F))).Forall fun op => op.fresh = ∅ :=
  ⟨rfl, rfl⟩

theorem main_part0_eq (c : Dev nD) : main_part0 (F := F) c = seq ops0 := rfl

set_option maxRecDepth 2048 in
theorem main_part1_eq (c : Dev nD) : main_part1 (F := F) c = seq ops1 := by
  simp only [main_part1, fn_leaky_relu.body, fn_leaky_relu_0.body, fn_where.body, fn_where_1.body, seq, bind_assoc, pure_bind]
  rfl

set_option maxRecDepth 2048 in
theorem main_part2_eq (c : Dev nD) : main_part2 (F := F) c = seq ops2 := by
  simp only [main_part2, fn_leaky_relu.body, fn_leaky_relu_0.body, fn_where.body, fn_where_1.body, seq, bind_assoc, pure_bind]

theorem main_part3_eq (c : Dev nD) : main_part3 (F := F) c = seq ops3 := rfl

/-- The whole program's operations: the four windows in order. -/
abbrev ops : List (HloOp τ sig (Elt F)) := ops0 ++ (ops1 ++ (ops2 ++ ops3))

theorem main_eq (c : Dev nD) : main (F := F) c = seq ops := by
  rw [ops, seq_append, seq_append, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨ops0_sub, List.forall_append.mpr ⟨ops1_sub, List.forall_append.mpr ⟨ops2_sub, ops3_sub⟩⟩⟩

theorem ops_fresh : ∀ op ∈ (ops : List (HloOp τ sig (Elt F))), op.fresh = ∅ :=
  List.forall_iff_forall_mem.mp
    (List.forall_append.mpr ⟨ops0_fresh, List.forall_append.mpr ⟨ops1_fresh, List.forall_append.mpr ⟨ops2_fresh, ops3_fresh⟩⟩⟩)

/-- Every weakly fair run of the program terminates, and leaves each buffer at the fold of the
    operations over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The windows as the stages' pieces -/

theorem ops0_eq : (ops0 : List (HloOp τ sig (Elt F))) = seg1 ++ seg2a := rfl
theorem ops1_eq : (ops1 : List (HloOp τ sig (Elt F))) = seg2b ++ (seg3 ++ seg4a) := rfl
theorem ops2_eq : (ops2 : List (HloOp τ sig (Elt F))) = seg4b ++ seg5 := rfl
theorem ops3_eq : (ops3 : List (HloOp τ sig (Elt F))) = seg6 := rfl

/-- The fold of the whole line is the folds of the pieces, one after the other. -/
theorem after_ops (V : Valuation τ sig (Elt F)) :
    after ops V = after seg6 (after seg5 (after seg4b (after seg4a (after seg3 (after seg2b (after seg2a (after seg1 V))))))) := by
  rw [ops, ops0_eq, ops1_eq, ops2_eq, ops3_eq]
  simp only [after_append]

end Cert.ReferenceIdeal.Hand

end
-- ==== Proof.RefKeep.lean ====
/-
  What each piece of the line writes, and that a buffer a piece does not write keeps its contents
  through it.
-/
import proofs.«158431_j3324304687820_1_alg».proof.Proof.RefOps

set_option synthInstance.maxSize 4096

noncomputable section

namespace Cert.ReferenceIdeal.Hand

open Idealize.ShloMosaic Idealize.SL.Sem Cert.ReferenceIdeal
open Idealize.ShloMosaic.StableHlo Idealize.ShloMosaic.TcCoe

variable {F : FTy → Type} [FloatOps F] [Facts]
open Facts₀ Facts

/-- The buffers that piece `seg1` writes. -/
abbrev seg1_W : List (Ref sig .tc) := [main_c, main_v0, main_v1, main_c_0, main_v2, main_v3, main_v4, main_v5, main_v6, main_c_1, main_v7, main_v8, main_c_2, main_v9, main_v10, main_v11, main_v12, main_v13, main_v14, main_v15, main_v16, main_v17, main_v18, main_v19]

set_option maxRecDepth 8192 in
theorem seg1_writes : (seg1 : List (HloOp τ sig (Elt F))).Forall fun op => op.writes ⊆ (seg1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that piece `seg1` does not write keeps its contents through it. -/
theorem seg1_keep (V : Valuation τ sig (Elt F)) (r : Ref sig .tc) (h : r ∉ seg1_W) :
    after seg1 V (Proc.devRef .tc r) = V (Proc.devRef .tc r) :=
  after_of_writes_sub seg1 _ seg1_writes h

/-- The buffers that piece `seg2a` writes. -/
abbrev seg2a_W : List (Ref sig .tc) := [main_v20, main_v21, main_v22, main_v23, main_c_3, main_v24, main_v25, main_c_4, main_v26, main_v27, main_v28, main_v29, main_v30, main_cst, main_v31, main_v32, main_v33, main_cst_5, main_v34, main_cst_6, main_v35, main_v36, main_v37, main_cst_7, main_v38, main_v39, main_v40, main_v41, main_v42, main_v43, main_v44, main_v45, main_v46, main_v47, main_v48, main_v49]

set_option maxRecDepth 8192 in
theorem seg2a_writes : (seg2a : List (HloOp τ sig (Elt F))).Forall fun op => op.writes ⊆ (seg2a_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that piece `seg2a` does not write keeps its contents through it. -/
theorem seg2a_keep (V : Valuation τ sig (Elt F)) (r : Ref sig .tc) (h : r ∉ seg2a_W) :
    after seg2a V (Proc.devRef .tc r) = V (Proc.devRef .tc r) :=
  after_of_writes_sub seg2a _ seg2a_writes h

/-- The buffers that piece `seg2b` writes. -/
abbrev seg2b_W : List (Ref sig .tc) := [main_v50, main_cst_8, main_call0_cst, main_call0_v0, main_call0_v1, main_call0_v2, main_call0_v3, main_call0_v4, main_v51]

set_option maxRecDepth 8192 in
theorem seg2b_writes : (seg2b : List (HloOp τ sig (Elt F))).Forall fun op => op.writes ⊆ (seg2b_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that piece `seg2b` does not write keeps its contents through it. -/
theorem seg2b_keep (V : Valuation τ sig (Elt F)) (r : Ref sig .tc) (h : r ∉ seg2b_W) :
    after seg2b V (Proc.devRef .tc r) = V (Proc.devRef .tc r) :=
  after_of_writes_sub seg2b _ seg2b_writes h

/-- The buffers that piece `seg3` writes. -/
abbrev seg3_W : List (Ref sig .tc) := [main_v52, main_v53, main_v54, main_v55, main_c_9, main_v56, main_v57, main_c_10, main_v58, main_v59, main_v60, main_v61, main_v62, main_cst_11, main_v63, main_v64, main_v65, main_cst_12, main_v66, main_cst_13, main_v67, main_v68, main_v69, main_cst_14, main_v70, main_v71, main_v72, main_v73, main_v74, main_v75, main_v76, main_v77, main_v78, main_v79, main_v80, main_v81, main_v82, main_cst_15, main_call1_cst, main_call1_v0, main_call1_v1, main_call1_v2, main_call1_v3, main_call1_v4, main_v83]

set_option maxRecDepth 8192 in
theorem seg3_writes : (seg3 : List (HloOp τ sig (Elt F))).Forall fun op => op.writes ⊆ (seg3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that piece `seg3` does not write keeps its contents through it. -/
theorem seg3_keep (V : Valuation τ sig (Elt F)) (r : Ref sig .tc) (h : r ∉ seg3_W) :
    after seg3 V (Proc.devRef .tc r) = V (Proc.devRef .tc r) :=
  after_of_writes_sub seg3 _ seg3_writes h

/-- The buffers that piece `seg4a` writes. -/
abbrev seg4a_W : List (Ref sig .tc) := [main_v84, main_v85, main_v86, main_v87, main_c_16, main_v88, main_v89, main_c_17, main_v90, main_v91, main_v92, main_v93, main_v94, main_cst_18, main_v95, main_v96, main_v97, main_cst_19]

set_option maxRecDepth 8192 in
theorem seg4a_writes : (seg4a : List (HloOp τ sig (Elt F))).Forall fun op => op.writes ⊆ (seg4a_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that piece `seg4a` does not write keeps its contents through it. -/
theorem seg4a_keep (V : Valuation τ sig (Elt F)) (r : Ref sig .tc) (h : r ∉ seg4a_W) :
    after seg4a V (Proc.devRef .tc r) = V (Proc.devRef .tc r) :=
  after_of_writes_sub seg4a _ seg4a_writes h

/-- The buffers that piece `seg4b` writes. -/
abbrev seg4b_W : List (Ref sig .tc) := [main_v98, main_cst_20, main_v99, main_v100, main_v101, main_cst_21, main_v102, main_v103, main_v104, main_v105, main_v106, main_v107, main_v108, main_v109, main_v110, main_v111, main_v112, main_v113, main_v114, main_cst_22, main_call2_cst, main_call2_v0, main_call2_v1, main_call2_v2, main_call2_v3, main_call2_v4, main_v115]

set_option maxRecDepth 8192 in
theorem seg4b_writes : (seg4b : List (HloOp τ sig (Elt F))).Forall fun op => op.writes ⊆ (seg4b_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that piece `seg4b` does not write keeps its contents through it. -/
theorem seg4b_keep (V : Valuation τ sig (Elt F)) (r : Ref sig .tc) (h : r ∉ seg4b_W) :
    after seg4b V (Proc.devRef .tc r) = V (Proc.devRef .tc r) :=
  after_of_writes_sub seg4b _ seg4b_writes h

/-- The buffers that piece `seg5` writes. -/
abbrev seg5_W : List (Ref sig .tc) := [main_v116, main_v117, main_v118, main_v119, main_c_23, main_v120, main_v121, main_c_24, main_v122, main_v123, main_v124, main_v125, main_v126, main_cst_25, main_v127, main_v128, main_v129, main_cst_26, main_v130, main_cst_27, main_v131, main_v132, main_v133, main_cst_28, main_v134, main_v135, main_v136, main_v137, main_v138, main_v139, main_v140, main_v141, main_v142, main_v143, main_v144, main_v145, main_v146, main_cst_29, main_call3_cst, main_call3_v0, main_call3_v1, main_call3_v2, main_call3_v3, main_call3_v4, main_v147]

set_option maxRecDepth 8192 in
theorem seg5_writes : (seg5 : List (HloOp τ sig (Elt F))).Forall fun op => op.writes ⊆ (seg5_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that piece `seg5` does not write keeps its contents through it. -/
theorem seg5_keep (V : Valuation τ sig (Elt F)) (r : Ref sig .tc) (h : r ∉ seg5_W) :
    after seg5 V (Proc.devRef .tc r) = V (Proc.devRef .tc r) :=
  after_of_writes_sub seg5 _ seg5_writes h

/-- The buffers that piece `seg6` writes. -/
abbrev seg6_W : List (Ref sig .tc) := [main_v148, main_v149]

set_option maxRecDepth 8192 in
theorem seg6_writes : (seg6 : List (HloOp τ sig (Elt F))).Forall fun op => op.writes ⊆ (seg6_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that piece `seg6` does not write keeps its contents through it. -/
theorem seg6_keep (V : Valuation τ sig (Elt F)) (r : Ref sig .tc) (h : r ∉ seg6_W) :
    after seg6 V (Proc.devRef .tc r) = V (Proc.devRef .tc r) :=
  after_of_writes_sub seg6 _ seg6_writes h

end Cert.ReferenceIdeal.Hand

end
-- ==== Proof.RefS1.lean ====
/-
  Stage 0 of the reference read back: after its first twenty-four operations the user rows are the
  rows of the user table picked by the wrapped ids, and the product rows are the picked embedding
  rows plus the feature projection and its bias.
-/
import proofs.«158431_j3324304687820_1_alg».proof.Proof.RefOps
import proofs.«158431_j3324304687820_1_alg».proof.Proof.Spec

set_option synthInstance.maxSize 4096

noncomputable section

namespace Cert.ReferenceIdeal.Hand

open Idealize.ShloMosaic Idealize.SL.Sem Cert.ReferenceIdeal
open Idealize.ShloMosaic.StableHlo Idealize.ShloMosaic.TcCoe

variable {F : FTy → Type} [FloatOps F] [Facts]
open Facts₀ Facts

set_option maxRecDepth 8192 in
set_option maxHeartbeats 2000000 in
theorem s1_v6 (V : Valuation τ sig (Elt F)) :
    after seg1 V (Proc.devRef .tc main_v6)
      = Host.gather gather_S500000x32_S500000x1_S500000x32_1_0_n_n_0_1_132 (V (Proc.devRef .tc main_arg5)) (Spec.wrapColU (V (Proc.devRef .tc main_arg0))) := by
  simp only [seg1]
  after_results_simp
  all_goals rfl

set_option maxRecDepth 8192 in
set_option maxHeartbeats 2000000 in
theorem s1_v19 (V : Valuation τ sig (Elt F)) :
    after seg1 V (Proc.devRef .tc main_v19)
      = Spec.featDense (V (Proc.devRef .tc main_arg2))
          (Host.gather gather_S200000x32_S200000x1_S200000x32_1_0_n_n_0_1_132 (V (Proc.devRef .tc main_arg6)) (Spec.wrapColP (V (Proc.devRef .tc main_arg1))))
          (transpose S256x32 [1, 0] (V (Proc.devRef .tc main_arg7)) transposes_S32x256_S256x32_1_0) (Spec.rowB (V (Proc.devRef .tc main_arg8))) := by
  simp only [seg1]
  after_results_simp
  all_goals rfl

end Cert.ReferenceIdeal.Hand

end
-- ==== Proof.RefS2.lean ====
/-
  Layer 1, products, read back: the mean of the user rows over the edges arriving at each product,
  through the left weight, plus the bias row, plus the product rows through the right weight,
  then the leaky rectifier.
-/
import proofs.«158431_j3324304687820_1_alg».proof.Proof.RefOps
import proofs.«158431_j3324304687820_1_alg».proof.Proof.Spec

set_option synthInstance.maxSize 4096

noncomputable section

namespace Cert.ReferenceIdeal.Hand

open Idealize.ShloMosaic Idealize.SL.Sem Cert.ReferenceIdeal
open Idealize.ShloMosaic.StableHlo Idealize.ShloMosaic.TcCoe

variable {F : FTy → Type} [FloatOps F] [Facts]
open Facts₀ Facts

set_option maxRecDepth 8192 in
set_option maxHeartbeats 2000000 in
theorem s2a_v47 (V : Valuation τ sig (Elt F)) :
    after seg2a V (Proc.devRef .tc main_v47)
      = addf (Host.dotGeneral dot_S200000x32_S32x32_S200000x32_1_0_0_1_n_n none (Spec.meanToP (V (Proc.devRef .tc main_v6)) (V (Proc.devRef .tc main_arg3))) (Spec.trW (V (Proc.devRef .tc main_arg9))))
          (broadcastInDim S200000x32 ![0, 1] bcast_S1x32_S200000x32_0_1 (Spec.rowB (V (Proc.devRef .tc main_arg10)))) := by
  simp only [seg2a]
  after_results_simp
  all_goals rfl

set_option maxRecDepth 8192 in
set_option maxHeartbeats 2000000 in
theorem s2a_v49 (V : Valuation τ sig (Elt F)) :
    after seg2a V (Proc.devRef .tc main_v49)
      = Host.dotGeneral dot_S200000x32_S32x32_S200000x32_1_0_0_1_n_n none (V (Proc.devRef .tc main_v19)) (Spec.trW (V (Proc.devRef .tc main_arg11))) := by
  simp only [seg2a]
  after_results_simp
  all_goals rfl

set_option maxRecDepth 8192 in
set_option maxHeartbeats 2000000 in
theorem s2b_v51 (V : Valuation τ sig (Elt F)) :
    after seg2b V (Proc.devRef .tc main_v51)
      = Spec.leakyP (addf (V (Proc.devRef .tc main_v47)) (V (Proc.devRef .tc main_v49))) := by
  simp only [seg2b]
  after_results_simp
  all_goals rfl

end Cert.ReferenceIdeal.Hand

end
-- ==== Proof.RefS3.lean ====
/-
  Layer 1, users, read back: the dense stage over 500000 rows of the mean of the product rows
  arriving at each user and of the user rows.
-/
import proofs.«158431_j3324304687820_1_alg».proof.Proof.RefOps
import proofs.«158431_j3324304687820_1_alg».proof.Proof.Spec

set_option synthInstance.maxSize 4096

noncomputable section

namespace Cert.ReferenceIdeal.Hand

open Idealize.ShloMosaic Idealize.SL.Sem Cert.ReferenceIdeal
open Idealize.ShloMosaic.StableHlo Idealize.ShloMosaic.TcCoe

variable {F : FTy → Type} [FloatOps F] [Facts]
open Facts₀ Facts

set_option maxRecDepth 8192 in
set_option maxHeartbeats 2000000 in
theorem s3_v83 (V : Valuation τ sig (Elt F)) :
    after seg3 V (Proc.devRef .tc main_v83)
      = Spec.denseU (Spec.meanToU (V (Proc.devRef .tc main_v19)) (V (Proc.devRef .tc main_arg4))) (V (Proc.devRef .tc main_v6))
          (Spec.trW (V (Proc.devRef .tc main_arg12))) (Spec.rowB (V (Proc.devRef .tc main_arg13))) (Spec.trW (V (Proc.devRef .tc main_arg14))) := by
  simp only [seg3]
  after_results_simp
  all_goals rfl

end Cert.ReferenceIdeal.Hand

end
-- ==== Proof.RefS4.lean ====
/-
  Layer 2, products, read back in its two pieces: the sum of the layer-1 user rows arriving at each
  product, the destinations and the constant one; then the division by the clamped count and the
  dense stage.
-/
import proofs.«158431_j3324304687820_1_alg».proof.Proof.RefOps
import proofs.«158431_j3324304687820_1_alg».proof.Proof.Spec

set_option synthInstance.maxSize 4096

noncomputable section

namespace Cert.ReferenceIdeal.Hand

open Idealize.ShloMosaic Idealize.SL.Sem Cert.ReferenceIdeal
open Idealize.ShloMosaic.StableHlo Idealize.ShloMosaic.TcCoe

variable {F : FTy → Type} [FloatOps F] [Facts]
open Facts₀ Facts

set_option maxRecDepth 8192 in
set_option maxHeartbeats 2000000 in
theorem s4a_v97 (V : Valuation τ sig (Elt F)) :
    after seg4a V (Proc.devRef .tc main_v97)
      = Host.scatterAdd scatter_S200000x32_S2000000x1_S2000000x32_1_0_0_1
          (broadcastInDim S200000x32 ![] bcast_S_S200000x32 (constant S_ .f32 0x00000000#32))
          (Spec.colE (Spec.dstOf (V (Proc.devRef .tc main_arg3))))
          (Host.gather gather_S500000x32_S2000000x1_S2000000x32_1_0_n_n_0_1_132 (V (Proc.devRef .tc main_v83)) (Spec.wrapEU (Spec.srcOf (V (Proc.devRef .tc main_arg3))))) := by
  simp only [seg4a]
  after_results_simp
  all_goals rfl

set_option maxRecDepth 8192 in
set_option maxHeartbeats 2000000 in
theorem s4a_cst19 (V : Valuation τ sig (Elt F)) :
    after seg4a V (Proc.devRef .tc main_cst_19)
      = constant S_ .f32 0x3F800000#32 := by
  simp only [seg4a]
  after_results_simp
  all_goals rfl

set_option maxRecDepth 8192 in
set_option maxHeartbeats 2000000 in
theorem s4a_v87 (V : Valuation τ sig (Elt F)) :
    after seg4a V (Proc.devRef .tc main_v87)
      = Spec.dstOf (V (Proc.devRef .tc main_arg3)) := by
  simp only [seg4a]
  after_results_simp
  all_goals rfl

set_option maxRecDepth 8192 in
set_option maxHeartbeats 2000000 in
theorem s4b_v115 (V : Valuation τ sig (Elt F)) :
    after seg4b V (Proc.devRef .tc main_v115)
      = Spec.denseP
          (Host.divf (V (Proc.devRef .tc main_v97))
            (broadcastInDim S200000x32 ![0, 1] bcast_S200000x1_S200000x32_0_1
              (broadcastInDim S200000x1 ![0] bcast_S200000_S200000x1_0
                (maximumf
                  (Host.scatterAdd scatter_S200000_S2000000x1_S2000000_n_0_0_1
                    (broadcastInDim S200000 ![] bcast_S_S200000 (constant S_ .f32 0x00000000#32))
                    (Spec.colE (V (Proc.devRef .tc main_v87)))
                    (broadcastInDim S2000000 ![] bcast_S_S2000000 (V (Proc.devRef .tc main_cst_19))))
                  (broadcastInDim S200000 ![] bcast_S_S200000 (constant S_ .f32 0x3F800000#32))))))
          (V (Proc.devRef .tc main_v51)) (Spec.trW (V (Proc.devRef .tc main_arg15))) (Spec.rowB (V (Proc.devRef .tc main_arg16))) (Spec.trW (V (Proc.devRef .tc main_arg17))) := by
  simp only [seg4b]
  after_results_simp
  all_goals rfl

end Cert.ReferenceIdeal.Hand

end
-- ==== Proof.RefS5.lean ====
/-
  Layer 2, users, read back: the dense stage over 500000 rows of the mean of the layer-1 product rows
  arriving at each user and of the layer-1 user rows.
-/
import proofs.«158431_j3324304687820_1_alg».proof.Proof.RefOps
import proofs.«158431_j3324304687820_1_alg».proof.Proof.Spec

set_option synthInstance.maxSize 4096

noncomputable section

namespace Cert.ReferenceIdeal.Hand

open Idealize.ShloMosaic Idealize.SL.Sem Cert.ReferenceIdeal
open Idealize.ShloMosaic.StableHlo Idealize.ShloMosaic.TcCoe

variable {F : FTy → Type} [FloatOps F] [Facts]
open Facts₀ Facts

set_option maxRecDepth 8192 in
set_option maxHeartbeats 2000000 in
theorem s5_v147 (V : Valuation τ sig (Elt F)) :
    after seg5 V (Proc.devRef .tc main_v147)
      = Spec.denseU (Spec.meanToU (V (Proc.devRef .tc main_v51)) (V (Proc.devRef .tc main_arg4))) (V (Proc.devRef .tc main_v83))
          (Spec.trW (V (Proc.devRef .tc main_arg18))) (Spec.rowB (V (Proc.devRef .tc main_arg19))) (Spec.trW (V (Proc.devRef .tc main_arg20))) := by
  simp only [seg5]
  after_results_simp
  all_goals rfl

end Cert.ReferenceIdeal.Hand

end
-- ==== Proof.RefS6.lean ====
/-
  The two results read back: the three user stages, and the three product stages, side by side.
-/
import proofs.«158431_j3324304687820_1_alg».proof.Proof.RefOps
import proofs.«158431_j3324304687820_1_alg».proof.Proof.Spec

set_option synthInstance.maxSize 4096

noncomputable section

namespace Cert.ReferenceIdeal.Hand

open Idealize.ShloMosaic Idealize.SL.Sem Cert.ReferenceIdeal
open Idealize.ShloMosaic.StableHlo Idealize.ShloMosaic.TcCoe

variable {F : FTy → Type} [FloatOps F] [Facts]
open Facts₀ Facts

set_option maxRecDepth 8192 in
set_option maxHeartbeats 2000000 in
theorem s6_v148 (V : Valuation τ sig (Elt F)) :
    after seg6 V (Proc.devRef .tc main_v148)
      = concatenate S500000x96 1 [⟨S500000x32, (V (Proc.devRef .tc main_v6))⟩, ⟨S500000x32, (V (Proc.devRef .tc main_v83))⟩, ⟨S500000x32, (V (Proc.devRef .tc main_v147))⟩]
          concatenates_S500000x32_S500000x32_S500000x32_S500000x96_d1 := by
  simp only [seg6]
  after_results_simp
  try dsimp only [Matrix.cons_val]
  try after_results_simp
  all_goals rfl

set_option maxRecDepth 8192 in
set_option maxHeartbeats 2000000 in
theorem s6_v149 (V : Valuation τ sig (Elt F)) :
    after seg6 V (Proc.devRef .tc main_v149)
      = concatenate S200000x96 1 [⟨S200000x32, (V (Proc.devRef .tc main_v19))⟩, ⟨S200000x32, (V (Proc.devRef .tc main_v51))⟩, ⟨S200000x32, (V (Proc.devRef .tc main_v115))⟩]
          concatenates_S200000x32_S200000x32_S200000x32_S200000x96_d1 := by
  simp only [seg6]
  after_results_simp
  try dsimp only [Matrix.cons_val]
  try after_results_simp
  all_goals rfl

end Cert.ReferenceIdeal.Hand

end
-- ==== Proof.RefChain.lean ====
/-
  The reference's results as the common specification.

  The contents after each piece of the line are named; a buffer a piece does not write is carried
  through it, and the buffer each stage computes is rewritten, stage by stage, into the
  specification's term for that stage over the argument arrays: the user and product rows, the
  two layers' product and user rows, and at the end the two results.  The run then says that
  every weakly fair execution terminates with the two result buffers at the specification's
  results and the twenty-one arguments unchanged.
-/
import proofs.«158431_j3324304687820_1_alg».proof.Proof.RefKeep
import proofs.«158431_j3324304687820_1_alg».proof.Proof.RefS1
import proofs.«158431_j3324304687820_1_alg».proof.Proof.RefS2
import proofs.«158431_j3324304687820_1_alg».proof.Proof.RefS3
import proofs.«158431_j3324304687820_1_alg».proof.Proof.RefS4
import proofs.«158431_j3324304687820_1_alg».proof.Proof.RefS5
import proofs.«158431_j3324304687820_1_alg».proof.Proof.RefS6
import proofs.«158431_j3324304687820_1_alg».proof.Proof.Spec

set_option synthInstance.maxSize 4096

noncomputable section

namespace Cert.ReferenceIdeal.Hand

open Idealize.ShloMosaic Idealize.SL.Sem Cert.ReferenceIdeal
open Idealize.ShloMosaic.StableHlo Idealize.ShloMosaic.TcCoe

variable {F : FTy → Type} [FloatOps F] [Facts]
open Facts₀ Facts

/-- The argument arrays as a valuation holds them. -/
def argsV (V : Valuation τ sig (Elt F)) : Spec.Args F :=
  ⟨V (Proc.devRef .tc main_arg0), V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10), V (Proc.devRef .tc main_arg11), V (Proc.devRef .tc main_arg12), V (Proc.devRef .tc main_arg13), V (Proc.devRef .tc main_arg14), V (Proc.devRef .tc main_arg15), V (Proc.devRef .tc main_arg16), V (Proc.devRef .tc main_arg17), V (Proc.devRef .tc main_arg18), V (Proc.devRef .tc main_arg19), V (Proc.devRef .tc main_arg20)⟩

/-! ## The contents after each piece -/

/-- The contents after the first 1 piece. -/
def at1 (V : Valuation τ sig (Elt F)) : Valuation τ sig (Elt F) := after seg1 V
theorem at1_keep (V : Valuation τ sig (Elt F)) (r : Ref sig .tc) (h : r ∉ seg1_W) : at1 V (Proc.devRef .tc r) = V (Proc.devRef .tc r) :=
  seg1_keep _ r h

/-- The contents after the first 2 pieces. -/
def at2 (V : Valuation τ sig (Elt F)) : Valuation τ sig (Elt F) := after seg2a (at1 V)
theorem at2_keep (V : Valuation τ sig (Elt F)) (r : Ref sig .tc) (h : r ∉ seg2a_W) : at2 V (Proc.devRef .tc r) = at1 V (Proc.devRef .tc r) :=
  seg2a_keep _ r h

/-- The contents after the first 3 pieces. -/
def at3 (V : Valuation τ sig (Elt F)) : Valuation τ sig (Elt F) := after seg2b (at2 V)
theorem at3_keep (V : Valuation τ sig (Elt F)) (r : Ref sig .tc) (h : r ∉ seg2b_W) : at3 V (Proc.devRef .tc r) = at2 V (Proc.devRef .tc r) :=
  seg2b_keep _ r h

/-- The contents after the first 4 pieces. -/
def at4 (V : Valuation τ sig (Elt F)) : Valuation τ sig (Elt F) := after seg3 (at3 V)
theorem at4_keep (V : Valuation τ sig (Elt F)) (r : Ref sig .tc) (h : r ∉ seg3_W) : at4 V (Proc.devRef .tc r) = at3 V (Proc.devRef .tc r) :=
  seg3_keep _ r h

/-- The contents after the first 5 pieces. -/
def at5 (V : Valuation τ sig (Elt F)) : Valuation τ sig (Elt F) := after seg4a (at4 V)
theorem at5_keep (V : Valuation τ sig (Elt F)) (r : Ref sig .tc) (h : r ∉ seg4a_W) : at5 V (Proc.devRef .tc r) = at4 V (Proc.devRef .tc r) :=
  seg4a_keep _ r h

/-- The contents after the first 6 pieces. -/
def at6 (V : Valuation τ sig (Elt F)) : Valuation τ sig (Elt F) := after seg4b (at5 V)
theorem at6_keep (V : Valuation τ sig (Elt F)) (r : Ref sig .tc) (h : r ∉ seg4b_W) : at6 V (Proc.devRef .tc r) = at5 V (Proc.devRef .tc r) :=
  seg4b_keep _ r h

/-- The contents after the first 7 pieces. -/
def at7 (V : Valuation τ sig (Elt F)) : Valuation τ sig (Elt F) := after seg5 (at6 V)
theorem at7_keep (V : Valuation τ sig (Elt F)) (r : Ref sig .tc) (h : r ∉ seg5_W) : at7 V (Proc.devRef .tc r) = at6 V (Proc.devRef .tc r) :=
  seg5_keep _ r h

/-- The contents after the first 8 pieces. -/
def at8 (V : Valuation τ sig (Elt F)) : Valuation τ sig (Elt F) := after seg6 (at7 V)
theorem at8_keep (V : Valuation τ sig (Elt F)) (r : Ref sig .tc) (h : r ∉ seg6_W) : at8 V (Proc.devRef .tc r) = at7 V (Proc.devRef .tc r) :=
  seg6_keep _ r h

theorem after_ops_at (V : Valuation τ sig (Elt F)) : after ops V = at8 V := after_ops V

/-! ## The arguments, carried through every piece -/

theorem at1_arg0 (V : Valuation τ sig (Elt F)) : at1 V (Proc.devRef .tc main_arg0) = V (Proc.devRef .tc main_arg0) :=
  at1_keep V _ (by decide)
theorem at1_arg1 (V : Valuation τ sig (Elt F)) : at1 V (Proc.devRef .tc main_arg1) = V (Proc.devRef .tc main_arg1) :=
  at1_keep V _ (by decide)
theorem at1_arg2 (V : Valuation τ sig (Elt F)) : at1 V (Proc.devRef .tc main_arg2) = V (Proc.devRef .tc main_arg2) :=
  at1_keep V _ (by decide)
theorem at1_arg3 (V : Valuation τ sig (Elt F)) : at1 V (Proc.devRef .tc main_arg3) = V (Proc.devRef .tc main_arg3) :=
  at1_keep V _ (by decide)
theorem at1_arg4 (V : Valuation τ sig (Elt F)) : at1 V (Proc.devRef .tc main_arg4) = V (Proc.devRef .tc main_arg4) :=
  at1_keep V _ (by decide)
theorem at1_arg5 (V : Valuation τ sig (Elt F)) : at1 V (Proc.devRef .tc main_arg5) = V (Proc.devRef .tc main_arg5) :=
  at1_keep V _ (by decide)
theorem at1_arg6 (V : Valuation τ sig (Elt F)) : at1 V (Proc.devRef .tc main_arg6) = V (Proc.devRef .tc main_arg6) :=
  at1_keep V _ (by decide)
theorem at1_arg7 (V : Valuation τ sig (Elt F)) : at1 V (Proc.devRef .tc main_arg7) = V (Proc.devRef .tc main_arg7) :=
  at1_keep V _ (by decide)
theorem at1_arg8 (V : Valuation τ sig (Elt F)) : at1 V (Proc.devRef .tc main_arg8) = V (Proc.devRef .tc main_arg8) :=
  at1_keep V _ (by decide)
theorem at1_arg9 (V : Valuation τ sig (Elt F)) : at1 V (Proc.devRef .tc main_arg9) = V (Proc.devRef .tc main_arg9) :=
  at1_keep V _ (by decide)
theorem at1_arg10 (V : Valuation τ sig (Elt F)) : at1 V (Proc.devRef .tc main_arg10) = V (Proc.devRef .tc main_arg10) :=
  at1_keep V _ (by decide)
theorem at1_arg11 (V : Valuation τ sig (Elt F)) : at1 V (Proc.devRef .tc main_arg11) = V (Proc.devRef .tc main_arg11) :=
  at1_keep V _ (by decide)
theorem at1_arg12 (V : Valuation τ sig (Elt F)) : at1 V (Proc.devRef .tc main_arg12) = V (Proc.devRef .tc main_arg12) :=
  at1_keep V _ (by decide)
theorem at1_arg13 (V : Valuation τ sig (Elt F)) : at1 V (Proc.devRef .tc main_arg13) = V (Proc.devRef .tc main_arg13) :=
  at1_keep V _ (by decide)
theorem at1_arg14 (V : Valuation τ sig (Elt F)) : at1 V (Proc.devRef .tc main_arg14) = V (Proc.devRef .tc main_arg14) :=
  at1_keep V _ (by decide)
theorem at1_arg15 (V : Valuation τ sig (Elt F)) : at1 V (Proc.devRef .tc main_arg15) = V (Proc.devRef .tc main_arg15) :=
  at1_keep V _ (by decide)
theorem at1_arg16 (V : Valuation τ sig (Elt F)) : at1 V (Proc.devRef .tc main_arg16) = V (Proc.devRef .tc main_arg16) :=
  at1_keep V _ (by decide)
theorem at1_arg17 (V : Valuation τ sig (Elt F)) : at1 V (Proc.devRef .tc main_arg17) = V (Proc.devRef .tc main_arg17) :=
  at1_keep V _ (by decide)
theorem at1_arg18 (V : Valuation τ sig (Elt F)) : at1 V (Proc.devRef .tc main_arg18) = V (Proc.devRef .tc main_arg18) :=
  at1_keep V _ (by decide)
theorem at1_arg19 (V : Valuation τ sig (Elt F)) : at1 V (Proc.devRef .tc main_arg19) = V (Proc.devRef .tc main_arg19) :=
  at1_keep V _ (by decide)
theorem at1_arg20 (V : Valuation τ sig (Elt F)) : at1 V (Proc.devRef .tc main_arg20) = V (Proc.devRef .tc main_arg20) :=
  at1_keep V _ (by decide)
theorem at2_arg0 (V : Valuation τ sig (Elt F)) : at2 V (Proc.devRef .tc main_arg0) = V (Proc.devRef .tc main_arg0) :=
  (at2_keep V _ (by decide)).trans (at1_arg0 V)
theorem at2_arg1 (V : Valuation τ sig (Elt F)) : at2 V (Proc.devRef .tc main_arg1) = V (Proc.devRef .tc main_arg1) :=
  (at2_keep V _ (by decide)).trans (at1_arg1 V)
theorem at2_arg2 (V : Valuation τ sig (Elt F)) : at2 V (Proc.devRef .tc main_arg2) = V (Proc.devRef .tc main_arg2) :=
  (at2_keep V _ (by decide)).trans (at1_arg2 V)
theorem at2_arg3 (V : Valuation τ sig (Elt F)) : at2 V (Proc.devRef .tc main_arg3) = V (Proc.devRef .tc main_arg3) :=
  (at2_keep V _ (by decide)).trans (at1_arg3 V)
theorem at2_arg4 (V : Valuation τ sig (Elt F)) : at2 V (Proc.devRef .tc main_arg4) = V (Proc.devRef .tc main_arg4) :=
  (at2_keep V _ (by decide)).trans (at1_arg4 V)
theorem at2_arg5 (V : Valuation τ sig (Elt F)) : at2 V (Proc.devRef .tc main_arg5) = V (Proc.devRef .tc main_arg5) :=
  (at2_keep V _ (by decide)).trans (at1_arg5 V)
theorem at2_arg6 (V : Valuation τ sig (Elt F)) : at2 V (Proc.devRef .tc main_arg6) = V (Proc.devRef .tc main_arg6) :=
  (at2_keep V _ (by decide)).trans (at1_arg6 V)
theorem at2_arg7 (V : Valuation τ sig (Elt F)) : at2 V (Proc.devRef .tc main_arg7) = V (Proc.devRef .tc main_arg7) :=
  (at2_keep V _ (by decide)).trans (at1_arg7 V)
theorem at2_arg8 (V : Valuation τ sig (Elt F)) : at2 V (Proc.devRef .tc main_arg8) = V (Proc.devRef .tc main_arg8) :=
  (at2_keep V _ (by decide)).trans (at1_arg8 V)
theorem at2_arg9 (V : Valuation τ sig (Elt F)) : at2 V (Proc.devRef .tc main_arg9) = V (Proc.devRef .tc main_arg9) :=
  (at2_keep V _ (by decide)).trans (at1_arg9 V)
theorem at2_arg10 (V : Valuation τ sig (Elt F)) : at2 V (Proc.devRef .tc main_arg10) = V (Proc.devRef .tc main_arg10) :=
  (at2_keep V _ (by decide)).trans (at1_arg10 V)
theorem at2_arg11 (V : Valuation τ sig (Elt F)) : at2 V (Proc.devRef .tc main_arg11) = V (Proc.devRef .tc main_arg11) :=
  (at2_keep V _ (by decide)).trans (at1_arg11 V)
theorem at2_arg12 (V : Valuation τ sig (Elt F)) : at2 V (Proc.devRef .tc main_arg12) = V (Proc.devRef .tc main_arg12) :=
  (at2_keep V _ (by decide)).trans (at1_arg12 V)
theorem at2_arg13 (V : Valuation τ sig (Elt F)) : at2 V (Proc.devRef .tc main_arg13) = V (Proc.devRef .tc main_arg13) :=
  (at2_keep V _ (by decide)).trans (at1_arg13 V)
theorem at2_arg14 (V : Valuation τ sig (Elt F)) : at2 V (Proc.devRef .tc main_arg14) = V (Proc.devRef .tc main_arg14) :=
  (at2_keep V _ (by decide)).trans (at1_arg14 V)
theorem at2_arg15 (V : Valuation τ sig (Elt F)) : at2 V (Proc.devRef .tc main_arg15) = V (Proc.devRef .tc main_arg15) :=
  (at2_keep V _ (by decide)).trans (at1_arg15 V)
theorem at2_arg16 (V : Valuation τ sig (Elt F)) : at2 V (Proc.devRef .tc main_arg16) = V (Proc.devRef .tc main_arg16) :=
  (at2_keep V _ (by decide)).trans (at1_arg16 V)
theorem at2_arg17 (V : Valuation τ sig (Elt F)) : at2 V (Proc.devRef .tc main_arg17) = V (Proc.devRef .tc main_arg17) :=
  (at2_keep V _ (by decide)).trans (at1_arg17 V)
theorem at2_arg18 (V : Valuation τ sig (Elt F)) : at2 V (Proc.devRef .tc main_arg18) = V (Proc.devRef .tc main_arg18) :=
  (at2_keep V _ (by decide)).trans (at1_arg18 V)
theorem at2_arg19 (V : Valuation τ sig (Elt F)) : at2 V (Proc.devRef .tc main_arg19) = V (Proc.devRef .tc main_arg19) :=
  (at2_keep V _ (by decide)).trans (at1_arg19 V)
theorem at2_arg20 (V : Valuation τ sig (Elt F)) : at2 V (Proc.devRef .tc main_arg20) = V (Proc.devRef .tc main_arg20) :=
  (at2_keep V _ (by decide)).trans (at1_arg20 V)
theorem at3_arg0 (V : Valuation τ sig (Elt F)) : at3 V (Proc.devRef .tc main_arg0) = V (Proc.devRef .tc main_arg0) :=
  (at3_keep V _ (by decide)).trans (at2_arg0 V)
theorem at3_arg1 (V : Valuation τ sig (Elt F)) : at3 V (Proc.devRef .tc main_arg1) = V (Proc.devRef .tc main_arg1) :=
  (at3_keep V _ (by decide)).trans (at2_arg1 V)
theorem at3_arg2 (V : Valuation τ sig (Elt F)) : at3 V (Proc.devRef .tc main_arg2) = V (Proc.devRef .tc main_arg2) :=
  (at3_keep V _ (by decide)).trans (at2_arg2 V)
theorem at3_arg3 (V : Valuation τ sig (Elt F)) : at3 V (Proc.devRef .tc main_arg3) = V (Proc.devRef .tc main_arg3) :=
  (at3_keep V _ (by decide)).trans (at2_arg3 V)
theorem at3_arg4 (V : Valuation τ sig (Elt F)) : at3 V (Proc.devRef .tc main_arg4) = V (Proc.devRef .tc main_arg4) :=
  (at3_keep V _ (by decide)).trans (at2_arg4 V)
theorem at3_arg5 (V : Valuation τ sig (Elt F)) : at3 V (Proc.devRef .tc main_arg5) = V (Proc.devRef .tc main_arg5) :=
  (at3_keep V _ (by decide)).trans (at2_arg5 V)
theorem at3_arg6 (V : Valuation τ sig (Elt F)) : at3 V (Proc.devRef .tc main_arg6) = V (Proc.devRef .tc main_arg6) :=
  (at3_keep V _ (by decide)).trans (at2_arg6 V)
theorem at3_arg7 (V : Valuation τ sig (Elt F)) : at3 V (Proc.devRef .tc main_arg7) = V (Proc.devRef .tc main_arg7) :=
  (at3_keep V _ (by decide)).trans (at2_arg7 V)
theorem at3_arg8 (V : Valuation τ sig (Elt F)) : at3 V (Proc.devRef .tc main_arg8) = V (Proc.devRef .tc main_arg8) :=
  (at3_keep V _ (by decide)).trans (at2_arg8 V)
theorem at3_arg9 (V : Valuation τ sig (Elt F)) : at3 V (Proc.devRef .tc main_arg9) = V (Proc.devRef .tc main_arg9) :=
  (at3_keep V _ (by decide)).trans (at2_arg9 V)
theorem at3_arg10 (V : Valuation τ sig (Elt F)) : at3 V (Proc.devRef .tc main_arg10) = V (Proc.devRef .tc main_arg10) :=
  (at3_keep V _ (by decide)).trans (at2_arg10 V)
theorem at3_arg11 (V : Valuation τ sig (Elt F)) : at3 V (Proc.devRef .tc main_arg11) = V (Proc.devRef .tc main_arg11) :=
  (at3_keep V _ (by decide)).trans (at2_arg11 V)
theorem at3_arg12 (V : Valuation τ sig (Elt F)) : at3 V (Proc.devRef .tc main_arg12) = V (Proc.devRef .tc main_arg12) :=
  (at3_keep V _ (by decide)).trans (at2_arg12 V)
theorem at3_arg13 (V : Valuation τ sig (Elt F)) : at3 V (Proc.devRef .tc main_arg13) = V (Proc.devRef .tc main_arg13) :=
  (at3_keep V _ (by decide)).trans (at2_arg13 V)
theorem at3_arg14 (V : Valuation τ sig (Elt F)) : at3 V (Proc.devRef .tc main_arg14) = V (Proc.devRef .tc main_arg14) :=
  (at3_keep V _ (by decide)).trans (at2_arg14 V)
theorem at3_arg15 (V : Valuation τ sig (Elt F)) : at3 V (Proc.devRef .tc main_arg15) = V (Proc.devRef .tc main_arg15) :=
  (at3_keep V _ (by decide)).trans (at2_arg15 V)
theorem at3_arg16 (V : Valuation τ sig (Elt F)) : at3 V (Proc.devRef .tc main_arg16) = V (Proc.devRef .tc main_arg16) :=
  (at3_keep V _ (by decide)).trans (at2_arg16 V)
theorem at3_arg17 (V : Valuation τ sig (Elt F)) : at3 V (Proc.devRef .tc main_arg17) = V (Proc.devRef .tc main_arg17) :=
  (at3_keep V _ (by decide)).trans (at2_arg17 V)
theorem at3_arg18 (V : Valuation τ sig (Elt F)) : at3 V (Proc.devRef .tc main_arg18) = V (Proc.devRef .tc main_arg18) :=
  (at3_keep V _ (by decide)).trans (at2_arg18 V)
theorem at3_arg19 (V : Valuation τ sig (Elt F)) : at3 V (Proc.devRef .tc main_arg19) = V (Proc.devRef .tc main_arg19) :=
  (at3_keep V _ (by decide)).trans (at2_arg19 V)
theorem at3_arg20 (V : Valuation τ sig (Elt F)) : at3 V (Proc.devRef .tc main_arg20) = V (Proc.devRef .tc main_arg20) :=
  (at3_keep V _ (by decide)).trans (at2_arg20 V)
theorem at4_arg0 (V : Valuation τ sig (Elt F)) : at4 V (Proc.devRef .tc main_arg0) = V (Proc.devRef .tc main_arg0) :=
  (at4_keep V _ (by decide)).trans (at3_arg0 V)
theorem at4_arg1 (V : Valuation τ sig (Elt F)) : at4 V (Proc.devRef .tc main_arg1) = V (Proc.devRef .tc main_arg1) :=
  (at4_keep V _ (by decide)).trans (at3_arg1 V)
theorem at4_arg2 (V : Valuation τ sig (Elt F)) : at4 V (Proc.devRef .tc main_arg2) = V (Proc.devRef .tc main_arg2) :=
  (at4_keep V _ (by decide)).trans (at3_arg2 V)
theorem at4_arg3 (V : Valuation τ sig (Elt F)) : at4 V (Proc.devRef .tc main_arg3) = V (Proc.devRef .tc main_arg3) :=
  (at4_keep V _ (by decide)).trans (at3_arg3 V)
theorem at4_arg4 (V : Valuation τ sig (Elt F)) : at4 V (Proc.devRef .tc main_arg4) = V (Proc.devRef .tc main_arg4) :=
  (at4_keep V _ (by decide)).trans (at3_arg4 V)
theorem at4_arg5 (V : Valuation τ sig (Elt F)) : at4 V (Proc.devRef .tc main_arg5) = V (Proc.devRef .tc main_arg5) :=
  (at4_keep V _ (by decide)).trans (at3_arg5 V)
theorem at4_arg6 (V : Valuation τ sig (Elt F)) : at4 V (Proc.devRef .tc main_arg6) = V (Proc.devRef .tc main_arg6) :=
  (at4_keep V _ (by decide)).trans (at3_arg6 V)
theorem at4_arg7 (V : Valuation τ sig (Elt F)) : at4 V (Proc.devRef .tc main_arg7) = V (Proc.devRef .tc main_arg7) :=
  (at4_keep V _ (by decide)).trans (at3_arg7 V)
theorem at4_arg8 (V : Valuation τ sig (Elt F)) : at4 V (Proc.devRef .tc main_arg8) = V (Proc.devRef .tc main_arg8) :=
  (at4_keep V _ (by decide)).trans (at3_arg8 V)
theorem at4_arg9 (V : Valuation τ sig (Elt F)) : at4 V (Proc.devRef .tc main_arg9) = V (Proc.devRef .tc main_arg9) :=
  (at4_keep V _ (by decide)).trans (at3_arg9 V)
theorem at4_arg10 (V : Valuation τ sig (Elt F)) : at4 V (Proc.devRef .tc main_arg10) = V (Proc.devRef .tc main_arg10) :=
  (at4_keep V _ (by decide)).trans (at3_arg10 V)
theorem at4_arg11 (V : Valuation τ sig (Elt F)) : at4 V (Proc.devRef .tc main_arg11) = V (Proc.devRef .tc main_arg11) :=
  (at4_keep V _ (by decide)).trans (at3_arg11 V)
theorem at4_arg12 (V : Valuation τ sig (Elt F)) : at4 V (Proc.devRef .tc main_arg12) = V (Proc.devRef .tc main_arg12) :=
  (at4_keep V _ (by decide)).trans (at3_arg12 V)
theorem at4_arg13 (V : Valuation τ sig (Elt F)) : at4 V (Proc.devRef .tc main_arg13) = V (Proc.devRef .tc main_arg13) :=
  (at4_keep V _ (by decide)).trans (at3_arg13 V)
theorem at4_arg14 (V : Valuation τ sig (Elt F)) : at4 V (Proc.devRef .tc main_arg14) = V (Proc.devRef .tc main_arg14) :=
  (at4_keep V _ (by decide)).trans (at3_arg14 V)
theorem at4_arg15 (V : Valuation τ sig (Elt F)) : at4 V (Proc.devRef .tc main_arg15) = V (Proc.devRef .tc main_arg15) :=
  (at4_keep V _ (by decide)).trans (at3_arg15 V)
theorem at4_arg16 (V : Valuation τ sig (Elt F)) : at4 V (Proc.devRef .tc main_arg16) = V (Proc.devRef .tc main_arg16) :=
  (at4_keep V _ (by decide)).trans (at3_arg16 V)
theorem at4_arg17 (V : Valuation τ sig (Elt F)) : at4 V (Proc.devRef .tc main_arg17) = V (Proc.devRef .tc main_arg17) :=
  (at4_keep V _ (by decide)).trans (at3_arg17 V)
theorem at4_arg18 (V : Valuation τ sig (Elt F)) : at4 V (Proc.devRef .tc main_arg18) = V (Proc.devRef .tc main_arg18) :=
  (at4_keep V _ (by decide)).trans (at3_arg18 V)
theorem at4_arg19 (V : Valuation τ sig (Elt F)) : at4 V (Proc.devRef .tc main_arg19) = V (Proc.devRef .tc main_arg19) :=
  (at4_keep V _ (by decide)).trans (at3_arg19 V)
theorem at4_arg20 (V : Valuation τ sig (Elt F)) : at4 V (Proc.devRef .tc main_arg20) = V (Proc.devRef .tc main_arg20) :=
  (at4_keep V _ (by decide)).trans (at3_arg20 V)
theorem at5_arg0 (V : Valuation τ sig (Elt F)) : at5 V (Proc.devRef .tc main_arg0) = V (Proc.devRef .tc main_arg0) :=
  (at5_keep V _ (by decide)).trans (at4_arg0 V)
theorem at5_arg1 (V : Valuation τ sig (Elt F)) : at5 V (Proc.devRef .tc main_arg1) = V (Proc.devRef .tc main_arg1) :=
  (at5_keep V _ (by decide)).trans (at4_arg1 V)
theorem at5_arg2 (V : Valuation τ sig (Elt F)) : at5 V (Proc.devRef .tc main_arg2) = V (Proc.devRef .tc main_arg2) :=
  (at5_keep V _ (by decide)).trans (at4_arg2 V)
theorem at5_arg3 (V : Valuation τ sig (Elt F)) : at5 V (Proc.devRef .tc main_arg3) = V (Proc.devRef .tc main_arg3) :=
  (at5_keep V _ (by decide)).trans (at4_arg3 V)
theorem at5_arg4 (V : Valuation τ sig (Elt F)) : at5 V (Proc.devRef .tc main_arg4) = V (Proc.devRef .tc main_arg4) :=
  (at5_keep V _ (by decide)).trans (at4_arg4 V)
theorem at5_arg5 (V : Valuation τ sig (Elt F)) : at5 V (Proc.devRef .tc main_arg5) = V (Proc.devRef .tc main_arg5) :=
  (at5_keep V _ (by decide)).trans (at4_arg5 V)
theorem at5_arg6 (V : Valuation τ sig (Elt F)) : at5 V (Proc.devRef .tc main_arg6) = V (Proc.devRef .tc main_arg6) :=
  (at5_keep V _ (by decide)).trans (at4_arg6 V)
theorem at5_arg7 (V : Valuation τ sig (Elt F)) : at5 V (Proc.devRef .tc main_arg7) = V (Proc.devRef .tc main_arg7) :=
  (at5_keep V _ (by decide)).trans (at4_arg7 V)
theorem at5_arg8 (V : Valuation τ sig (Elt F)) : at5 V (Proc.devRef .tc main_arg8) = V (Proc.devRef .tc main_arg8) :=
  (at5_keep V _ (by decide)).trans (at4_arg8 V)
theorem at5_arg9 (V : Valuation τ sig (Elt F)) : at5 V (Proc.devRef .tc main_arg9) = V (Proc.devRef .tc main_arg9) :=
  (at5_keep V _ (by decide)).trans (at4_arg9 V)
theorem at5_arg10 (V : Valuation τ sig (Elt F)) : at5 V (Proc.devRef .tc main_arg10) = V (Proc.devRef .tc main_arg10) :=
  (at5_keep V _ (by decide)).trans (at4_arg10 V)
theorem at5_arg11 (V : Valuation τ sig (Elt F)) : at5 V (Proc.devRef .tc main_arg11) = V (Proc.devRef .tc main_arg11) :=
  (at5_keep V _ (by decide)).trans (at4_arg11 V)
theorem at5_arg12 (V : Valuation τ sig (Elt F)) : at5 V (Proc.devRef .tc main_arg12) = V (Proc.devRef .tc main_arg12) :=
  (at5_keep V _ (by decide)).trans (at4_arg12 V)
theorem at5_arg13 (V : Valuation τ sig (Elt F)) : at5 V (Proc.devRef .tc main_arg13) = V (Proc.devRef .tc main_arg13) :=
  (at5_keep V _ (by decide)).trans (at4_arg13 V)
theorem at5_arg14 (V : Valuation τ sig (Elt F)) : at5 V (Proc.devRef .tc main_arg14) = V (Proc.devRef .tc main_arg14) :=
  (at5_keep V _ (by decide)).trans (at4_arg14 V)
theorem at5_arg15 (V : Valuation τ sig (Elt F)) : at5 V (Proc.devRef .tc main_arg15) = V (Proc.devRef .tc main_arg15) :=
  (at5_keep V _ (by decide)).trans (at4_arg15 V)
theorem at5_arg16 (V : Valuation τ sig (Elt F)) : at5 V (Proc.devRef .tc main_arg16) = V (Proc.devRef .tc main_arg16) :=
  (at5_keep V _ (by decide)).trans (at4_arg16 V)
theorem at5_arg17 (V : Valuation τ sig (Elt F)) : at5 V (Proc.devRef .tc main_arg17) = V (Proc.devRef .tc main_arg17) :=
  (at5_keep V _ (by decide)).trans (at4_arg17 V)
theorem at5_arg18 (V : Valuation τ sig (Elt F)) : at5 V (Proc.devRef .tc main_arg18) = V (Proc.devRef .tc main_arg18) :=
  (at5_keep V _ (by decide)).trans (at4_arg18 V)
theorem at5_arg19 (V : Valuation τ sig (Elt F)) : at5 V (Proc.devRef .tc main_arg19) = V (Proc.devRef .tc main_arg19) :=
  (at5_keep V _ (by decide)).trans (at4_arg19 V)
theorem at5_arg20 (V : Valuation τ sig (Elt F)) : at5 V (Proc.devRef .tc main_arg20) = V (Proc.devRef .tc main_arg20) :=
  (at5_keep V _ (by decide)).trans (at4_arg20 V)
theorem at6_arg0 (V : Valuation τ sig (Elt F)) : at6 V (Proc.devRef .tc main_arg0) = V (Proc.devRef .tc main_arg0) :=
  (at6_keep V _ (by decide)).trans (at5_arg0 V)
theorem at6_arg1 (V : Valuation τ sig (Elt F)) : at6 V (Proc.devRef .tc main_arg1) = V (Proc.devRef .tc main_arg1) :=
  (at6_keep V _ (by decide)).trans (at5_arg1 V)
theorem at6_arg2 (V : Valuation τ sig (Elt F)) : at6 V (Proc.devRef .tc main_arg2) = V (Proc.devRef .tc main_arg2) :=
  (at6_keep V _ (by decide)).trans (at5_arg2 V)
theorem at6_arg3 (V : Valuation τ sig (Elt F)) : at6 V (Proc.devRef .tc main_arg3) = V (Proc.devRef .tc main_arg3) :=
  (at6_keep V _ (by decide)).trans (at5_arg3 V)
theorem at6_arg4 (V : Valuation τ sig (Elt F)) : at6 V (Proc.devRef .tc main_arg4) = V (Proc.devRef .tc main_arg4) :=
  (at6_keep V _ (by decide)).trans (at5_arg4 V)
theorem at6_arg5 (V : Valuation τ sig (Elt F)) : at6 V (Proc.devRef .tc main_arg5) = V (Proc.devRef .tc main_arg5) :=
  (at6_keep V _ (by decide)).trans (at5_arg5 V)
theorem at6_arg6 (V : Valuation τ sig (Elt F)) : at6 V (Proc.devRef .tc main_arg6) = V (Proc.devRef .tc main_arg6) :=
  (at6_keep V _ (by decide)).trans (at5_arg6 V)
theorem at6_arg7 (V : Valuation τ sig (Elt F)) : at6 V (Proc.devRef .tc main_arg7) = V (Proc.devRef .tc main_arg7) :=
  (at6_keep V _ (by decide)).trans (at5_arg7 V)
theorem at6_arg8 (V : Valuation τ sig (Elt F)) : at6 V (Proc.devRef .tc main_arg8) = V (Proc.devRef .tc main_arg8) :=
  (at6_keep V _ (by decide)).trans (at5_arg8 V)
theorem at6_arg9 (V : Valuation τ sig (Elt F)) : at6 V (Proc.devRef .tc main_arg9) = V (Proc.devRef .tc main_arg9) :=
  (at6_keep V _ (by decide)).trans (at5_arg9 V)
theorem at6_arg10 (V : Valuation τ sig (Elt F)) : at6 V (Proc.devRef .tc main_arg10) = V (Proc.devRef .tc main_arg10) :=
  (at6_keep V _ (by decide)).trans (at5_arg10 V)
theorem at6_arg11 (V : Valuation τ sig (Elt F)) : at6 V (Proc.devRef .tc main_arg11) = V (Proc.devRef .tc main_arg11) :=
  (at6_keep V _ (by decide)).trans (at5_arg11 V)
theorem at6_arg12 (V : Valuation τ sig (Elt F)) : at6 V (Proc.devRef .tc main_arg12) = V (Proc.devRef .tc main_arg12) :=
  (at6_keep V _ (by decide)).trans (at5_arg12 V)
theorem at6_arg13 (V : Valuation τ sig (Elt F)) : at6 V (Proc.devRef .tc main_arg13) = V (Proc.devRef .tc main_arg13) :=
  (at6_keep V _ (by decide)).trans (at5_arg13 V)
theorem at6_arg14 (V : Valuation τ sig (Elt F)) : at6 V (Proc.devRef .tc main_arg14) = V (Proc.devRef .tc main_arg14) :=
  (at6_keep V _ (by decide)).trans (at5_arg14 V)
theorem at6_arg15 (V : Valuation τ sig (Elt F)) : at6 V (Proc.devRef .tc main_arg15) = V (Proc.devRef .tc main_arg15) :=
  (at6_keep V _ (by decide)).trans (at5_arg15 V)
theorem at6_arg16 (V : Valuation τ sig (Elt F)) : at6 V (Proc.devRef .tc main_arg16) = V (Proc.devRef .tc main_arg16) :=
  (at6_keep V _ (by decide)).trans (at5_arg16 V)
theorem at6_arg17 (V : Valuation τ sig (Elt F)) : at6 V (Proc.devRef .tc main_arg17) = V (Proc.devRef .tc main_arg17) :=
  (at6_keep V _ (by decide)).trans (at5_arg17 V)
theorem at6_arg18 (V : Valuation τ sig (Elt F)) : at6 V (Proc.devRef .tc main_arg18) = V (Proc.devRef .tc main_arg18) :=
  (at6_keep V _ (by decide)).trans (at5_arg18 V)
theorem at6_arg19 (V : Valuation τ sig (Elt F)) : at6 V (Proc.devRef .tc main_arg19) = V (Proc.devRef .tc main_arg19) :=
  (at6_keep V _ (by decide)).trans (at5_arg19 V)
theorem at6_arg20 (V : Valuation τ sig (Elt F)) : at6 V (Proc.devRef .tc main_arg20) = V (Proc.devRef .tc main_arg20) :=
  (at6_keep V _ (by decide)).trans (at5_arg20 V)
theorem at7_arg0 (V : Valuation τ sig (Elt F)) : at7 V (Proc.devRef .tc main_arg0) = V (Proc.devRef .tc main_arg0) :=
  (at7_keep V _ (by decide)).trans (at6_arg0 V)
theorem at7_arg1 (V : Valuation τ sig (Elt F)) : at7 V (Proc.devRef .tc main_arg1) = V (Proc.devRef .tc main_arg1) :=
  (at7_keep V _ (by decide)).trans (at6_arg1 V)
theorem at7_arg2 (V : Valuation τ sig (Elt F)) : at7 V (Proc.devRef .tc main_arg2) = V (Proc.devRef .tc main_arg2) :=
  (at7_keep V _ (by decide)).trans (at6_arg2 V)
theorem at7_arg3 (V : Valuation τ sig (Elt F)) : at7 V (Proc.devRef .tc main_arg3) = V (Proc.devRef .tc main_arg3) :=
  (at7_keep V _ (by decide)).trans (at6_arg3 V)
theorem at7_arg4 (V : Valuation τ sig (Elt F)) : at7 V (Proc.devRef .tc main_arg4) = V (Proc.devRef .tc main_arg4) :=
  (at7_keep V _ (by decide)).trans (at6_arg4 V)
theorem at7_arg5 (V : Valuation τ sig (Elt F)) : at7 V (Proc.devRef .tc main_arg5) = V (Proc.devRef .tc main_arg5) :=
  (at7_keep V _ (by decide)).trans (at6_arg5 V)
theorem at7_arg6 (V : Valuation τ sig (Elt F)) : at7 V (Proc.devRef .tc main_arg6) = V (Proc.devRef .tc main_arg6) :=
  (at7_keep V _ (by decide)).trans (at6_arg6 V)
theorem at7_arg7 (V : Valuation τ sig (Elt F)) : at7 V (Proc.devRef .tc main_arg7) = V (Proc.devRef .tc main_arg7) :=
  (at7_keep V _ (by decide)).trans (at6_arg7 V)
theorem at7_arg8 (V : Valuation τ sig (Elt F)) : at7 V (Proc.devRef .tc main_arg8) = V (Proc.devRef .tc main_arg8) :=
  (at7_keep V _ (by decide)).trans (at6_arg8 V)
theorem at7_arg9 (V : Valuation τ sig (Elt F)) : at7 V (Proc.devRef .tc main_arg9) = V (Proc.devRef .tc main_arg9) :=
  (at7_keep V _ (by decide)).trans (at6_arg9 V)
theorem at7_arg10 (V : Valuation τ sig (Elt F)) : at7 V (Proc.devRef .tc main_arg10) = V (Proc.devRef .tc main_arg10) :=
  (at7_keep V _ (by decide)).trans (at6_arg10 V)
theorem at7_arg11 (V : Valuation τ sig (Elt F)) : at7 V (Proc.devRef .tc main_arg11) = V (Proc.devRef .tc main_arg11) :=
  (at7_keep V _ (by decide)).trans (at6_arg11 V)
theorem at7_arg12 (V : Valuation τ sig (Elt F)) : at7 V (Proc.devRef .tc main_arg12) = V (Proc.devRef .tc main_arg12) :=
  (at7_keep V _ (by decide)).trans (at6_arg12 V)
theorem at7_arg13 (V : Valuation τ sig (Elt F)) : at7 V (Proc.devRef .tc main_arg13) = V (Proc.devRef .tc main_arg13) :=
  (at7_keep V _ (by decide)).trans (at6_arg13 V)
theorem at7_arg14 (V : Valuation τ sig (Elt F)) : at7 V (Proc.devRef .tc main_arg14) = V (Proc.devRef .tc main_arg14) :=
  (at7_keep V _ (by decide)).trans (at6_arg14 V)
theorem at7_arg15 (V : Valuation τ sig (Elt F)) : at7 V (Proc.devRef .tc main_arg15) = V (Proc.devRef .tc main_arg15) :=
  (at7_keep V _ (by decide)).trans (at6_arg15 V)
theorem at7_arg16 (V : Valuation τ sig (Elt F)) : at7 V (Proc.devRef .tc main_arg16) = V (Proc.devRef .tc main_arg16) :=
  (at7_keep V _ (by decide)).trans (at6_arg16 V)
theorem at7_arg17 (V : Valuation τ sig (Elt F)) : at7 V (Proc.devRef .tc main_arg17) = V (Proc.devRef .tc main_arg17) :=
  (at7_keep V _ (by decide)).trans (at6_arg17 V)
theorem at7_arg18 (V : Valuation τ sig (Elt F)) : at7 V (Proc.devRef .tc main_arg18) = V (Proc.devRef .tc main_arg18) :=
  (at7_keep V _ (by decide)).trans (at6_arg18 V)
theorem at7_arg19 (V : Valuation τ sig (Elt F)) : at7 V (Proc.devRef .tc main_arg19) = V (Proc.devRef .tc main_arg19) :=
  (at7_keep V _ (by decide)).trans (at6_arg19 V)
theorem at7_arg20 (V : Valuation τ sig (Elt F)) : at7 V (Proc.devRef .tc main_arg20) = V (Proc.devRef .tc main_arg20) :=
  (at7_keep V _ (by decide)).trans (at6_arg20 V)
theorem at8_arg0 (V : Valuation τ sig (Elt F)) : at8 V (Proc.devRef .tc main_arg0) = V (Proc.devRef .tc main_arg0) :=
  (at8_keep V _ (by decide)).trans (at7_arg0 V)
theorem at8_arg1 (V : Valuation τ sig (Elt F)) : at8 V (Proc.devRef .tc main_arg1) = V (Proc.devRef .tc main_arg1) :=
  (at8_keep V _ (by decide)).trans (at7_arg1 V)
theorem at8_arg2 (V : Valuation τ sig (Elt F)) : at8 V (Proc.devRef .tc main_arg2) = V (Proc.devRef .tc main_arg2) :=
  (at8_keep V _ (by decide)).trans (at7_arg2 V)
theorem at8_arg3 (V : Valuation τ sig (Elt F)) : at8 V (Proc.devRef .tc main_arg3) = V (Proc.devRef .tc main_arg3) :=
  (at8_keep V _ (by decide)).trans (at7_arg3 V)
theorem at8_arg4 (V : Valuation τ sig (Elt F)) : at8 V (Proc.devRef .tc main_arg4) = V (Proc.devRef .tc main_arg4) :=
  (at8_keep V _ (by decide)).trans (at7_arg4 V)
theorem at8_arg5 (V : Valuation τ sig (Elt F)) : at8 V (Proc.devRef .tc main_arg5) = V (Proc.devRef .tc main_arg5) :=
  (at8_keep V _ (by decide)).trans (at7_arg5 V)
theorem at8_arg6 (V : Valuation τ sig (Elt F)) : at8 V (Proc.devRef .tc main_arg6) = V (Proc.devRef .tc main_arg6) :=
  (at8_keep V _ (by decide)).trans (at7_arg6 V)
theorem at8_arg7 (V : Valuation τ sig (Elt F)) : at8 V (Proc.devRef .tc main_arg7) = V (Proc.devRef .tc main_arg7) :=
  (at8_keep V _ (by decide)).trans (at7_arg7 V)
theorem at8_arg8 (V : Valuation τ sig (Elt F)) : at8 V (Proc.devRef .tc main_arg8) = V (Proc.devRef .tc main_arg8) :=
  (at8_keep V _ (by decide)).trans (at7_arg8 V)
theorem at8_arg9 (V : Valuation τ sig (Elt F)) : at8 V (Proc.devRef .tc main_arg9) = V (Proc.devRef .tc main_arg9) :=
  (at8_keep V _ (by decide)).trans (at7_arg9 V)
theorem at8_arg10 (V : Valuation τ sig (Elt F)) : at8 V (Proc.devRef .tc main_arg10) = V (Proc.devRef .tc main_arg10) :=
  (at8_keep V _ (by decide)).trans (at7_arg10 V)
theorem at8_arg11 (V : Valuation τ sig (Elt F)) : at8 V (Proc.devRef .tc main_arg11) = V (Proc.devRef .tc main_arg11) :=
  (at8_keep V _ (by decide)).trans (at7_arg11 V)
theorem at8_arg12 (V : Valuation τ sig (Elt F)) : at8 V (Proc.devRef .tc main_arg12) = V (Proc.devRef .tc main_arg12) :=
  (at8_keep V _ (by decide)).trans (at7_arg12 V)
theorem at8_arg13 (V : Valuation τ sig (Elt F)) : at8 V (Proc.devRef .tc main_arg13) = V (Proc.devRef .tc main_arg13) :=
  (at8_keep V _ (by decide)).trans (at7_arg13 V)
theorem at8_arg14 (V : Valuation τ sig (Elt F)) : at8 V (Proc.devRef .tc main_arg14) = V (Proc.devRef .tc main_arg14) :=
  (at8_keep V _ (by decide)).trans (at7_arg14 V)
theorem at8_arg15 (V : Valuation τ sig (Elt F)) : at8 V (Proc.devRef .tc main_arg15) = V (Proc.devRef .tc main_arg15) :=
  (at8_keep V _ (by decide)).trans (at7_arg15 V)
theorem at8_arg16 (V : Valuation τ sig (Elt F)) : at8 V (Proc.devRef .tc main_arg16) = V (Proc.devRef .tc main_arg16) :=
  (at8_keep V _ (by decide)).trans (at7_arg16 V)
theorem at8_arg17 (V : Valuation τ sig (Elt F)) : at8 V (Proc.devRef .tc main_arg17) = V (Proc.devRef .tc main_arg17) :=
  (at8_keep V _ (by decide)).trans (at7_arg17 V)
theorem at8_arg18 (V : Valuation τ sig (Elt F)) : at8 V (Proc.devRef .tc main_arg18) = V (Proc.devRef .tc main_arg18) :=
  (at8_keep V _ (by decide)).trans (at7_arg18 V)
theorem at8_arg19 (V : Valuation τ sig (Elt F)) : at8 V (Proc.devRef .tc main_arg19) = V (Proc.devRef .tc main_arg19) :=
  (at8_keep V _ (by decide)).trans (at7_arg19 V)
theorem at8_arg20 (V : Valuation τ sig (Elt F)) : at8 V (Proc.devRef .tc main_arg20) = V (Proc.devRef .tc main_arg20) :=
  (at8_keep V _ (by decide)).trans (at7_arg20 V)

/-! ## The stages -/

theorem at1_v6 (V : Valuation τ sig (Elt F)) :
    at1 V (Proc.devRef .tc main_v6)
      = Spec.xu (argsV V) := by
  unfold at1
  rw [s1_v6]
  all_goals rfl

theorem at1_v19 (V : Valuation τ sig (Elt F)) :
    at1 V (Proc.devRef .tc main_v19)
      = Spec.xp (argsV V) := by
  unfold at1
  rw [s1_v19]
  all_goals rfl

theorem at2_v47 (V : Valuation τ sig (Elt F)) :
    at2 V (Proc.devRef .tc main_v47)
      = addf (Host.dotGeneral dot_S200000x32_S32x32_S200000x32_1_0_0_1_n_n none (Spec.meanToP (Spec.xu (argsV V)) (V (Proc.devRef .tc main_arg3))) (Spec.trW (V (Proc.devRef .tc main_arg9))))
          (broadcastInDim S200000x32 ![0, 1] bcast_S1x32_S200000x32_0_1 (Spec.rowB (V (Proc.devRef .tc main_arg10)))) := by
  unfold at2
  rw [s2a_v47, at1_v6, at1_arg3, at1_arg9, at1_arg10]
  all_goals rfl

theorem at2_v49 (V : Valuation τ sig (Elt F)) :
    at2 V (Proc.devRef .tc main_v49)
      = Host.dotGeneral dot_S200000x32_S32x32_S200000x32_1_0_0_1_n_n none (Spec.xp (argsV V)) (Spec.trW (V (Proc.devRef .tc main_arg11))) := by
  unfold at2
  rw [s2a_v49, at1_v19, at1_arg11]
  all_goals rfl

theorem at2_v6 (V : Valuation τ sig (Elt F)) : at2 V (Proc.devRef .tc main_v6) = Spec.xu (argsV V) :=
  (at2_keep V _ (by decide)).trans (at1_v6 V)

theorem at2_v19 (V : Valuation τ sig (Elt F)) : at2 V (Proc.devRef .tc main_v19) = Spec.xp (argsV V) :=
  (at2_keep V _ (by decide)).trans (at1_v19 V)

theorem at3_v51 (V : Valuation τ sig (Elt F)) :
    at3 V (Proc.devRef .tc main_v51)
      = Spec.p1 (argsV V) := by
  unfold at3
  rw [s2b_v51, at2_v47, at2_v49]
  all_goals rfl

theorem at3_v6 (V : Valuation τ sig (Elt F)) : at3 V (Proc.devRef .tc main_v6) = Spec.xu (argsV V) :=
  (at3_keep V _ (by decide)).trans (at2_v6 V)

theorem at3_v19 (V : Valuation τ sig (Elt F)) : at3 V (Proc.devRef .tc main_v19) = Spec.xp (argsV V) :=
  (at3_keep V _ (by decide)).trans (at2_v19 V)

theorem at4_v83 (V : Valuation τ sig (Elt F)) :
    at4 V (Proc.devRef .tc main_v83)
      = Spec.u1 (argsV V) := by
  unfold at4
  rw [s3_v83, at3_v19, at3_arg4, at3_v6, at3_arg12, at3_arg13, at3_arg14]
  all_goals rfl

theorem at4_v6 (V : Valuation τ sig (Elt F)) : at4 V (Proc.devRef .tc main_v6) = Spec.xu (argsV V) :=
  (at4_keep V _ (by decide)).trans (at3_v6 V)

theorem at4_v19 (V : Valuation τ sig (Elt F)) : at4 V (Proc.devRef .tc main_v19) = Spec.xp (argsV V) :=
  (at4_keep V _ (by decide)).trans (at3_v19 V)

theorem at4_v51 (V : Valuation τ sig (Elt F)) : at4 V (Proc.devRef .tc main_v51) = Spec.p1 (argsV V) :=
  (at4_keep V _ (by decide)).trans (at3_v51 V)

theorem at5_v97 (V : Valuation τ sig (Elt F)) :
    at5 V (Proc.devRef .tc main_v97)
      = Host.scatterAdd scatter_S200000x32_S2000000x1_S2000000x32_1_0_0_1
          (broadcastInDim S200000x32 ![] bcast_S_S200000x32 (constant S_ .f32 0x00000000#32))
          (Spec.colE (Spec.dstOf (V (Proc.devRef .tc main_arg3))))
          (Host.gather gather_S500000x32_S2000000x1_S2000000x32_1_0_n_n_0_1_132 (Spec.u1 (argsV V)) (Spec.wrapEU (Spec.srcOf (V (Proc.devRef .tc main_arg3))))) := by
  unfold at5
  rw [s4a_v97, at4_arg3, at4_v83]
  all_goals rfl

theorem at5_cst_19 (V : Valuation τ sig (Elt F)) :
    at5 V (Proc.devRef .tc main_cst_19)
      = constant S_ .f32 0x3F800000#32 := by
  unfold at5
  rw [s4a_cst19]
  all_goals rfl

theorem at5_v87 (V : Valuation τ sig (Elt F)) :
    at5 V (Proc.devRef .tc main_v87)
      = Spec.dstOf (V (Proc.devRef .tc main_arg3)) := by
  unfold at5
  rw [s4a_v87, at4_arg3]
  all_goals rfl

theorem at5_v6 (V : Valuation τ sig (Elt F)) : at5 V (Proc.devRef .tc main_v6) = Spec.xu (argsV V) :=
  (at5_keep V _ (by decide)).trans (at4_v6 V)

theorem at5_v19 (V : Valuation τ sig (Elt F)) : at5 V (Proc.devRef .tc main_v19) = Spec.xp (argsV V) :=
  (at5_keep V _ (by decide)).trans (at4_v19 V)

theorem at5_v51 (V : Valuation τ sig (Elt F)) : at5 V (Proc.devRef .tc main_v51) = Spec.p1 (argsV V) :=
  (at5_keep V _ (by decide)).trans (at4_v51 V)

theorem at5_v83 (V : Valuation τ sig (Elt F)) : at5 V (Proc.devRef .tc main_v83) = Spec.u1 (argsV V) :=
  (at5_keep V _ (by decide)).trans (at4_v83 V)

theorem at6_v115 (V : Valuation τ sig (Elt F)) :
    at6 V (Proc.devRef .tc main_v115)
      = Spec.p2 (argsV V) := by
  unfold at6
  rw [s4b_v115, at5_v97, at5_v87, at5_cst_19, at5_v51, at5_arg15, at5_arg16, at5_arg17]
  all_goals rfl

theorem at6_v6 (V : Valuation τ sig (Elt F)) : at6 V (Proc.devRef .tc main_v6) = Spec.xu (argsV V) :=
  (at6_keep V _ (by decide)).trans (at5_v6 V)

theorem at6_v19 (V : Valuation τ sig (Elt F)) : at6 V (Proc.devRef .tc main_v19) = Spec.xp (argsV V) :=
  (at6_keep V _ (by decide)).trans (at5_v19 V)

theorem at6_v51 (V : Valuation τ sig (Elt F)) : at6 V (Proc.devRef .tc main_v51) = Spec.p1 (argsV V) :=
  (at6_keep V _ (by decide)).trans (at5_v51 V)

theorem at6_v83 (V : Valuation τ sig (Elt F)) : at6 V (Proc.devRef .tc main_v83) = Spec.u1 (argsV V) :=
  (at6_keep V _ (by decide)).trans (at5_v83 V)

theorem at7_v147 (V : Valuation τ sig (Elt F)) :
    at7 V (Proc.devRef .tc main_v147)
      = Spec.u2 (argsV V) := by
  unfold at7
  rw [s5_v147, at6_v51, at6_arg4, at6_v83, at6_arg18, at6_arg19, at6_arg20]
  all_goals rfl

theorem at7_v6 (V : Valuation τ sig (Elt F)) : at7 V (Proc.devRef .tc main_v6) = Spec.xu (argsV V) :=
  (at7_keep V _ (by decide)).trans (at6_v6 V)

theorem at7_v19 (V : Valuation τ sig (Elt F)) : at7 V (Proc.devRef .tc main_v19) = Spec.xp (argsV V) :=
  (at7_keep V _ (by decide)).trans (at6_v19 V)

theorem at7_v51 (V : Valuation τ sig (Elt F)) : at7 V (Proc.devRef .tc main_v51) = Spec.p1 (argsV V) :=
  (at7_keep V _ (by decide)).trans (at6_v51 V)

theorem at7_v83 (V : Valuation τ sig (Elt F)) : at7 V (Proc.devRef .tc main_v83) = Spec.u1 (argsV V) :=
  (at7_keep V _ (by decide)).trans (at6_v83 V)

theorem at7_v115 (V : Valuation τ sig (Elt F)) : at7 V (Proc.devRef .tc main_v115) = Spec.p2 (argsV V) :=
  (at7_keep V _ (by decide)).trans (at6_v115 V)

theorem at8_v148 (V : Valuation τ sig (Elt F)) :
    at8 V (Proc.devRef .tc main_v148)
      = Spec.finalUser (argsV V) := by
  unfold at8
  rw [s6_v148, at7_v6, at7_v83, at7_v147]
  all_goals rfl

theorem at8_v149 (V : Valuation τ sig (Elt F)) :
    at8 V (Proc.devRef .tc main_v149)
      = Spec.finalItem (argsV V) := by
  unfold at8
  rw [s6_v149, at7_v19, at7_v51, at7_v115]
  all_goals rfl

/-! ## The whole line -/

theorem res_v148 (V : Valuation τ sig (Elt F)) : after ops V (Proc.devRef .tc main_v148) = Spec.finalUser (argsV V) := by
  rw [after_ops_at]; exact at8_v148 V
theorem res_v149 (V : Valuation τ sig (Elt F)) : after ops V (Proc.devRef .tc main_v149) = Spec.finalItem (argsV V) := by
  rw [after_ops_at]; exact at8_v149 V
theorem res_arg0 (V : Valuation τ sig (Elt F)) : after ops V (Proc.devRef .tc main_arg0) = V (Proc.devRef .tc main_arg0) := by
  rw [after_ops_at]; exact at8_arg0 V
theorem res_arg1 (V : Valuation τ sig (Elt F)) : after ops V (Proc.devRef .tc main_arg1) = V (Proc.devRef .tc main_arg1) := by
  rw [after_ops_at]; exact at8_arg1 V
theorem res_arg2 (V : Valuation τ sig (Elt F)) : after ops V (Proc.devRef .tc main_arg2) = V (Proc.devRef .tc main_arg2) := by
  rw [after_ops_at]; exact at8_arg2 V
theorem res_arg3 (V : Valuation τ sig (Elt F)) : after ops V (Proc.devRef .tc main_arg3) = V (Proc.devRef .tc main_arg3) := by
  rw [after_ops_at]; exact at8_arg3 V
theorem res_arg4 (V : Valuation τ sig (Elt F)) : after ops V (Proc.devRef .tc main_arg4) = V (Proc.devRef .tc main_arg4) := by
  rw [after_ops_at]; exact at8_arg4 V
theorem res_arg5 (V : Valuation τ sig (Elt F)) : after ops V (Proc.devRef .tc main_arg5) = V (Proc.devRef .tc main_arg5) := by
  rw [after_ops_at]; exact at8_arg5 V
theorem res_arg6 (V : Valuation τ sig (Elt F)) : after ops V (Proc.devRef .tc main_arg6) = V (Proc.devRef .tc main_arg6) := by
  rw [after_ops_at]; exact at8_arg6 V
theorem res_arg7 (V : Valuation τ sig (Elt F)) : after ops V (Proc.devRef .tc main_arg7) = V (Proc.devRef .tc main_arg7) := by
  rw [after_ops_at]; exact at8_arg7 V
theorem res_arg8 (V : Valuation τ sig (Elt F)) : after ops V (Proc.devRef .tc main_arg8) = V (Proc.devRef .tc main_arg8) := by
  rw [after_ops_at]; exact at8_arg8 V
theorem res_arg9 (V : Valuation τ sig (Elt F)) : after ops V (Proc.devRef .tc main_arg9) = V (Proc.devRef .tc main_arg9) := by
  rw [after_ops_at]; exact at8_arg9 V
theorem res_arg10 (V : Valuation τ sig (Elt F)) : after ops V (Proc.devRef .tc main_arg10) = V (Proc.devRef .tc main_arg10) := by
  rw [after_ops_at]; exact at8_arg10 V
theorem res_arg11 (V : Valuation τ sig (Elt F)) : after ops V (Proc.devRef .tc main_arg11) = V (Proc.devRef .tc main_arg11) := by
  rw [after_ops_at]; exact at8_arg11 V
theorem res_arg12 (V : Valuation τ sig (Elt F)) : after ops V (Proc.devRef .tc main_arg12) = V (Proc.devRef .tc main_arg12) := by
  rw [after_ops_at]; exact at8_arg12 V
theorem res_arg13 (V : Valuation τ sig (Elt F)) : after ops V (Proc.devRef .tc main_arg13) = V (Proc.devRef .tc main_arg13) := by
  rw [after_ops_at]; exact at8_arg13 V
theorem res_arg14 (V : Valuation τ sig (Elt F)) : after ops V (Proc.devRef .tc main_arg14) = V (Proc.devRef .tc main_arg14) := by
  rw [after_ops_at]; exact at8_arg14 V
theorem res_arg15 (V : Valuation τ sig (Elt F)) : after ops V (Proc.devRef .tc main_arg15) = V (Proc.devRef .tc main_arg15) := by
  rw [after_ops_at]; exact at8_arg15 V
theorem res_arg16 (V : Valuation τ sig (Elt F)) : after ops V (Proc.devRef .tc main_arg16) = V (Proc.devRef .tc main_arg16) := by
  rw [after_ops_at]; exact at8_arg16 V
theorem res_arg17 (V : Valuation τ sig (Elt F)) : after ops V (Proc.devRef .tc main_arg17) = V (Proc.devRef .tc main_arg17) := by
  rw [after_ops_at]; exact at8_arg17 V
theorem res_arg18 (V : Valuation τ sig (Elt F)) : after ops V (Proc.devRef .tc main_arg18) = V (Proc.devRef .tc main_arg18) := by
  rw [after_ops_at]; exact at8_arg18 V
theorem res_arg19 (V : Valuation τ sig (Elt F)) : after ops V (Proc.devRef .tc main_arg19) = V (Proc.devRef .tc main_arg19) := by
  rw [after_ops_at]; exact at8_arg19 V
theorem res_arg20 (V : Valuation τ sig (Elt F)) : after ops V (Proc.devRef .tc main_arg20) = V (Proc.devRef .tc main_arg20) := by
  rw [after_ops_at]; exact at8_arg20 V

/-! ## The run -/

/-- The argument arrays at launch on device `c`. -/
def argsOf (m : (ℓ : Loc nD τ sig) → Buf (Elt F) ℓ) (c : Dev nD) : Spec.Args F :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18), m ((c.tc : Thread nD τ).loc main_arg19), m ((c.tc : Thread nD τ).loc main_arg20)⟩

theorem argsV_launch (m : (ℓ : Loc nD τ sig) → Buf (Elt F) ℓ) (c : Dev nD) : argsV (launchContents m c) = argsOf m c := rfl

/-- Every weakly fair execution of the reference terminates with its two results at the specification's
    results of the launch's argument arrays, and the arguments unchanged. -/
theorem run_results (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
        r.2.mem ((c.tc : Thread nD τ).loc main_v148) = Spec.finalUser (argsOf m c)
      ∧ r.2.mem ((c.tc : Thread nD τ).loc main_v149) = Spec.finalItem (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c =>
    ⟨(h c main_v148).trans ((res_v148 (launchContents m c)).trans (congrArg Spec.finalUser (argsV_launch m c))),
     (h c main_v149).trans ((res_v149 (launchContents m c)).trans (congrArg Spec.finalItem (argsV_launch m c))),
     (h c main_arg0).trans (res_arg0 (launchContents m c)),
     (h c main_arg1).trans (res_arg1 (launchContents m c)),
     (h c main_arg2).trans (res_arg2 (launchContents m c)),
     (h c main_arg3).trans (res_arg3 (launchContents m c)),
     (h c main_arg4).trans (res_arg4 (launchContents m c)),
     (h c main_arg5).trans (res_arg5 (launchContents m c)),
     (h c main_arg6).trans (res_arg6 (launchContents m c)),
     (h c main_arg7).trans (res_arg7 (launchContents m c)),
     (h c main_arg8).trans (res_arg8 (launchContents m c)),
     (h c main_arg9).trans (res_arg9 (launchContents m c)),
     (h c main_arg10).trans (res_arg10 (launchContents m c)),
     (h c main_arg11).trans (res_arg11 (launchContents m c)),
     (h c main_arg12).trans (res_arg12 (launchContents m c)),
     (h c main_arg13).trans (res_arg13 (launchContents m c)),
     (h c main_arg14).trans (res_arg14 (launchContents m c)),
     (h c main_arg15).trans (res_arg15 (launchContents m c)),
     (h c main_arg16).trans (res_arg16 (launchContents m c)),
     (h c main_arg17).trans (res_arg17 (launchContents m c)),
     (h c main_arg18).trans (res_arg18 (launchContents m c)),
     (h c main_arg19).trans (res_arg19 (launchContents m c)),
     (h c main_arg20).trans (res_arg20 (launchContents m c))⟩)
    (run_main m ρ)

end Cert.ReferenceIdeal.Hand

end
-- ==== Proof.lean ====
/-
  The five claims.

  The three programs run: the two kernel programs as a chain of host stretches and tiled stages (every stage's tile body
  meets the pipeline's obligation; no item writes an argument array), the reference as one straight line of host
  operations.  The kernel program printed at the ideal instance is the word-level one read at exact reals with nothing
  rewritten, so there is nothing to preserve.  At the ideal instance the kernel program's two results are the
  specification's finalUser / finalItem of the argument arrays: each tiled stage leaves the specification's dense stage of
  what it found (the same sums in the same grouping, a change of float format being the identity and a tile's rows being
  rows of the whole array), and the host stretches between the stages are the specification's own operations.  The
  reference's results are the same two terms, read back operation by operation.
-/
import proofs.«158431_j3324304687820_1_alg».proof.Defs
import proofs.«158431_j3324304687820_1_alg».proof.Proof.Gen.Kernel
import proofs.«158431_j3324304687820_1_alg».proof.Proof.Gen.KernelIdeal
import proofs.«158431_j3324304687820_1_alg».proof.Proof.Gen.ReferenceIdeal
import proofs.«158431_j3324304687820_1_alg».proof.Proof.Gen.Pre_finite_inputs
import proofs.«158431_j3324304687820_1_alg».proof.Proof.KRun
import proofs.«158431_j3324304687820_1_alg».proof.Proof.KIRun
import proofs.«158431_j3324304687820_1_alg».proof.Proof.KIChain
import proofs.«158431_j3324304687820_1_alg».proof.Proof.KIVal0
import proofs.«158431_j3324304687820_1_alg».proof.Proof.KIVal1
import proofs.«158431_j3324304687820_1_alg».proof.Proof.KIVal2
import proofs.«158431_j3324304687820_1_alg».proof.Proof.KIVal3
import proofs.«158431_j3324304687820_1_alg».proof.Proof.KIVal4
import proofs.«158431_j3324304687820_1_alg».proof.Proof.RefChain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Hand.run_results (F := Ideal) m ρ)

theorem preserves : Cert.preserves_Kernel_KernelIdeal := trivial

section Algebraic
open Cert.KernelIdeal Cert.KernelIdeal.Gen Cert.KernelIdeal.Hand

/-- The kernel program's two results are the specification's, of the launch memory's argument arrays. -/
theorem kernel_results (m : (ℓ : Loc Cert.KernelIdeal.nD Cert.KernelIdeal.τ Cert.KernelIdeal.sig) → Buf (Elt Ideal) ℓ) (c : Dev Cert.KernelIdeal.nD) :
    V11 m (outs m) c main_v125 = Cert.ReferenceIdeal.Spec.finalUser (Cert.KernelIdeal.Hand.argsOf m c)
      ∧ V11 m (outs m) c main_v126 = Cert.ReferenceIdeal.Spec.finalItem (Cert.KernelIdeal.Hand.argsOf m c) :=
  chain m (outs m) c
    ((out_0 m c).trans (final0 (fun c b => V1 m c b) c))
    ((out_1 m c).trans (final1 (fun c b => V3 m (outs m) c b) c))
    ((out_2 m c).trans (final2 (fun c b => V5 m (outs m) c b) c))
    ((out_3 m c).trans (final3 (fun c b => V7 m (outs m) c b) c))
    ((out_4 m c).trans (final4 (fun c b => V9 m (outs m) c b) c))

end Algebraic

theorem algebraic : Cert.algebraic_KernelIdeal_ReferenceIdeal := by
  intro m ρ m' ρ' _ hagree
  refine ⟨fun c => Cert.ReferenceIdeal.Spec.finalUser (Cert.KernelIdeal.Hand.argsOf m c), fun c => Cert.ReferenceIdeal.Spec.finalItem (Cert.KernelIdeal.Hand.argsOf m c), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v125 (by decide))).trans (kernel_results m c).1,
      (h c _ (Cert.KernelIdeal.Hand.mem_uc Cert.KernelIdeal.main_v126 (by decide))).trans (kernel_results m c).2,
      (h c _ (Cert.KernelIdeal.Hand.mem_uc Cert.KernelIdeal.main_arg0 (by decide))).trans (Cert.KernelIdeal.Gen.V11_main_arg0 m (Cert.KernelIdeal.Hand.outs m) c),
      (h c _ (Cert.KernelIdeal.Hand.mem_uc Cert.KernelIdeal.main_arg1 (by decide))).trans (Cert.KernelIdeal.Gen.V11_main_arg1 m (Cert.KernelIdeal.Hand.outs m) c),
      (h c _ (Cert.KernelIdeal.Hand.mem_uc Cert.KernelIdeal.main_arg2 (by decide))).trans (Cert.KernelIdeal.Gen.V11_main_arg2 m (Cert.KernelIdeal.Hand.outs m) c),
      (h c _ (Cert.KernelIdeal.Hand.mem_uc Cert.KernelIdeal.main_arg3 (by decide))).trans (Cert.KernelIdeal.Gen.V11_main_arg3 m (Cert.KernelIdeal.Hand.outs m) c),
      (h c _ (Cert.KernelIdeal.Hand.mem_uc Cert.KernelIdeal.main_arg4 (by decide))).trans (Cert.KernelIdeal.Gen.V11_main_arg4 m (Cert.KernelIdeal.Hand.outs m) c),
      (h c _ (Cert.KernelIdeal.Hand.mem_uc Cert.KernelIdeal.main_arg5 (by decide))).trans (Cert.KernelIdeal.Gen.V11_main_arg5 m (Cert.KernelIdeal.Hand.outs m) c),
      (h c _ (Cert.KernelIdeal.Hand.mem_uc Cert.KernelIdeal.main_arg6 (by decide))).trans (Cert.KernelIdeal.Gen.V11_main_arg6 m (Cert.KernelIdeal.Hand.outs m) c),
      (h c _ (Cert.KernelIdeal.Hand.mem_uc Cert.KernelIdeal.main_arg7 (by decide))).trans (Cert.KernelIdeal.Gen.V11_main_arg7 m (Cert.KernelIdeal.Hand.outs m) c),
      (h c _ (Cert.KernelIdeal.Hand.mem_uc Cert.KernelIdeal.main_arg8 (by decide))).trans (Cert.KernelIdeal.Gen.V11_main_arg8 m (Cert.KernelIdeal.Hand.outs m) c),
      (h c _ (Cert.KernelIdeal.Hand.mem_uc Cert.KernelIdeal.main_arg9 (by decide))).trans (Cert.KernelIdeal.Gen.V11_main_arg9 m (Cert.KernelIdeal.Hand.outs m) c),
      (h c _ (Cert.KernelIdeal.Hand.mem_uc Cert.KernelIdeal.main_arg10 (by decide))).trans (Cert.KernelIdeal.Gen.V11_main_arg10 m (Cert.KernelIdeal.Hand.outs m) c),
      (h c _ (Cert.KernelIdeal.Hand.mem_uc Cert.KernelIdeal.main_arg11 (by decide))).trans (Cert.KernelIdeal.Gen.V11_main_arg11 m (Cert.KernelIdeal.Hand.outs m) c),
      (h c _ (Cert.KernelIdeal.Hand.mem_uc Cert.KernelIdeal.main_arg12 (by decide))).trans (Cert.KernelIdeal.Gen.V11_main_arg12 m (Cert.KernelIdeal.Hand.outs m) c),
      (h c _ (Cert.KernelIdeal.Hand.mem_uc Cert.KernelIdeal.main_arg13 (by decide))).trans (Cert.KernelIdeal.Gen.V11_main_arg13 m (Cert.KernelIdeal.Hand.outs m) c),
      (h c _ (Cert.KernelIdeal.Hand.mem_uc Cert.KernelIdeal.main_arg14 (by decide))).trans (Cert.KernelIdeal.Gen.V11_main_arg14 m (Cert.KernelIdeal.Hand.outs m) c),
      (h c _ (Cert.KernelIdeal.Hand.mem_uc Cert.KernelIdeal.main_arg15 (by decide))).trans (Cert.KernelIdeal.Gen.V11_main_arg15 m (Cert.KernelIdeal.Hand.outs m) c),
      (h c _ (Cert.KernelIdeal.Hand.mem_uc Cert.KernelIdeal.main_arg16 (by decide))).trans (Cert.KernelIdeal.Gen.V11_main_arg16 m (Cert.KernelIdeal.Hand.outs m) c),
      (h c _ (Cert.KernelIdeal.Hand.mem_uc Cert.KernelIdeal.main_arg17 (by decide))).trans (Cert.KernelIdeal.Gen.V11_main_arg17 m (Cert.KernelIdeal.Hand.outs m) c),
      (h c _ (Cert.KernelIdeal.Hand.mem_uc Cert.KernelIdeal.main_arg18 (by decide))).trans (Cert.KernelIdeal.Gen.V11_main_arg18 m (Cert.KernelIdeal.Hand.outs m) c),
      (h c _ (Cert.KernelIdeal.Hand.mem_uc Cert.KernelIdeal.main_arg19 (by decide))).trans (Cert.KernelIdeal.Gen.V11_main_arg19 m (Cert.KernelIdeal.Hand.outs m) c),
      (h c _ (Cert.KernelIdeal.Hand.mem_uc Cert.KernelIdeal.main_arg20 (by decide))).trans (Cert.KernelIdeal.Gen.V11_main_arg20 m (Cert.KernelIdeal.Hand.outs m) c)⟩
  · refine (θ_run Cert.ReferenceIdeal.defs _ _).mono (fun r h c => ?_) (Cert.ReferenceIdeal.Hand.run_results (F := Ideal) m' ρ')
    have e : Cert.ReferenceIdeal.Hand.argsOf m' c = Cert.KernelIdeal.Hand.argsOf m c := by
      obtain ⟨h0, h1, h2, h3, h4, h5, h6, h7, h8, h9, h10, h11, h12, h13, h14, h15, h16, h17, h18, h19, h20⟩ := hagree c
      unfold Cert.ReferenceIdeal.Hand.argsOf Cert.KernelIdeal.Hand.argsOf
      rw [h0, h1, h2, h3, h4, h5, h6, h7, h8, h9, h10, h11, h12, h13, h14, h15, h16, h17, h18, h19, h20]
    have hc := h c
    rw [e] at hc
    exact hc

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
